-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v35)) (v4 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v35) = v3 c
          ∧ r.2.mem ((c.tc : Thread Cert.KernelIdeal.nD Cert.KernelIdeal.τ).loc Cert.KernelIdeal.main_v38) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v89) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S45056x10 : Shape := ⟨2, ![45056, 10]⟩
abbrev S4096x4096 : Shape := ⟨2, ![4096, 4096]⟩
abbrev S100000x256 : Shape := ⟨2, ![100000, 256]⟩
abbrev S256x256 : Shape := ⟨2, ![256, 256]⟩
abbrev S256x128 : Shape := ⟨2, ![256, 128]⟩
abbrev S128x256 : Shape := ⟨2, ![128, 256]⟩
abbrev S256 : Shape := ⟨1, ![256]⟩
abbrev S256x1 : Shape := ⟨2, ![256, 1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_

variable [Facts]

def fn_part3 {F : FTy → Type} [FloatOps F] (main_arg13 : FVec F S256x1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1 .f32 := Host.absf main_arg13
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  main_v58

def fn_part2 {F : FTy → Type} [FloatOps F] (main_arg9 : FVec F S256x256 .f32) (main_arg10 : FVec F S256x256 .f32) (main_arg11 : FVec F S256x256 .f32) (main_arg12 : FVec F S256 .f32) (main_arg13 : FVec F S256x1 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_v48 main_v49 main_v50

def fn_part1 {F : FTy → Type} [FloatOps F] (main_arg6 : FVec F S256x128 .f32) (main_arg7 : FVec F S128x256 .f32) (main_arg8 : FVec F S256x256 .f32) (main_arg9 : FVec F S256x256 .f32) (main_arg10 : FVec F S256x256 .f32) (main_arg11 : FVec F S256x256 .f32) (main_arg12 : FVec F S256 .f32) (main_arg13 : FVec F S256x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : IVec S4096 32) (main_arg1 : IVec S45056x10 32) (main_arg2 : FVec F S4096x4096 .f32) (main_arg3 : FVec F S100000x256 .f32) (main_arg4 : FVec F S256x256 .f32) (main_arg5 : FVec F S256x128 .f32) (main_arg6 : FVec F S256x128 .f32) (main_arg7 : FVec F S128x256 .f32) (main_arg8 : FVec F S256x256 .f32) (main_arg9 : FVec F S256x256 .f32) (main_arg10 : FVec F S256x256 .f32) (main_arg11 : FVec F S256x256 .f32) (main_arg12 : FVec F S256 .f32) (main_arg13 : FVec F S256x1 .f32) : IVec S_ 1 :=
  let main_v0 : FVec F S4096x4096 .f32 := Host.absf main_arg2
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S100000x256 .f32 := Host.absf main_arg3
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_arg8 main_arg9 main_arg10 main_arg11 main_arg12 main_arg13 main_v13 main_v16
-- ==== Kernel.lean ====
abbrev S4096 : Shape := ⟨1, ![4096]⟩
abbrev S45056x10 : Shape := ⟨2, ![45056, 10]⟩
abbrev S4096x4096 : Shape := ⟨2, ![4096, 4096]⟩
abbrev S100000x256 : Shape := ⟨2, ![100000, 256]⟩
abbrev S256x256 : Shape := ⟨2, ![256, 256]⟩
abbrev S256x128 : Shape := ⟨2, ![256, 128]⟩
abbrev S128x256 : Shape := ⟨2, ![128, 256]⟩
abbrev S256 : Shape := ⟨1, ![256]⟩
abbrev S256x1 : Shape := ⟨2, ![256, 1]⟩
abbrev S40960x10 : Shape := ⟨2, ![40960, 10]⟩
abbrev S_ : Shape := ⟨0, ![]⟩
abbrev S40960x10x1 : Shape := ⟨3, ![40960, 10, 1]⟩
abbrev S40960x10x256 : Shape := ⟨3, ![40960, 10, 256]⟩
abbrev S40960x256 : Shape := ⟨2, ![40960, 256]⟩
abbrev S2048x256 : Shape := ⟨2, ![2048, 256]⟩
abbrev S4096x10x256 : Shape := ⟨3, ![4096, 10, 256]⟩
abbrev S4096x256 : Shape := ⟨2, ![4096, 256]⟩
abbrev S4096x128 : Shape := ⟨2, ![4096, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S1024x1024 : Shape := ⟨2, ![1024, 1024]⟩
abbrev S4096x1 : Shape := ⟨2, ![4096, 1]⟩
abbrev S1x256 : Shape := ⟨2, ![1, 256]⟩
abbrev S8192x1 : Shape := ⟨2, ![8192, 1]⟩

abbrev nBuf : Space → Nat
  | .hbm => 66
  | .vmem => 41
  | .smem => 0
  | _ => 0

abbrev bufTy : (tb : Table) → Fin (tcTables nBuf tb) → BufTy
  | .hbm, ⟨0, _⟩ => ⟨S4096, .i32⟩
  | .hbm, ⟨1, _⟩ => ⟨S45056x10, .i32⟩
  | .hbm, ⟨2, _⟩ => ⟨S4096x4096, .f32⟩
  | .hbm, ⟨3, _⟩ => ⟨S100000x256, .f32⟩
  | .hbm, ⟨4, _⟩ => ⟨S256x256, .f32⟩
  | .hbm, ⟨5, _⟩ => ⟨S256x128, .f32⟩
  | .hbm, ⟨6, _⟩ => ⟨S256x128, .f32⟩
  | .hbm, ⟨7, _⟩ => ⟨S128x256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x1, .f32⟩
  | .hbm, ⟨14, _⟩ => ⟨S40960x10, .i32⟩
  | .hbm, ⟨15, _⟩ => ⟨S_, .i32⟩
  | .hbm, ⟨16, _⟩ => ⟨S40960x10, .i32⟩
  | .hbm, ⟨17, _⟩ => ⟨S40960x10, .i1⟩
  | .hbm, ⟨18, _⟩ => ⟨S_, .i32⟩
  | .hbm, ⟨19, _⟩ => ⟨S40960x10, .i32⟩
  | .hbm, ⟨20, _⟩ => ⟨S40960x10, .i32⟩
  | .hbm, ⟨21, _⟩ => ⟨S40960x10, .i32⟩
  | .hbm, ⟨22, _⟩ => ⟨S40960x10x1, .i32⟩
  | .hbm, ⟨23, _⟩ => ⟨S40960x10x256, .f32⟩
  | .hbm, ⟨24, _⟩ => ⟨S_, .f32⟩
  | .hbm, ⟨25, _⟩ => ⟨S40960x256, .f32⟩
  | .hbm, ⟨26, _⟩ => ⟨S_, .f32⟩
  | .hbm, ⟨27, _⟩ => ⟨S40960x256, .f32⟩
  | .hbm, ⟨28, _⟩ => ⟨S40960x256, .f32⟩
  | .hbm, ⟨29, _⟩ => ⟨S40960x256, .f32⟩
  | .hbm, ⟨30, _⟩ => ⟨S4096x10x256, .f32⟩
  | .hbm, ⟨31, _⟩ => ⟨S_, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .f32⟩
  | .hbm, ⟨36, _⟩ => ⟨S4096x128, .f32⟩
  | .hbm, ⟨37, _⟩ => ⟨S4096x128, .f32⟩
  | .hbm, ⟨38, _⟩ => ⟨S4096x256, .f32⟩
  | .hbm, ⟨39, _⟩ => ⟨S4096x256, .f32⟩
  | .hbm, ⟨40, _⟩ => ⟨S4096x4096, .f32⟩
  | .hbm, ⟨41, _⟩ => ⟨S_, .i32⟩
  | .hbm, ⟨42, _⟩ => ⟨S4096, .i32⟩
  | .hbm, ⟨43, _⟩ => ⟨S4096, .i1⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S1x256, .f32⟩
  | .hbm, ⟨54, _⟩ => ⟨S4096x256, .f32⟩
  | .hbm, ⟨55, _⟩ => ⟨S4096x256, .f32⟩
  | .hbm, ⟨56, _⟩ => ⟨S4096x1, .f32⟩
  | .hbm, ⟨57, _⟩ => ⟨S4096x256, .f32⟩
  | .hbm, ⟨58, _⟩ => ⟨S4096x256, .f32⟩
  | .hbm, ⟨59, _⟩ => ⟨S4096x1, .f32⟩
  | .hbm, ⟨60, _⟩ => ⟨S8192x1, .f32⟩
  | .hbm, ⟨61, _⟩ => ⟨S_, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S8192x1, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .f32⟩
  | .local _ .vmem, ⟨4, _⟩ => ⟨S2048x256, .f32⟩
  | .local _ .vmem, ⟨5, _⟩ => ⟨S512x256, .f32⟩
  | .local _ .vmem, ⟨6, _⟩ => ⟨S512x256, .f32⟩
  | .local _ .vmem, ⟨7, _⟩ => ⟨S256x128, .f32⟩
  | .local _ .vmem, ⟨8, _⟩ => ⟨S256x128, .f32⟩
  | .local _ .vmem, ⟨9, _⟩ => ⟨S128x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | .local _ .vmem, ⟨34, _⟩ => ⟨S1024x1024, .f32⟩
  | .local _ .vmem, ⟨35, _⟩ => ⟨S1024x1024, .f32⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | .local _ .vmem, ⟨39, _⟩ => ⟨S1024x256, .f32⟩
  | .local _ .vmem, ⟨40, _⟩ => ⟨S1024x256, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_v16_2 : Ref sig .tc := ⟨.hbm, 38, rfl⟩
abbrev main_v16_3 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_c_5 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_6 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_scratch0 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_scratch0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc1_sem10_0 : DmaSem sig := 19
abbrev cc1_sem10_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1024x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  slices_S45056x10_S40960x10_0_0 : S45056x10.Slices ![0, 0] S40960x10
  bcast_S_S40960x10 : S_.BroadcastsInDim S40960x10 (![] : Fin 0 → Fin S40960x10.rank)
  bcast_S40960x10_S40960x10x1_0_1 : S40960x10.BroadcastsInDim S40960x10x1 (![0, 1] : Fin 2 → Fin S40960x10x1.rank)
  reducesTo_S40960x10x256_S40960x256_d1 : S40960x10x256.ReducesTo [1] S40960x256
  h_S_ : 0 < S_.numel
  bcast_S_S40960x256 : S_.BroadcastsInDim S40960x256 (![] : Fin 0 → Fin S40960x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S40960x256_S4096x10x256 : S40960x256.ShapeCasts S4096x10x256
  reducesTo_S4096x10x256_S4096x256_d1 : S4096x10x256.ReducesTo [1] S4096x256
  bcast_S_S4096x256 : S_.BroadcastsInDim S4096x256 (![] : Fin 0 → Fin S4096x256.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x128_S256x128_0_0 : ∀ a, (![0, 0] : Fin 2 → Nat) a + S256x128.size a ≤ S256x128.size a
  h_S256x128 : 0 < S256x128.numel
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  broadcasts_S512x1_S512x128 : S512x1.Broadcasts S512x128
  inb_S128x256_S128x256_0_0 : ∀ a, (![0, 0] : Fin 2 → Nat) a + S128x256.size a ≤ S128x256.size a
  h_S128x256 : 0 < S128x256.numel
  reduces_S512x256_S512 : S512x256.Reduces [1] S512
  broadcasts_S512x1_S512x256 : S512x1.Broadcasts S512x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bcast_S_S4096 : S_.BroadcastsInDim S4096 (![] : Fin 0 → Fin S4096.rank)
  bcast_S4096_S4096x1_0 : S4096.BroadcastsInDim S4096x1 (![0] : Fin 1 → Fin S4096x1.rank)
  shapeCasts_S1024x1024_S1024x1024 : S1024x1024.ShapeCasts S1024x1024
  shapeCasts_S256_S1x256 : S256.ShapeCasts S1x256
  bcast_S1x256_S4096x256_0_1 : S1x256.BroadcastsInDim S4096x256 (![0, 1] : Fin 2 → Fin S4096x256.rank)
  concatenates_S4096x1_S4096x1_S8192x1_d0 : Shape.Concatenates [S4096x1, S4096x1] S8192x1 0
  bcast_S_S4096x1 : S_.BroadcastsInDim S4096x1 (![] : Fin 0 → Fin S4096x1.rank)
  gather_S100000x256_S40960x10x1_S40960x10x256_2_0_n_n_0_2_1256_wf : GatherDims.WF S100000x256 S40960x10x1 S40960x10x256 [2] [0] [] [0] [] 2 ![1, 256]
  dot_S2048x256_S256x256_S2048x256_1_0_0_1_n_n_wf : DotDims.WF S2048x256 S256x256 S2048x256 [1] [0] [0] [1] [] []
  dot_S512x256_S256x128_S512x128_1_0_0_1_n_n_wf : DotDims.WF S512x256 S256x128 S512x128 [1] [0] [0] [1] [] []
  dot_S512x128_S128x256_S512x256_1_0_0_1_n_n_wf : DotDims.WF S512x128 S128x256 S512x256 [1] [0] [0] [1] [] []
  dot_S512x256_S256x256_S512x256_1_0_0_1_n_n_wf : DotDims.WF S512x256 S256x256 S512x256 [1] [0] [0] [1] [] []
  dot_S1024x256_S1024x256_S1024x1024_1_1_0_0_n_n_wf : DotDims.WF S1024x256 S1024x256 S1024x1024 [1] [1] [0] [0] [] []
  gather_S100000x256_S4096x1_S4096x256_1_0_n_n_0_1_1256_wf : GatherDims.WF S100000x256 S4096x1 S4096x256 [1] [0] [] [0] [] 1 ![1, 256]
  dot_S4096x256_S256x256_S4096x256_1_0_0_1_n_n_wf : DotDims.WF S4096x256 S256x256 S4096x256 [1] [0] [0] [1] [] []
  dot_S1024x1024_S1024x256_S1024x256_1_0_0_1_n_n_wf : DotDims.WF S1024x1024 S1024x256 S1024x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S40960x256.size a
  hwx0_0 : ∀ i : grid0.Coords, EltTy.bits .f32 = 32 ∨ (Rect.block (s := S40960x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S40960x256.size a
  hwx0_2 : ∀ i : grid0.Coords, EltTy.bits .f32 = 32 ∨ (Rect.block (s := S40960x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S4096x256.size a
  hwx1_0 : ∀ i : grid1.Coords, EltTy.bits .f32 = 32 ∨ (Rect.block (s := S4096x256) S512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S4096x128.size a
  hwx1_7 : ∀ i : grid1.Coords, EltTy.bits .f32 = 32 ∨ (Rect.block (s := S4096x128) S512x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x128.size a ≤ S4096x128.size a
  hwx1_8 : ∀ i : grid1.Coords, EltTy.bits .f32 = 32 ∨ (Rect.block (s := S4096x128) S512x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x256.size a ≤ S4096x256.size a
  hwx1_9 : ∀ i : grid1.Coords, EltTy.bits .f32 = 32 ∨ (Rect.block (s := S4096x256) S512x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x256.size a ≤ S4096x256.size a
  hwx1_10 : ∀ i : grid1.Coords, EltTy.bits .f32 = 32 ∨ (Rect.block (s := S4096x256) S512x256.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .f32 = 32 ∨ (Rect.block (s := S4096x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .f32 = 32 ∨ (Rect.block (s := S4096x4096) S1024x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .f32 = 32 ∨ (Rect.block (s := S4096x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x256.size a ≤ S4096x256.size a
  hwx3_1 : ∀ i : grid3.Coords, EltTy.bits .f32 = 32 ∨ (Rect.block (s := S4096x256) S1024x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S4096x256.size a
  hwx3_2 : ∀ i : grid3.Coords, EltTy.bits .f32 = 32 ∨ (Rect.block (s := S4096x256) S1024x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .f32 = 32 ∨ (Rect.block (s := S4096x4096) S1024x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S4096x256.size a
  hwx4_1 : ∀ i : grid4.Coords, EltTy.bits .f32 = 32 ∨ (Rect.block (s := S4096x256) S1024x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S4096x256.size a
  hwx4_2 : ∀ i : grid4.Coords, EltTy.bits .f32 = 32 ∨ (Rect.block (s := S4096x256) S1024x256.size (cc4_transform_2 i) (hinb4_2 i)).WholeWords (EltTy.packing .f32)

variable [Facts₀]

def gather_S100000x256_S40960x10x1_S40960x10x256_2_0_n_n_0_2_1256 : GatherDims S100000x256 S40960x10x1 S40960x10x256 where
  offsetDims := [2]
  collapsedSliceDims := [0]
  operandBatchingDims := []
  startIndicesBatchingDims := []
  startIndexMap := [0]
  indexVectorDim := 2
  sliceSizes := ![1, 256]
  wf := gather_S100000x256_S40960x10x1_S40960x10x256_2_0_n_n_0_2_1256_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v10) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16_0) S512x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v16_1) S512x128.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v16_2) S512x256.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v16_3) S512x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v16_2) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16_3) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg2) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S1024x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v17) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v27) S1024x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S4096 : Shape := ⟨1, ![4096]⟩
abbrev S45056x10 : Shape := ⟨2, ![45056, 10]⟩
abbrev S4096x4096 : Shape := ⟨2, ![4096, 4096]⟩
abbrev S100000x256 : Shape := ⟨2, ![100000, 256]⟩
abbrev S256x256 : Shape := ⟨2, ![256, 256]⟩
abbrev S256x128 : Shape := ⟨2, ![256, 128]⟩
abbrev S128x256 : Shape := ⟨2, ![128, 256]⟩
abbrev S256 : Shape := ⟨1, ![256]⟩
abbrev S256x1 : Shape := ⟨2, ![256, 1]⟩
abbrev S_ : Shape := ⟨0, ![]⟩
abbrev S45056x10x1 : Shape := ⟨3, ![45056, 10, 1]⟩
abbrev S45056x10x256 : Shape := ⟨3, ![45056, 10, 256]⟩
abbrev S45056x256 : Shape := ⟨2, ![45056, 256]⟩
abbrev S40960x256 : Shape := ⟨2, ![40960, 256]⟩
abbrev S4096x10x256 : Shape := ⟨3, ![4096, 10, 256]⟩
abbrev S4096x256 : Shape := ⟨2, ![4096, 256]⟩
abbrev S4096x128 : Shape := ⟨2, ![4096, 128]⟩
abbrev S4096x1 : Shape := ⟨2, ![4096, 1]⟩
abbrev S256x4096 : Shape := ⟨2, ![256, 4096]⟩
abbrev S1x256 : Shape := ⟨2, ![1, 256]⟩
abbrev S8192x1 : Shape := ⟨2, ![8192, 1]⟩

abbrev nBuf : Space → Nat
  | .hbm => 130
  | .vmem => 0
  | .smem => 0
  | _ => 0

abbrev hbmTy0_0 (i : Nat) : BufTy := match i % 128 with
  | 0 => ⟨S4096, .i32⟩
  | 1 => ⟨S45056x10, .i32⟩
  | 2 => ⟨S4096x4096, .f32⟩
  | 3 => ⟨S100000x256, .f32⟩
  | 4 => ⟨S256x256, .f32⟩
  | 5 => ⟨S256x128, .f32⟩
  | 6 => ⟨S256x128, .f32⟩
  | 7 => ⟨S128x256, .f32⟩
  | 8 => ⟨S256x256, .f32⟩
  | 9 => ⟨S256x256, .f32⟩
  | 10 => ⟨S256x256, .f32⟩
  | 11 => ⟨S256x256, .f32⟩
  | 12 => ⟨S256, .f32⟩
  | 13 => ⟨S256x1, .f32⟩
  | 14 => ⟨S_, .i32⟩
  | 15 => ⟨S45056x10, .i32⟩
  | 16 => ⟨S45056x10, .i1⟩
  | 17 => ⟨S_, .i32⟩
  | 18 => ⟨S45056x10, .i32⟩
  | 19 => ⟨S45056x10, .i32⟩
  | 20 => ⟨S45056x10, .i32⟩
  | 21 => ⟨S45056x10x1, .i32⟩
  | 22 => ⟨S45056x10x256, .f32⟩
  | 23 => ⟨S_, .f32⟩
  | 24 => ⟨S45056x256, .f32⟩
  | 25 => ⟨S45056x256, .f32⟩
  | 26 => ⟨S_, .f32⟩
  | 27 => ⟨S45056x256, .f32⟩
  | 28 => ⟨S45056x256, .f32⟩
  | 29 => ⟨S_, .f32⟩
  | 30 => ⟨S45056x256, .f32⟩
  | 31 => ⟨S45056x256, .f32⟩
  | 32 => ⟨S40960x256, .f32⟩
  | 33 => ⟨S4096x10x256, .f32⟩
  | 34 => ⟨S_, .f32⟩
  | 35 => ⟨S4096x256, .f32⟩
  | 36 => ⟨S_, .f32⟩
  | 37 => ⟨S4096x256, .f32⟩
  | 38 => ⟨S4096x256, .f32⟩
  | 39 => ⟨S4096x128, .f32⟩
  | 40 => ⟨S4096x128, .f32⟩
  | 41 => ⟨S4096x128, .f32⟩
  | 42 => ⟨S_, .f32⟩
  | 43 => ⟨S4096, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x128, .f32⟩
  | 50 => ⟨S4096x128, .f32⟩
  | 51 => ⟨S4096x128, .f32⟩
  | 52 => ⟨S4096x256, .f32⟩
  | 53 => ⟨S4096x256, .f32⟩
  | 54 => ⟨S_, .f32⟩
  | 55 => ⟨S4096, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x256, .f32⟩
  | 62 => ⟨S4096x256, .f32⟩
  | 63 => ⟨S_, .f32⟩
  | 64 => ⟨S4096x256, .f32⟩
  | 65 => ⟨S4096x256, .f32⟩
  | 66 => ⟨S4096x256, .f32⟩
  | 67 => ⟨S4096x256, .f32⟩
  | 68 => ⟨S_, .f32⟩
  | 69 => ⟨S4096, .f32⟩
  | 70 => ⟨S4096x1, .f32⟩
  | 71 => ⟨S4096x1, .f32⟩
  | 72 => ⟨S_, .f32⟩
  | 73 => ⟨S4096x1, .f32⟩
  | 74 => ⟨S4096x1, .f32⟩
  | 75 => ⟨S4096x256, .f32⟩
  | 76 => ⟨S4096x256, .f32⟩
  | 77 => ⟨S_, .f32⟩
  | 78 => ⟨S4096x256, .f32⟩
  | 79 => ⟨S4096x256, .f32⟩
  | 80 => ⟨S4096x256, .f32⟩
  | 81 => ⟨S4096x256, .f32⟩
  | 82 => ⟨S4096x256, .f32⟩
  | 83 => ⟨S_, .f32⟩
  | 84 => ⟨S4096, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x256, .f32⟩
  | 91 => ⟨S4096x256, .f32⟩
  | 92 => ⟨S4096x256, .f32⟩
  | 93 => ⟨S_, .f32⟩
  | 94 => ⟨S4096, .f32⟩
  | 95 => ⟨S4096x1, .f32⟩
  | 96 => ⟨S4096x1, .f32⟩
  | 97 => ⟨S_, .f32⟩
  | 98 => ⟨S4096x1, .f32⟩
  | 99 => ⟨S4096x1, .f32⟩
  | 100 => ⟨S4096x256, .f32⟩
  | 101 => ⟨S4096x256, .f32⟩
  | 102 => ⟨S256x4096, .f32⟩
  | 103 => ⟨S4096x4096, .f32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S4096x256, .f32⟩
  | 113 => ⟨S4096x256, .f32⟩
  | 114 => ⟨S4096x256, .f32⟩
  | 115 => ⟨S1x256, .f32⟩
  | 116 => ⟨S4096x256, .f32⟩
  | 117 => ⟨S4096x256, .f32⟩
  | 118 => ⟨S4096x1, .f32⟩
  | 119 => ⟨S4096x256, .f32⟩
  | 120 => ⟨S1x256, .f32⟩
  | 121 => ⟨S4096x256, .f32⟩
  | 122 => ⟨S4096x256, .f32⟩
  | 123 => ⟨S4096x1, .f32⟩
  | 124 => ⟨S8192x1, .f32⟩
  | 125 => ⟨S_, .f32⟩
  | 126 => ⟨S4096x1, .f32⟩
  | 127 => ⟨S_, .f32⟩
  | _ => ⟨S4096, .i32⟩

abbrev hbmTy0_1 (i : Nat) : BufTy := match i % 128 with
  | 0 => ⟨S4096x1, .f32⟩
  | 1 => ⟨S8192x1, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_call0_cst : Ref sig .tc := ⟨.hbm, 29, rfl⟩
abbrev main_call0_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_6 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_call1_cst : Ref sig .tc := ⟨.hbm, 63, rfl⟩
abbrev main_call1_v0 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call2_cst : Ref sig .tc := ⟨.hbm, 77, rfl⟩
abbrev main_call2_v0 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_10 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_14 : Ref sig .tc := ⟨.hbm, 104, rfl⟩
abbrev main_v68 : Ref sig .tc := ⟨.hbm, 105, rfl⟩
abbrev main_v69 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_16 : Ref sig .tc := ⟨.hbm, 125, rfl⟩
abbrev main_v87 : Ref sig .tc := ⟨.hbm, 126, rfl⟩
abbrev main_cst_17 : Ref sig .tc := ⟨.hbm, 127, rfl⟩
abbrev main_v88 : Ref sig .tc := ⟨.hbm, 128, rfl⟩
abbrev main_v89 : Ref sig .tc := ⟨.hbm, 129, rfl⟩

abbrev nD : Nat := 1
abbrev τ : Topo := Topo.v7x

variable {F : FTy → Type} [FloatOps F]

class Facts₀ : Prop where
  bcast_S_S45056x10 : S_.BroadcastsInDim S45056x10 (![] : Fin 0 → Fin S45056x10.rank)
  bcast_S45056x10_S45056x10x1_0_1 : S45056x10.BroadcastsInDim S45056x10x1 (![0, 1] : Fin 2 → Fin S45056x10x1.rank)
  reducesTo_S45056x10x256_S45056x256_d1 : S45056x10x256.ReducesTo [1] S45056x256
  h_S_ : 0 < S_.numel
  bcast_S_S45056x256 : S_.BroadcastsInDim S45056x256 (![] : Fin 0 → Fin S45056x256.rank)
  slices_S45056x256_S40960x256_0_0 : S45056x256.Slices ![0, 0] S40960x256
  shapeCasts_S40960x256_S4096x10x256 : S40960x256.ShapeCasts S4096x10x256
  reducesTo_S4096x10x256_S4096x256_d1 : S4096x10x256.ReducesTo [1] S4096x256
  bcast_S_S4096x256 : S_.BroadcastsInDim S4096x256 (![] : Fin 0 → Fin S4096x256.rank)
  reducesTo_S4096x128_S4096_d1 : S4096x128.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  reducesTo_S4096x256_S4096_d1 : S4096x256.ReducesTo [1] S4096
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096 : S_.BroadcastsInDim S4096 (![] : Fin 0 → Fin S4096.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  concatenates_S4096x1_S4096x1_S8192x1_d0 : Shape.Concatenates [S4096x1, S4096x1] S8192x1 0
  gather_S100000x256_S45056x10x1_S45056x10x256_2_0_n_n_0_2_1256_wf : GatherDims.WF S100000x256 S45056x10x1 S45056x10x256 [2] [0] [] [0] [] 2 ![1, 256]
  dot_S45056x256_S256x256_S45056x256_1_0_0_1_n_n_wf : DotDims.WF S45056x256 S256x256 S45056x256 [1] [0] [0] [1] [] []
  dot_S4096x256_S256x128_S4096x128_1_0_0_1_n_n_wf : DotDims.WF S4096x256 S256x128 S4096x128 [1] [0] [0] [1] [] []
  dot_S4096x128_S128x256_S4096x256_1_0_0_1_n_n_wf : DotDims.WF S4096x128 S128x256 S4096x256 [1] [0] [0] [1] [] []
  dot_S4096x256_S256x256_S4096x256_1_0_0_1_n_n_wf : DotDims.WF S4096x256 S256x256 S4096x256 [1] [0] [0] [1] [] []
  dot_S4096x256_S256x4096_S4096x4096_1_0_0_1_n_n_wf : DotDims.WF S4096x256 S256x4096 S4096x4096 [1] [0] [0] [1] [] []
  gather_S100000x256_S4096x1_S4096x256_1_0_n_n_0_1_1256_wf : GatherDims.WF S100000x256 S4096x1 S4096x256 [1] [0] [] [0] [] 1 ![1, 256]
  dot_S4096x4096_S4096x256_S4096x256_1_0_0_1_n_n_wf : DotDims.WF S4096x4096 S4096x256 S4096x256 [1] [0] [0] [1] [] []
  dot_S4096x256_S256x1_S4096x1_1_0_0_1_n_n_wf : DotDims.WF S4096x256 S256x1 S4096x1 [1] [0] [0] [1] [] []

variable [Facts₀]

def gather_S100000x256_S45056x10x1_S45056x10x256_2_0_n_n_0_2_1256 : GatherDims S100000x256 S45056x10x1 S45056x10x256 where
  offsetDims := [2]
  collapsedSliceDims := [0]
  operandBatchingDims := []
  startIndicesBatchingDims := []
  startIndexMap := [0]
  indexVectorDim := 2
  sliceSizes := ![1, 256]
  wf := gather_S100000x256_S45056x10x1_S45056x10x256_2_0_n_n_0_2_1256_wf
def dot_S45056x256_S256x256_S45056x256_1_0_0_1_n_n : DotDims S45056x256 S256x256 S45056x256 where
  lhsContracting := [1]
  rhsContracting := [0]
  lhsNonContracting := [0]
  rhsNonContracting := [1]
  lhsBatch := []
  rhsBatch := []
  wf := dot_S45056x256_S256x256_S45056x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def gather_S100000x256_S4096x1_S4096x256_1_0_n_n_0_1_1256 : GatherDims S100000x256 S4096x1 S4096x256 where
  offsetDims := [1]
  collapsedSliceDims := [0]
  operandBatchingDims := []
  startIndicesBatchingDims := []
  startIndexMap := [0]
  indexVectorDim := 1
  sliceSizes := ![1, 256]
  wf := gather_S100000x256_S4096x1_S4096x256_1_0_n_n_0_1_1256_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

class Facts : Prop extends Facts₀ where

variable [Facts]
-- ==== Proof.K.Run.lean ====
/-
  The whole run of the program's five kernel regions and four host stretches, for ANY proof data of the five
  pipelines that (i) reads its arrays off the buffer contents the region finds, (ii) holds every array at the
  full share and owes nothing, (iii) has an invariant that starts from, and ends in, "the scoped buffers no
  window stages, at some contents, and the generator register", and (iv) meets the body obligation.
  The buffer contents at the ten segment boundaries are a fold from the launch memory: a host stretch applies
  its operations, a region replaces its arrays by what its write-backs leave. The run ends with EVERY unscoped
  buffer at the last boundary's contents; the frame claim and each result's value are read off that fold.
-/
import proofs.«106620_j12240656794038_1_alg».proof.Proof.Gen.Kernel.Launch
import proofs.«106620_j12240656794038_1_alg».proof.Proof.Gen.Kernel.Skeleton
import proofs.«106620_j12240656794038_1_alg».proof.Proof.Gen.Kernel.Points
import proofs.«106620_j12240656794038_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCores' buffer contents, per core and reference. -/
abbrev VT (F : FTy → Type) [FloatOps F] : Type := (c : Dev nD) → (b : Ref sig .tc) → Buf (Elt F) ((c : Thread nD τ).loc b)

variable (m : (ℓ : Loc nD τ sig) → Buf (Elt F) ℓ) (ρ : Dev nD → PrngReg)
variable (D0 : VT F → (c : Dev nD) → Dat τ (Elt F) Unit ℕ (UR sig nD τ) ℕ cfg0 c)
variable (D1 : VT F → (c : Dev nD) → Dat τ (Elt F) Unit ℕ (UR sig nD τ) ℕ cfg1 c)
variable (D2 : VT F → (c : Dev nD) → Dat τ (Elt F) Unit ℕ (UR sig nD τ) ℕ cfg2 c)
variable (D3 : VT F → (c : Dev nD) → Dat τ (Elt F) Unit ℕ (UR sig nD τ) ℕ cfg3 c)
variable (D4 : VT F → (c : Dev nD) → Dat τ (Elt F) Unit ℕ (UR sig nD τ) ℕ cfg4 c)

/-! ## The buffer contents at the segment boundaries -/

/-- At launch. -/
abbrev B0 : Dev nD → Valuation τ sig (Elt F) := fun c b => m (c, b)
/-- After the first host stretch: region 0's entry. -/
abbrev B1 : Dev nD → Valuation τ sig (Elt F) := fun c => StableHlo.after hostOps0 (B0 m c)
abbrev T1 : VT F := fun c b => B1 m c b
/-- After region 0. -/
def B2 (c : Dev nD) : Valuation τ sig (Elt F) :=
  Pipeline.withArrays spec0 c (B1 m c) fun w => (D0 (T1 m) c).arrAt w cfg0.N
/-- After the second host stretch: region 1's entry. -/
abbrev B3 : Dev nD → Valuation τ sig (Elt F) := fun c => StableHlo.after hostOps1 (B2 m D0 c)
abbrev T3 : VT F := fun c b => B3 m D0 c b
/-- After region 1: region 2's entry. -/
def B4 (c : Dev nD) : Valuation τ sig (Elt F) :=
  Pipeline.withArrays spec1 c (B3 m D0 c) fun w => (D1 (T3 m D0) c).arrAt w cfg1.N
abbrev T4 : VT F := fun c b => B4 m D0 D1 c b
/-- After region 2. -/
def B5 (c : Dev nD) : Valuation τ sig (Elt F) :=
  Pipeline.withArrays spec2 c (B4 m D0 D1 c) fun w => (D2 (T4 m D0 D1) c).arrAt w cfg2.N
/-- After the third host stretch: region 3's entry. -/
abbrev B6 : Dev nD → Valuation τ sig (Elt F) := fun c => StableHlo.after hostOps3 (B5 m D0 D1 D2 c)
abbrev T6 : VT F := fun c b => B6 m D0 D1 D2 c b
/-- After region 3: region 4's entry. -/
def B7 (c : Dev nD) : Valuation τ sig (Elt F) :=
  Pipeline.withArrays spec3 c (B6 m D0 D1 D2 c) fun w => (D3 (T6 m D0 D1 D2) c).arrAt w cfg3.N
abbrev T7 : VT F := fun c b => B7 m D0 D1 D2 D3 c b
/-- After region 4. -/
def B8 (c : Dev nD) : Valuation τ sig (Elt F) :=
  Pipeline.withArrays spec4 c (B7 m D0 D1 D2 D3 c) fun w => (D4 (T7 m D0 D1 D2 D3) c).arrAt w cfg4.N
/-- After the last host stretch: the end. -/
abbrev B9 : Dev nD → Valuation τ sig (Elt F) := fun c => StableHlo.after hostOps5 (B8 m D0 D1 D2 D3 D4 c)

theorem B2_arr (c : Dev nD) (w : Fin cfg0.W) :
    B2 m D0 c (Proc.devRef .tc (Pipeline.arrRef spec0 w)) = (D0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m D0 c (Proc.devRef .tc b) = B1 m c (Proc.devRef .tc b) := by
  unfold B2; exact Pipeline.withArrays_of_ne spec0 c _ _ b hb
theorem B4_arr (c : Dev nD) (w : Fin cfg1.W) :
    B4 m D0 D1 c (Proc.devRef .tc (Pipeline.arrRef spec1 w)) = (D1 (T3 m D0) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m D0 D1 c (Proc.devRef .tc b) = B3 m D0 c (Proc.devRef .tc b) := by
  unfold B4; exact Pipeline.withArrays_of_ne spec1 c _ _ b hb
theorem B5_arr (c : Dev nD) (w : Fin cfg2.W) :
    B5 m D0 D1 D2 c (Proc.devRef .tc (Pipeline.arrRef spec2 w)) = (D2 (T4 m D0 D1) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m D0 D1 D2 c (Proc.devRef .tc b) = B4 m D0 D1 c (Proc.devRef .tc b) := by
  unfold B5; exact Pipeline.withArrays_of_ne spec2 c _ _ b hb
theorem B7_arr (c : Dev nD) (w : Fin cfg3.W) :
    B7 m D0 D1 D2 D3 c (Proc.devRef .tc (Pipeline.arrRef spec3 w)) = (D3 (T6 m D0 D1 D2) c).arrAt w cfg3.N := by
  unfold B7; exact Pipeline.withArrays_arr spec3 launch3.win.arr_inj c _ _ w
theorem B7_of_ne (c : Dev nD) (b : Ref sig .tc) (hb : ∀ w, Pipeline.arrRef spec3 w ≠ b) :
    B7 m D0 D1 D2 D3 c (Proc.devRef .tc b) = B6 m D0 D1 D2 c (Proc.devRef .tc b) := by
  unfold B7; exact Pipeline.withArrays_of_ne spec3 c _ _ b hb
theorem B8_arr (c : Dev nD) (w : Fin cfg4.W) :
    B8 m D0 D1 D2 D3 D4 c (Proc.devRef .tc (Pipeline.arrRef spec4 w)) = (D4 (T7 m D0 D1 D2 D3) c).arrAt w cfg4.N := by
  unfold B8; exact Pipeline.withArrays_arr spec4 launch4.win.arr_inj c _ _ w
theorem B8_of_ne (c : Dev nD) (b : Ref sig .tc) (hb : ∀ w, Pipeline.arrRef spec4 w ≠ b) :
    B8 m D0 D1 D2 D3 D4 c (Proc.devRef .tc b) = B7 m D0 D1 D2 D3 c (Proc.devRef .tc b) := by
  unfold B8; exact Pipeline.withArrays_of_ne spec4 c _ _ b hb

/-! ## The proof data family and what rides along -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => D0 (T1 m) c
  | ⟨1, _⟩ => fun c => D1 (T3 m D0) c
  | ⟨2, _⟩ => fun c => D2 (T4 m D0 D1) c
  | ⟨3, _⟩ => fun c => D3 (T6 m D0 D1 D2) c
  | ⟨4, _⟩ => fun c => D4 (T7 m D0 D1 D2 D3) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

theorem hF0 (c : Dev nD) (w : Fin cfg0.W) : (D0 (T1 m) c).arrAt w cfg0.N = B2 m D0 c (Proc.devRef .tc (Pipeline.arrRef spec0 w)) :=
  (B2_arr m D0 c w).symm
theorem hrest0 (c : Dev nD) : ∀ b, b ∉ Finset.univ.image (Pipeline.arrRef spec0) → B2 m D0 c (Proc.devRef .tc b) = B1 m c (Proc.devRef .tc b) :=
  fun b hb => B2_of_ne m D0 c b fun w e => hb (Finset.mem_image.mpr ⟨w, Finset.mem_univ _, e⟩)

set_option backward.isDefEq.respectTransparency.types false in
/-- Region 0 over the thread state: entered with every unscoped buffer at the boundary's contents, left with
    its arrays at what the write-backs leave and every other buffer as found. -/
def reg0
    (hA0 : ∀ (V : VT F) (c : Dev nD) (w : Fin cfg0.W), (D0 V c).A w = V c (Pipeline.arrRef spec0 w))
    (hq0 : ∀ (V : VT F) (c : Dev nD) (w : Fin cfg0.W), (D0 V c).q w = fullShare)
    (how0 : ∀ (V : VT F) (c : Dev nD) (t : Fin (cfg0.N + 1)), (D0 V c).owed t = 0)
    (hrec0 : ∀ (V : VT F) (c : Dev nD) (t : Fin (cfg0.N + 1)), (D0 V c).recorded t = Set.univ)
    (hin0 : ∀ (V : VT F) (c : Dev nD), (Pipeline.ΦA spec0 c : sProp 𝕄) ⊢ (D0 V c).Φ 0)
    (hout0 : ∀ (V : VT F) (c : Dev nD), (D0 V c).Φ (Fin.last cfg0.N) ⊢ (Pipeline.ΦA spec0 c : sProp 𝕄))
    (hb0 : ∀ (V : VT F) (c : Dev nD), BodyObligation (D0 V c) (defs₀ (F := F)) Variants.none () Set.univ) :
    Pipeline.RegionSeg (pcfgs (F := F)) adm (pdats m D0 D1 D2 D3 D4) () defs₀ 𝒱₀ L lv 0 where
  win := launch0.win.to₀
  block_pos := launch0.block_pos
  stage_whole := launch0.stage_whole
  K := PEmpty
  osem k := k.elim
  ho := Pipeline.OwnSemFacts.none _
  hbody c := (hb0 (T1 m) c).loose
  hwaits := Pipeline.hwaits_of_owed_zero _ _ _ _ L lv 0 fun c t => how0 (T1 m) c t
  pre c := iprop(StableHlo.held (c : Thread nD τ) (Pipeline.ucRefs τ sig) (B1 m c) ∗ R c)
  post c := iprop(StableHlo.held (c : Thread nD τ) (Pipeline.ucRefs τ sig) (B2 m D0 c) ∗ R c)
  X c := iprop(∃ r, prngReg c r)
  Y c := iprop(∃ r, prngReg c r)
  Z c := Pipeline.unscopedRest (Ix := Unit) (Name := ℕ) (U := UR sig nD τ) (Lvl := ℕ) spec0 c ((T1 m) c)
  hentry c := by
    rw [Pipeline.ownSems0_none]
    have hsplit := Pipeline.arrays_of_unscopedBufs (p := 0) (pcfgs (F := F)) adm (pdats m D0 D1 D2 D3 D4) launch0.win launch0.arr_whole c
      (((pdats m D0 D1 D2 D3 D4) 0 c).share_full fun w => hq0 (T1 m) c w) ((T1 m) c) fun w => hA0 (T1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ((pdats m D0 D1 D2 D3 D4) 0 c).owed 0 = 0 from how0 (T1 m) c 0]
      icases HO with ⟨%W, HO⟩; iexists W; isplitr
      · ipureintro; unfold Pipeline.Dat.bound; intro x _; refine Or.inl ?_
        rw [show ((pdats m D0 D1 D2 D3 D4) 0 c).recorded 0 = Set.univ from hrec0 (T1 m) c 0]; trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄)
        ⊢ ((pdats m D0 D1 D2 D3 D4) 0 c).Φ 0 := hin0 (T1 m) c
    iintro ⟨Hp, -, Hr⟩
    iapply h
    isplitl [Hr]; · iexact Hr
    iexact Hp
  hout c := by
    rw [Pipeline.ownSems0_none]
    have h : ((pdats m D0 D1 D2 D3 D4) 0 c).Φ (Fin.last _)
        ⊢ (iprop(Pipeline.scopedRest (Ix := Unit) (Name := ℕ) (U := UR sig nD τ) (Lvl := ℕ) (Val := Elt F) spec0 c ∗ ∃ r, prngReg c r) : sProp 𝕄) := hout0 (T1 m) c
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D0 D1 D2 D3 D4) (((pdats m D0 D1 D2 D3 D4) 0 c).share_full fun w => hq0 (T1 m) c w)
      ((T1 m) c) (fun b => B2 m D0 c (Proc.devRef .tc b)) (((pdats m D0 D1 D2 D3 D4) 0 c).arrAt · cfg0.N) (hF0 m D0 c) (hrest0 m D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ((pdats m D0 D1 D2 D3 D4) 0 c).owed (Fin.last _) = 0 from how0 (T1 m) c (Fin.last _)]
    icases HO with ⟨%W, -, HO⟩; iexists W; iexact HO

theorem hF1 (c : Dev nD) (w : Fin cfg1.W) : (D1 (T3 m D0) c).arrAt w cfg1.N = B4 m D0 D1 c (Proc.devRef .tc (Pipeline.arrRef spec1 w)) :=
  (B4_arr m D0 D1 c w).symm
theorem hrest1 (c : Dev nD) : ∀ b, b ∉ Finset.univ.image (Pipeline.arrRef spec1) → B4 m D0 D1 c (Proc.devRef .tc b) = B3 m D0 c (Proc.devRef .tc b) :=
  fun b hb => B4_of_ne m D0 D1 c b fun w e => hb (Finset.mem_image.mpr ⟨w, Finset.mem_univ _, e⟩)

set_option backward.isDefEq.respectTransparency.types false in
/-- Region 1 over the thread state: entered with every unscoped buffer at the boundary's contents, left with
    its arrays at what the write-backs leave and every other buffer as found. -/
def reg1
    (hA1 : ∀ (V : VT F) (c : Dev nD) (w : Fin cfg1.W), (D1 V c).A w = V c (Pipeline.arrRef spec1 w))
    (hq1 : ∀ (V : VT F) (c : Dev nD) (w : Fin cfg1.W), (D1 V c).q w = fullShare)
    (how1 : ∀ (V : VT F) (c : Dev nD) (t : Fin (cfg1.N + 1)), (D1 V c).owed t = 0)
    (hrec1 : ∀ (V : VT F) (c : Dev nD) (t : Fin (cfg1.N + 1)), (D1 V c).recorded t = Set.univ)
    (hin1 : ∀ (V : VT F) (c : Dev nD), (Pipeline.ΦA spec1 c : sProp 𝕄) ⊢ (D1 V c).Φ 0)
    (hout1 : ∀ (V : VT F) (c : Dev nD), (D1 V c).Φ (Fin.last cfg1.N) ⊢ (Pipeline.ΦA spec1 c : sProp 𝕄))
    (hb1 : ∀ (V : VT F) (c : Dev nD), BodyObligation (D1 V c) (defs₀ (F := F)) Variants.none () Set.univ) :
    Pipeline.RegionSeg (pcfgs (F := F)) adm (pdats m D0 D1 D2 D3 D4) () defs₀ 𝒱₀ L lv 1 where
  win := launch1.win.to₀
  block_pos := launch1.block_pos
  stage_whole := launch1.stage_whole
  K := PEmpty
  osem k := k.elim
  ho := Pipeline.OwnSemFacts.none _
  hbody c := (hb1 (T3 m D0) c).loose
  hwaits := Pipeline.hwaits_of_owed_zero _ _ _ _ L lv 1 fun c t => how1 (T3 m D0) c t
  pre c := iprop(StableHlo.held (c : Thread nD τ) (Pipeline.ucRefs τ sig) (B3 m D0 c) ∗ R c)
  post c := iprop(StableHlo.held (c : Thread nD τ) (Pipeline.ucRefs τ sig) (B4 m D0 D1 c) ∗ R c)
  X c := iprop(∃ r, prngReg c r)
  Y c := iprop(∃ r, prngReg c r)
  Z c := Pipeline.unscopedRest (Ix := Unit) (Name := ℕ) (U := UR sig nD τ) (Lvl := ℕ) spec1 c ((T3 m D0) c)
  hentry c := by
    rw [Pipeline.ownSems0_none]
    have hsplit := Pipeline.arrays_of_unscopedBufs (p := 1) (pcfgs (F := F)) adm (pdats m D0 D1 D2 D3 D4) launch1.win launch1.arr_whole c
      (((pdats m D0 D1 D2 D3 D4) 1 c).share_full fun w => hq1 (T3 m D0) c w) ((T3 m D0) c) fun w => hA1 (T3 m D0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ((pdats m D0 D1 D2 D3 D4) 1 c).owed 0 = 0 from how1 (T3 m D0) c 0]
      icases HO with ⟨%W, HO⟩; iexists W; isplitr
      · ipureintro; unfold Pipeline.Dat.bound; intro x _; refine Or.inl ?_
        rw [show ((pdats m D0 D1 D2 D3 D4) 1 c).recorded 0 = Set.univ from hrec1 (T3 m D0) c 0]; trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄)
        ⊢ ((pdats m D0 D1 D2 D3 D4) 1 c).Φ 0 := hin1 (T3 m D0) c
    iintro ⟨Hp, -, Hr⟩
    iapply h
    isplitl [Hr]; · iexact Hr
    iexact Hp
  hout c := by
    rw [Pipeline.ownSems0_none]
    have h : ((pdats m D0 D1 D2 D3 D4) 1 c).Φ (Fin.last _)
        ⊢ (iprop(Pipeline.scopedRest (Ix := Unit) (Name := ℕ) (U := UR sig nD τ) (Lvl := ℕ) (Val := Elt F) spec1 c ∗ ∃ r, prngReg c r) : sProp 𝕄) := hout1 (T3 m D0) c
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m D0 D1 D2 D3 D4) (((pdats m D0 D1 D2 D3 D4) 1 c).share_full fun w => hq1 (T3 m D0) c w)
      ((T3 m D0) c) (fun b => B4 m D0 D1 c (Proc.devRef .tc b)) (((pdats m D0 D1 D2 D3 D4) 1 c).arrAt · cfg1.N) (hF1 m D0 D1 c) (hrest1 m D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ((pdats m D0 D1 D2 D3 D4) 1 c).owed (Fin.last _) = 0 from how1 (T3 m D0) c (Fin.last _)]
    icases HO with ⟨%W, -, HO⟩; iexists W; iexact HO

theorem hF2 (c : Dev nD) (w : Fin cfg2.W) : (D2 (T4 m D0 D1) c).arrAt w cfg2.N = B5 m D0 D1 D2 c (Proc.devRef .tc (Pipeline.arrRef spec2 w)) :=
  (B5_arr m D0 D1 D2 c w).symm
theorem hrest2 (c : Dev nD) : ∀ b, b ∉ Finset.univ.image (Pipeline.arrRef spec2) → B5 m D0 D1 D2 c (Proc.devRef .tc b) = B4 m D0 D1 c (Proc.devRef .tc b) :=
  fun b hb => B5_of_ne m D0 D1 D2 c b fun w e => hb (Finset.mem_image.mpr ⟨w, Finset.mem_univ _, e⟩)

set_option backward.isDefEq.respectTransparency.types false in
/-- Region 2 over the thread state: entered with every unscoped buffer at the boundary's contents, left with
    its arrays at what the write-backs leave and every other buffer as found. -/
def reg2
    (hA2 : ∀ (V : VT F) (c : Dev nD) (w : Fin cfg2.W), (D2 V c).A w = V c (Pipeline.arrRef spec2 w))
    (hq2 : ∀ (V : VT F) (c : Dev nD) (w : Fin cfg2.W), (D2 V c).q w = fullShare)
    (how2 : ∀ (V : VT F) (c : Dev nD) (t : Fin (cfg2.N + 1)), (D2 V c).owed t = 0)
    (hrec2 : ∀ (V : VT F) (c : Dev nD) (t : Fin (cfg2.N + 1)), (D2 V c).recorded t = Set.univ)
    (hin2 : ∀ (V : VT F) (c : Dev nD), (Pipeline.ΦA spec2 c : sProp 𝕄) ⊢ (D2 V c).Φ 0)
    (hout2 : ∀ (V : VT F) (c : Dev nD), (D2 V c).Φ (Fin.last cfg2.N) ⊢ (Pipeline.ΦA spec2 c : sProp 𝕄))
    (hb2 : ∀ (V : VT F) (c : Dev nD), BodyObligation (D2 V c) (defs₀ (F := F)) Variants.none () Set.univ) :
    Pipeline.RegionSeg (pcfgs (F := F)) adm (pdats m D0 D1 D2 D3 D4) () defs₀ 𝒱₀ L lv 2 where
  win := launch2.win.to₀
  block_pos := launch2.block_pos
  stage_whole := launch2.stage_whole
  K := PEmpty
  osem k := k.elim
  ho := Pipeline.OwnSemFacts.none _
  hbody c := (hb2 (T4 m D0 D1) c).loose
  hwaits := Pipeline.hwaits_of_owed_zero _ _ _ _ L lv 2 fun c t => how2 (T4 m D0 D1) c t
  pre c := iprop(StableHlo.held (c : Thread nD τ) (Pipeline.ucRefs τ sig) (B4 m D0 D1 c) ∗ R c)
  post c := iprop(StableHlo.held (c : Thread nD τ) (Pipeline.ucRefs τ sig) (B5 m D0 D1 D2 c) ∗ R c)
  X c := iprop(∃ r, prngReg c r)
  Y c := iprop(∃ r, prngReg c r)
  Z c := Pipeline.unscopedRest (Ix := Unit) (Name := ℕ) (U := UR sig nD τ) (Lvl := ℕ) spec2 c ((T4 m D0 D1) c)
  hentry c := by
    rw [Pipeline.ownSems0_none]
    have hsplit := Pipeline.arrays_of_unscopedBufs (p := 2) (pcfgs (F := F)) adm (pdats m D0 D1 D2 D3 D4) launch2.win launch2.arr_whole c
      (((pdats m D0 D1 D2 D3 D4) 2 c).share_full fun w => hq2 (T4 m D0 D1) c w) ((T4 m D0 D1) c) fun w => hA2 (T4 m D0 D1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ((pdats m D0 D1 D2 D3 D4) 2 c).owed 0 = 0 from how2 (T4 m D0 D1) c 0]
      icases HO with ⟨%W, HO⟩; iexists W; isplitr
      · ipureintro; unfold Pipeline.Dat.bound; intro x _; refine Or.inl ?_
        rw [show ((pdats m D0 D1 D2 D3 D4) 2 c).recorded 0 = Set.univ from hrec2 (T4 m D0 D1) c 0]; trivial
      iexact HO
    isplitl [Hp]; · iexact Hp
    iexact Hrest
  hin c := by
    have h : (iprop(Pipeline.scopedRest (Ix := Unit) (Name := ℕ) (U := UR sig nD τ) (Lvl := ℕ) (Val := Elt F) spec2 c ∗ ∃ r, prngReg c r) : sProp 𝕄)
        ⊢ ((pdats m D0 D1 D2 D3 D4) 2 c).Φ 0 := hin2 (T4 m D0 D1) c
    iintro ⟨Hp, -, Hr⟩
    iapply h
    isplitl [Hr]; · iexact Hr
    iexact Hp
  hout c := by
    rw [Pipeline.ownSems0_none]
    have h : ((pdats m D0 D1 D2 D3 D4) 2 c).Φ (Fin.last _)
        ⊢ (iprop(Pipeline.scopedRest (Ix := Unit) (Name := ℕ) (U := UR sig nD τ) (Lvl := ℕ) (Val := Elt F) spec2 c ∗ ∃ r, prngReg c r) : sProp 𝕄) := hout2 (T4 m D0 D1) c
    refine h.trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m D0 D1 D2 D3 D4) (((pdats m D0 D1 D2 D3 D4) 2 c).share_full fun w => hq2 (T4 m D0 D1) c w)
      ((T4 m D0 D1) c) (fun b => B5 m D0 D1 D2 c (Proc.devRef .tc b)) (((pdats m D0 D1 D2 D3 D4) 2 c).arrAt · cfg2.N) (hF2 m D0 D1 D2 c) (hrest2 m D0 D1 D2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ((pdats m D0 D1 D2 D3 D4) 2 c).owed (Fin.last _) = 0 from how2 (T4 m D0 D1) c (Fin.last _)]
    icases HO with ⟨%W, -, HO⟩; iexists W; iexact HO

theorem hF3 (c : Dev nD) (w : Fin cfg3.W) : (D3 (T6 m D0 D1 D2) c).arrAt w cfg3.N = B7 m D0 D1 D2 D3 c (Proc.devRef .tc (Pipeline.arrRef spec3 w)) :=
  (B7_arr m D0 D1 D2 D3 c w).symm
theorem hrest3 (c : Dev nD) : ∀ b, b ∉ Finset.univ.image (Pipeline.arrRef spec3) → B7 m D0 D1 D2 D3 c (Proc.devRef .tc b) = B6 m D0 D1 D2 c (Proc.devRef .tc b) :=
  fun b hb => B7_of_ne m D0 D1 D2 D3 c b fun w e => hb (Finset.mem_image.mpr ⟨w, Finset.mem_univ _, e⟩)

set_option backward.isDefEq.respectTransparency.types false in
/-- Region 3 over the thread state: entered with every unscoped buffer at the boundary's contents, left with
    its arrays at what the write-backs leave and every other buffer as found. -/
def reg3
    (hA3 : ∀ (V : VT F) (c : Dev nD) (w : Fin cfg3.W), (D3 V c).A w = V c (Pipeline.arrRef spec3 w))
    (hq3 : ∀ (V : VT F) (c : Dev nD) (w : Fin cfg3.W), (D3 V c).q w = fullShare)
    (how3 : ∀ (V : VT F) (c : Dev nD) (t : Fin (cfg3.N + 1)), (D3 V c).owed t = 0)
    (hrec3 : ∀ (V : VT F) (c : Dev nD) (t : Fin (cfg3.N + 1)), (D3 V c).recorded t = Set.univ)
    (hin3 : ∀ (V : VT F) (c : Dev nD), (Pipeline.ΦA spec3 c : sProp 𝕄) ⊢ (D3 V c).Φ 0)
    (hout3 : ∀ (V : VT F) (c : Dev nD), (D3 V c).Φ (Fin.last cfg3.N) ⊢ (Pipeline.ΦA spec3 c : sProp 𝕄))
    (hb3 : ∀ (V : VT F) (c : Dev nD), BodyObligation (D3 V c) (defs₀ (F := F)) Variants.none () Set.univ) :
    Pipeline.RegionSeg (pcfgs (F := F)) adm (pdats m D0 D1 D2 D3 D4) () defs₀ 𝒱₀ L lv 3 where
  win := launch3.win.to₀
  block_pos := launch3.block_pos
  stage_whole := launch3.stage_whole
  K := PEmpty
  osem k := k.elim
  ho := Pipeline.OwnSemFacts.none _
  hbody c := (hb3 (T6 m D0 D1 D2) c).loose
  hwaits := Pipeline.hwaits_of_owed_zero _ _ _ _ L lv 3 fun c t => how3 (T6 m D0 D1 D2) c t
  pre c := iprop(StableHlo.held (c : Thread nD τ) (Pipeline.ucRefs τ sig) (B6 m D0 D1 D2 c) ∗ R c)
  post c := iprop(StableHlo.held (c : Thread nD τ) (Pipeline.ucRefs τ sig) (B7 m D0 D1 D2 D3 c) ∗ R c)
  X c := iprop(∃ r, prngReg c r)
  Y c := iprop(∃ r, prngReg c r)
  Z c := Pipeline.unscopedRest (Ix := Unit) (Name := ℕ) (U := UR sig nD τ) (Lvl := ℕ) spec3 c ((T6 m D0 D1 D2) c)
  hentry c := by
    rw [Pipeline.ownSems0_none]
    have hsplit := Pipeline.arrays_of_unscopedBufs (p := 3) (pcfgs (F := F)) adm (pdats m D0 D1 D2 D3 D4) launch3.win launch3.arr_whole c
      (((pdats m D0 D1 D2 D3 D4) 3 c).share_full fun w => hq3 (T6 m D0 D1 D2) c w) ((T6 m D0 D1 D2) c) fun w => hA3 (T6 m D0 D1 D2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ((pdats m D0 D1 D2 D3 D4) 3 c).owed 0 = 0 from how3 (T6 m D0 D1 D2) c 0]
      icases HO with ⟨%W, HO⟩; iexists W; isplitr
      · ipureintro; unfold Pipeline.Dat.bound; intro x _; refine Or.inl ?_
        rw [show ((pdats m D0 D1 D2 D3 D4) 3 c).recorded 0 = Set.univ from hrec3 (T6 m D0 D1 D2) c 0]; trivial
      iexact HO
    isplitl [Hp]; · iexact Hp
    iexact Hrest
  hin c := by
    have h : (iprop(Pipeline.scopedRest (Ix := Unit) (Name := ℕ) (U := UR sig nD τ) (Lvl := ℕ) (Val := Elt F) spec3 c ∗ ∃ r, prngReg c r) : sProp 𝕄)
        ⊢ ((pdats m D0 D1 D2 D3 D4) 3 c).Φ 0 := hin3 (T6 m D0 D1 D2) c
    iintro ⟨Hp, -, Hr⟩
    iapply h
    isplitl [Hr]; · iexact Hr
    iexact Hp
  hout c := by
    rw [Pipeline.ownSems0_none]
    have h : ((pdats m D0 D1 D2 D3 D4) 3 c).Φ (Fin.last _)
        ⊢ (iprop(Pipeline.scopedRest (Ix := Unit) (Name := ℕ) (U := UR sig nD τ) (Lvl := ℕ) (Val := Elt F) spec3 c ∗ ∃ r, prngReg c r) : sProp 𝕄) := hout3 (T6 m D0 D1 D2) c
    refine h.trans ?_
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m D0 D1 D2 D3 D4) (((pdats m D0 D1 D2 D3 D4) 3 c).share_full fun w => hq3 (T6 m D0 D1 D2) c w)
      ((T6 m D0 D1 D2) c) (fun b => B7 m D0 D1 D2 D3 c (Proc.devRef .tc b)) (((pdats m D0 D1 D2 D3 D4) 3 c).arrAt · cfg3.N) (hF3 m D0 D1 D2 D3 c) (hrest3 m D0 D1 D2 D3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ((pdats m D0 D1 D2 D3 D4) 3 c).owed (Fin.last _) = 0 from how3 (T6 m D0 D1 D2) c (Fin.last _)]
    icases HO with ⟨%W, -, HO⟩; iexists W; iexact HO

theorem hF4 (c : Dev nD) (w : Fin cfg4.W) : (D4 (T7 m D0 D1 D2 D3) c).arrAt w cfg4.N = B8 m D0 D1 D2 D3 D4 c (Proc.devRef .tc (Pipeline.arrRef spec4 w)) :=
  (B8_arr m D0 D1 D2 D3 D4 c w).symm
theorem hrest4 (c : Dev nD) : ∀ b, b ∉ Finset.univ.image (Pipeline.arrRef spec4) → B8 m D0 D1 D2 D3 D4 c (Proc.devRef .tc b) = B7 m D0 D1 D2 D3 c (Proc.devRef .tc b) :=
  fun b hb => B8_of_ne m D0 D1 D2 D3 D4 c b fun w e => hb (Finset.mem_image.mpr ⟨w, Finset.mem_univ _, e⟩)

set_option backward.isDefEq.respectTransparency.types false in
/-- Region 4 over the thread state: entered with every unscoped buffer at the boundary's contents, left with
    its arrays at what the write-backs leave and every other buffer as found. -/
def reg4
    (hA4 : ∀ (V : VT F) (c : Dev nD) (w : Fin cfg4.W), (D4 V c).A w = V c (Pipeline.arrRef spec4 w))
    (hq4 : ∀ (V : VT F) (c : Dev nD) (w : Fin cfg4.W), (D4 V c).q w = fullShare)
    (how4 : ∀ (V : VT F) (c : Dev nD) (t : Fin (cfg4.N + 1)), (D4 V c).owed t = 0)
    (hrec4 : ∀ (V : VT F) (c : Dev nD) (t : Fin (cfg4.N + 1)), (D4 V c).recorded t = Set.univ)
    (hin4 : ∀ (V : VT F) (c : Dev nD), (Pipeline.ΦA spec4 c : sProp 𝕄) ⊢ (D4 V c).Φ 0)
    (hout4 : ∀ (V : VT F) (c : Dev nD), (D4 V c).Φ (Fin.last cfg4.N) ⊢ (Pipeline.ΦA spec4 c : sProp 𝕄))
    (hb4 : ∀ (V : VT F) (c : Dev nD), BodyObligation (D4 V c) (defs₀ (F := F)) Variants.none () Set.univ) :
    Pipeline.RegionSeg (pcfgs (F := F)) adm (pdats m D0 D1 D2 D3 D4) () defs₀ 𝒱₀ L lv 4 where
  win := launch4.win.to₀
  block_pos := launch4.block_pos
  stage_whole := launch4.stage_whole
  K := PEmpty
  osem k := k.elim
  ho := Pipeline.OwnSemFacts.none _
  hbody c := (hb4 (T7 m D0 D1 D2 D3) c).loose
  hwaits := Pipeline.hwaits_of_owed_zero _ _ _ _ L lv 4 fun c t => how4 (T7 m D0 D1 D2 D3) c t
  pre c := iprop(StableHlo.held (c : Thread nD τ) (Pipeline.ucRefs τ sig) (B7 m D0 D1 D2 D3 c) ∗ R c)
  post c := iprop(StableHlo.held (c : Thread nD τ) (Pipeline.ucRefs τ sig) (B8 m D0 D1 D2 D3 D4 c) ∗ R c)
  X c := iprop(∃ r, prngReg c r)
  Y c := iprop(∃ r, prngReg c r)
  Z c := Pipeline.unscopedRest (Ix := Unit) (Name := ℕ) (U := UR sig nD τ) (Lvl := ℕ) spec4 c ((T7 m D0 D1 D2 D3) c)
  hentry c := by
    rw [Pipeline.ownSems0_none]
    have hsplit := Pipeline.arrays_of_unscopedBufs (p := 4) (pcfgs (F := F)) adm (pdats m D0 D1 D2 D3 D4) launch4.win launch4.arr_whole c
      (((pdats m D0 D1 D2 D3 D4) 4 c).share_full fun w => hq4 (T7 m D0 D1 D2 D3) c w) ((T7 m D0 D1 D2 D3) c) fun w => hA4 (T7 m D0 D1 D2 D3) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ((pdats m D0 D1 D2 D3 D4) 4 c).owed 0 = 0 from how4 (T7 m D0 D1 D2 D3) c 0]
      icases HO with ⟨%W, HO⟩; iexists W; isplitr
      · ipureintro; unfold Pipeline.Dat.bound; intro x _; refine Or.inl ?_
        rw [show ((pdats m D0 D1 D2 D3 D4) 4 c).recorded 0 = Set.univ from hrec4 (T7 m D0 D1 D2 D3) c 0]; trivial
      iexact HO
    isplitl [Hp]; · iexact Hp
    iexact Hrest
  hin c := by
    have h : (iprop(Pipeline.scopedRest (Ix := Unit) (Name := ℕ) (U := UR sig nD τ) (Lvl := ℕ) (Val := Elt F) spec4 c ∗ ∃ r, prngReg c r) : sProp 𝕄)
        ⊢ ((pdats m D0 D1 D2 D3 D4) 4 c).Φ 0 := hin4 (T7 m D0 D1 D2 D3) c
    iintro ⟨Hp, -, Hr⟩
    iapply h
    isplitl [Hr]; · iexact Hr
    iexact Hp
  hout c := by
    rw [Pipeline.ownSems0_none]
    have h : ((pdats m D0 D1 D2 D3 D4) 4 c).Φ (Fin.last _)
        ⊢ (iprop(Pipeline.scopedRest (Ix := Unit) (Name := ℕ) (U := UR sig nD τ) (Lvl := ℕ) (Val := Elt F) spec4 c ∗ ∃ r, prngReg c r) : sProp 𝕄) := hout4 (T7 m D0 D1 D2 D3) c
    refine h.trans ?_
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m D0 D1 D2 D3 D4) (((pdats m D0 D1 D2 D3 D4) 4 c).share_full fun w => hq4 (T7 m D0 D1 D2 D3) c w)
      ((T7 m D0 D1 D2 D3) c) (fun b => B8 m D0 D1 D2 D3 D4 c (Proc.devRef .tc b)) (((pdats m D0 D1 D2 D3 D4) 4 c).arrAt · cfg4.N) (hF4 m D0 D1 D2 D3 D4 c) (hrest4 m D0 D1 D2 D3 D4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ((pdats m D0 D1 D2 D3 D4) 4 c).owed (Fin.last _) = 0 from how4 (T7 m D0 D1 D2 D3) c (Fin.last _)]
    icases HO with ⟨%W, -, HO⟩; iexists W; iexact HO

/-! ## A region changes only its output windows' arrays -/

theorem B2_keep (hA0 : ∀ (V : VT F) (c : Dev nD) (w : Fin cfg0.W), (D0 V c).A w = V c (Pipeline.arrRef spec0 w))
    (c : Dev nD) (b : Ref sig .tc) (hb : ∀ w : Fin cfg0.W, (cfg0.win w).isOut = true → Pipeline.arrRef spec0 w ≠ b) :
    B2 m D0 c (Proc.devRef .tc b) = B1 m c (Proc.devRef .tc b) := by
  by_cases h : ∃ w, Pipeline.arrRef spec0 w = b
  · obtain ⟨w, rfl⟩ := h
    have hw : (cfg0.win w).isOut = false := by
      cases hh : (cfg0.win w).isOut
      · rfl
      · exact absurd rfl (hb w hh)
    rw [B2_arr, (D0 (T1 m) c).arrAt_in w hw _, hA0]
  · exact B2_of_ne m D0 c b (fun w e => h ⟨w, e⟩)

theorem B4_keep (hA1 : ∀ (V : VT F) (c : Dev nD) (w : Fin cfg1.W), (D1 V c).A w = V c (Pipeline.arrRef spec1 w))
    (c : Dev nD) (b : Ref sig .tc) (hb : ∀ w : Fin cfg1.W, (cfg1.win w).isOut = true → Pipeline.arrRef spec1 w ≠ b) :
    B4 m D0 D1 c (Proc.devRef .tc b) = B3 m D0 c (Proc.devRef .tc b) := by
  by_cases h : ∃ w, Pipeline.arrRef spec1 w = b
  · obtain ⟨w, rfl⟩ := h
    have hw : (cfg1.win w).isOut = false := by
      cases hh : (cfg1.win w).isOut
      · rfl
      · exact absurd rfl (hb w hh)
    rw [B4_arr, (D1 (T3 m D0) c).arrAt_in w hw _, hA1]
  · exact B4_of_ne m D0 D1 c b (fun w e => h ⟨w, e⟩)

theorem B5_keep (hA2 : ∀ (V : VT F) (c : Dev nD) (w : Fin cfg2.W), (D2 V c).A w = V c (Pipeline.arrRef spec2 w))
    (c : Dev nD) (b : Ref sig .tc) (hb : ∀ w : Fin cfg2.W, (cfg2.win w).isOut = true → Pipeline.arrRef spec2 w ≠ b) :
    B5 m D0 D1 D2 c (Proc.devRef .tc b) = B4 m D0 D1 c (Proc.devRef .tc b) := by
  by_cases h : ∃ w, Pipeline.arrRef spec2 w = b
  · obtain ⟨w, rfl⟩ := h
    have hw : (cfg2.win w).isOut = false := by
      cases hh : (cfg2.win w).isOut
      · rfl
      · exact absurd rfl (hb w hh)
    rw [B5_arr, (D2 (T4 m D0 D1) c).arrAt_in w hw _, hA2]
  · exact B5_of_ne m D0 D1 D2 c b (fun w e => h ⟨w, e⟩)

theorem B7_keep (hA3 : ∀ (V : VT F) (c : Dev nD) (w : Fin cfg3.W), (D3 V c).A w = V c (Pipeline.arrRef spec3 w))
    (c : Dev nD) (b : Ref sig .tc) (hb : ∀ w : Fin cfg3.W, (cfg3.win w).isOut = true → Pipeline.arrRef spec3 w ≠ b) :
    B7 m D0 D1 D2 D3 c (Proc.devRef .tc b) = B6 m D0 D1 D2 c (Proc.devRef .tc b) := by
  by_cases h : ∃ w, Pipeline.arrRef spec3 w = b
  · obtain ⟨w, rfl⟩ := h
    have hw : (cfg3.win w).isOut = false := by
      cases hh : (cfg3.win w).isOut
      · rfl
      · exact absurd rfl (hb w hh)
    rw [B7_arr, (D3 (T6 m D0 D1 D2) c).arrAt_in w hw _, hA3]
  · exact B7_of_ne m D0 D1 D2 D3 c b (fun w e => h ⟨w, e⟩)

theorem B8_keep (hA4 : ∀ (V : VT F) (c : Dev nD) (w : Fin cfg4.W), (D4 V c).A w = V c (Pipeline.arrRef spec4 w))
    (c : Dev nD) (b : Ref sig .tc) (hb : ∀ w : Fin cfg4.W, (cfg4.win w).isOut = true → Pipeline.arrRef spec4 w ≠ b) :
    B8 m D0 D1 D2 D3 D4 c (Proc.devRef .tc b) = B7 m D0 D1 D2 D3 c (Proc.devRef .tc b) := by
  by_cases h : ∃ w, Pipeline.arrRef spec4 w = b
  · obtain ⟨w, rfl⟩ := h
    have hw : (cfg4.win w).isOut = false := by
      cases hh : (cfg4.win w).isOut
      · rfl
      · exact absurd rfl (hb w hh)
    rw [B8_arr, (D4 (T7 m D0 D1 D2 D3) c).arrAt_in w hw _, hA4]
  · exact B8_of_ne m D0 D1 D2 D3 D4 c b (fun w e => h ⟨w, e⟩)

/-! ## @main as segments, and the run -/

/-- @main's nine segments in order. -/
abbrev segs
    (hA0 : ∀ (V : VT F) (c : Dev nD) (w : Fin cfg0.W), (D0 V c).A w = V c (Pipeline.arrRef spec0 w))
    (hq0 : ∀ (V : VT F) (c : Dev nD) (w : Fin cfg0.W), (D0 V c).q w = fullShare)
    (how0 : ∀ (V : VT F) (c : Dev nD) (t : Fin (cfg0.N + 1)), (D0 V c).owed t = 0)
    (hrec0 : ∀ (V : VT F) (c : Dev nD) (t : Fin (cfg0.N + 1)), (D0 V c).recorded t = Set.univ)
    (hin0 : ∀ (V : VT F) (c : Dev nD), (Pipeline.ΦA spec0 c : sProp 𝕄) ⊢ (D0 V c).Φ 0)
    (hout0 : ∀ (V : VT F) (c : Dev nD), (D0 V c).Φ (Fin.last cfg0.N) ⊢ (Pipeline.ΦA spec0 c : sProp 𝕄))
    (hb0 : ∀ (V : VT F) (c : Dev nD), BodyObligation (D0 V c) (defs₀ (F := F)) Variants.none () Set.univ)
    (hA1 : ∀ (V : VT F) (c : Dev nD) (w : Fin cfg1.W), (D1 V c).A w = V c (Pipeline.arrRef spec1 w))
    (hq1 : ∀ (V : VT F) (c : Dev nD) (w : Fin cfg1.W), (D1 V c).q w = fullShare)
    (how1 : ∀ (V : VT F) (c : Dev nD) (t : Fin (cfg1.N + 1)), (D1 V c).owed t = 0)
    (hrec1 : ∀ (V : VT F) (c : Dev nD) (t : Fin (cfg1.N + 1)), (D1 V c).recorded t = Set.univ)
    (hin1 : ∀ (V : VT F) (c : Dev nD), (Pipeline.ΦA spec1 c : sProp 𝕄) ⊢ (D1 V c).Φ 0)
    (hout1 : ∀ (V : VT F) (c : Dev nD), (D1 V c).Φ (Fin.last cfg1.N) ⊢ (Pipeline.ΦA spec1 c : sProp 𝕄))
    (hb1 : ∀ (V : VT F) (c : Dev nD), BodyObligation (D1 V c) (defs₀ (F := F)) Variants.none () Set.univ)
    (hA2 : ∀ (V : VT F) (c : Dev nD) (w : Fin cfg2.W), (D2 V c).A w = V c (Pipeline.arrRef spec2 w))
    (hq2 : ∀ (V : VT F) (c : Dev nD) (w : Fin cfg2.W), (D2 V c).q w = fullShare)
    (how2 : ∀ (V : VT F) (c : Dev nD) (t : Fin (cfg2.N + 1)), (D2 V c).owed t = 0)
    (hrec2 : ∀ (V : VT F) (c : Dev nD) (t : Fin (cfg2.N + 1)), (D2 V c).recorded t = Set.univ)
    (hin2 : ∀ (V : VT F) (c : Dev nD), (Pipeline.ΦA spec2 c : sProp 𝕄) ⊢ (D2 V c).Φ 0)
    (hout2 : ∀ (V : VT F) (c : Dev nD), (D2 V c).Φ (Fin.last cfg2.N) ⊢ (Pipeline.ΦA spec2 c : sProp 𝕄))
    (hb2 : ∀ (V : VT F) (c : Dev nD), BodyObligation (D2 V c) (defs₀ (F := F)) Variants.none () Set.univ)
    (hA3 : ∀ (V : VT F) (c : Dev nD) (w : Fin cfg3.W), (D3 V c).A w = V c (Pipeline.arrRef spec3 w))
    (hq3 : ∀ (V : VT F) (c : Dev nD) (w : Fin cfg3.W), (D3 V c).q w = fullShare)
    (how3 : ∀ (V : VT F) (c : Dev nD) (t : Fin (cfg3.N + 1)), (D3 V c).owed t = 0)
    (hrec3 : ∀ (V : VT F) (c : Dev nD) (t : Fin (cfg3.N + 1)), (D3 V c).recorded t = Set.univ)
    (hin3 : ∀ (V : VT F) (c : Dev nD), (Pipeline.ΦA spec3 c : sProp 𝕄) ⊢ (D3 V c).Φ 0)
    (hout3 : ∀ (V : VT F) (c : Dev nD), (D3 V c).Φ (Fin.last cfg3.N) ⊢ (Pipeline.ΦA spec3 c : sProp 𝕄))
    (hb3 : ∀ (V : VT F) (c : Dev nD), BodyObligation (D3 V c) (defs₀ (F := F)) Variants.none () Set.univ)
    (hA4 : ∀ (V : VT F) (c : Dev nD) (w : Fin cfg4.W), (D4 V c).A w = V c (Pipeline.arrRef spec4 w))
    (hq4 : ∀ (V : VT F) (c : Dev nD) (w : Fin cfg4.W), (D4 V c).q w = fullShare)
    (how4 : ∀ (V : VT F) (c : Dev nD) (t : Fin (cfg4.N + 1)), (D4 V c).owed t = 0)
    (hrec4 : ∀ (V : VT F) (c : Dev nD) (t : Fin (cfg4.N + 1)), (D4 V c).recorded t = Set.univ)
    (hin4 : ∀ (V : VT F) (c : Dev nD), (Pipeline.ΦA spec4 c : sProp 𝕄) ⊢ (D4 V c).Φ 0)
    (hout4 : ∀ (V : VT F) (c : Dev nD), (D4 V c).Φ (Fin.last cfg4.N) ⊢ (Pipeline.ΦA spec4 c : sProp 𝕄))
    (hb4 : ∀ (V : VT F) (c : Dev nD), BodyObligation (D4 V c) (defs₀ (F := F)) Variants.none () Set.univ) :
    List (Pipeline.Seg (pcfgs (F := F)) adm (pdats m D0 D1 D2 D3 D4) () defs₀ 𝒱₀ L lv) :=
  [ .host (hseg hostOps0 hostOps0_sub hostOps0_fresh (B0 m)),
    .region (reg0 m D0 D1 D2 D3 D4 hA0 hq0 how0 hrec0 hin0 hout0 hb0),
    .host (hseg hostOps1 hostOps1_sub hostOps1_fresh (B2 m D0)),
    .region (reg1 m D0 D1 D2 D3 D4 hA1 hq1 how1 hrec1 hin1 hout1 hb1),
    .region (reg2 m D0 D1 D2 D3 D4 hA2 hq2 how2 hrec2 hin2 hout2 hb2),
    .host (hseg hostOps3 hostOps3_sub hostOps3_fresh (B5 m D0 D1 D2)),
    .region (reg3 m D0 D1 D2 D3 D4 hA3 hq3 how3 hrec3 hin3 hout3 hb3),
    .region (reg4 m D0 D1 D2 D3 D4 hA4 hq4 how4 hrec4 hin4 hout4 hb4),
    .host (hseg hostOps5 hostOps5_sub hostOps5_fresh (B8 m D0 D1 D2 D3 D4)) ]

/-- @main is the run of the segments. -/
theorem main_run
    (hA0 : ∀ (V : VT F) (c : Dev nD) (w : Fin cfg0.W), (D0 V c).A w = V c (Pipeline.arrRef spec0 w))
    (hq0 : ∀ (V : VT F) (c : Dev nD) (w : Fin cfg0.W), (D0 V c).q w = fullShare)
    (how0 : ∀ (V : VT F) (c : Dev nD) (t : Fin (cfg0.N + 1)), (D0 V c).owed t = 0)
    (hrec0 : ∀ (V : VT F) (c : Dev nD) (t : Fin (cfg0.N + 1)), (D0 V c).recorded t = Set.univ)
    (hin0 : ∀ (V : VT F) (c : Dev nD), (Pipeline.ΦA spec0 c : sProp 𝕄) ⊢ (D0 V c).Φ 0)
    (hout0 : ∀ (V : VT F) (c : Dev nD), (D0 V c).Φ (Fin.last cfg0.N) ⊢ (Pipeline.ΦA spec0 c : sProp 𝕄))
    (hb0 : ∀ (V : VT F) (c : Dev nD), BodyObligation (D0 V c) (defs₀ (F := F)) Variants.none () Set.univ)
    (hA1 : ∀ (V : VT F) (c : Dev nD) (w : Fin cfg1.W), (D1 V c).A w = V c (Pipeline.arrRef spec1 w))
    (hq1 : ∀ (V : VT F) (c : Dev nD) (w : Fin cfg1.W), (D1 V c).q w = fullShare)
    (how1 : ∀ (V : VT F) (c : Dev nD) (t : Fin (cfg1.N + 1)), (D1 V c).owed t = 0)
    (hrec1 : ∀ (V : VT F) (c : Dev nD) (t : Fin (cfg1.N + 1)), (D1 V c).recorded t = Set.univ)
    (hin1 : ∀ (V : VT F) (c : Dev nD), (Pipeline.ΦA spec1 c : sProp 𝕄) ⊢ (D1 V c).Φ 0)
    (hout1 : ∀ (V : VT F) (c : Dev nD), (D1 V c).Φ (Fin.last cfg1.N) ⊢ (Pipeline.ΦA spec1 c : sProp 𝕄))
    (hb1 : ∀ (V : VT F) (c : Dev nD), BodyObligation (D1 V c) (defs₀ (F := F)) Variants.none () Set.univ)
    (hA2 : ∀ (V : VT F) (c : Dev nD) (w : Fin cfg2.W), (D2 V c).A w = V c (Pipeline.arrRef spec2 w))
    (hq2 : ∀ (V : VT F) (c : Dev nD) (w : Fin cfg2.W), (D2 V c).q w = fullShare)
    (how2 : ∀ (V : VT F) (c : Dev nD) (t : Fin (cfg2.N + 1)), (D2 V c).owed t = 0)
    (hrec2 : ∀ (V : VT F) (c : Dev nD) (t : Fin (cfg2.N + 1)), (D2 V c).recorded t = Set.univ)
    (hin2 : ∀ (V : VT F) (c : Dev nD), (Pipeline.ΦA spec2 c : sProp 𝕄) ⊢ (D2 V c).Φ 0)
    (hout2 : ∀ (V : VT F) (c : Dev nD), (D2 V c).Φ (Fin.last cfg2.N) ⊢ (Pipeline.ΦA spec2 c : sProp 𝕄))
    (hb2 : ∀ (V : VT F) (c : Dev nD), BodyObligation (D2 V c) (defs₀ (F := F)) Variants.none () Set.univ)
    (hA3 : ∀ (V : VT F) (c : Dev nD) (w : Fin cfg3.W), (D3 V c).A w = V c (Pipeline.arrRef spec3 w))
    (hq3 : ∀ (V : VT F) (c : Dev nD) (w : Fin cfg3.W), (D3 V c).q w = fullShare)
    (how3 : ∀ (V : VT F) (c : Dev nD) (t : Fin (cfg3.N + 1)), (D3 V c).owed t = 0)
    (hrec3 : ∀ (V : VT F) (c : Dev nD) (t : Fin (cfg3.N + 1)), (D3 V c).recorded t = Set.univ)
    (hin3 : ∀ (V : VT F) (c : Dev nD), (Pipeline.ΦA spec3 c : sProp 𝕄) ⊢ (D3 V c).Φ 0)
    (hout3 : ∀ (V : VT F) (c : Dev nD), (D3 V c).Φ (Fin.last cfg3.N) ⊢ (Pipeline.ΦA spec3 c : sProp 𝕄))
    (hb3 : ∀ (V : VT F) (c : Dev nD), BodyObligation (D3 V c) (defs₀ (F := F)) Variants.none () Set.univ)
    (hA4 : ∀ (V : VT F) (c : Dev nD) (w : Fin cfg4.W), (D4 V c).A w = V c (Pipeline.arrRef spec4 w))
    (hq4 : ∀ (V : VT F) (c : Dev nD) (w : Fin cfg4.W), (D4 V c).q w = fullShare)
    (how4 : ∀ (V : VT F) (c : Dev nD) (t : Fin (cfg4.N + 1)), (D4 V c).owed t = 0)
    (hrec4 : ∀ (V : VT F) (c : Dev nD) (t : Fin (cfg4.N + 1)), (D4 V c).recorded t = Set.univ)
    (hin4 : ∀ (V : VT F) (c : Dev nD), (Pipeline.ΦA spec4 c : sProp 𝕄) ⊢ (D4 V c).Φ 0)
    (hout4 : ∀ (V : VT F) (c : Dev nD), (D4 V c).Φ (Fin.last cfg4.N) ⊢ (Pipeline.ΦA spec4 c : sProp 𝕄))
    (hb4 : ∀ (V : VT F) (c : Dev nD), BodyObligation (D4 V c) (defs₀ (F := F)) Variants.none () Set.univ)
    (c : Dev nD) : main (F := F) c = Pipeline.Seg.run (segs m D0 D1 D2 D3 D4 hA0 hq0 how0 hrec0 hin0 hout0 hb0 hA1 hq1 how1 hrec1 hin1 hout1 hb1 hA2 hq2 how2 hrec2 hin2 hout2 hb2 hA3 hq3 how3 hrec3 hin3 hout3 hb3 hA4 hq4 how4 hrec4 hin4 hout4 hb4) :=
  (main_chain c).trans (by chain_rfl)

set_option backward.isDefEq.respectTransparency.types false in
/-- THE RUN: from any memory with zero counters every weakly fair execution of @main terminates, nothing
    faulting, and the final memory holds every unscoped buffer at the last boundary's contents. -/
theorem run_all
    (hA0 : ∀ (V : VT F) (c : Dev nD) (w : Fin cfg0.W), (D0 V c).A w = V c (Pipeline.arrRef spec0 w))
    (hq0 : ∀ (V : VT F) (c : Dev nD) (w : Fin cfg0.W), (D0 V c).q w = fullShare)
    (how0 : ∀ (V : VT F) (c : Dev nD) (t : Fin (cfg0.N + 1)), (D0 V c).owed t = 0)
    (hrec0 : ∀ (V : VT F) (c : Dev nD) (t : Fin (cfg0.N + 1)), (D0 V c).recorded t = Set.univ)
    (hin0 : ∀ (V : VT F) (c : Dev nD), (Pipeline.ΦA spec0 c : sProp 𝕄) ⊢ (D0 V c).Φ 0)
    (hout0 : ∀ (V : VT F) (c : Dev nD), (D0 V c).Φ (Fin.last cfg0.N) ⊢ (Pipeline.ΦA spec0 c : sProp 𝕄))
    (hb0 : ∀ (V : VT F) (c : Dev nD), BodyObligation (D0 V c) (defs₀ (F := F)) Variants.none () Set.univ)
    (hA1 : ∀ (V : VT F) (c : Dev nD) (w : Fin cfg1.W), (D1 V c).A w = V c (Pipeline.arrRef spec1 w))
    (hq1 : ∀ (V : VT F) (c : Dev nD) (w : Fin cfg1.W), (D1 V c).q w = fullShare)
    (how1 : ∀ (V : VT F) (c : Dev nD) (t : Fin (cfg1.N + 1)), (D1 V c).owed t = 0)
    (hrec1 : ∀ (V : VT F) (c : Dev nD) (t : Fin (cfg1.N + 1)), (D1 V c).recorded t = Set.univ)
    (hin1 : ∀ (V : VT F) (c : Dev nD), (Pipeline.ΦA spec1 c : sProp 𝕄) ⊢ (D1 V c).Φ 0)
    (hout1 : ∀ (V : VT F) (c : Dev nD), (D1 V c).Φ (Fin.last cfg1.N) ⊢ (Pipeline.ΦA spec1 c : sProp 𝕄))
    (hb1 : ∀ (V : VT F) (c : Dev nD), BodyObligation (D1 V c) (defs₀ (F := F)) Variants.none () Set.univ)
    (hA2 : ∀ (V : VT F) (c : Dev nD) (w : Fin cfg2.W), (D2 V c).A w = V c (Pipeline.arrRef spec2 w))
    (hq2 : ∀ (V : VT F) (c : Dev nD) (w : Fin cfg2.W), (D2 V c).q w = fullShare)
    (how2 : ∀ (V : VT F) (c : Dev nD) (t : Fin (cfg2.N + 1)), (D2 V c).owed t = 0)
    (hrec2 : ∀ (V : VT F) (c : Dev nD) (t : Fin (cfg2.N + 1)), (D2 V c).recorded t = Set.univ)
    (hin2 : ∀ (V : VT F) (c : Dev nD), (Pipeline.ΦA spec2 c : sProp 𝕄) ⊢ (D2 V c).Φ 0)
    (hout2 : ∀ (V : VT F) (c : Dev nD), (D2 V c).Φ (Fin.last cfg2.N) ⊢ (Pipeline.ΦA spec2 c : sProp 𝕄))
    (hb2 : ∀ (V : VT F) (c : Dev nD), BodyObligation (D2 V c) (defs₀ (F := F)) Variants.none () Set.univ)
    (hA3 : ∀ (V : VT F) (c : Dev nD) (w : Fin cfg3.W), (D3 V c).A w = V c (Pipeline.arrRef spec3 w))
    (hq3 : ∀ (V : VT F) (c : Dev nD) (w : Fin cfg3.W), (D3 V c).q w = fullShare)
    (how3 : ∀ (V : VT F) (c : Dev nD) (t : Fin (cfg3.N + 1)), (D3 V c).owed t = 0)
    (hrec3 : ∀ (V : VT F) (c : Dev nD) (t : Fin (cfg3.N + 1)), (D3 V c).recorded t = Set.univ)
    (hin3 : ∀ (V : VT F) (c : Dev nD), (Pipeline.ΦA spec3 c : sProp 𝕄) ⊢ (D3 V c).Φ 0)
    (hout3 : ∀ (V : VT F) (c : Dev nD), (D3 V c).Φ (Fin.last cfg3.N) ⊢ (Pipeline.ΦA spec3 c : sProp 𝕄))
    (hb3 : ∀ (V : VT F) (c : Dev nD), BodyObligation (D3 V c) (defs₀ (F := F)) Variants.none () Set.univ)
    (hA4 : ∀ (V : VT F) (c : Dev nD) (w : Fin cfg4.W), (D4 V c).A w = V c (Pipeline.arrRef spec4 w))
    (hq4 : ∀ (V : VT F) (c : Dev nD) (w : Fin cfg4.W), (D4 V c).q w = fullShare)
    (how4 : ∀ (V : VT F) (c : Dev nD) (t : Fin (cfg4.N + 1)), (D4 V c).owed t = 0)
    (hrec4 : ∀ (V : VT F) (c : Dev nD) (t : Fin (cfg4.N + 1)), (D4 V c).recorded t = Set.univ)
    (hin4 : ∀ (V : VT F) (c : Dev nD), (Pipeline.ΦA spec4 c : sProp 𝕄) ⊢ (D4 V c).Φ 0)
    (hout4 : ∀ (V : VT F) (c : Dev nD), (D4 V c).Φ (Fin.last cfg4.N) ⊢ (Pipeline.ΦA spec4 c : sProp 𝕄))
    (hb4 : ∀ (V : VT F) (c : Dev nD), BodyObligation (D4 V c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = B9 m D0 D1 D2 D3 D4 c b) :=
  Pipeline.θ_run_regions_kit (pcfgs (F := F)) adm (pdats m D0 D1 D2 D3 D4) () cellOf_inj emb₁ defs₀ 𝒱₀ L lv m ρ main
    (segs m D0 D1 D2 D3 D4 hA0 hq0 how0 hrec0 hin0 hout0 hb0 hA1 hq1 how1 hrec1 hin1 hout1 hb1 hA2 hq2 how2 hrec2 hin2 hout2 hb2 hA3 hq3 how3 hrec3 hin3 hout3 hb3 hA4 hq4 how4 hrec4 hin4 hout4 hb4)
    (fun c Q => by rw [main_run m D0 D1 D2 D3 D4 hA0 hq0 how0 hrec0 hin0 hout0 hb0 hA1 hq1 how1 hrec1 hin1 hout1 hb1 hA2 hq2 how2 hrec2 hin2 hout2 hb2 hA3 hq3 how3 hrec3 hin3 hout3 hb3 hA4 hq4 how4 hrec4 hin4 hout4 hb4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => iprop(StableHlo.held (c : Thread nD τ) (Pipeline.ucRefs τ sig) (B9 m D0 D1 D2 D3 D4 c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (B9 m D0 D1 D2 D3 D4 c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m D0 D1 D2 D3 D4 c b)
    (hfin := fun c s' => by
      iintro ⟨⟨Hh, -⟩, HSI⟩
      unfold StableHlo.held
      imodintro
      iapply (pointsTo_read_all (Pipeline.ucRefs τ sig) (fun b => (((c : Thread nD τ)).1, b)) (B9 m D0 D1 D2 D3 D4 c) s')
      isplitl [Hh] <;> iassumption)
    (hQ := fun s h c => h c)

end Cert.Kernel.Hand

end
-- ==== Proof.K.Reg0.lean ====
/-
  Region 0 (the first layer's kernel, relu(X·W1) one row block at a time): the pipeline's proof data and the body
  obligation. The body loads both input buffers whole, multiplies into a zero accumulator, takes the maximum with
  zero and stores the output buffer whole; so after the body each input buffer holds its block still and the output
  buffer the payload of the two blocks.
-/
import proofs.«106620_j12240656794038_1_alg».proof.Proof.Gen.Kernel.Launch
import proofs.«106620_j12240656794038_1_alg».proof.Proof.Gen.Kernel.Skeleton
import proofs.«106620_j12240656794038_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point has the block index of the point before it, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_2 : Rect S2048x256 := Rect.unit (s := S2048x256) ![0, 0] S2048x256.size inb_S2048x256_S2048x256_0_0

/-! ## What the body leaves in the output window's buffer -/

/-- Window 2's staging buffer after the body, from the input windows' blocks: its one store, of the whole buffer. -/
def out0_2 (x0 : Vec F S2048x256 .f32) (x1 : Vec F S256x256 .f32) : Vec F S2048x256 .f32 :=
  View.canon [⟨r0_2, k0_pay1 (View.ld x0 r0_0) (View.ld x1 r0_1)⟩]

/-- The store is of the whole buffer, so it covers it. -/
theorem cover0_2 (p0 : Vec F S2048x256 .f32) (y : S2048x256.Idx) :
    ∃ pc ∈ ([⟨r0_2, p0⟩] : List (View.Piece (Elt F) S2048x256 .f32)), y ∈ pc.1.set :=
  View.cover_of_tiled [⟨r0_2, p0⟩] S2048x256.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords) (arg0 : Memref sig .tc .vmem S2048x256 .f32) (harg0 : arg0.IsWhole) (arg1 : Memref sig .tc .vmem S256x256 .f32) (harg1 : arg1.IsWhole) (arg2 : Memref sig .tc .vmem S2048x256 .f32) (harg2 : arg2.IsWhole)
    (x0 : Vec F S2048x256 .f32) (x1 : Vec F S256x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__h1_kernel i arg0 harg0 arg1 harg1 arg2 harg2) K := by
  simp only [cc0__h1_kernel_eq_skeleton]; unfold cc0__h1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The proof data's invariant is the scoped rest and the generator register at every point. -/
theorem Phi0 (c : Dev nD) (t) : (dat0 V c).Φ t = Pipeline.ΦA spec0 c := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/- Region 1 of @main (the encoder/decoder kernel, pipeline 1, a grid of 8 points): the class-A half of its frame,
   at a parameter `V` — the TensorCore's buffer contents when the region is entered. Each window's block at a point
   (`iblk1`), every input window's staging buffer at its block whether or not the point fetches it (`before1_W`),
   each output window's buffer after the body as the canonical contents of its one whole-buffer store over the
   skeleton's payloads (`out1_W`), the body's triple by symbolic execution through both part calls
   (`sound_kernel1`), the proof data (`dat1`) and the body obligation (`body_obligation1`). -/
import proofs.«106620_j12240656794038_1_alg».proof.Proof.Gen.Kernel.Launch
import proofs.«106620_j12240656794038_1_alg».proof.Proof.Gen.Kernel.Skeleton
import proofs.«106620_j12240656794038_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not (unfetched, the
    block index has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of a whole buffer -/

abbrev r1_0 : Rect S512x256 := Rect.unit (s := S512x256) ![0, 0] S512x256.size inb_S512x256_S512x256_0_0
abbrev r1_1 : Rect S256x128 := Rect.unit (s := S256x128) ![0, 0] S256x128.size inb_S256x128_S256x128_0_0
abbrev r1_2 : Rect S128x256 := Rect.unit (s := S128x256) ![0, 0] S128x256.size inb_S128x256_S128x256_0_0
abbrev r1_3 : Rect S256x256 := Rect.unit (s := S256x256) ![0, 0] S256x256.size inb_S256x256_S256x256_0_0
abbrev r1_4 : Rect S512x128 := Rect.unit (s := S512x128) ![0, 0] S512x128.size inb_S512x128_S512x128_0_0

/-! ## What the body leaves in each output window's buffer -/

/-- Window 7's staging buffer after the body, from the input windows' blocks: its one store as a piece. -/
def out1_7 (x0 : Vec F S512x256 .f32) (x1 : Vec F S256x128 .f32) (x2 : Vec F S256x128 .f32) (x3 : Vec F S128x256 .f32) (x4 : Vec F S256x256 .f32) (x5 : Vec F S256x256 .f32) (x6 : Vec F S256x256 .f32) : Vec F S512x128 .f32 :=
  View.canon [⟨r1_4, k1_pay2 (View.ld x0 r1_0) (View.ld x1 r1_1)⟩]

/-- The store fills the whole buffer, so it covers it. -/
theorem cover1_7 (p0 : Vec F S512x128 .f32) (y : S512x128.Idx) :
    ∃ pc ∈ ([⟨r1_4, p0⟩] : List (View.Piece (Elt F) S512x128 .f32)), y ∈ pc.1.set :=
  View.cover_of_tiled [⟨r1_4, p0⟩] S512x128.size (by rfl) y

/-- Window 8's staging buffer after the body, from the input windows' blocks: its one store as a piece. -/
def out1_8 (x0 : Vec F S512x256 .f32) (x1 : Vec F S256x128 .f32) (x2 : Vec F S256x128 .f32) (x3 : Vec F S128x256 .f32) (x4 : Vec F S256x256 .f32) (x5 : Vec F S256x256 .f32) (x6 : Vec F S256x256 .f32) : Vec F S512x128 .f32 :=
  View.canon [⟨r1_4, k1_pay3 (View.ld x0 r1_0) (View.ld x2 r1_1)⟩]

/-- The store fills the whole buffer, so it covers it. -/
theorem cover1_8 (p0 : Vec F S512x128 .f32) (y : S512x128.Idx) :
    ∃ pc ∈ ([⟨r1_4, p0⟩] : List (View.Piece (Elt F) S512x128 .f32)), y ∈ pc.1.set :=
  View.cover_of_tiled [⟨r1_4, p0⟩] S512x128.size (by rfl) y

/-- Window 9's staging buffer after the body, from the input windows' blocks: its one store as a piece. -/
def out1_9 (x0 : Vec F S512x256 .f32) (x1 : Vec F S256x128 .f32) (x2 : Vec F S256x128 .f32) (x3 : Vec F S128x256 .f32) (x4 : Vec F S256x256 .f32) (x5 : Vec F S256x256 .f32) (x6 : Vec F S256x256 .f32) : Vec F S512x256 .f32 :=
  View.canon [⟨r1_0, k1_pay6 (k1_pay4 (View.ld x0 r1_0) (View.ld x1 r1_1) (View.ld x3 r1_2)) (View.ld x4 r1_3) (View.ld x5 r1_3)⟩]

/-- The store fills the whole buffer, so it covers it. -/
theorem cover1_9 (p0 : Vec F S512x256 .f32) (y : S512x256.Idx) :
    ∃ pc ∈ ([⟨r1_0, p0⟩] : List (View.Piece (Elt F) S512x256 .f32)), y ∈ pc.1.set :=
  View.cover_of_tiled [⟨r1_0, p0⟩] S512x256.size (by rfl) y

/-- Window 10's staging buffer after the body, from the input windows' blocks: its one store as a piece. -/
def out1_10 (x0 : Vec F S512x256 .f32) (x1 : Vec F S256x128 .f32) (x2 : Vec F S256x128 .f32) (x3 : Vec F S128x256 .f32) (x4 : Vec F S256x256 .f32) (x5 : Vec F S256x256 .f32) (x6 : Vec F S256x256 .f32) : Vec F S512x256 .f32 :=
  View.canon [⟨r1_0, k1_pay7 (k1_pay4 (View.ld x0 r1_0) (View.ld x1 r1_1) (View.ld x3 r1_2)) (View.ld x4 r1_3) (View.ld x6 r1_3)⟩]

/-- The store fills the whole buffer, so it covers it. -/
theorem cover1_10 (p0 : Vec F S512x256 .f32) (y : S512x256.Idx) :
    ∃ pc ∈ ([⟨r1_0, p0⟩] : List (View.Piece (Elt F) S512x256 .f32)), y ∈ pc.1.set :=
  View.cover_of_tiled [⟨r1_0, p0⟩] S512x256.size (by rfl) y

/-! ## The body's triple -/

set_option maxHeartbeats 4000000 in
/-- The kernel body on whole staging memrefs, the inputs' at read contents `xW` and the outputs' at anything, runs to
    the continuation holding the inputs' as they were and each output's at `out1_W` of the inputs': the printed
    functions are their skeletons, which symbolic execution runs, through both part calls. -/
theorem sound_kernel1 (c : Dev nD) (E : Set ℕ) (i : grid1.Coords) (arg1 : Memref sig .tc .vmem S512x256 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S128x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .f32) (harg10 : arg10.IsWhole) (arg11 : Memref sig .tc .vmem S512x256 .f32) (harg11 : arg11.IsWhole)
    (x0 : Vec F S512x256 .f32) (x1 : Vec F S256x128 .f32) (x2 : Vec F S256x128 .f32) (x3 : Vec F S128x256 .f32) (x4 : Vec F S256x256 .f32) (x5 : Vec F S256x256 .f32) (x6 : Vec F S256x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare (out1_7 x0 x1 x2 x3 x4 x5 x6)
          ∗ owns (c : Thread nD τ) arg9 fullShare (out1_8 x0 x1 x2 x3 x4 x5 x6)
          ∗ owns (c : Thread nD τ) arg10 fullShare (out1_9 x0 x1 x2 x3 x4 x5 x6)
          ∗ owns (c : Thread nD τ) arg11 fullShare (out1_10 x0 x1 x2 x3 x4 x5 x6)) -∗ K ⟨⟩))
      ⊢ wp frame (wpE (defs₀ (F := F)) Variants.none c none) E (cc1__encdec_kernel i arg1 harg1 arg2 harg2 arg3 harg3 arg4 harg4 arg5 harg5 arg6 harg6 arg7 harg7 arg8 harg8 arg9 harg9 arg10 harg10 arg11 harg11) K := by
  simp only [cc1__encdec_kernel_eq_skeleton]; unfold cc1__encdec_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  isplitl [H8]
  · iexists _; isplitr
    swap; · iexact H8
    ipureintro
    try dsimp only
    exact View.read_writes_eq_canon _ _ _ (cover1_8 _)
  isplitl [H9]
  · iexists _; isplitr
    swap; · iexact H9
    ipureintro
    try dsimp only
    exact View.read_writes_eq_canon _ _ _ (cover1_9 _)
  iexists _; isplitr
  swap; · iexact H10
  ipureintro
  try dsimp only
  exact View.read_writes_eq_canon _ _ _ (cover1_10 _)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
    | ⟨10, _⟩ => out1_10 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The proof data's invariant is the class's, at every point. -/
theorem Phi1 (c : Dev nD) (t) : (dat1 V c).Φ t = Pipeline.ΦA spec1 c := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand
-- ==== Proof.K.Reg2.lean ====
/-
  Region 2 (the reconstruction kernel, e1·e2ᵀ one 1024×1024 tile at a time): the pipeline's proof data and the body
  obligation. The body loads both input buffers whole, contracts their second axes into a zero accumulator and
  stores the output buffer whole; so after the body each input buffer holds its block still and the output buffer
  the payload of the two blocks.
-/
import proofs.«106620_j12240656794038_1_alg».proof.Proof.Gen.Kernel.Launch
import proofs.«106620_j12240656794038_1_alg».proof.Proof.Gen.Kernel.Skeleton
import proofs.«106620_j12240656794038_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    point has the block index of the point before it, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x256 := Rect.unit (s := S1024x256) ![0, 0] S1024x256.size inb_S1024x256_S1024x256_0_0
abbrev r2_1 : Rect S1024x256 := Rect.unit (s := S1024x256) ![0, 0] S1024x256.size inb_S1024x256_S1024x256_0_0
abbrev r2_2 : Rect S1024x1024 := Rect.unit (s := S1024x1024) ![0, 0] S1024x1024.size inb_S1024x1024_S1024x1024_0_0

/-! ## What the body leaves in the output window's buffer -/

/-- Window 2's staging buffer after the body, from the input windows' blocks: its one store, of the whole buffer. -/
def out2_2 (x0 : Vec F S1024x256 .f32) (x1 : Vec F S1024x256 .f32) : Vec F S1024x1024 .f32 :=
  View.canon [⟨r2_2, k2_pay1 (View.ld x0 r2_0) (View.ld x1 r2_1)⟩]

/-- The store is of the whole buffer, so it covers it. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

/-! ## The body's triple -/

set_option maxHeartbeats 1000000 in
/-- The kernel body on whole staging memrefs, the inputs' at read contents `x0`, `x1` and the output's at anything,
    runs to the continuation holding the inputs' as they were and the output's at `out2_2` of the inputs'. -/
theorem sound_kernel2 (c : Dev nD) (E : Set ℕ) (i : grid2.Coords) (arg0 : Memref sig .tc .vmem S1024x256 .f32) (harg0 : arg0.IsWhole) (arg1 : Memref sig .tc .vmem S1024x256 .f32) (harg1 : arg1.IsWhole) (arg2 : Memref sig .tc .vmem S1024x1024 .f32) (harg2 : arg2.IsWhole)
    (x0 : Vec F S1024x256 .f32) (x1 : Vec F S1024x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__reconst_kernel i arg0 harg0 arg1 harg1 arg2 harg2) K := by
  simp only [cc2__reconst_kernel_eq_skeleton]; unfold cc2__reconst_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- The proof data's invariant is the scoped rest and the generator register at every point. -/
theorem Phi2 (c : Dev nD) (t) : (dat2 V c).Φ t = Pipeline.ΦA spec2 c := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3Runs.lean ====
import proofs.«106620_j12240656794038_1_alg».proof.Proof.Gen.Kernel.Launch
import proofs.«106620_j12240656794038_1_alg».proof.Proof.Gen.Kernel.Skeleton
import proofs.«106620_j12240656794038_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end

/-! ## The body's branch conditions -/

/-- The condition of the body's first `scf.if` (the contraction block is the first), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The condition of the body's second `scf.if` (the contraction block is the last). -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
theorem liveAt3_2_C : ∀ t : Fin cfg3.N, ¬cond3_0 (grid3.coords t) → cond3_1 (grid3.coords t) → cfg3.idle 2 (grid3.coords t) = false := by decide +kernel

/-! ## The staging and scratch memrefs -/

/-- One staging buffer of output window 2, through which its contents are stated. -/
abbrev VO3_2 : View sig .tc .vmem S1024x256 .f32 := (Memref.whole cc3_stg2_0 : Memref sig .tc .vmem S1024x256 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x256 .f32 := win3_2.stage (cfg3.slots t 2)
abbrev hs3_2 (t : Fin cfg3.N) : (ms3_2 t).IsWhole := hstage3_2 ((cfg3.slots t 2).cast nbuf3_2)
/-- The scratch operand: a whole scoped buffer of the kernel's own, passed beside the windows. -/
abbrev scM3_0 : Memref sig .tc .vmem S1024x256 .f32 := Memref.whole cc3_scratch0
/-- The scratch the kernel carries between points, as a view. -/
abbrev VS3_0 : View sig .tc .vmem S1024x256 .f32 := scM3_0.view

/-- Every scoped buffer other than the windows' staging buffers and the carried scratch, unopened. -/
abbrev rest3 (c : Dev nD) : sProp 𝕄 :=
  Pipeline.scopedRestBut (Ix := Unit) (Name := ℕ) (U := UR sig nD τ) (Lvl := ℕ) (Val := Elt F) spec3 c [cc3_scratch0]

/-- The region's invariant with the scratch operand as a memref owned at some contents, beside the unopened rest. -/
theorem PhiA3_eq (c : Dev nD) :
    (Pipeline.ΦA spec3 c : sProp 𝕄)
      = iprop(iprop(iprop((∃ d, owns (c : Thread nD τ) scM3_0 fullShare d)) ∗ rest3 (F := F) c) ∗ (∃ r, prngReg c r)) := by
  unfold Pipeline.ΦA; rw [scopedRest3_split]; simp only [scM3_0, owns_whole]; try rfl

end Cert.Kernel.Hand

end
-- ==== Proof.K.Reg3RunA.lean ====
import proofs.«106620_j12240656794038_1_alg».proof.Proof.K.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of the first contraction block: the scratch is stored whole (zeros), then the accumulated product is stored into it; the output is not touched —
    with the proof that on whole memrefs the body runs to the continuation holding the inputs' buffers as they were and each stored buffer
    with its pieces written. The pieces are the witness the run finds. -/
noncomputable def kernelRun3_A (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .f32) (x1 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__adjxw_kernel i arg2 harg2 arg3 harg3 arg4 harg4 arg5 harg5) K } := by
  refine ⟨[], ?_, fun xi2 E K => ?run⟩
  case run =>
    simp only [cc3__adjxw_kernel_eq_skeleton]; unfold cc3__adjxw_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Reg3RunB.lean ====
import proofs.«106620_j12240656794038_1_alg».proof.Proof.K.Reg3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of a middle contraction block: the accumulated product is stored into the scratch; the output is not touched —
    with the proof that on whole memrefs the body runs to the continuation holding the inputs' buffers as they were and each stored buffer
    with its pieces written. The pieces are the witness the run finds. -/
noncomputable def kernelRun3_B (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__adjxw_kernel i arg2 harg2 arg3 harg3 arg4 harg4 arg5 harg5) K } := by
  refine ⟨[], ?_, fun xi2 E K => ?run⟩
  case run =>
    simp only [cc3__adjxw_kernel_eq_skeleton]; unfold cc3__adjxw_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Reg3RunC.lean ====
import proofs.«106620_j12240656794038_1_alg».proof.Proof.K.Reg3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of the last contraction block: the accumulated product is stored into the scratch, and the scratch is copied into the output —
    with the proof that on whole memrefs the body runs to the continuation holding the inputs' buffers as they were and each stored buffer
    with its pieces written. The pieces are the witness the run finds. -/
noncomputable def kernelRun3_C (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__adjxw_kernel i arg2 harg2 arg3 harg3 arg4 harg4 arg5 harg5) K } := by
  refine ⟨?_, ?_, fun E K => ?run⟩
  case run =>
    simp only [cc3__adjxw_kernel_eq_skeleton]; unfold cc3__adjxw_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Reg3.lean ====
import proofs.«106620_j12240656794038_1_alg».proof.Proof.K.Reg3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back over junk (no pieces: a placeholder nothing consults, the window being idle and not written back at these points). -/
def out3_A_2 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .f32) (x1 : Vec F S1024x256 .f32) : Vec F S1024x256 .f32 :=
  VO3_2.read (Elt F) (VO3_2.writes (Elt F) VO3_2.junk (kernelRun3_A c i arg2 harg2 arg3 harg3 arg4 harg4 arg5 harg5 hc0 hc1 x0 x1).1)

/-- Case A's pieces for the carried scratch cover it. -/
theorem scover3_A_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .f32) (x1 : Vec F S1024x256 .f32) (y : S1024x256.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1024x256.size (by sl_kernel_rfl) y

/-- What case A leaves in the carried scratch: its pieces read back over junk. -/
def sout3_A_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .f32) (x1 : Vec F S1024x256 .f32) : Vec F S1024x256 .f32 :=
  VS3_0.read (Elt F) (VS3_0.writes (Elt F) VS3_0.junk (kernelRun3_A c i arg2 harg2 arg3 harg3 arg4 harg4 arg5 harg5 hc0 hc1 x0 x1).2.1)

/-- What case B leaves in the output's staging buffer: its pieces read back over junk (no pieces: a placeholder nothing consults, the window being idle and not written back at these points). -/
def out3_B_2 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .f32) (x1 : Vec F S1024x256 .f32) (xs0 : Vec F S1024x256 .f32) : Vec F S1024x256 .f32 :=
  VO3_2.read (Elt F) (VO3_2.writes (Elt F) VO3_2.junk (kernelRun3_B c i arg2 harg2 arg3 harg3 arg4 harg4 arg5 harg5 hc0 hc1 x0 x1 xs0).1)

/-- Case B's pieces for the carried scratch cover it. -/
theorem scover3_B_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .f32) (x1 : Vec F S1024x256 .f32) (xs0 : Vec F S1024x256 .f32) (y : S1024x256.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1024x256.size (by sl_kernel_rfl) y

/-- What case B leaves in the carried scratch: its pieces read back over junk. -/
def sout3_B_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .f32) (x1 : Vec F S1024x256 .f32) (xs0 : Vec F S1024x256 .f32) : Vec F S1024x256 .f32 :=
  VS3_0.read (Elt F) (VS3_0.writes (Elt F) VS3_0.junk (kernelRun3_B c i arg2 harg2 arg3 harg3 arg4 harg4 arg5 harg5 hc0 hc1 x0 x1 xs0).2.1)

/-- In the last-block case the pieces stored into the output tile its block, so they cover it. -/
theorem cover3_C_2 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .f32) (x1 : Vec F S1024x256 .f32) (xs0 : Vec F S1024x256 .f32) (y : S1024x256.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S1024x256.size (by sl_kernel_rfl) y

/-- What case C leaves in the output's staging buffer: its pieces read back over junk. -/
def out3_C_2 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .f32) (x1 : Vec F S1024x256 .f32) (xs0 : Vec F S1024x256 .f32) : Vec F S1024x256 .f32 :=
  VO3_2.read (Elt F) (VO3_2.writes (Elt F) VO3_2.junk (kernelRun3_C c i arg2 harg2 arg3 harg3 arg4 harg4 arg5 harg5 hc0 hc1 x0 x1 xs0).1)

/-- Case C's pieces for the carried scratch cover it. -/
theorem scover3_C_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .f32) (x1 : Vec F S1024x256 .f32) (xs0 : Vec F S1024x256 .f32) (y : S1024x256.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S1024x256.size (by sl_kernel_rfl) y

/-- What case C leaves in the carried scratch: its pieces read back over junk. -/
def sout3_C_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .f32) (x1 : Vec F S1024x256 .f32) (xs0 : Vec F S1024x256 .f32) : Vec F S1024x256 .f32 :=
  VS3_0.read (Elt F) (VS3_0.writes (Elt F) VS3_0.junk (kernelRun3_C c i arg2 harg2 arg3 harg3 arg4 harg4 arg5 harg5 hc0 hc1 x0 x1 xs0).2.1)

section
-- the TensorCore's buffer contents when the region is entered
variable (V : (c : Dev nD) → (b : Ref sig .tc) → Buf (Elt F) ((c : Thread nD τ).loc b))

/-! ## What the output and the scratch hold after each point -/

/-- The accumulation: what the output's staging buffer and the carried scratch hold after the body at position `n`
    (the output first, then the scratch): the case the closed forms select at `n`, run at the point's memrefs and input
    blocks, over what the scratch held after position `n - 1`. -/
def outsAt3 (c : Dev nD) : (n : ℕ) → n < cfg3.N → Vec F S1024x256 .f32 × Vec F S1024x256 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 4 = 0 then
      if h1 : (n + 1) % 4 = 3 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 4 = 3 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at a point of case A. -/
theorem outsAt3_A (c : Dev nD) (t : Fin cfg3.N) (h0 : t.val % 4 = 0) (h1 : ¬t.val % 4 = 3) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 4 = 0) (h1 : ¬t.val % 4 = 3) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 4 = 0) (h1 : t.val % 4 = 3) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's own (every scoped buffer at anything);
    afterwards the carried scratch at what the point before left in it, beside the unopened rest of the scoped buffers and
    the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

theorem owed3 (c : Dev nD) (t) : (dat3 V c).owed t = 0 := rfl
theorem share3 (c : Dev nD) (w) : (dat3 V c).q w = fullShare := rfl

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

/-- The inputs' buffers are handed back at their blocks. -/
theorem leaves3_0 (c : Dev nD) (t : Fin cfg3.N) :
    (dat3 V c).leavesExact 0 t = owns (c : Thread nD τ) (ms3_0 t) fullShare (iblk3 V c 0 t) := by
  rw [show (dat3 V c).leavesExact 0 t = owns (c : Thread nD τ) (ms3_0 t) fullShare ((dat3 V c).after 0 t) from by
    unfold Dat.leavesExact; rw [liveAt3_0 t], after3_0]
theorem leaves3_1 (c : Dev nD) (t : Fin cfg3.N) :
    (dat3 V c).leavesExact 1 t = owns (c : Thread nD τ) (ms3_1 t) fullShare (iblk3 V c 1 t) := by
  rw [show (dat3 V c).leavesExact 1 t = owns (c : Thread nD τ) (ms3_1 t) fullShare ((dat3 V c).after 1 t) from by
    unfold Dat.leavesExact; rw [liveAt3_1 t], after3_1]

set_option maxHeartbeats 4800000 in
/-- The body at any point: the inputs' memrefs hold their blocks; the closed forms say which case the point is in; the
    invariant hands the body the carried scratch at what the point before left (at anything at the first point) and takes it
    back at this point's contents; the rest of the scoped buffers, the generator register and the core's debts pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [leaves3_0, leaves3_1]
  have hN : t.val < 16 := lt_of_lt_of_eq t.isLt (show cfg3.N = 16 from N_3)
  by_cases h0 : t.val % 4 = 0
  · by_cases h1 : t.val % 4 = 3
    · exfalso; omega
    · rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _)
            iexact HR
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 4 = 3
    · rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩⟩
        iapply ((kernelRun3_C c (grid3.coords t) _ _ _ _ _ _ _ _ (fun h => h0 ((hcond3_0 t).mp h)) ((hcond3_1 t).mpr h1) (iblk3 V c 0 t) (iblk3 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _)
    · rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩⟩
        iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's own back: the carried scratch's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 16 := N_3; omega)

end

end Cert.Kernel.Hand

end
-- ==== Proof.K.Reg4Runs.lean ====
import proofs.«106620_j12240656794038_1_alg».proof.Proof.Gen.Kernel.Launch
import proofs.«106620_j12240656794038_1_alg».proof.Proof.Gen.Kernel.Skeleton
import proofs.«106620_j12240656794038_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end

/-! ## The body's branch conditions -/

/-- The condition of the body's first `scf.if` (the contraction block is the first), from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 4). -/
theorem hcond4_0 : ∀ t : Fin cfg4.N, cond4_0 (grid4.coords t) ↔ t.val % 4 = 0 :=
  (by decide +kernel : ∀ t : Fin grid4.N, cond4_0 (grid4.coords t) ↔ t.val % 4 = 0)

/-- The condition of the body's second `scf.if` (the contraction block is the last). -/
abbrev cond4_1 (i : grid4.Coords) : Prop := k4_cond2 i = 1#1
/-- It holds at the points ≡ 3 (mod 4). -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem liveAt4_2_C : ∀ t : Fin cfg4.N, ¬cond4_0 (grid4.coords t) → cond4_1 (grid4.coords t) → cfg4.idle 2 (grid4.coords t) = false := by decide +kernel

/-! ## The staging and scratch memrefs -/

/-- One staging buffer of output window 2, through which its contents are stated. -/
abbrev VO4_2 : View sig .tc .vmem S1024x256 .f32 := (Memref.whole cc4_stg2_0 : Memref sig .tc .vmem S1024x256 .f32).view
abbrev ms4_0 (t : Fin cfg4.N) : Memref sig .tc .vmem S1024x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x256 .f32 := win4_2.stage (cfg4.slots t 2)
abbrev hs4_2 (t : Fin cfg4.N) : (ms4_2 t).IsWhole := hstage4_2 ((cfg4.slots t 2).cast nbuf4_2)
/-- The scratch operand: a whole scoped buffer of the kernel's own, passed beside the windows. -/
abbrev scM4_0 : Memref sig .tc .vmem S1024x256 .f32 := Memref.whole cc4_scratch0
/-- The scratch the kernel carries between points, as a view. -/
abbrev VS4_0 : View sig .tc .vmem S1024x256 .f32 := scM4_0.view

/-- Every scoped buffer other than the windows' staging buffers and the carried scratch, unopened. -/
abbrev rest4 (c : Dev nD) : sProp 𝕄 :=
  Pipeline.scopedRestBut (Ix := Unit) (Name := ℕ) (U := UR sig nD τ) (Lvl := ℕ) (Val := Elt F) spec4 c [cc4_scratch0]

/-- The region's invariant with the scratch operand as a memref owned at some contents, beside the unopened rest. -/
theorem PhiA4_eq (c : Dev nD) :
    (Pipeline.ΦA spec4 c : sProp 𝕄)
      = iprop(iprop(iprop((∃ d, owns (c : Thread nD τ) scM4_0 fullShare d)) ∗ rest4 (F := F) c) ∗ (∃ r, prngReg c r)) := by
  unfold Pipeline.ΦA; rw [scopedRest4_split]; simp only [scM4_0, owns_whole]; try rfl

end Cert.Kernel.Hand

end
-- ==== Proof.K.Reg4RunA.lean ====
import proofs.«106620_j12240656794038_1_alg».proof.Proof.K.Reg4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of the first contraction block: the scratch is stored whole (zeros), then the accumulated product is stored into it; the output is not touched —
    with the proof that on whole memrefs the body runs to the continuation holding the inputs' buffers as they were and each stored buffer
    with its pieces written. The pieces are the witness the run finds. -/
noncomputable def kernelRun4_A (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond4_0 i) (hc1 : ¬cond4_1 i)
    (x0 : Vec F S1024x1024 .f32) (x1 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__adjxw_kernel i arg2 harg2 arg3 harg3 arg4 harg4 arg5 harg5) K } := by
  refine ⟨[], ?_, fun xi2 E K => ?run⟩
  case run =>
    simp only [cc4__adjxw_kernel_eq_skeleton]; unfold cc4__adjxw_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Reg4RunB.lean ====
import proofs.«106620_j12240656794038_1_alg».proof.Proof.K.Reg4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of a middle contraction block: the accumulated product is stored into the scratch; the output is not touched —
    with the proof that on whole memrefs the body runs to the continuation holding the inputs' buffers as they were and each stored buffer
    with its pieces written. The pieces are the witness the run finds. -/
noncomputable def kernelRun4_B (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : ¬cond4_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__adjxw_kernel i arg2 harg2 arg3 harg3 arg4 harg4 arg5 harg5) K } := by
  refine ⟨[], ?_, fun xi2 E K => ?run⟩
  case run =>
    simp only [cc4__adjxw_kernel_eq_skeleton]; unfold cc4__adjxw_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.Reg4RunC.lean ====
import proofs.«106620_j12240656794038_1_alg».proof.Proof.K.Reg4RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of the last contraction block: the accumulated product is stored into the scratch, and the scratch is copied into the output —
    with the proof that on whole memrefs the body runs to the continuation holding the inputs' buffers as they were and each stored buffer
    with its pieces written. The pieces are the witness the run finds. -/
noncomputable def kernelRun4_C (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : cond4_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__adjxw_kernel i arg2 harg2 arg3 harg3 arg4 harg4 arg5 harg5) K } := by
  refine ⟨?_, ?_, fun E K => ?run⟩
  case run =>
    simp only [cc4__adjxw_kernel_eq_skeleton]; unfold cc4__adjxw_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.Reg4.lean ====
import proofs.«106620_j12240656794038_1_alg».proof.Proof.K.Reg4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back over junk (no pieces: a placeholder nothing consults, the window being idle and not written back at these points). -/
def out4_A_2 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond4_0 i) (hc1 : ¬cond4_1 i)
    (x0 : Vec F S1024x1024 .f32) (x1 : Vec F S1024x256 .f32) : Vec F S1024x256 .f32 :=
  VO4_2.read (Elt F) (VO4_2.writes (Elt F) VO4_2.junk (kernelRun4_A c i arg2 harg2 arg3 harg3 arg4 harg4 arg5 harg5 hc0 hc1 x0 x1).1)

/-- Case A's pieces for the carried scratch cover it. -/
theorem scover4_A_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond4_0 i) (hc1 : ¬cond4_1 i)
    (x0 : Vec F S1024x1024 .f32) (x1 : Vec F S1024x256 .f32) (y : S1024x256.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1024x256.size (by sl_kernel_rfl) y

/-- What case A leaves in the carried scratch: its pieces read back over junk. -/
def sout4_A_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond4_0 i) (hc1 : ¬cond4_1 i)
    (x0 : Vec F S1024x1024 .f32) (x1 : Vec F S1024x256 .f32) : Vec F S1024x256 .f32 :=
  VS4_0.read (Elt F) (VS4_0.writes (Elt F) VS4_0.junk (kernelRun4_A c i arg2 harg2 arg3 harg3 arg4 harg4 arg5 harg5 hc0 hc1 x0 x1).2.1)

/-- What case B leaves in the output's staging buffer: its pieces read back over junk (no pieces: a placeholder nothing consults, the window being idle and not written back at these points). -/
def out4_B_2 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : ¬cond4_1 i)
    (x0 : Vec F S1024x1024 .f32) (x1 : Vec F S1024x256 .f32) (xs0 : Vec F S1024x256 .f32) : Vec F S1024x256 .f32 :=
  VO4_2.read (Elt F) (VO4_2.writes (Elt F) VO4_2.junk (kernelRun4_B c i arg2 harg2 arg3 harg3 arg4 harg4 arg5 harg5 hc0 hc1 x0 x1 xs0).1)

/-- Case B's pieces for the carried scratch cover it. -/
theorem scover4_B_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : ¬cond4_1 i)
    (x0 : Vec F S1024x1024 .f32) (x1 : Vec F S1024x256 .f32) (xs0 : Vec F S1024x256 .f32) (y : S1024x256.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1024x256.size (by sl_kernel_rfl) y

/-- What case B leaves in the carried scratch: its pieces read back over junk. -/
def sout4_B_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : ¬cond4_1 i)
    (x0 : Vec F S1024x1024 .f32) (x1 : Vec F S1024x256 .f32) (xs0 : Vec F S1024x256 .f32) : Vec F S1024x256 .f32 :=
  VS4_0.read (Elt F) (VS4_0.writes (Elt F) VS4_0.junk (kernelRun4_B c i arg2 harg2 arg3 harg3 arg4 harg4 arg5 harg5 hc0 hc1 x0 x1 xs0).2.1)

/-- In the last-block case the pieces stored into the output tile its block, so they cover it. -/
theorem cover4_C_2 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : cond4_1 i)
    (x0 : Vec F S1024x1024 .f32) (x1 : Vec F S1024x256 .f32) (xs0 : Vec F S1024x256 .f32) (y : S1024x256.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S1024x256.size (by sl_kernel_rfl) y

/-- What case C leaves in the output's staging buffer: its pieces read back over junk. -/
def out4_C_2 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : cond4_1 i)
    (x0 : Vec F S1024x1024 .f32) (x1 : Vec F S1024x256 .f32) (xs0 : Vec F S1024x256 .f32) : Vec F S1024x256 .f32 :=
  VO4_2.read (Elt F) (VO4_2.writes (Elt F) VO4_2.junk (kernelRun4_C c i arg2 harg2 arg3 harg3 arg4 harg4 arg5 harg5 hc0 hc1 x0 x1 xs0).1)

/-- Case C's pieces for the carried scratch cover it. -/
theorem scover4_C_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : cond4_1 i)
    (x0 : Vec F S1024x1024 .f32) (x1 : Vec F S1024x256 .f32) (xs0 : Vec F S1024x256 .f32) (y : S1024x256.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S1024x256.size (by sl_kernel_rfl) y

/-- What case C leaves in the carried scratch: its pieces read back over junk. -/
def sout4_C_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : cond4_1 i)
    (x0 : Vec F S1024x1024 .f32) (x1 : Vec F S1024x256 .f32) (xs0 : Vec F S1024x256 .f32) : Vec F S1024x256 .f32 :=
  VS4_0.read (Elt F) (VS4_0.writes (Elt F) VS4_0.junk (kernelRun4_C c i arg2 harg2 arg3 harg3 arg4 harg4 arg5 harg5 hc0 hc1 x0 x1 xs0).2.1)

section
-- the TensorCore's buffer contents when the region is entered
variable (V : (c : Dev nD) → (b : Ref sig .tc) → Buf (Elt F) ((c : Thread nD τ).loc b))

/-! ## What the output and the scratch hold after each point -/

/-- The accumulation: what the output's staging buffer and the carried scratch hold after the body at position `n`
    (the output first, then the scratch): the case the closed forms select at `n`, run at the point's memrefs and input
    blocks, over what the scratch held after position `n - 1`. -/
def outsAt4 (c : Dev nD) : (n : ℕ) → n < cfg4.N → Vec F S1024x256 .f32 × Vec F S1024x256 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 4 = 0 then
      if h1 : (n + 1) % 4 = 3 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 4 = 3 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at a point of case A. -/
theorem outsAt4_A (c : Dev nD) (t : Fin cfg4.N) (h0 : t.val % 4 = 0) (h1 : ¬t.val % 4 = 3) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 4 = 0) (h1 : ¬t.val % 4 = 3) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 4 = 0) (h1 : t.val % 4 = 3) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's own (every scoped buffer at anything);
    afterwards the carried scratch at what the point before left in it, beside the unopened rest of the scoped buffers and
    the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt4`'s first component; the invariant `PhiS4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

theorem owed4 (c : Dev nD) (t) : (dat4 V c).owed t = 0 := rfl
theorem share4 (c : Dev nD) (w) : (dat4 V c).q w = fullShare := rfl

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

/-- The inputs' buffers are handed back at their blocks. -/
theorem leaves4_0 (c : Dev nD) (t : Fin cfg4.N) :
    (dat4 V c).leavesExact 0 t = owns (c : Thread nD τ) (ms4_0 t) fullShare (iblk4 V c 0 t) := by
  rw [show (dat4 V c).leavesExact 0 t = owns (c : Thread nD τ) (ms4_0 t) fullShare ((dat4 V c).after 0 t) from by
    unfold Dat.leavesExact; rw [liveAt4_0 t], after4_0]
theorem leaves4_1 (c : Dev nD) (t : Fin cfg4.N) :
    (dat4 V c).leavesExact 1 t = owns (c : Thread nD τ) (ms4_1 t) fullShare (iblk4 V c 1 t) := by
  rw [show (dat4 V c).leavesExact 1 t = owns (c : Thread nD τ) (ms4_1 t) fullShare ((dat4 V c).after 1 t) from by
    unfold Dat.leavesExact; rw [liveAt4_1 t], after4_1]

set_option maxHeartbeats 4800000 in
/-- The body at any point: the inputs' memrefs hold their blocks; the closed forms say which case the point is in; the
    invariant hands the body the carried scratch at what the point before left (at anything at the first point) and takes it
    back at this point's contents; the rest of the scoped buffers, the generator register and the core's debts pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [leaves4_0, leaves4_1]
  have hN : t.val < 16 := lt_of_lt_of_eq t.isLt (show cfg4.N = 16 from N_4)
  by_cases h0 : t.val % 4 = 0
  · by_cases h1 : t.val % 4 = 3
    · exfalso; omega
    · rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 4 = 3
    · rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_C c (grid4.coords t) _ _ _ _ _ _ _ _ (fun h => h0 ((hcond4_0 t).mp h)) ((hcond4_1 t).mpr h1) (iblk4 V c 0 t) (iblk4 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _)
    · rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's own back: the carried scratch's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 16 := N_4; omega)

end

end Cert.Kernel.Hand

end
-- ==== Proof.K.Frame.lean ====
/-
  The run of the program with the five pipelines' proof data in place: every unscoped buffer ends at the last
  boundary's contents; no host stretch and no region writes an argument array, so each ends as launched.
-/
import proofs.«106620_j12240656794038_1_alg».proof.Proof.K.Run
import proofs.«106620_j12240656794038_1_alg».proof.Proof.K.Reg0
import proofs.«106620_j12240656794038_1_alg».proof.Proof.K.Reg1
import proofs.«106620_j12240656794038_1_alg».proof.Proof.K.Reg2
import proofs.«106620_j12240656794038_1_alg».proof.Proof.K.Reg3
import proofs.«106620_j12240656794038_1_alg».proof.Proof.K.Reg4

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at the end of @main. -/
abbrev Bend (c : Dev nD) : Valuation τ sig (Elt F) := B9 m dat0 dat1 dat2 dat3 dat4 c

/-- THE RUN with the proof data in place. -/
theorem run : θ_run defs (onTc (τ := τ) (main (F := F))) ⟨m, fun _ => 0, ρ⟩ (fun r => ∀ c : Dev nD,
      ∀ b ∈ Pipeline.ucRefs τ sig, r.2.mem (((c : Thread nD τ)).1, b) = Bend m c b) :=
  run_all m ρ dat0 dat1 dat2 dat3 dat4
    A_eq0 (fun _ _ _ => rfl) (fun _ _ _ => rfl) (fun _ _ _ => rfl) (fun V c => by rw [Phi0]) (fun V c => by rw [Phi0]) body_obligation0
    A_eq1 (fun _ _ _ => rfl) (fun _ _ _ => rfl) (fun _ _ _ => rfl) (fun V c => by rw [Phi1]) (fun V c => by rw [Phi1]) body_obligation1
    A_eq2 (fun _ _ _ => rfl) (fun _ _ _ => rfl) (fun _ _ _ => rfl) (fun V c => by rw [Phi2]) (fun V c => by rw [Phi2]) body_obligation2
    A_eq3 (fun V c w => share3 V c w) (fun V c t => owed3 V c t) (fun _ _ _ => rfl) hin3 hout3 body_obligation3
    A_eq4 (fun V c w => share4 V c w) (fun V c t => owed4 V c t) (fun _ _ _ => rfl) hin4 hout4 body_obligation4

/-- A buffer no host stretch writes and no region has as an output window's array ends as launched. -/
theorem Bend_of_kept (c : Dev nD) (b : Ref sig .tc)
    (h0 : b ∉ hostOps0_W) (h1 : b ∉ hostOps1_W) (h3 : b ∉ hostOps3_W) (h5 : b ∉ hostOps5_W)
    (k0 : ∀ w : Fin cfg0.W, (cfg0.win w).isOut = true → Pipeline.arrRef spec0 w ≠ b)
    (k1 : ∀ w : Fin cfg1.W, (cfg1.win w).isOut = true → Pipeline.arrRef spec1 w ≠ b)
    (k2 : ∀ w : Fin cfg2.W, (cfg2.win w).isOut = true → Pipeline.arrRef spec2 w ≠ b)
    (k3 : ∀ w : Fin cfg3.W, (cfg3.win w).isOut = true → Pipeline.arrRef spec3 w ≠ b)
    (k4 : ∀ w : Fin cfg4.W, (cfg4.win w).isOut = true → Pipeline.arrRef spec4 w ≠ b) :
    Bend m c (Proc.devRef .tc b) = m ((c : Thread nD τ).loc b) :=
  calc Bend m c (Proc.devRef .tc b)
    _ = B8 m dat0 dat1 dat2 dat3 dat4 c (Proc.devRef .tc b) := StableHlo.after_of_writes_sub hostOps5 _ hostOps5_writes h5
    _ = B7 m dat0 dat1 dat2 dat3 c (Proc.devRef .tc b) := B8_keep m dat0 dat1 dat2 dat3 dat4 A_eq4 c b k4
    _ = B6 m dat0 dat1 dat2 c (Proc.devRef .tc b) := B7_keep m dat0 dat1 dat2 dat3 A_eq3 c b k3
    _ = B5 m dat0 dat1 dat2 c (Proc.devRef .tc b) := StableHlo.after_of_writes_sub hostOps3 _ hostOps3_writes h3
    _ = B4 m dat0 dat1 c (Proc.devRef .tc b) := B5_keep m dat0 dat1 dat2 A_eq2 c b k2
    _ = B3 m dat0 c (Proc.devRef .tc b) := B4_keep m dat0 dat1 A_eq1 c b k1
    _ = B2 m dat0 c (Proc.devRef .tc b) := StableHlo.after_of_writes_sub hostOps1 _ hostOps1_writes h1
    _ = B1 m c (Proc.devRef .tc b) := B2_keep m dat0 A_eq0 c b k0
    _ = B0 m c (Proc.devRef .tc b) := StableHlo.after_of_writes_sub hostOps0 _ hostOps0_writes h0
    _ = m ((c : Thread nD τ).loc b) := rfl

theorem Bend_main_arg0 (c : Dev nD) : Bend m c (Proc.devRef .tc main_arg0) = m ((c : Thread nD τ).loc main_arg0) :=
  Bend_of_kept m c main_arg0 (by decide) (by decide) (by decide) (by decide) (by decide) (by decide) (by decide) (by decide) (by decide)
theorem Bend_main_arg1 (c : Dev nD) : Bend m c (Proc.devRef .tc main_arg1) = m ((c : Thread nD τ).loc main_arg1) :=
  Bend_of_kept m c main_arg1 (by decide) (by decide) (by decide) (by decide) (by decide) (by decide) (by decide) (by decide) (by decide)
theorem Bend_main_arg2 (c : Dev nD) : Bend m c (Proc.devRef .tc main_arg2) = m ((c : Thread nD τ).loc main_arg2) :=
  Bend_of_kept m c main_arg2 (by decide) (by decide) (by decide) (by decide) (by decide) (by decide) (by decide) (by decide) (by decide)
theorem Bend_main_arg3 (c : Dev nD) : Bend m c (Proc.devRef .tc main_arg3) = m ((c : Thread nD τ).loc main_arg3) :=
  Bend_of_kept m c main_arg3 (by decide) (by decide) (by decide) (by decide) (by decide) (by decide) (by decide) (by decide) (by decide)
theorem Bend_main_arg4 (c : Dev nD) : Bend m c (Proc.devRef .tc main_arg4) = m ((c : Thread nD τ).loc main_arg4) :=
  Bend_of_kept m c main_arg4 (by decide) (by decide) (by decide) (by decide) (by decide) (by decide) (by decide) (by decide) (by decide)
theorem Bend_main_arg5 (c : Dev nD) : Bend m c (Proc.devRef .tc main_arg5) = m ((c : Thread nD τ).loc main_arg5) :=
  Bend_of_kept m c main_arg5 (by decide) (by decide) (by decide) (by decide) (by decide) (by decide) (by decide) (by decide) (by decide)
theorem Bend_main_arg6 (c : Dev nD) : Bend m c (Proc.devRef .tc main_arg6) = m ((c : Thread nD τ).loc main_arg6) :=
  Bend_of_kept m c main_arg6 (by decide) (by decide) (by decide) (by decide) (by decide) (by decide) (by decide) (by decide) (by decide)
theorem Bend_main_arg7 (c : Dev nD) : Bend m c (Proc.devRef .tc main_arg7) = m ((c : Thread nD τ).loc main_arg7) :=
  Bend_of_kept m c main_arg7 (by decide) (by decide) (by decide) (by decide) (by decide) (by decide) (by decide) (by decide) (by decide)
theorem Bend_main_arg8 (c : Dev nD) : Bend m c (Proc.devRef .tc main_arg8) = m ((c : Thread nD τ).loc main_arg8) :=
  Bend_of_kept m c main_arg8 (by decide) (by decide) (by decide) (by decide) (by decide) (by decide) (by decide) (by decide) (by decide)
theorem Bend_main_arg9 (c : Dev nD) : Bend m c (Proc.devRef .tc main_arg9) = m ((c : Thread nD τ).loc main_arg9) :=
  Bend_of_kept m c main_arg9 (by decide) (by decide) (by decide) (by decide) (by decide) (by decide) (by decide) (by decide) (by decide)
theorem Bend_main_arg10 (c : Dev nD) : Bend m c (Proc.devRef .tc main_arg10) = m ((c : Thread nD τ).loc main_arg10) :=
  Bend_of_kept m c main_arg10 (by decide) (by decide) (by decide) (by decide) (by decide) (by decide) (by decide) (by decide) (by decide)
theorem Bend_main_arg11 (c : Dev nD) : Bend m c (Proc.devRef .tc main_arg11) = m ((c : Thread nD τ).loc main_arg11) :=
  Bend_of_kept m c main_arg11 (by decide) (by decide) (by decide) (by decide) (by decide) (by decide) (by decide) (by decide) (by decide)
theorem Bend_main_arg12 (c : Dev nD) : Bend m c (Proc.devRef .tc main_arg12) = m ((c : Thread nD τ).loc main_arg12) :=
  Bend_of_kept m c main_arg12 (by decide) (by decide) (by decide) (by decide) (by decide) (by decide) (by decide) (by decide) (by decide)
theorem Bend_main_arg13 (c : Dev nD) : Bend m c (Proc.devRef .tc main_arg13) = m ((c : Thread nD τ).loc main_arg13) :=
  Bend_of_kept m c main_arg13 (by decide) (by decide) (by decide) (by decide) (by decide) (by decide) (by decide) (by decide) (by decide)

/-- THE FRAME: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (Bend_main_arg0 m c),
     (h c _ (mem_uc main_arg1 (by decide))).trans (Bend_main_arg1 m c),
     (h c _ (mem_uc main_arg2 (by decide))).trans (Bend_main_arg2 m c),
     (h c _ (mem_uc main_arg3 (by decide))).trans (Bend_main_arg3 m c),
     (h c _ (mem_uc main_arg4 (by decide))).trans (Bend_main_arg4 m c),
     (h c _ (mem_uc main_arg5 (by decide))).trans (Bend_main_arg5 m c),
     (h c _ (mem_uc main_arg6 (by decide))).trans (Bend_main_arg6 m c),
     (h c _ (mem_uc main_arg7 (by decide))).trans (Bend_main_arg7 m c),
     (h c _ (mem_uc main_arg8 (by decide))).trans (Bend_main_arg8 m c),
     (h c _ (mem_uc main_arg9 (by decide))).trans (Bend_main_arg9 m c),
     (h c _ (mem_uc main_arg10 (by decide))).trans (Bend_main_arg10 m c),
     (h c _ (mem_uc main_arg11 (by decide))).trans (Bend_main_arg11 m c),
     (h c _ (mem_uc main_arg12 (by decide))).trans (Bend_main_arg12 m c),
     (h c _ (mem_uc main_arg13 (by decide))).trans (Bend_main_arg13 m c)⟩) (run m ρ)

end Cert.Kernel.Hand

end
-- ==== Proof.KI.Run.lean ====
/-
  The whole run of the program's five kernel regions and four host stretches, for ANY proof data of the five
  pipelines that (i) reads its arrays off the buffer contents the region finds, (ii) holds every array at the
  full share and owes nothing, (iii) has an invariant that starts from, and ends in, "the scoped buffers no
  window stages, at some contents, and the generator register", and (iv) meets the body obligation.
  The buffer contents at the ten segment boundaries are a fold from the launch memory: a host stretch applies
  its operations, a region replaces its arrays by what its write-backs leave. The run ends with EVERY unscoped
  buffer at the last boundary's contents; the frame claim and each result's value are read off that fold.
-/
import proofs.«106620_j12240656794038_1_alg».proof.Proof.Gen.KernelIdeal.Launch
import proofs.«106620_j12240656794038_1_alg».proof.Proof.Gen.KernelIdeal.Skeleton
import proofs.«106620_j12240656794038_1_alg».proof.Proof.Gen.KernelIdeal.Points
import proofs.«106620_j12240656794038_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCores' buffer contents, per core and reference. -/
abbrev VT (F : FTy → Type) [FloatOps F] : Type := (c : Dev nD) → (b : Ref sig .tc) → Buf (Elt F) ((c : Thread nD τ).loc b)

variable (m : (ℓ : Loc nD τ sig) → Buf (Elt F) ℓ) (ρ : Dev nD → PrngReg)
variable (D0 : VT F → (c : Dev nD) → Dat τ (Elt F) Unit ℕ (UR sig nD τ) ℕ cfg0 c)
variable (D1 : VT F → (c : Dev nD) → Dat τ (Elt F) Unit ℕ (UR sig nD τ) ℕ cfg1 c)
variable (D2 : VT F → (c : Dev nD) → Dat τ (Elt F) Unit ℕ (UR sig nD τ) ℕ cfg2 c)
variable (D3 : VT F → (c : Dev nD) → Dat τ (Elt F) Unit ℕ (UR sig nD τ) ℕ cfg3 c)
variable (D4 : VT F → (c : Dev nD) → Dat τ (Elt F) Unit ℕ (UR sig nD τ) ℕ cfg4 c)

/-! ## The buffer contents at the segment boundaries -/

/-- At launch. -/
abbrev B0 : Dev nD → Valuation τ sig (Elt F) := fun c b => m (c, b)
/-- After the first host stretch: region 0's entry. -/
abbrev B1 : Dev nD → Valuation τ sig (Elt F) := fun c => StableHlo.after hostOps0 (B0 m c)
abbrev T1 : VT F := fun c b => B1 m c b
/-- After region 0. -/
def B2 (c : Dev nD) : Valuation τ sig (Elt F) :=
  Pipeline.withArrays spec0 c (B1 m c) fun w => (D0 (T1 m) c).arrAt w cfg0.N
/-- After the second host stretch: region 1's entry. -/
abbrev B3 : Dev nD → Valuation τ sig (Elt F) := fun c => StableHlo.after hostOps1 (B2 m D0 c)
abbrev T3 : VT F := fun c b => B3 m D0 c b
/-- After region 1: region 2's entry. -/
def B4 (c : Dev nD) : Valuation τ sig (Elt F) :=
  Pipeline.withArrays spec1 c (B3 m D0 c) fun w => (D1 (T3 m D0) c).arrAt w cfg1.N
abbrev T4 : VT F := fun c b => B4 m D0 D1 c b
/-- After region 2. -/
def B5 (c : Dev nD) : Valuation τ sig (Elt F) :=
  Pipeline.withArrays spec2 c (B4 m D0 D1 c) fun w => (D2 (T4 m D0 D1) c).arrAt w cfg2.N
/-- After the third host stretch: region 3's entry. -/
abbrev B6 : Dev nD → Valuation τ sig (Elt F) := fun c => StableHlo.after hostOps3 (B5 m D0 D1 D2 c)
abbrev T6 : VT F := fun c b => B6 m D0 D1 D2 c b
/-- After region 3: region 4's entry. -/
def B7 (c : Dev nD) : Valuation τ sig (Elt F) :=
  Pipeline.withArrays spec3 c (B6 m D0 D1 D2 c) fun w => (D3 (T6 m D0 D1 D2) c).arrAt w cfg3.N
abbrev T7 : VT F := fun c b => B7 m D0 D1 D2 D3 c b
/-- After region 4. -/
def B8 (c : Dev nD) : Valuation τ sig (Elt F) :=
  Pipeline.withArrays spec4 c (B7 m D0 D1 D2 D3 c) fun w => (D4 (T7 m D0 D1 D2 D3) c).arrAt w cfg4.N
/-- After the last host stretch: the end. -/
abbrev B9 : Dev nD → Valuation τ sig (Elt F) := fun c => StableHlo.after hostOps5 (B8 m D0 D1 D2 D3 D4 c)

theorem B2_arr (c : Dev nD) (w : Fin cfg0.W) :
    B2 m D0 c (Proc.devRef .tc (Pipeline.arrRef spec0 w)) = (D0 (T1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m D0 c (Proc.devRef .tc b) = B1 m c (Proc.devRef .tc b) := by
  unfold B2; exact Pipeline.withArrays_of_ne spec0 c _ _ b hb
theorem B4_arr (c : Dev nD) (w : Fin cfg1.W) :
    B4 m D0 D1 c (Proc.devRef .tc (Pipeline.arrRef spec1 w)) = (D1 (T3 m D0) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m D0 D1 c (Proc.devRef .tc b) = B3 m D0 c (Proc.devRef .tc b) := by
  unfold B4; exact Pipeline.withArrays_of_ne spec1 c _ _ b hb
theorem B5_arr (c : Dev nD) (w : Fin cfg2.W) :
    B5 m D0 D1 D2 c (Proc.devRef .tc (Pipeline.arrRef spec2 w)) = (D2 (T4 m D0 D1) c).arrAt w cfg2.N := by
  unfold B5; exact Pipeline.withArrays_arr spec2 launch2.win.arr_inj c _ _ w
theorem B5_of_ne (c : Dev nD) (b : Ref sig .tc) (hb : ∀ w, Pipeline.arrRef spec2 w ≠ b) :
    B5 m D0 D1 D2 c (Proc.devRef .tc b) = B4 m D0 D1 c (Proc.devRef .tc b) := by
  unfold B5; exact Pipeline.withArrays_of_ne spec2 c _ _ b hb
theorem B7_arr (c : Dev nD) (w : Fin cfg3.W) :
    B7 m D0 D1 D2 D3 c (Proc.devRef .tc (Pipeline.arrRef spec3 w)) = (D3 (T6 m D0 D1 D2) c).arrAt w cfg3.N := by
  unfold B7; exact Pipeline.withArrays_arr spec3 launch3.win.arr_inj c _ _ w
theorem B7_of_ne (c : Dev nD) (b : Ref sig .tc) (hb : ∀ w, Pipeline.arrRef spec3 w ≠ b) :
    B7 m D0 D1 D2 D3 c (Proc.devRef .tc b) = B6 m D0 D1 D2 c (Proc.devRef .tc b) := by
  unfold B7; exact Pipeline.withArrays_of_ne spec3 c _ _ b hb
theorem B8_arr (c : Dev nD) (w : Fin cfg4.W) :
    B8 m D0 D1 D2 D3 D4 c (Proc.devRef .tc (Pipeline.arrRef spec4 w)) = (D4 (T7 m D0 D1 D2 D3) c).arrAt w cfg4.N := by
  unfold B8; exact Pipeline.withArrays_arr spec4 launch4.win.arr_inj c _ _ w
theorem B8_of_ne (c : Dev nD) (b : Ref sig .tc) (hb : ∀ w, Pipeline.arrRef spec4 w ≠ b) :
    B8 m D0 D1 D2 D3 D4 c (Proc.devRef .tc b) = B7 m D0 D1 D2 D3 c (Proc.devRef .tc b) := by
  unfold B8; exact Pipeline.withArrays_of_ne spec4 c _ _ b hb

/-! ## The proof data family and what rides along -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => D0 (T1 m) c
  | ⟨1, _⟩ => fun c => D1 (T3 m D0) c
  | ⟨2, _⟩ => fun c => D2 (T4 m D0 D1) c
  | ⟨3, _⟩ => fun c => D3 (T6 m D0 D1 D2) c
  | ⟨4, _⟩ => fun c => D4 (T7 m D0 D1 D2 D3) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

theorem hF0 (c : Dev nD) (w : Fin cfg0.W) : (D0 (T1 m) c).arrAt w cfg0.N = B2 m D0 c (Proc.devRef .tc (Pipeline.arrRef spec0 w)) :=
  (B2_arr m D0 c w).symm
theorem hrest0 (c : Dev nD) : ∀ b, b ∉ Finset.univ.image (Pipeline.arrRef spec0) → B2 m D0 c (Proc.devRef .tc b) = B1 m c (Proc.devRef .tc b) :=
  fun b hb => B2_of_ne m D0 c b fun w e => hb (Finset.mem_image.mpr ⟨w, Finset.mem_univ _, e⟩)

set_option backward.isDefEq.respectTransparency.types false in
/-- Region 0 over the thread state: entered with every unscoped buffer at the boundary's contents, left with
    its arrays at what the write-backs leave and every other buffer as found. -/
def reg0
    (hA0 : ∀ (V : VT F) (c : Dev nD) (w : Fin cfg0.W), (D0 V c).A w = V c (Pipeline.arrRef spec0 w))
    (hq0 : ∀ (V : VT F) (c : Dev nD) (w : Fin cfg0.W), (D0 V c).q w = fullShare)
    (how0 : ∀ (V : VT F) (c : Dev nD) (t : Fin (cfg0.N + 1)), (D0 V c).owed t = 0)
    (hrec0 : ∀ (V : VT F) (c : Dev nD) (t : Fin (cfg0.N + 1)), (D0 V c).recorded t = Set.univ)
    (hin0 : ∀ (V : VT F) (c : Dev nD), (Pipeline.ΦA spec0 c : sProp 𝕄) ⊢ (D0 V c).Φ 0)
    (hout0 : ∀ (V : VT F) (c : Dev nD), (D0 V c).Φ (Fin.last cfg0.N) ⊢ (Pipeline.ΦA spec0 c : sProp 𝕄))
    (hb0 : ∀ (V : VT F) (c : Dev nD), BodyObligation (D0 V c) (defs₀ (F := F)) Variants.none () Set.univ) :
    Pipeline.RegionSeg (pcfgs (F := F)) adm (pdats m D0 D1 D2 D3 D4) () defs₀ 𝒱₀ L lv 0 where
  win := launch0.win.to₀
  block_pos := launch0.block_pos
  stage_whole := launch0.stage_whole
  K := PEmpty
  osem k := k.elim
  ho := Pipeline.OwnSemFacts.none _
  hbody c := (hb0 (T1 m) c).loose
  hwaits := Pipeline.hwaits_of_owed_zero _ _ _ _ L lv 0 fun c t => how0 (T1 m) c t
  pre c := iprop(StableHlo.held (c : Thread nD τ) (Pipeline.ucRefs τ sig) (B1 m c) ∗ R c)
  post c := iprop(StableHlo.held (c : Thread nD τ) (Pipeline.ucRefs τ sig) (B2 m D0 c) ∗ R c)
  X c := iprop(∃ r, prngReg c r)
  Y c := iprop(∃ r, prngReg c r)
  Z c := Pipeline.unscopedRest (Ix := Unit) (Name := ℕ) (U := UR sig nD τ) (Lvl := ℕ) spec0 c ((T1 m) c)
  hentry c := by
    rw [Pipeline.ownSems0_none]
    have hsplit := Pipeline.arrays_of_unscopedBufs (p := 0) (pcfgs (F := F)) adm (pdats m D0 D1 D2 D3 D4) launch0.win launch0.arr_whole c
      (((pdats m D0 D1 D2 D3 D4) 0 c).share_full fun w => hq0 (T1 m) c w) ((T1 m) c) fun w => hA0 (T1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ((pdats m D0 D1 D2 D3 D4) 0 c).owed 0 = 0 from how0 (T1 m) c 0]
      icases HO with ⟨%W, HO⟩; iexists W; isplitr
      · ipureintro; unfold Pipeline.Dat.bound; intro x _; refine Or.inl ?_
        rw [show ((pdats m D0 D1 D2 D3 D4) 0 c).recorded 0 = Set.univ from hrec0 (T1 m) c 0]; trivial
      iexact HO
    isplitl [Hp]; · iexact Hp
    iexact Hrest
  hin c := by
    have h : (iprop(Pipeline.scopedRest (Ix := Unit) (Name := ℕ) (U := UR sig nD τ) (Lvl := ℕ) (Val := Elt F) spec0 c ∗ ∃ r, prngReg c r) : sProp 𝕄)
        ⊢ ((pdats m D0 D1 D2 D3 D4) 0 c).Φ 0 := hin0 (T1 m) c
    iintro ⟨Hp, -, Hr⟩
    iapply h
    isplitl [Hr]; · iexact Hr
    iexact Hp
  hout c := by
    rw [Pipeline.ownSems0_none]
    have h : ((pdats m D0 D1 D2 D3 D4) 0 c).Φ (Fin.last _)
        ⊢ (iprop(Pipeline.scopedRest (Ix := Unit) (Name := ℕ) (U := UR sig nD τ) (Lvl := ℕ) (Val := Elt F) spec0 c ∗ ∃ r, prngReg c r) : sProp 𝕄) := hout0 (T1 m) c
    refine h.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m D0 D1 D2 D3 D4) (((pdats m D0 D1 D2 D3 D4) 0 c).share_full fun w => hq0 (T1 m) c w)
      ((T1 m) c) (fun b => B2 m D0 c (Proc.devRef .tc b)) (((pdats m D0 D1 D2 D3 D4) 0 c).arrAt · cfg0.N) (hF0 m D0 c) (hrest0 m D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ((pdats m D0 D1 D2 D3 D4) 0 c).owed (Fin.last _) = 0 from how0 (T1 m) c (Fin.last _)]
    icases HO with ⟨%W, -, HO⟩; iexists W; iexact HO

theorem hF1 (c : Dev nD) (w : Fin cfg1.W) : (D1 (T3 m D0) c).arrAt w cfg1.N = B4 m D0 D1 c (Proc.devRef .tc (Pipeline.arrRef spec1 w)) :=
  (B4_arr m D0 D1 c w).symm
theorem hrest1 (c : Dev nD) : ∀ b, b ∉ Finset.univ.image (Pipeline.arrRef spec1) → B4 m D0 D1 c (Proc.devRef .tc b) = B3 m D0 c (Proc.devRef .tc b) :=
  fun b hb => B4_of_ne m D0 D1 c b fun w e => hb (Finset.mem_image.mpr ⟨w, Finset.mem_univ _, e⟩)

set_option backward.isDefEq.respectTransparency.types false in
/-- Region 1 over the thread state: entered with every unscoped buffer at the boundary's contents, left with
    its arrays at what the write-backs leave and every other buffer as found. -/
def reg1
    (hA1 : ∀ (V : VT F) (c : Dev nD) (w : Fin cfg1.W), (D1 V c).A w = V c (Pipeline.arrRef spec1 w))
    (hq1 : ∀ (V : VT F) (c : Dev nD) (w : Fin cfg1.W), (D1 V c).q w = fullShare)
    (how1 : ∀ (V : VT F) (c : Dev nD) (t : Fin (cfg1.N + 1)), (D1 V c).owed t = 0)
    (hrec1 : ∀ (V : VT F) (c : Dev nD) (t : Fin (cfg1.N + 1)), (D1 V c).recorded t = Set.univ)
    (hin1 : ∀ (V : VT F) (c : Dev nD), (Pipeline.ΦA spec1 c : sProp 𝕄) ⊢ (D1 V c).Φ 0)
    (hout1 : ∀ (V : VT F) (c : Dev nD), (D1 V c).Φ (Fin.last cfg1.N) ⊢ (Pipeline.ΦA spec1 c : sProp 𝕄))
    (hb1 : ∀ (V : VT F) (c : Dev nD), BodyObligation (D1 V c) (defs₀ (F := F)) Variants.none () Set.univ) :
    Pipeline.RegionSeg (pcfgs (F := F)) adm (pdats m D0 D1 D2 D3 D4) () defs₀ 𝒱₀ L lv 1 where
  win := launch1.win.to₀
  block_pos := launch1.block_pos
  stage_whole := launch1.stage_whole
  K := PEmpty
  osem k := k.elim
  ho := Pipeline.OwnSemFacts.none _
  hbody c := (hb1 (T3 m D0) c).loose
  hwaits := Pipeline.hwaits_of_owed_zero _ _ _ _ L lv 1 fun c t => how1 (T3 m D0) c t
  pre c := iprop(StableHlo.held (c : Thread nD τ) (Pipeline.ucRefs τ sig) (B3 m D0 c) ∗ R c)
  post c := iprop(StableHlo.held (c : Thread nD τ) (Pipeline.ucRefs τ sig) (B4 m D0 D1 c) ∗ R c)
  X c := iprop(∃ r, prngReg c r)
  Y c := iprop(∃ r, prngReg c r)
  Z c := Pipeline.unscopedRest (Ix := Unit) (Name := ℕ) (U := UR sig nD τ) (Lvl := ℕ) spec1 c ((T3 m D0) c)
  hentry c := by
    rw [Pipeline.ownSems0_none]
    have hsplit := Pipeline.arrays_of_unscopedBufs (p := 1) (pcfgs (F := F)) adm (pdats m D0 D1 D2 D3 D4) launch1.win launch1.arr_whole c
      (((pdats m D0 D1 D2 D3 D4) 1 c).share_full fun w => hq1 (T3 m D0) c w) ((T3 m D0) c) fun w => hA1 (T3 m D0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ((pdats m D0 D1 D2 D3 D4) 1 c).owed 0 = 0 from how1 (T3 m D0) c 0]
      icases HO with ⟨%W, HO⟩; iexists W; isplitr
      · ipureintro; unfold Pipeline.Dat.bound; intro x _; refine Or.inl ?_
        rw [show ((pdats m D0 D1 D2 D3 D4) 1 c).recorded 0 = Set.univ from hrec1 (T3 m D0) c 0]; trivial
      iexact HO
    isplitl [Hp]; · iexact Hp
    iexact Hrest
  hin c := by
    have h : (iprop(Pipeline.scopedRest (Ix := Unit) (Name := ℕ) (U := UR sig nD τ) (Lvl := ℕ) (Val := Elt F) spec1 c ∗ ∃ r, prngReg c r) : sProp 𝕄)
        ⊢ ((pdats m D0 D1 D2 D3 D4) 1 c).Φ 0 := hin1 (T3 m D0) c
    iintro ⟨Hp, -, Hr⟩
    iapply h
    isplitl [Hr]; · iexact Hr
    iexact Hp
  hout c := by
    rw [Pipeline.ownSems0_none]
    have h : ((pdats m D0 D1 D2 D3 D4) 1 c).Φ (Fin.last _)
        ⊢ (iprop(Pipeline.scopedRest (Ix := Unit) (Name := ℕ) (U := UR sig nD τ) (Lvl := ℕ) (Val := Elt F) spec1 c ∗ ∃ r, prngReg c r) : sProp 𝕄) := hout1 (T3 m D0) c
    refine h.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m D0 D1 D2 D3 D4) (((pdats m D0 D1 D2 D3 D4) 1 c).share_full fun w => hq1 (T3 m D0) c w)
      ((T3 m D0) c) (fun b => B4 m D0 D1 c (Proc.devRef .tc b)) (((pdats m D0 D1 D2 D3 D4) 1 c).arrAt · cfg1.N) (hF1 m D0 D1 c) (hrest1 m D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ((pdats m D0 D1 D2 D3 D4) 1 c).owed (Fin.last _) = 0 from how1 (T3 m D0) c (Fin.last _)]
    icases HO with ⟨%W, -, HO⟩; iexists W; iexact HO

theorem hF2 (c : Dev nD) (w : Fin cfg2.W) : (D2 (T4 m D0 D1) c).arrAt w cfg2.N = B5 m D0 D1 D2 c (Proc.devRef .tc (Pipeline.arrRef spec2 w)) :=
  (B5_arr m D0 D1 D2 c w).symm
theorem hrest2 (c : Dev nD) : ∀ b, b ∉ Finset.univ.image (Pipeline.arrRef spec2) → B5 m D0 D1 D2 c (Proc.devRef .tc b) = B4 m D0 D1 c (Proc.devRef .tc b) :=
  fun b hb => B5_of_ne m D0 D1 D2 c b fun w e => hb (Finset.mem_image.mpr ⟨w, Finset.mem_univ _, e⟩)

set_option backward.isDefEq.respectTransparency.types false in
/-- Region 2 over the thread state: entered with every unscoped buffer at the boundary's contents, left with
    its arrays at what the write-backs leave and every other buffer as found. -/
def reg2
    (hA2 : ∀ (V : VT F) (c : Dev nD) (w : Fin cfg2.W), (D2 V c).A w = V c (Pipeline.arrRef spec2 w))
    (hq2 : ∀ (V : VT F) (c : Dev nD) (w : Fin cfg2.W), (D2 V c).q w = fullShare)
    (how2 : ∀ (V : VT F) (c : Dev nD) (t : Fin (cfg2.N + 1)), (D2 V c).owed t = 0)
    (hrec2 : ∀ (V : VT F) (c : Dev nD) (t : Fin (cfg2.N + 1)), (D2 V c).recorded t = Set.univ)
    (hin2 : ∀ (V : VT F) (c : Dev nD), (Pipeline.ΦA spec2 c : sProp 𝕄) ⊢ (D2 V c).Φ 0)
    (hout2 : ∀ (V : VT F) (c : Dev nD), (D2 V c).Φ (Fin.last cfg2.N) ⊢ (Pipeline.ΦA spec2 c : sProp 𝕄))
    (hb2 : ∀ (V : VT F) (c : Dev nD), BodyObligation (D2 V c) (defs₀ (F := F)) Variants.none () Set.univ) :
    Pipeline.RegionSeg (pcfgs (F := F)) adm (pdats m D0 D1 D2 D3 D4) () defs₀ 𝒱₀ L lv 2 where
  win := launch2.win.to₀
  block_pos := launch2.block_pos
  stage_whole := launch2.stage_whole
  K := PEmpty
  osem k := k.elim
  ho := Pipeline.OwnSemFacts.none _
  hbody c := (hb2 (T4 m D0 D1) c).loose
  hwaits := Pipeline.hwaits_of_owed_zero _ _ _ _ L lv 2 fun c t => how2 (T4 m D0 D1) c t
  pre c := iprop(StableHlo.held (c : Thread nD τ) (Pipeline.ucRefs τ sig) (B4 m D0 D1 c) ∗ R c)
  post c := iprop(StableHlo.held (c : Thread nD τ) (Pipeline.ucRefs τ sig) (B5 m D0 D1 D2 c) ∗ R c)
  X c := iprop(∃ r, prngReg c r)
  Y c := iprop(∃ r, prngReg c r)
  Z c := Pipeline.unscopedRest (Ix := Unit) (Name := ℕ) (U := UR sig nD τ) (Lvl := ℕ) spec2 c ((T4 m D0 D1) c)
  hentry c := by
    rw [Pipeline.ownSems0_none]
    have hsplit := Pipeline.arrays_of_unscopedBufs (p := 2) (pcfgs (F := F)) adm (pdats m D0 D1 D2 D3 D4) launch2.win launch2.arr_whole c
      (((pdats m D0 D1 D2 D3 D4) 2 c).share_full fun w => hq2 (T4 m D0 D1) c w) ((T4 m D0 D1) c) fun w => hA2 (T4 m D0 D1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ((pdats m D0 D1 D2 D3 D4) 2 c).owed 0 = 0 from how2 (T4 m D0 D1) c 0]
      icases HO with ⟨%W, HO⟩; iexists W; isplitr
      · ipureintro; unfold Pipeline.Dat.bound; intro x _; refine Or.inl ?_
        rw [show ((pdats m D0 D1 D2 D3 D4) 2 c).recorded 0 = Set.univ from hrec2 (T4 m D0 D1) c 0]; trivial
      iexact HO
    isplitl [Hp]; · iexact Hp
    iexact Hrest
  hin c := by
    have h : (iprop(Pipeline.scopedRest (Ix := Unit) (Name := ℕ) (U := UR sig nD τ) (Lvl := ℕ) (Val := Elt F) spec2 c ∗ ∃ r, prngReg c r) : sProp 𝕄)
        ⊢ ((pdats m D0 D1 D2 D3 D4) 2 c).Φ 0 := hin2 (T4 m D0 D1) c
    iintro ⟨Hp, -, Hr⟩
    iapply h
    isplitl [Hr]; · iexact Hr
    iexact Hp
  hout c := by
    rw [Pipeline.ownSems0_none]
    have h : ((pdats m D0 D1 D2 D3 D4) 2 c).Φ (Fin.last _)
        ⊢ (iprop(Pipeline.scopedRest (Ix := Unit) (Name := ℕ) (U := UR sig nD τ) (Lvl := ℕ) (Val := Elt F) spec2 c ∗ ∃ r, prngReg c r) : sProp 𝕄) := hout2 (T4 m D0 D1) c
    refine h.trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m D0 D1 D2 D3 D4) (((pdats m D0 D1 D2 D3 D4) 2 c).share_full fun w => hq2 (T4 m D0 D1) c w)
      ((T4 m D0 D1) c) (fun b => B5 m D0 D1 D2 c (Proc.devRef .tc b)) (((pdats m D0 D1 D2 D3 D4) 2 c).arrAt · cfg2.N) (hF2 m D0 D1 D2 c) (hrest2 m D0 D1 D2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ((pdats m D0 D1 D2 D3 D4) 2 c).owed (Fin.last _) = 0 from how2 (T4 m D0 D1) c (Fin.last _)]
    icases HO with ⟨%W, -, HO⟩; iexists W; iexact HO

theorem hF3 (c : Dev nD) (w : Fin cfg3.W) : (D3 (T6 m D0 D1 D2) c).arrAt w cfg3.N = B7 m D0 D1 D2 D3 c (Proc.devRef .tc (Pipeline.arrRef spec3 w)) :=
  (B7_arr m D0 D1 D2 D3 c w).symm
theorem hrest3 (c : Dev nD) : ∀ b, b ∉ Finset.univ.image (Pipeline.arrRef spec3) → B7 m D0 D1 D2 D3 c (Proc.devRef .tc b) = B6 m D0 D1 D2 c (Proc.devRef .tc b) :=
  fun b hb => B7_of_ne m D0 D1 D2 D3 c b fun w e => hb (Finset.mem_image.mpr ⟨w, Finset.mem_univ _, e⟩)

set_option backward.isDefEq.respectTransparency.types false in
/-- Region 3 over the thread state: entered with every unscoped buffer at the boundary's contents, left with
    its arrays at what the write-backs leave and every other buffer as found. -/
def reg3
    (hA3 : ∀ (V : VT F) (c : Dev nD) (w : Fin cfg3.W), (D3 V c).A w = V c (Pipeline.arrRef spec3 w))
    (hq3 : ∀ (V : VT F) (c : Dev nD) (w : Fin cfg3.W), (D3 V c).q w = fullShare)
    (how3 : ∀ (V : VT F) (c : Dev nD) (t : Fin (cfg3.N + 1)), (D3 V c).owed t = 0)
    (hrec3 : ∀ (V : VT F) (c : Dev nD) (t : Fin (cfg3.N + 1)), (D3 V c).recorded t = Set.univ)
    (hin3 : ∀ (V : VT F) (c : Dev nD), (Pipeline.ΦA spec3 c : sProp 𝕄) ⊢ (D3 V c).Φ 0)
    (hout3 : ∀ (V : VT F) (c : Dev nD), (D3 V c).Φ (Fin.last cfg3.N) ⊢ (Pipeline.ΦA spec3 c : sProp 𝕄))
    (hb3 : ∀ (V : VT F) (c : Dev nD), BodyObligation (D3 V c) (defs₀ (F := F)) Variants.none () Set.univ) :
    Pipeline.RegionSeg (pcfgs (F := F)) adm (pdats m D0 D1 D2 D3 D4) () defs₀ 𝒱₀ L lv 3 where
  win := launch3.win.to₀
  block_pos := launch3.block_pos
  stage_whole := launch3.stage_whole
  K := PEmpty
  osem k := k.elim
  ho := Pipeline.OwnSemFacts.none _
  hbody c := (hb3 (T6 m D0 D1 D2) c).loose
  hwaits := Pipeline.hwaits_of_owed_zero _ _ _ _ L lv 3 fun c t => how3 (T6 m D0 D1 D2) c t
  pre c := iprop(StableHlo.held (c : Thread nD τ) (Pipeline.ucRefs τ sig) (B6 m D0 D1 D2 c) ∗ R c)
  post c := iprop(StableHlo.held (c : Thread nD τ) (Pipeline.ucRefs τ sig) (B7 m D0 D1 D2 D3 c) ∗ R c)
  X c := iprop(∃ r, prngReg c r)
  Y c := iprop(∃ r, prngReg c r)
  Z c := Pipeline.unscopedRest (Ix := Unit) (Name := ℕ) (U := UR sig nD τ) (Lvl := ℕ) spec3 c ((T6 m D0 D1 D2) c)
  hentry c := by
    rw [Pipeline.ownSems0_none]
    have hsplit := Pipeline.arrays_of_unscopedBufs (p := 3) (pcfgs (F := F)) adm (pdats m D0 D1 D2 D3 D4) launch3.win launch3.arr_whole c
      (((pdats m D0 D1 D2 D3 D4) 3 c).share_full fun w => hq3 (T6 m D0 D1 D2) c w) ((T6 m D0 D1 D2) c) fun w => hA3 (T6 m D0 D1 D2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ((pdats m D0 D1 D2 D3 D4) 3 c).owed 0 = 0 from how3 (T6 m D0 D1 D2) c 0]
      icases HO with ⟨%W, HO⟩; iexists W; isplitr
      · ipureintro; unfold Pipeline.Dat.bound; intro x _; refine Or.inl ?_
        rw [show ((pdats m D0 D1 D2 D3 D4) 3 c).recorded 0 = Set.univ from hrec3 (T6 m D0 D1 D2) c 0]; trivial
      iexact HO
    isplitl [Hp]; · iexact Hp
    iexact Hrest
  hin c := by
    have h : (iprop(Pipeline.scopedRest (Ix := Unit) (Name := ℕ) (U := UR sig nD τ) (Lvl := ℕ) (Val := Elt F) spec3 c ∗ ∃ r, prngReg c r) : sProp 𝕄)
        ⊢ ((pdats m D0 D1 D2 D3 D4) 3 c).Φ 0 := hin3 (T6 m D0 D1 D2) c
    iintro ⟨Hp, -, Hr⟩
    iapply h
    isplitl [Hr]; · iexact Hr
    iexact Hp
  hout c := by
    rw [Pipeline.ownSems0_none]
    have h : ((pdats m D0 D1 D2 D3 D4) 3 c).Φ (Fin.last _)
        ⊢ (iprop(Pipeline.scopedRest (Ix := Unit) (Name := ℕ) (U := UR sig nD τ) (Lvl := ℕ) (Val := Elt F) spec3 c ∗ ∃ r, prngReg c r) : sProp 𝕄) := hout3 (T6 m D0 D1 D2) c
    refine h.trans ?_
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m D0 D1 D2 D3 D4) (((pdats m D0 D1 D2 D3 D4) 3 c).share_full fun w => hq3 (T6 m D0 D1 D2) c w)
      ((T6 m D0 D1 D2) c) (fun b => B7 m D0 D1 D2 D3 c (Proc.devRef .tc b)) (((pdats m D0 D1 D2 D3 D4) 3 c).arrAt · cfg3.N) (hF3 m D0 D1 D2 D3 c) (hrest3 m D0 D1 D2 D3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ((pdats m D0 D1 D2 D3 D4) 3 c).owed (Fin.last _) = 0 from how3 (T6 m D0 D1 D2) c (Fin.last _)]
    icases HO with ⟨%W, -, HO⟩; iexists W; iexact HO

theorem hF4 (c : Dev nD) (w : Fin cfg4.W) : (D4 (T7 m D0 D1 D2 D3) c).arrAt w cfg4.N = B8 m D0 D1 D2 D3 D4 c (Proc.devRef .tc (Pipeline.arrRef spec4 w)) :=
  (B8_arr m D0 D1 D2 D3 D4 c w).symm
theorem hrest4 (c : Dev nD) : ∀ b, b ∉ Finset.univ.image (Pipeline.arrRef spec4) → B8 m D0 D1 D2 D3 D4 c (Proc.devRef .tc b) = B7 m D0 D1 D2 D3 c (Proc.devRef .tc b) :=
  fun b hb => B8_of_ne m D0 D1 D2 D3 D4 c b fun w e => hb (Finset.mem_image.mpr ⟨w, Finset.mem_univ _, e⟩)

set_option backward.isDefEq.respectTransparency.types false in
/-- Region 4 over the thread state: entered with every unscoped buffer at the boundary's contents, left with
    its arrays at what the write-backs leave and every other buffer as found. -/
def reg4
    (hA4 : ∀ (V : VT F) (c : Dev nD) (w : Fin cfg4.W), (D4 V c).A w = V c (Pipeline.arrRef spec4 w))
    (hq4 : ∀ (V : VT F) (c : Dev nD) (w : Fin cfg4.W), (D4 V c).q w = fullShare)
    (how4 : ∀ (V : VT F) (c : Dev nD) (t : Fin (cfg4.N + 1)), (D4 V c).owed t = 0)
    (hrec4 : ∀ (V : VT F) (c : Dev nD) (t : Fin (cfg4.N + 1)), (D4 V c).recorded t = Set.univ)
    (hin4 : ∀ (V : VT F) (c : Dev nD), (Pipeline.ΦA spec4 c : sProp 𝕄) ⊢ (D4 V c).Φ 0)
    (hout4 : ∀ (V : VT F) (c : Dev nD), (D4 V c).Φ (Fin.last cfg4.N) ⊢ (Pipeline.ΦA spec4 c : sProp 𝕄))
    (hb4 : ∀ (V : VT F) (c : Dev nD), BodyObligation (D4 V c) (defs₀ (F := F)) Variants.none () Set.univ) :
    Pipeline.RegionSeg (pcfgs (F := F)) adm (pdats m D0 D1 D2 D3 D4) () defs₀ 𝒱₀ L lv 4 where
  win := launch4.win.to₀
  block_pos := launch4.block_pos
  stage_whole := launch4.stage_whole
  K := PEmpty
  osem k := k.elim
  ho := Pipeline.OwnSemFacts.none _
  hbody c := (hb4 (T7 m D0 D1 D2 D3) c).loose
  hwaits := Pipeline.hwaits_of_owed_zero _ _ _ _ L lv 4 fun c t => how4 (T7 m D0 D1 D2 D3) c t
  pre c := iprop(StableHlo.held (c : Thread nD τ) (Pipeline.ucRefs τ sig) (B7 m D0 D1 D2 D3 c) ∗ R c)
  post c := iprop(StableHlo.held (c : Thread nD τ) (Pipeline.ucRefs τ sig) (B8 m D0 D1 D2 D3 D4 c) ∗ R c)
  X c := iprop(∃ r, prngReg c r)
  Y c := iprop(∃ r, prngReg c r)
  Z c := Pipeline.unscopedRest (Ix := Unit) (Name := ℕ) (U := UR sig nD τ) (Lvl := ℕ) spec4 c ((T7 m D0 D1 D2 D3) c)
  hentry c := by
    rw [Pipeline.ownSems0_none]
    have hsplit := Pipeline.arrays_of_unscopedBufs (p := 4) (pcfgs (F := F)) adm (pdats m D0 D1 D2 D3 D4) launch4.win launch4.arr_whole c
      (((pdats m D0 D1 D2 D3 D4) 4 c).share_full fun w => hq4 (T7 m D0 D1 D2 D3) c w) ((T7 m D0 D1 D2 D3) c) fun w => hA4 (T7 m D0 D1 D2 D3) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show ((pdats m D0 D1 D2 D3 D4) 4 c).owed 0 = 0 from how4 (T7 m D0 D1 D2 D3) c 0]
      icases HO with ⟨%W, HO⟩; iexists W; isplitr
      · ipureintro; unfold Pipeline.Dat.bound; intro x _; refine Or.inl ?_
        rw [show ((pdats m D0 D1 D2 D3 D4) 4 c).recorded 0 = Set.univ from hrec4 (T7 m D0 D1 D2 D3) c 0]; trivial
      iexact HO
    isplitl [Hp]; · iexact Hp
    iexact Hrest
  hin c := by
    have h : (iprop(Pipeline.scopedRest (Ix := Unit) (Name := ℕ) (U := UR sig nD τ) (Lvl := ℕ) (Val := Elt F) spec4 c ∗ ∃ r, prngReg c r) : sProp 𝕄)
        ⊢ ((pdats m D0 D1 D2 D3 D4) 4 c).Φ 0 := hin4 (T7 m D0 D1 D2 D3) c
    iintro ⟨Hp, -, Hr⟩
    iapply h
    isplitl [Hr]; · iexact Hr
    iexact Hp
  hout c := by
    rw [Pipeline.ownSems0_none]
    have h : ((pdats m D0 D1 D2 D3 D4) 4 c).Φ (Fin.last _)
        ⊢ (iprop(Pipeline.scopedRest (Ix := Unit) (Name := ℕ) (U := UR sig nD τ) (Lvl := ℕ) (Val := Elt F) spec4 c ∗ ∃ r, prngReg c r) : sProp 𝕄) := hout4 (T7 m D0 D1 D2 D3) c
    refine h.trans ?_
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m D0 D1 D2 D3 D4) (((pdats m D0 D1 D2 D3 D4) 4 c).share_full fun w => hq4 (T7 m D0 D1 D2 D3) c w)
      ((T7 m D0 D1 D2 D3) c) (fun b => B8 m D0 D1 D2 D3 D4 c (Proc.devRef .tc b)) (((pdats m D0 D1 D2 D3 D4) 4 c).arrAt · cfg4.N) (hF4 m D0 D1 D2 D3 D4 c) (hrest4 m D0 D1 D2 D3 D4 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show ((pdats m D0 D1 D2 D3 D4) 4 c).owed (Fin.last _) = 0 from how4 (T7 m D0 D1 D2 D3) c (Fin.last _)]
    icases HO with ⟨%W, -, HO⟩; iexists W; iexact HO

/-! ## A region changes only its output windows' arrays -/

theorem B2_keep (hA0 : ∀ (V : VT F) (c : Dev nD) (w : Fin cfg0.W), (D0 V c).A w = V c (Pipeline.arrRef spec0 w))
    (c : Dev nD) (b : Ref sig .tc) (hb : ∀ w : Fin cfg0.W, (cfg0.win w).isOut = true → Pipeline.arrRef spec0 w ≠ b) :
    B2 m D0 c (Proc.devRef .tc b) = B1 m c (Proc.devRef .tc b) := by
  by_cases h : ∃ w, Pipeline.arrRef spec0 w = b
  · obtain ⟨w, rfl⟩ := h
    have hw : (cfg0.win w).isOut = false := by
      cases hh : (cfg0.win w).isOut
      · rfl
      · exact absurd rfl (hb w hh)
    rw [B2_arr, (D0 (T1 m) c).arrAt_in w hw _, hA0]
  · exact B2_of_ne m D0 c b (fun w e => h ⟨w, e⟩)

theorem B4_keep (hA1 : ∀ (V : VT F) (c : Dev nD) (w : Fin cfg1.W), (D1 V c).A w = V c (Pipeline.arrRef spec1 w))
    (c : Dev nD) (b : Ref sig .tc) (hb : ∀ w : Fin cfg1.W, (cfg1.win w).isOut = true → Pipeline.arrRef spec1 w ≠ b) :
    B4 m D0 D1 c (Proc.devRef .tc b) = B3 m D0 c (Proc.devRef .tc b) := by
  by_cases h : ∃ w, Pipeline.arrRef spec1 w = b
  · obtain ⟨w, rfl⟩ := h
    have hw : (cfg1.win w).isOut = false := by
      cases hh : (cfg1.win w).isOut
      · rfl
      · exact absurd rfl (hb w hh)
    rw [B4_arr, (D1 (T3 m D0) c).arrAt_in w hw _, hA1]
  · exact B4_of_ne m D0 D1 c b (fun w e => h ⟨w, e⟩)

theorem B5_keep (hA2 : ∀ (V : VT F) (c : Dev nD) (w : Fin cfg2.W), (D2 V c).A w = V c (Pipeline.arrRef spec2 w))
    (c : Dev nD) (b : Ref sig .tc) (hb : ∀ w : Fin cfg2.W, (cfg2.win w).isOut = true → Pipeline.arrRef spec2 w ≠ b) :
    B5 m D0 D1 D2 c (Proc.devRef .tc b) = B4 m D0 D1 c (Proc.devRef .tc b) := by
  by_cases h : ∃ w, Pipeline.arrRef spec2 w = b
  · obtain ⟨w, rfl⟩ := h
    have hw : (cfg2.win w).isOut = false := by
      cases hh : (cfg2.win w).isOut
      · rfl
      · exact absurd rfl (hb w hh)
    rw [B5_arr, (D2 (T4 m D0 D1) c).arrAt_in w hw _, hA2]
  · exact B5_of_ne m D0 D1 D2 c b (fun w e => h ⟨w, e⟩)

theorem B7_keep (hA3 : ∀ (V : VT F) (c : Dev nD) (w : Fin cfg3.W), (D3 V c).A w = V c (Pipeline.arrRef spec3 w))
    (c : Dev nD) (b : Ref sig .tc) (hb : ∀ w : Fin cfg3.W, (cfg3.win w).isOut = true → Pipeline.arrRef spec3 w ≠ b) :
    B7 m D0 D1 D2 D3 c (Proc.devRef .tc b) = B6 m D0 D1 D2 c (Proc.devRef .tc b) := by
  by_cases h : ∃ w, Pipeline.arrRef spec3 w = b
  · obtain ⟨w, rfl⟩ := h
    have hw : (cfg3.win w).isOut = false := by
      cases hh : (cfg3.win w).isOut
      · rfl
      · exact absurd rfl (hb w hh)
    rw [B7_arr, (D3 (T6 m D0 D1 D2) c).arrAt_in w hw _, hA3]
  · exact B7_of_ne m D0 D1 D2 D3 c b (fun w e => h ⟨w, e⟩)

theorem B8_keep (hA4 : ∀ (V : VT F) (c : Dev nD) (w : Fin cfg4.W), (D4 V c).A w = V c (Pipeline.arrRef spec4 w))
    (c : Dev nD) (b : Ref sig .tc) (hb : ∀ w : Fin cfg4.W, (cfg4.win w).isOut = true → Pipeline.arrRef spec4 w ≠ b) :
    B8 m D0 D1 D2 D3 D4 c (Proc.devRef .tc b) = B7 m D0 D1 D2 D3 c (Proc.devRef .tc b) := by
  by_cases h : ∃ w, Pipeline.arrRef spec4 w = b
  · obtain ⟨w, rfl⟩ := h
    have hw : (cfg4.win w).isOut = false := by
      cases hh : (cfg4.win w).isOut
      · rfl
      · exact absurd rfl (hb w hh)
    rw [B8_arr, (D4 (T7 m D0 D1 D2 D3) c).arrAt_in w hw _, hA4]
  · exact B8_of_ne m D0 D1 D2 D3 D4 c b (fun w e => h ⟨w, e⟩)

/-! ## @main as segments, and the run -/

/-- @main's nine segments in order. -/
abbrev segs
    (hA0 : ∀ (V : VT F) (c : Dev nD) (w : Fin cfg0.W), (D0 V c).A w = V c (Pipeline.arrRef spec0 w))
    (hq0 : ∀ (V : VT F) (c : Dev nD) (w : Fin cfg0.W), (D0 V c).q w = fullShare)
    (how0 : ∀ (V : VT F) (c : Dev nD) (t : Fin (cfg0.N + 1)), (D0 V c).owed t = 0)
    (hrec0 : ∀ (V : VT F) (c : Dev nD) (t : Fin (cfg0.N + 1)), (D0 V c).recorded t = Set.univ)
    (hin0 : ∀ (V : VT F) (c : Dev nD), (Pipeline.ΦA spec0 c : sProp 𝕄) ⊢ (D0 V c).Φ 0)
    (hout0 : ∀ (V : VT F) (c : Dev nD), (D0 V c).Φ (Fin.last cfg0.N) ⊢ (Pipeline.ΦA spec0 c : sProp 𝕄))
    (hb0 : ∀ (V : VT F) (c : Dev nD), BodyObligation (D0 V c) (defs₀ (F := F)) Variants.none () Set.univ)
    (hA1 : ∀ (V : VT F) (c : Dev nD) (w : Fin cfg1.W), (D1 V c).A w = V c (Pipeline.arrRef spec1 w))
    (hq1 : ∀ (V : VT F) (c : Dev nD) (w : Fin cfg1.W), (D1 V c).q w = fullShare)
    (how1 : ∀ (V : VT F) (c : Dev nD) (t : Fin (cfg1.N + 1)), (D1 V c).owed t = 0)
    (hrec1 : ∀ (V : VT F) (c : Dev nD) (t : Fin (cfg1.N + 1)), (D1 V c).recorded t = Set.univ)
    (hin1 : ∀ (V : VT F) (c : Dev nD), (Pipeline.ΦA spec1 c : sProp 𝕄) ⊢ (D1 V c).Φ 0)
    (hout1 : ∀ (V : VT F) (c : Dev nD), (D1 V c).Φ (Fin.last cfg1.N) ⊢ (Pipeline.ΦA spec1 c : sProp 𝕄))
    (hb1 : ∀ (V : VT F) (c : Dev nD), BodyObligation (D1 V c) (defs₀ (F := F)) Variants.none () Set.univ)
    (hA2 : ∀ (V : VT F) (c : Dev nD) (w : Fin cfg2.W), (D2 V c).A w = V c (Pipeline.arrRef spec2 w))
    (hq2 : ∀ (V : VT F) (c : Dev nD) (w : Fin cfg2.W), (D2 V c).q w = fullShare)
    (how2 : ∀ (V : VT F) (c : Dev nD) (t : Fin (cfg2.N + 1)), (D2 V c).owed t = 0)
    (hrec2 : ∀ (V : VT F) (c : Dev nD) (t : Fin (cfg2.N + 1)), (D2 V c).recorded t = Set.univ)
    (hin2 : ∀ (V : VT F) (c : Dev nD), (Pipeline.ΦA spec2 c : sProp 𝕄) ⊢ (D2 V c).Φ 0)
    (hout2 : ∀ (V : VT F) (c : Dev nD), (D2 V c).Φ (Fin.last cfg2.N) ⊢ (Pipeline.ΦA spec2 c : sProp 𝕄))
    (hb2 : ∀ (V : VT F) (c : Dev nD), BodyObligation (D2 V c) (defs₀ (F := F)) Variants.none () Set.univ)
    (hA3 : ∀ (V : VT F) (c : Dev nD) (w : Fin cfg3.W), (D3 V c).A w = V c (Pipeline.arrRef spec3 w))
    (hq3 : ∀ (V : VT F) (c : Dev nD) (w : Fin cfg3.W), (D3 V c).q w = fullShare)
    (how3 : ∀ (V : VT F) (c : Dev nD) (t : Fin (cfg3.N + 1)), (D3 V c).owed t = 0)
    (hrec3 : ∀ (V : VT F) (c : Dev nD) (t : Fin (cfg3.N + 1)), (D3 V c).recorded t = Set.univ)
    (hin3 : ∀ (V : VT F) (c : Dev nD), (Pipeline.ΦA spec3 c : sProp 𝕄) ⊢ (D3 V c).Φ 0)
    (hout3 : ∀ (V : VT F) (c : Dev nD), (D3 V c).Φ (Fin.last cfg3.N) ⊢ (Pipeline.ΦA spec3 c : sProp 𝕄))
    (hb3 : ∀ (V : VT F) (c : Dev nD), BodyObligation (D3 V c) (defs₀ (F := F)) Variants.none () Set.univ)
    (hA4 : ∀ (V : VT F) (c : Dev nD) (w : Fin cfg4.W), (D4 V c).A w = V c (Pipeline.arrRef spec4 w))
    (hq4 : ∀ (V : VT F) (c : Dev nD) (w : Fin cfg4.W), (D4 V c).q w = fullShare)
    (how4 : ∀ (V : VT F) (c : Dev nD) (t : Fin (cfg4.N + 1)), (D4 V c).owed t = 0)
    (hrec4 : ∀ (V : VT F) (c : Dev nD) (t : Fin (cfg4.N + 1)), (D4 V c).recorded t = Set.univ)
    (hin4 : ∀ (V : VT F) (c : Dev nD), (Pipeline.ΦA spec4 c : sProp 𝕄) ⊢ (D4 V c).Φ 0)
    (hout4 : ∀ (V : VT F) (c : Dev nD), (D4 V c).Φ (Fin.last cfg4.N) ⊢ (Pipeline.ΦA spec4 c : sProp 𝕄))
    (hb4 : ∀ (V : VT F) (c : Dev nD), BodyObligation (D4 V c) (defs₀ (F := F)) Variants.none () Set.univ) :
    List (Pipeline.Seg (pcfgs (F := F)) adm (pdats m D0 D1 D2 D3 D4) () defs₀ 𝒱₀ L lv) :=
  [ .host (hseg hostOps0 hostOps0_sub hostOps0_fresh (B0 m)),
    .region (reg0 m D0 D1 D2 D3 D4 hA0 hq0 how0 hrec0 hin0 hout0 hb0),
    .host (hseg hostOps1 hostOps1_sub hostOps1_fresh (B2 m D0)),
    .region (reg1 m D0 D1 D2 D3 D4 hA1 hq1 how1 hrec1 hin1 hout1 hb1),
    .region (reg2 m D0 D1 D2 D3 D4 hA2 hq2 how2 hrec2 hin2 hout2 hb2),
    .host (hseg hostOps3 hostOps3_sub hostOps3_fresh (B5 m D0 D1 D2)),
    .region (reg3 m D0 D1 D2 D3 D4 hA3 hq3 how3 hrec3 hin3 hout3 hb3),
    .region (reg4 m D0 D1 D2 D3 D4 hA4 hq4 how4 hrec4 hin4 hout4 hb4),
    .host (hseg hostOps5 hostOps5_sub hostOps5_fresh (B8 m D0 D1 D2 D3 D4)) ]

/-- @main is the run of the segments. -/
theorem main_run
    (hA0 : ∀ (V : VT F) (c : Dev nD) (w : Fin cfg0.W), (D0 V c).A w = V c (Pipeline.arrRef spec0 w))
    (hq0 : ∀ (V : VT F) (c : Dev nD) (w : Fin cfg0.W), (D0 V c).q w = fullShare)
    (how0 : ∀ (V : VT F) (c : Dev nD) (t : Fin (cfg0.N + 1)), (D0 V c).owed t = 0)
    (hrec0 : ∀ (V : VT F) (c : Dev nD) (t : Fin (cfg0.N + 1)), (D0 V c).recorded t = Set.univ)
    (hin0 : ∀ (V : VT F) (c : Dev nD), (Pipeline.ΦA spec0 c : sProp 𝕄) ⊢ (D0 V c).Φ 0)
    (hout0 : ∀ (V : VT F) (c : Dev nD), (D0 V c).Φ (Fin.last cfg0.N) ⊢ (Pipeline.ΦA spec0 c : sProp 𝕄))
    (hb0 : ∀ (V : VT F) (c : Dev nD), BodyObligation (D0 V c) (defs₀ (F := F)) Variants.none () Set.univ)
    (hA1 : ∀ (V : VT F) (c : Dev nD) (w : Fin cfg1.W), (D1 V c).A w = V c (Pipeline.arrRef spec1 w))
    (hq1 : ∀ (V : VT F) (c : Dev nD) (w : Fin cfg1.W), (D1 V c).q w = fullShare)
    (how1 : ∀ (V : VT F) (c : Dev nD) (t : Fin (cfg1.N + 1)), (D1 V c).owed t = 0)
    (hrec1 : ∀ (V : VT F) (c : Dev nD) (t : Fin (cfg1.N + 1)), (D1 V c).recorded t = Set.univ)
    (hin1 : ∀ (V : VT F) (c : Dev nD), (Pipeline.ΦA spec1 c : sProp 𝕄) ⊢ (D1 V c).Φ 0)
    (hout1 : ∀ (V : VT F) (c : Dev nD), (D1 V c).Φ (Fin.last cfg1.N) ⊢ (Pipeline.ΦA spec1 c : sProp 𝕄))
    (hb1 : ∀ (V : VT F) (c : Dev nD), BodyObligation (D1 V c) (defs₀ (F := F)) Variants.none () Set.univ)
    (hA2 : ∀ (V : VT F) (c : Dev nD) (w : Fin cfg2.W), (D2 V c).A w = V c (Pipeline.arrRef spec2 w))
    (hq2 : ∀ (V : VT F) (c : Dev nD) (w : Fin cfg2.W), (D2 V c).q w = fullShare)
    (how2 : ∀ (V : VT F) (c : Dev nD) (t : Fin (cfg2.N + 1)), (D2 V c).owed t = 0)
    (hrec2 : ∀ (V : VT F) (c : Dev nD) (t : Fin (cfg2.N + 1)), (D2 V c).recorded t = Set.univ)
    (hin2 : ∀ (V : VT F) (c : Dev nD), (Pipeline.ΦA spec2 c : sProp 𝕄) ⊢ (D2 V c).Φ 0)
    (hout2 : ∀ (V : VT F) (c : Dev nD), (D2 V c).Φ (Fin.last cfg2.N) ⊢ (Pipeline.ΦA spec2 c : sProp 𝕄))
    (hb2 : ∀ (V : VT F) (c : Dev nD), BodyObligation (D2 V c) (defs₀ (F := F)) Variants.none () Set.univ)
    (hA3 : ∀ (V : VT F) (c : Dev nD) (w : Fin cfg3.W), (D3 V c).A w = V c (Pipeline.arrRef spec3 w))
    (hq3 : ∀ (V : VT F) (c : Dev nD) (w : Fin cfg3.W), (D3 V c).q w = fullShare)
    (how3 : ∀ (V : VT F) (c : Dev nD) (t : Fin (cfg3.N + 1)), (D3 V c).owed t = 0)
    (hrec3 : ∀ (V : VT F) (c : Dev nD) (t : Fin (cfg3.N + 1)), (D3 V c).recorded t = Set.univ)
    (hin3 : ∀ (V : VT F) (c : Dev nD), (Pipeline.ΦA spec3 c : sProp 𝕄) ⊢ (D3 V c).Φ 0)
    (hout3 : ∀ (V : VT F) (c : Dev nD), (D3 V c).Φ (Fin.last cfg3.N) ⊢ (Pipeline.ΦA spec3 c : sProp 𝕄))
    (hb3 : ∀ (V : VT F) (c : Dev nD), BodyObligation (D3 V c) (defs₀ (F := F)) Variants.none () Set.univ)
    (hA4 : ∀ (V : VT F) (c : Dev nD) (w : Fin cfg4.W), (D4 V c).A w = V c (Pipeline.arrRef spec4 w))
    (hq4 : ∀ (V : VT F) (c : Dev nD) (w : Fin cfg4.W), (D4 V c).q w = fullShare)
    (how4 : ∀ (V : VT F) (c : Dev nD) (t : Fin (cfg4.N + 1)), (D4 V c).owed t = 0)
    (hrec4 : ∀ (V : VT F) (c : Dev nD) (t : Fin (cfg4.N + 1)), (D4 V c).recorded t = Set.univ)
    (hin4 : ∀ (V : VT F) (c : Dev nD), (Pipeline.ΦA spec4 c : sProp 𝕄) ⊢ (D4 V c).Φ 0)
    (hout4 : ∀ (V : VT F) (c : Dev nD), (D4 V c).Φ (Fin.last cfg4.N) ⊢ (Pipeline.ΦA spec4 c : sProp 𝕄))
    (hb4 : ∀ (V : VT F) (c : Dev nD), BodyObligation (D4 V c) (defs₀ (F := F)) Variants.none () Set.univ)
    (c : Dev nD) : main (F := F) c = Pipeline.Seg.run (segs m D0 D1 D2 D3 D4 hA0 hq0 how0 hrec0 hin0 hout0 hb0 hA1 hq1 how1 hrec1 hin1 hout1 hb1 hA2 hq2 how2 hrec2 hin2 hout2 hb2 hA3 hq3 how3 hrec3 hin3 hout3 hb3 hA4 hq4 how4 hrec4 hin4 hout4 hb4) :=
  (main_chain c).trans (by chain_rfl)

set_option backward.isDefEq.respectTransparency.types false in
/-- THE RUN: from any memory with zero counters every weakly fair execution of @main terminates, nothing
    faulting, and the final memory holds every unscoped buffer at the last boundary's contents. -/
theorem run_all
    (hA0 : ∀ (V : VT F) (c : Dev nD) (w : Fin cfg0.W), (D0 V c).A w = V c (Pipeline.arrRef spec0 w))
    (hq0 : ∀ (V : VT F) (c : Dev nD) (w : Fin cfg0.W), (D0 V c).q w = fullShare)
    (how0 : ∀ (V : VT F) (c : Dev nD) (t : Fin (cfg0.N + 1)), (D0 V c).owed t = 0)
    (hrec0 : ∀ (V : VT F) (c : Dev nD) (t : Fin (cfg0.N + 1)), (D0 V c).recorded t = Set.univ)
    (hin0 : ∀ (V : VT F) (c : Dev nD), (Pipeline.ΦA spec0 c : sProp 𝕄) ⊢ (D0 V c).Φ 0)
    (hout0 : ∀ (V : VT F) (c : Dev nD), (D0 V c).Φ (Fin.last cfg0.N) ⊢ (Pipeline.ΦA spec0 c : sProp 𝕄))
    (hb0 : ∀ (V : VT F) (c : Dev nD), BodyObligation (D0 V c) (defs₀ (F := F)) Variants.none () Set.univ)
    (hA1 : ∀ (V : VT F) (c : Dev nD) (w : Fin cfg1.W), (D1 V c).A w = V c (Pipeline.arrRef spec1 w))
    (hq1 : ∀ (V : VT F) (c : Dev nD) (w : Fin cfg1.W), (D1 V c).q w = fullShare)
    (how1 : ∀ (V : VT F) (c : Dev nD) (t : Fin (cfg1.N + 1)), (D1 V c).owed t = 0)
    (hrec1 : ∀ (V : VT F) (c : Dev nD) (t : Fin (cfg1.N + 1)), (D1 V c).recorded t = Set.univ)
    (hin1 : ∀ (V : VT F) (c : Dev nD), (Pipeline.ΦA spec1 c : sProp 𝕄) ⊢ (D1 V c).Φ 0)
    (hout1 : ∀ (V : VT F) (c : Dev nD), (D1 V c).Φ (Fin.last cfg1.N) ⊢ (Pipeline.ΦA spec1 c : sProp 𝕄))
    (hb1 : ∀ (V : VT F) (c : Dev nD), BodyObligation (D1 V c) (defs₀ (F := F)) Variants.none () Set.univ)
    (hA2 : ∀ (V : VT F) (c : Dev nD) (w : Fin cfg2.W), (D2 V c).A w = V c (Pipeline.arrRef spec2 w))
    (hq2 : ∀ (V : VT F) (c : Dev nD) (w : Fin cfg2.W), (D2 V c).q w = fullShare)
    (how2 : ∀ (V : VT F) (c : Dev nD) (t : Fin (cfg2.N + 1)), (D2 V c).owed t = 0)
    (hrec2 : ∀ (V : VT F) (c : Dev nD) (t : Fin (cfg2.N + 1)), (D2 V c).recorded t = Set.univ)
    (hin2 : ∀ (V : VT F) (c : Dev nD), (Pipeline.ΦA spec2 c : sProp 𝕄) ⊢ (D2 V c).Φ 0)
    (hout2 : ∀ (V : VT F) (c : Dev nD), (D2 V c).Φ (Fin.last cfg2.N) ⊢ (Pipeline.ΦA spec2 c : sProp 𝕄))
    (hb2 : ∀ (V : VT F) (c : Dev nD), BodyObligation (D2 V c) (defs₀ (F := F)) Variants.none () Set.univ)
    (hA3 : ∀ (V : VT F) (c : Dev nD) (w : Fin cfg3.W), (D3 V c).A w = V c (Pipeline.arrRef spec3 w))
    (hq3 : ∀ (V : VT F) (c : Dev nD) (w : Fin cfg3.W), (D3 V c).q w = fullShare)
    (how3 : ∀ (V : VT F) (c : Dev nD) (t : Fin (cfg3.N + 1)), (D3 V c).owed t = 0)
    (hrec3 : ∀ (V : VT F) (c : Dev nD) (t : Fin (cfg3.N + 1)), (D3 V c).recorded t = Set.univ)
    (hin3 : ∀ (V : VT F) (c : Dev nD), (Pipeline.ΦA spec3 c : sProp 𝕄) ⊢ (D3 V c).Φ 0)
    (hout3 : ∀ (V : VT F) (c : Dev nD), (D3 V c).Φ (Fin.last cfg3.N) ⊢ (Pipeline.ΦA spec3 c : sProp 𝕄))
    (hb3 : ∀ (V : VT F) (c : Dev nD), BodyObligation (D3 V c) (defs₀ (F := F)) Variants.none () Set.univ)
    (hA4 : ∀ (V : VT F) (c : Dev nD) (w : Fin cfg4.W), (D4 V c).A w = V c (Pipeline.arrRef spec4 w))
    (hq4 : ∀ (V : VT F) (c : Dev nD) (w : Fin cfg4.W), (D4 V c).q w = fullShare)
    (how4 : ∀ (V : VT F) (c : Dev nD) (t : Fin (cfg4.N + 1)), (D4 V c).owed t = 0)
    (hrec4 : ∀ (V : VT F) (c : Dev nD) (t : Fin (cfg4.N + 1)), (D4 V c).recorded t = Set.univ)
    (hin4 : ∀ (V : VT F) (c : Dev nD), (Pipeline.ΦA spec4 c : sProp 𝕄) ⊢ (D4 V c).Φ 0)
    (hout4 : ∀ (V : VT F) (c : Dev nD), (D4 V c).Φ (Fin.last cfg4.N) ⊢ (Pipeline.ΦA spec4 c : sProp 𝕄))
    (hb4 : ∀ (V : VT F) (c : Dev nD), BodyObligation (D4 V c) (defs₀ (F := F)) Variants.none () Set.univ) :
    θ_run defs (onTc (τ := τ) (main (F := F))) ⟨m, fun _ => 0, ρ⟩ (fun r => ∀ c : Dev nD,
      ∀ b ∈ Pipeline.ucRefs τ sig, r.2.mem (((c : Thread nD τ)).1, b) = B9 m D0 D1 D2 D3 D4 c b) :=
  Pipeline.θ_run_regions_kit (pcfgs (F := F)) adm (pdats m D0 D1 D2 D3 D4) () cellOf_inj emb₁ defs₀ 𝒱₀ L lv m ρ main
    (segs m D0 D1 D2 D3 D4 hA0 hq0 how0 hrec0 hin0 hout0 hb0 hA1 hq1 how1 hrec1 hin1 hout1 hb1 hA2 hq2 how2 hrec2 hin2 hout2 hb2 hA3 hq3 how3 hrec3 hin3 hout3 hb3 hA4 hq4 how4 hrec4 hin4 hout4 hb4)
    (fun c Q => by rw [main_run m D0 D1 D2 D3 D4 hA0 hq0 how0 hrec0 hin0 hout0 hb0 hA1 hq1 how1 hrec1 hin1 hout1 hb1 hA2 hq2 how2 hrec2 hin2 hout2 hb2 hA3 hq3 how3 hrec3 hin3 hout3 hb3 hA4 hq4 how4 hrec4 hin4 hout4 hb4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => iprop(StableHlo.held (c : Thread nD τ) (Pipeline.ucRefs τ sig) (B9 m D0 D1 D2 D3 D4 c) ∗ ∃ r, prngReg c r))
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (B9 m D0 D1 D2 D3 D4 c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B9 m D0 D1 D2 D3 D4 c b)
    (hfin := fun c s' => by
      iintro ⟨⟨Hh, -⟩, HSI⟩
      unfold StableHlo.held
      imodintro
      iapply (pointsTo_read_all (Pipeline.ucRefs τ sig) (fun b => (((c : Thread nD τ)).1, b)) (B9 m D0 D1 D2 D3 D4 c) s')
      isplitl [Hh] <;> iassumption)
    (hQ := fun s h c => h c)

end Cert.KernelIdeal.Hand

end
-- ==== Proof.KI.Reg0.lean ====
/-
  Region 0 (the first layer's kernel, relu(X·W1) one row block at a time): the pipeline's proof data and the body
  obligation. The body loads both input buffers whole, multiplies into a zero accumulator, takes the maximum with
  zero and stores the output buffer whole; so after the body each input buffer holds its block still and the output
  buffer the payload of the two blocks.
-/
import proofs.«106620_j12240656794038_1_alg».proof.Proof.Gen.KernelIdeal.Launch
import proofs.«106620_j12240656794038_1_alg».proof.Proof.Gen.KernelIdeal.Skeleton
import proofs.«106620_j12240656794038_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: an unfetched
    point has the block index of the point before it, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2048x256 := Rect.unit (s := S2048x256) ![0, 0] S2048x256.size inb_S2048x256_S2048x256_0_0
abbrev r0_1 : Rect S256x256 := Rect.unit (s := S256x256) ![0, 0] S256x256.size inb_S256x256_S256x256_0_0
abbrev r0_2 : Rect S2048x256 := Rect.unit (s := S2048x256) ![0, 0] S2048x256.size inb_S2048x256_S2048x256_0_0

/-! ## What the body leaves in the output window's buffer -/

/-- Window 2's staging buffer after the body, from the input windows' blocks: its one store, of the whole buffer. -/
def out0_2 (x0 : Vec F S2048x256 .f32) (x1 : Vec F S256x256 .f32) : Vec F S2048x256 .f32 :=
  View.canon [⟨r0_2, k0_pay1 (View.ld x0 r0_0) (View.ld x1 r0_1)⟩]

/-- The store is of the whole buffer, so it covers it. -/
theorem cover0_2 (p0 : Vec F S2048x256 .f32) (y : S2048x256.Idx) :
    ∃ pc ∈ ([⟨r0_2, p0⟩] : List (View.Piece (Elt F) S2048x256 .f32)), y ∈ pc.1.set :=
  View.cover_of_tiled [⟨r0_2, p0⟩] S2048x256.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords) (arg0 : Memref sig .tc .vmem S2048x256 .f32) (harg0 : arg0.IsWhole) (arg1 : Memref sig .tc .vmem S256x256 .f32) (harg1 : arg1.IsWhole) (arg2 : Memref sig .tc .vmem S2048x256 .f32) (harg2 : arg2.IsWhole)
    (x0 : Vec F S2048x256 .f32) (x1 : Vec F S256x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__h1_kernel i arg0 harg0 arg1 harg1 arg2 harg2) K := by
  simp only [cc0__h1_kernel_eq_skeleton]; unfold cc0__h1_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- The proof data's invariant is the scoped rest and the generator register at every point. -/
theorem Phi0 (c : Dev nD) (t) : (dat0 V c).Φ t = Pipeline.ΦA spec0 c := rfl

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/- Region 1 of @main (the encoder/decoder kernel, pipeline 1, a grid of 8 points): the class-A half of its frame,
   at a parameter `V` — the TensorCore's buffer contents when the region is entered. Each window's block at a point
   (`iblk1`), every input window's staging buffer at its block whether or not the point fetches it (`before1_W`),
   each output window's buffer after the body as the canonical contents of its one whole-buffer store over the
   skeleton's payloads (`out1_W`), the body's triple by symbolic execution through both part calls
   (`sound_kernel1`), the proof data (`dat1`) and the body obligation (`body_obligation1`). -/
import proofs.«106620_j12240656794038_1_alg».proof.Proof.Gen.KernelIdeal.Launch
import proofs.«106620_j12240656794038_1_alg».proof.Proof.Gen.KernelIdeal.Skeleton
import proofs.«106620_j12240656794038_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (unfetched, the
    block index has not moved), for any proof data whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (unfetched, the
    block index has not moved), for any proof data whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not (unfetched, the
    block index has not moved), for any proof data whose array is `V`'s and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not (unfetched, the
    block index has not moved), for any proof data whose array is `V`'s and whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and every store is of a whole buffer -/

abbrev r1_0 : Rect S512x256 := Rect.unit (s := S512x256) ![0, 0] S512x256.size inb_S512x256_S512x256_0_0
abbrev r1_1 : Rect S256x128 := Rect.unit (s := S256x128) ![0, 0] S256x128.size inb_S256x128_S256x128_0_0
abbrev r1_2 : Rect S128x256 := Rect.unit (s := S128x256) ![0, 0] S128x256.size inb_S128x256_S128x256_0_0
abbrev r1_3 : Rect S256x256 := Rect.unit (s := S256x256) ![0, 0] S256x256.size inb_S256x256_S256x256_0_0
abbrev r1_4 : Rect S512x128 := Rect.unit (s := S512x128) ![0, 0] S512x128.size inb_S512x128_S512x128_0_0

/-! ## What the body leaves in each output window's buffer -/

/-- Window 7's staging buffer after the body, from the input windows' blocks: its one store as a piece. -/
def out1_7 (x0 : Vec F S512x256 .f32) (x1 : Vec F S256x128 .f32) (x2 : Vec F S256x128 .f32) (x3 : Vec F S128x256 .f32) (x4 : Vec F S256x256 .f32) (x5 : Vec F S256x256 .f32) (x6 : Vec F S256x256 .f32) : Vec F S512x128 .f32 :=
  View.canon [⟨r1_4, k1_pay2 (View.ld x0 r1_0) (View.ld x1 r1_1)⟩]

/-- The store fills the whole buffer, so it covers it. -/
theorem cover1_7 (p0 : Vec F S512x128 .f32) (y : S512x128.Idx) :
    ∃ pc ∈ ([⟨r1_4, p0⟩] : List (View.Piece (Elt F) S512x128 .f32)), y ∈ pc.1.set :=
  View.cover_of_tiled [⟨r1_4, p0⟩] S512x128.size (by rfl) y

/-- Window 8's staging buffer after the body, from the input windows' blocks: its one store as a piece. -/
def out1_8 (x0 : Vec F S512x256 .f32) (x1 : Vec F S256x128 .f32) (x2 : Vec F S256x128 .f32) (x3 : Vec F S128x256 .f32) (x4 : Vec F S256x256 .f32) (x5 : Vec F S256x256 .f32) (x6 : Vec F S256x256 .f32) : Vec F S512x128 .f32 :=
  View.canon [⟨r1_4, k1_pay3 (View.ld x0 r1_0) (View.ld x2 r1_1)⟩]

/-- The store fills the whole buffer, so it covers it. -/
theorem cover1_8 (p0 : Vec F S512x128 .f32) (y : S512x128.Idx) :
    ∃ pc ∈ ([⟨r1_4, p0⟩] : List (View.Piece (Elt F) S512x128 .f32)), y ∈ pc.1.set :=
  View.cover_of_tiled [⟨r1_4, p0⟩] S512x128.size (by rfl) y

/-- Window 9's staging buffer after the body, from the input windows' blocks: its one store as a piece. -/
def out1_9 (x0 : Vec F S512x256 .f32) (x1 : Vec F S256x128 .f32) (x2 : Vec F S256x128 .f32) (x3 : Vec F S128x256 .f32) (x4 : Vec F S256x256 .f32) (x5 : Vec F S256x256 .f32) (x6 : Vec F S256x256 .f32) : Vec F S512x256 .f32 :=
  View.canon [⟨r1_0, k1_pay6 (k1_pay4 (View.ld x0 r1_0) (View.ld x1 r1_1) (View.ld x3 r1_2)) (View.ld x4 r1_3) (View.ld x5 r1_3)⟩]

/-- The store fills the whole buffer, so it covers it. -/
theorem cover1_9 (p0 : Vec F S512x256 .f32) (y : S512x256.Idx) :
    ∃ pc ∈ ([⟨r1_0, p0⟩] : List (View.Piece (Elt F) S512x256 .f32)), y ∈ pc.1.set :=
  View.cover_of_tiled [⟨r1_0, p0⟩] S512x256.size (by rfl) y

/-- Window 10's staging buffer after the body, from the input windows' blocks: its one store as a piece. -/
def out1_10 (x0 : Vec F S512x256 .f32) (x1 : Vec F S256x128 .f32) (x2 : Vec F S256x128 .f32) (x3 : Vec F S128x256 .f32) (x4 : Vec F S256x256 .f32) (x5 : Vec F S256x256 .f32) (x6 : Vec F S256x256 .f32) : Vec F S512x256 .f32 :=
  View.canon [⟨r1_0, k1_pay7 (k1_pay4 (View.ld x0 r1_0) (View.ld x1 r1_1) (View.ld x3 r1_2)) (View.ld x4 r1_3) (View.ld x6 r1_3)⟩]

/-- The store fills the whole buffer, so it covers it. -/
theorem cover1_10 (p0 : Vec F S512x256 .f32) (y : S512x256.Idx) :
    ∃ pc ∈ ([⟨r1_0, p0⟩] : List (View.Piece (Elt F) S512x256 .f32)), y ∈ pc.1.set :=
  View.cover_of_tiled [⟨r1_0, p0⟩] S512x256.size (by rfl) y

/-! ## The body's triple -/

set_option maxHeartbeats 4000000 in
/-- The kernel body on whole staging memrefs, the inputs' at read contents `xW` and the outputs' at anything, runs to
    the continuation holding the inputs' as they were and each output's at `out1_W` of the inputs': the printed
    functions are their skeletons, which symbolic execution runs, through both part calls. -/
theorem sound_kernel1 (c : Dev nD) (E : Set ℕ) (i : grid1.Coords) (arg1 : Memref sig .tc .vmem S512x256 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S128x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x256 .f32) (harg10 : arg10.IsWhole) (arg11 : Memref sig .tc .vmem S512x256 .f32) (harg11 : arg11.IsWhole)
    (x0 : Vec F S512x256 .f32) (x1 : Vec F S256x128 .f32) (x2 : Vec F S256x128 .f32) (x3 : Vec F S128x256 .f32) (x4 : Vec F S256x256 .f32) (x5 : Vec F S256x256 .f32) (x6 : Vec F S256x256 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ (∃ d, owns (c : Thread nD τ) arg9 fullShare d)
        ∗ (∃ d, owns (c : Thread nD τ) arg10 fullShare d)
        ∗ (∃ d, owns (c : Thread nD τ) arg11 fullShare d)
        ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare (out1_7 x0 x1 x2 x3 x4 x5 x6)
          ∗ owns (c : Thread nD τ) arg9 fullShare (out1_8 x0 x1 x2 x3 x4 x5 x6)
          ∗ owns (c : Thread nD τ) arg10 fullShare (out1_9 x0 x1 x2 x3 x4 x5 x6)
          ∗ owns (c : Thread nD τ) arg11 fullShare (out1_10 x0 x1 x2 x3 x4 x5 x6)) -∗ K ⟨⟩))
      ⊢ wp frame (wpE (defs₀ (F := F)) Variants.none c none) E (cc1__encdec_kernel i arg1 harg1 arg2 harg2 arg3 harg3 arg4 harg4 arg5 harg5 arg6 harg6 arg7 harg7 arg8 harg8 arg9 harg9 arg10 harg10 arg11 harg11) K := by
  simp only [cc1__encdec_kernel_eq_skeleton]; unfold cc1__encdec_kernel_skel
  simp only [k1_part1_eq_skeleton]; unfold k1_part1_skel
  simp only [k1_part2_eq_skeleton]; unfold k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    try dsimp only
    exact View.read_writes_eq_canon _ _ _ (cover1_7 _)
  isplitl [H8]
  · iexists _; isplitr
    swap; · iexact H8
    ipureintro
    try dsimp only
    exact View.read_writes_eq_canon _ _ _ (cover1_8 _)
  isplitl [H9]
  · iexists _; isplitr
    swap; · iexact H9
    ipureintro
    try dsimp only
    exact View.read_writes_eq_canon _ _ _ (cover1_9 _)
  iexists _; isplitr
  swap; · iexact H10
  ipureintro
  try dsimp only
  exact View.read_writes_eq_canon _ _ _ (cover1_10 _)

/-! ## The pipeline's proof data -/

/-- The proof data of pipeline 1 on core `c`: the arrays as the region finds them (`V`); after the body at point `t`
    each input's buffer at its block and each output's at `out1_W` of the input blocks; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
    | ⟨10, _⟩ => out1_10 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- The proof data's invariant is the class's, at every point. -/
theorem Phi1 (c : Dev nD) (t) : (dat1 V c).Φ t = Pipeline.ΦA spec1 c := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

set_option maxHeartbeats 1000000 in
/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand
-- ==== Proof.KI.Reg2.lean ====
/-
  Region 2 (the reconstruction kernel, e1·e2ᵀ one 1024×1024 tile at a time): the pipeline's proof data and the body
  obligation. The body loads both input buffers whole, contracts their second axes into a zero accumulator and
  stores the output buffer whole; so after the body each input buffer holds its block still and the output buffer
  the payload of the two blocks.
-/
import proofs.«106620_j12240656794038_1_alg».proof.Proof.Gen.KernelIdeal.Launch
import proofs.«106620_j12240656794038_1_alg».proof.Proof.Gen.KernelIdeal.Skeleton
import proofs.«106620_j12240656794038_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: an unfetched
    point has the block index of the point before it, and the body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same of input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1024x256 := Rect.unit (s := S1024x256) ![0, 0] S1024x256.size inb_S1024x256_S1024x256_0_0
abbrev r2_1 : Rect S1024x256 := Rect.unit (s := S1024x256) ![0, 0] S1024x256.size inb_S1024x256_S1024x256_0_0
abbrev r2_2 : Rect S1024x1024 := Rect.unit (s := S1024x1024) ![0, 0] S1024x1024.size inb_S1024x1024_S1024x1024_0_0

/-! ## What the body leaves in the output window's buffer -/

/-- Window 2's staging buffer after the body, from the input windows' blocks: its one store, of the whole buffer. -/
def out2_2 (x0 : Vec F S1024x256 .f32) (x1 : Vec F S1024x256 .f32) : Vec F S1024x1024 .f32 :=
  View.canon [⟨r2_2, k2_pay1 (View.ld x0 r2_0) (View.ld x1 r2_1)⟩]

/-- The store is of the whole buffer, so it covers it. -/
theorem cover2_2 (p0 : Vec F S1024x1024 .f32) (y : S1024x1024.Idx) :
    ∃ pc ∈ ([⟨r2_2, p0⟩] : List (View.Piece (Elt F) S1024x1024 .f32)), y ∈ pc.1.set :=
  View.cover_of_tiled [⟨r2_2, p0⟩] S1024x1024.size (by rfl) y

/-! ## The body's triple -/

set_option maxHeartbeats 1000000 in
/-- The kernel body on whole staging memrefs, the inputs' at read contents `x0`, `x1` and the output's at anything,
    runs to the continuation holding the inputs' as they were and the output's at `out2_2` of the inputs'. -/
theorem sound_kernel2 (c : Dev nD) (E : Set ℕ) (i : grid2.Coords) (arg0 : Memref sig .tc .vmem S1024x256 .f32) (harg0 : arg0.IsWhole) (arg1 : Memref sig .tc .vmem S1024x256 .f32) (harg1 : arg1.IsWhole) (arg2 : Memref sig .tc .vmem S1024x1024 .f32) (harg2 : arg2.IsWhole)
    (x0 : Vec F S1024x256 .f32) (x1 : Vec F S1024x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__reconst_kernel i arg0 harg0 arg1 harg1 arg2 harg2) K := by
  simp only [cc2__reconst_kernel_eq_skeleton]; unfold cc2__reconst_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them (`V`); after the body at point
    `t` each input's buffer at its block and the output's at `out2_2` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- The proof data's invariant is the scoped rest and the generator register at every point. -/
theorem Phi2 (c : Dev nD) (t) : (dat2 V c).Φ t = Pipeline.ΦA spec2 c := rfl

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3Runs.lean ====
import proofs.«106620_j12240656794038_1_alg».proof.Proof.Gen.KernelIdeal.Launch
import proofs.«106620_j12240656794038_1_alg».proof.Proof.Gen.KernelIdeal.Skeleton
import proofs.«106620_j12240656794038_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for input window 1. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end

/-! ## The body's branch conditions -/

/-- The condition of the body's first `scf.if` (the contraction block is the first), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 4). -/
theorem hcond3_0 : ∀ t : Fin cfg3.N, cond3_0 (grid3.coords t) ↔ t.val % 4 = 0 :=
  (by decide +kernel : ∀ t : Fin grid3.N, cond3_0 (grid3.coords t) ↔ t.val % 4 = 0)

/-- The condition of the body's second `scf.if` (the contraction block is the last). -/
abbrev cond3_1 (i : grid3.Coords) : Prop := k3_cond2 i = 1#1
/-- It holds at the points ≡ 3 (mod 4). -/
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
theorem liveAt3_2_C : ∀ t : Fin cfg3.N, ¬cond3_0 (grid3.coords t) → cond3_1 (grid3.coords t) → cfg3.idle 2 (grid3.coords t) = false := by decide +kernel

/-! ## The staging and scratch memrefs -/

/-- One staging buffer of output window 2, through which its contents are stated. -/
abbrev VO3_2 : View sig .tc .vmem S1024x256 .f32 := (Memref.whole cc3_stg2_0 : Memref sig .tc .vmem S1024x256 .f32).view
abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x256 .f32 := win3_2.stage (cfg3.slots t 2)
abbrev hs3_2 (t : Fin cfg3.N) : (ms3_2 t).IsWhole := hstage3_2 ((cfg3.slots t 2).cast nbuf3_2)
/-- The scratch operand: a whole scoped buffer of the kernel's own, passed beside the windows. -/
abbrev scM3_0 : Memref sig .tc .vmem S1024x256 .f32 := Memref.whole cc3_scratch0
/-- The scratch the kernel carries between points, as a view. -/
abbrev VS3_0 : View sig .tc .vmem S1024x256 .f32 := scM3_0.view

/-- Every scoped buffer other than the windows' staging buffers and the carried scratch, unopened. -/
abbrev rest3 (c : Dev nD) : sProp 𝕄 :=
  Pipeline.scopedRestBut (Ix := Unit) (Name := ℕ) (U := UR sig nD τ) (Lvl := ℕ) (Val := Elt F) spec3 c [cc3_scratch0]

/-- The region's invariant with the scratch operand as a memref owned at some contents, beside the unopened rest. -/
theorem PhiA3_eq (c : Dev nD) :
    (Pipeline.ΦA spec3 c : sProp 𝕄)
      = iprop(iprop(iprop((∃ d, owns (c : Thread nD τ) scM3_0 fullShare d)) ∗ rest3 (F := F) c) ∗ (∃ r, prngReg c r)) := by
  unfold Pipeline.ΦA; rw [scopedRest3_split]; simp only [scM3_0, owns_whole]; try rfl

end Cert.KernelIdeal.Hand

end
-- ==== Proof.KI.Reg3RunA.lean ====
import proofs.«106620_j12240656794038_1_alg».proof.Proof.KI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of the first contraction block: the scratch is stored whole (zeros), then the accumulated product is stored into it; the output is not touched —
    with the proof that on whole memrefs the body runs to the continuation holding the inputs' buffers as they were and each stored buffer
    with its pieces written. The pieces are the witness the run finds. -/
noncomputable def kernelRun3_A (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .f32) (x1 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__adjxw_kernel i arg2 harg2 arg3 harg3 arg4 harg4 arg5 harg5) K } := by
  refine ⟨[], ?_, fun xi2 E K => ?run⟩
  case run =>
    simp only [cc3__adjxw_kernel_eq_skeleton]; unfold cc3__adjxw_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Reg3RunB.lean ====
import proofs.«106620_j12240656794038_1_alg».proof.Proof.KI.Reg3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of a middle contraction block: the accumulated product is stored into the scratch; the output is not touched —
    with the proof that on whole memrefs the body runs to the continuation holding the inputs' buffers as they were and each stored buffer
    with its pieces written. The pieces are the witness the run finds. -/
noncomputable def kernelRun3_B (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3__adjxw_kernel i arg2 harg2 arg3 harg3 arg4 harg4 arg5 harg5) K } := by
  refine ⟨[], ?_, fun xi2 E K => ?run⟩
  case run =>
    simp only [cc3__adjxw_kernel_eq_skeleton]; unfold cc3__adjxw_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Reg3RunC.lean ====
import proofs.«106620_j12240656794038_1_alg».proof.Proof.KI.Reg3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of the last contraction block: the accumulated product is stored into the scratch, and the scratch is copied into the output —
    with the proof that on whole memrefs the body runs to the continuation holding the inputs' buffers as they were and each stored buffer
    with its pieces written. The pieces are the witness the run finds. -/
noncomputable def kernelRun3_C (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3__adjxw_kernel i arg2 harg2 arg3 harg3 arg4 harg4 arg5 harg5) K } := by
  refine ⟨?_, ?_, fun E K => ?run⟩
  case run =>
    simp only [cc3__adjxw_kernel_eq_skeleton]; unfold cc3__adjxw_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Reg3.lean ====
import proofs.«106620_j12240656794038_1_alg».proof.Proof.KI.Reg3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back over junk (no pieces: a placeholder nothing consults, the window being idle and not written back at these points). -/
def out3_A_2 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .f32) (x1 : Vec F S1024x256 .f32) : Vec F S1024x256 .f32 :=
  VO3_2.read (Elt F) (VO3_2.writes (Elt F) VO3_2.junk (kernelRun3_A c i arg2 harg2 arg3 harg3 arg4 harg4 arg5 harg5 hc0 hc1 x0 x1).1)

/-- Case A's pieces for the carried scratch cover it. -/
theorem scover3_A_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .f32) (x1 : Vec F S1024x256 .f32) (y : S1024x256.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S1024x256.size (by sl_kernel_rfl) y

/-- What case A leaves in the carried scratch: its pieces read back over junk. -/
def sout3_A_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond3_0 i) (hc1 : ¬cond3_1 i)
    (x0 : Vec F S1024x1024 .f32) (x1 : Vec F S1024x256 .f32) : Vec F S1024x256 .f32 :=
  VS3_0.read (Elt F) (VS3_0.writes (Elt F) VS3_0.junk (kernelRun3_A c i arg2 harg2 arg3 harg3 arg4 harg4 arg5 harg5 hc0 hc1 x0 x1).2.1)

/-- What case B leaves in the output's staging buffer: its pieces read back over junk (no pieces: a placeholder nothing consults, the window being idle and not written back at these points). -/
def out3_B_2 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .f32) (x1 : Vec F S1024x256 .f32) (xs0 : Vec F S1024x256 .f32) : Vec F S1024x256 .f32 :=
  VO3_2.read (Elt F) (VO3_2.writes (Elt F) VO3_2.junk (kernelRun3_B c i arg2 harg2 arg3 harg3 arg4 harg4 arg5 harg5 hc0 hc1 x0 x1 xs0).1)

/-- Case B's pieces for the carried scratch cover it. -/
theorem scover3_B_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .f32) (x1 : Vec F S1024x256 .f32) (xs0 : Vec F S1024x256 .f32) (y : S1024x256.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S1024x256.size (by sl_kernel_rfl) y

/-- What case B leaves in the carried scratch: its pieces read back over junk. -/
def sout3_B_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : ¬cond3_1 i)
    (x0 : Vec F S1024x1024 .f32) (x1 : Vec F S1024x256 .f32) (xs0 : Vec F S1024x256 .f32) : Vec F S1024x256 .f32 :=
  VS3_0.read (Elt F) (VS3_0.writes (Elt F) VS3_0.junk (kernelRun3_B c i arg2 harg2 arg3 harg3 arg4 harg4 arg5 harg5 hc0 hc1 x0 x1 xs0).2.1)

/-- In the last-block case the pieces stored into the output tile its block, so they cover it. -/
theorem cover3_C_2 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .f32) (x1 : Vec F S1024x256 .f32) (xs0 : Vec F S1024x256 .f32) (y : S1024x256.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S1024x256.size (by sl_kernel_rfl) y

/-- What case C leaves in the output's staging buffer: its pieces read back over junk. -/
def out3_C_2 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .f32) (x1 : Vec F S1024x256 .f32) (xs0 : Vec F S1024x256 .f32) : Vec F S1024x256 .f32 :=
  VO3_2.read (Elt F) (VO3_2.writes (Elt F) VO3_2.junk (kernelRun3_C c i arg2 harg2 arg3 harg3 arg4 harg4 arg5 harg5 hc0 hc1 x0 x1 xs0).1)

/-- Case C's pieces for the carried scratch cover it. -/
theorem scover3_C_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .f32) (x1 : Vec F S1024x256 .f32) (xs0 : Vec F S1024x256 .f32) (y : S1024x256.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S1024x256.size (by sl_kernel_rfl) y

/-- What case C leaves in the carried scratch: its pieces read back over junk. -/
def sout3_C_0 (c : Dev nD) (i : grid3.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond3_0 i) (hc1 : cond3_1 i)
    (x0 : Vec F S1024x1024 .f32) (x1 : Vec F S1024x256 .f32) (xs0 : Vec F S1024x256 .f32) : Vec F S1024x256 .f32 :=
  VS3_0.read (Elt F) (VS3_0.writes (Elt F) VS3_0.junk (kernelRun3_C c i arg2 harg2 arg3 harg3 arg4 harg4 arg5 harg5 hc0 hc1 x0 x1 xs0).2.1)

section
-- the TensorCore's buffer contents when the region is entered
variable (V : (c : Dev nD) → (b : Ref sig .tc) → Buf (Elt F) ((c : Thread nD τ).loc b))

/-! ## What the output and the scratch hold after each point -/

/-- The accumulation: what the output's staging buffer and the carried scratch hold after the body at position `n`
    (the output first, then the scratch): the case the closed forms select at `n`, run at the point's memrefs and input
    blocks, over what the scratch held after position `n - 1`. -/
def outsAt3 (c : Dev nD) : (n : ℕ) → n < cfg3.N → Vec F S1024x256 .f32 × Vec F S1024x256 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 4 = 0 then
      if h1 : (n + 1) % 4 = 3 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 4 = 3 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

/-- `outsAt3` at a point of case A. -/
theorem outsAt3_A (c : Dev nD) (t : Fin cfg3.N) (h0 : t.val % 4 = 0) (h1 : ¬t.val % 4 = 3) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 4 = 0) (h1 : ¬t.val % 4 = 3) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 4 = 0) (h1 : t.val % 4 = 3) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's own (every scoped buffer at anything);
    afterwards the carried scratch at what the point before left in it, beside the unopened rest of the scoped buffers and
    the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2) ∗ rest3 (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt3`'s first component; the invariant `PhiS3`; nothing
    owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

theorem owed3 (c : Dev nD) (t) : (dat3 V c).owed t = 0 := rfl
theorem share3 (c : Dev nD) (w) : (dat3 V c).q w = fullShare := rfl

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

/-- The inputs' buffers are handed back at their blocks. -/
theorem leaves3_0 (c : Dev nD) (t : Fin cfg3.N) :
    (dat3 V c).leavesExact 0 t = owns (c : Thread nD τ) (ms3_0 t) fullShare (iblk3 V c 0 t) := by
  rw [show (dat3 V c).leavesExact 0 t = owns (c : Thread nD τ) (ms3_0 t) fullShare ((dat3 V c).after 0 t) from by
    unfold Dat.leavesExact; rw [liveAt3_0 t], after3_0]
theorem leaves3_1 (c : Dev nD) (t : Fin cfg3.N) :
    (dat3 V c).leavesExact 1 t = owns (c : Thread nD τ) (ms3_1 t) fullShare (iblk3 V c 1 t) := by
  rw [show (dat3 V c).leavesExact 1 t = owns (c : Thread nD τ) (ms3_1 t) fullShare ((dat3 V c).after 1 t) from by
    unfold Dat.leavesExact; rw [liveAt3_1 t], after3_1]

set_option maxHeartbeats 4800000 in
/-- The body at any point: the inputs' memrefs hold their blocks; the closed forms say which case the point is in; the
    invariant hands the body the carried scratch at what the point before left (at anything at the first point) and takes it
    back at this point's contents; the rest of the scoped buffers, the generator register and the core's debts pass through. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [leaves3_0, leaves3_1]
  have hN : t.val < 16 := lt_of_lt_of_eq t.isLt (show cfg3.N = 16 from N_3)
  by_cases h0 : t.val % 4 = 0
  · by_cases h1 : t.val % 4 = 3
    · exfalso; omega
    · rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _)
            iexact HR
          iexact Hg
        isplitl [Ho]; · iexact Ho
        isplitl [H0]; · iexact H0
        isplitl [H1]; · iexact H1
        iexists _; iexact H2
      · rw [PhiS3_castSucc V c t, PhiS3_pos V c _ _ hz]
        iintro ⟨⟨⟨HS0, HR⟩, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 4 = 3
    · rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩⟩
        iapply ((kernelRun3_C c (grid3.coords t) _ _ _ _ _ _ _ _ (fun h => h0 ((hcond3_0 t).mp h)) ((hcond3_1 t).mpr h1) (iblk3 V c 0 t) (iblk3 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _)
    · rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, HR⟩, Hg⟩, Ho, ⟨%d0, H0⟩, ⟨%d1, H1⟩, ⟨%d2, H2⟩⟩
        iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover3_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's own back: the carried scratch's contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, HR⟩, Hg⟩
  isplitl [HS0 HR]
  · isplitl [HS0]
    · iexists _; iexact HS0
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 16 := N_3; omega)

end

end Cert.KernelIdeal.Hand

end
-- ==== Proof.KI.Reg4Runs.lean ====
import proofs.«106620_j12240656794038_1_alg».proof.Proof.Gen.KernelIdeal.Launch
import proofs.«106620_j12240656794038_1_alg».proof.Proof.Gen.KernelIdeal.Skeleton
import proofs.«106620_j12240656794038_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, for any proof data whose array is
    `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end

/-! ## The body's branch conditions -/

/-- The condition of the body's first `scf.if` (the contraction block is the first), from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 4). -/
theorem hcond4_0 : ∀ t : Fin cfg4.N, cond4_0 (grid4.coords t) ↔ t.val % 4 = 0 :=
  (by decide +kernel : ∀ t : Fin grid4.N, cond4_0 (grid4.coords t) ↔ t.val % 4 = 0)

/-- The condition of the body's second `scf.if` (the contraction block is the last). -/
abbrev cond4_1 (i : grid4.Coords) : Prop := k4_cond2 i = 1#1
/-- It holds at the points ≡ 3 (mod 4). -/
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem liveAt4_2_C : ∀ t : Fin cfg4.N, ¬cond4_0 (grid4.coords t) → cond4_1 (grid4.coords t) → cfg4.idle 2 (grid4.coords t) = false := by decide +kernel

/-! ## The staging and scratch memrefs -/

/-- One staging buffer of output window 2, through which its contents are stated. -/
abbrev VO4_2 : View sig .tc .vmem S1024x256 .f32 := (Memref.whole cc4_stg2_0 : Memref sig .tc .vmem S1024x256 .f32).view
abbrev ms4_0 (t : Fin cfg4.N) : Memref sig .tc .vmem S1024x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x256 .f32 := win4_2.stage (cfg4.slots t 2)
abbrev hs4_2 (t : Fin cfg4.N) : (ms4_2 t).IsWhole := hstage4_2 ((cfg4.slots t 2).cast nbuf4_2)
/-- The scratch operand: a whole scoped buffer of the kernel's own, passed beside the windows. -/
abbrev scM4_0 : Memref sig .tc .vmem S1024x256 .f32 := Memref.whole cc4_scratch0
/-- The scratch the kernel carries between points, as a view. -/
abbrev VS4_0 : View sig .tc .vmem S1024x256 .f32 := scM4_0.view

/-- Every scoped buffer other than the windows' staging buffers and the carried scratch, unopened. -/
abbrev rest4 (c : Dev nD) : sProp 𝕄 :=
  Pipeline.scopedRestBut (Ix := Unit) (Name := ℕ) (U := UR sig nD τ) (Lvl := ℕ) (Val := Elt F) spec4 c [cc4_scratch0]

/-- The region's invariant with the scratch operand as a memref owned at some contents, beside the unopened rest. -/
theorem PhiA4_eq (c : Dev nD) :
    (Pipeline.ΦA spec4 c : sProp 𝕄)
      = iprop(iprop(iprop((∃ d, owns (c : Thread nD τ) scM4_0 fullShare d)) ∗ rest4 (F := F) c) ∗ (∃ r, prngReg c r)) := by
  unfold Pipeline.ΦA; rw [scopedRest4_split]; simp only [scM4_0, owns_whole]; try rfl

end Cert.KernelIdeal.Hand

end
-- ==== Proof.KI.Reg4RunA.lean ====
import proofs.«106620_j12240656794038_1_alg».proof.Proof.KI.Reg4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of the first contraction block: the scratch is stored whole (zeros), then the accumulated product is stored into it; the output is not touched —
    with the proof that on whole memrefs the body runs to the continuation holding the inputs' buffers as they were and each stored buffer
    with its pieces written. The pieces are the witness the run finds. -/
noncomputable def kernelRun4_A (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond4_0 i) (hc1 : ¬cond4_1 i)
    (x0 : Vec F S1024x1024 .f32) (x1 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__adjxw_kernel i arg2 harg2 arg3 harg3 arg4 harg4 arg5 harg5) K } := by
  refine ⟨[], ?_, fun xi2 E K => ?run⟩
  case run =>
    simp only [cc4__adjxw_kernel_eq_skeleton]; unfold cc4__adjxw_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Reg4RunB.lean ====
import proofs.«106620_j12240656794038_1_alg».proof.Proof.KI.Reg4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of a middle contraction block: the accumulated product is stored into the scratch; the output is not touched —
    with the proof that on whole memrefs the body runs to the continuation holding the inputs' buffers as they were and each stored buffer
    with its pieces written. The pieces are the witness the run finds. -/
noncomputable def kernelRun4_B (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : ¬cond4_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (xi2 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__adjxw_kernel i arg2 harg2 arg3 harg3 arg4 harg4 arg5 harg5) K } := by
  refine ⟨[], ?_, fun xi2 E K => ?run⟩
  case run =>
    simp only [cc4__adjxw_kernel_eq_skeleton]; unfold cc4__adjxw_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.Reg4RunC.lean ====
import proofs.«106620_j12240656794038_1_alg».proof.Proof.KI.Reg4RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- What the body's stores leave in the output's staging memref and in the scratch, as pieces (last first), in the case of the last contraction block: the accumulated product is stored into the scratch, and the scratch is copied into the output —
    with the proof that on whole memrefs the body runs to the continuation holding the inputs' buffers as they were and each stored buffer
    with its pieces written. The pieces are the witness the run finds. -/
noncomputable def kernelRun4_C (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : cond4_1 i)
    (x0 : Vec F S1024x1024 .f32) (x1 : Vec F S1024x256 .f32) (xs0 : Vec F S1024x256 .f32) :
    Σ' (L2 : List (View.Piece (Elt F) S1024x256 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__adjxw_kernel i arg2 harg2 arg3 harg3 arg4 harg4 arg5 harg5) K } := by
  refine ⟨?_, ?_, fun E K => ?run⟩
  case run =>
    simp only [cc4__adjxw_kernel_eq_skeleton]; unfold cc4__adjxw_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.Reg4.lean ====
import proofs.«106620_j12240656794038_1_alg».proof.Proof.KI.Reg4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output's staging buffer: its pieces read back over junk (no pieces: a placeholder nothing consults, the window being idle and not written back at these points). -/
def out4_A_2 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond4_0 i) (hc1 : ¬cond4_1 i)
    (x0 : Vec F S1024x1024 .f32) (x1 : Vec F S1024x256 .f32) : Vec F S1024x256 .f32 :=
  VO4_2.read (Elt F) (VO4_2.writes (Elt F) VO4_2.junk (kernelRun4_A c i arg2 harg2 arg3 harg3 arg4 harg4 arg5 harg5 hc0 hc1 x0 x1).1)

/-- Case A's pieces for the carried scratch cover it. -/
theorem scover4_A_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond4_0 i) (hc1 : ¬cond4_1 i)
    (x0 : Vec F S1024x1024 .f32) (x1 : Vec F S1024x256 .f32) (y : S1024x256.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S1024x256.size (by sl_kernel_rfl) y

/-- What case A leaves in the carried scratch: its pieces read back over junk. -/
def sout4_A_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : cond4_0 i) (hc1 : ¬cond4_1 i)
    (x0 : Vec F S1024x1024 .f32) (x1 : Vec F S1024x256 .f32) : Vec F S1024x256 .f32 :=
  VS4_0.read (Elt F) (VS4_0.writes (Elt F) VS4_0.junk (kernelRun4_A c i arg2 harg2 arg3 harg3 arg4 harg4 arg5 harg5 hc0 hc1 x0 x1).2.1)

/-- What case B leaves in the output's staging buffer: its pieces read back over junk (no pieces: a placeholder nothing consults, the window being idle and not written back at these points). -/
def out4_B_2 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : ¬cond4_1 i)
    (x0 : Vec F S1024x1024 .f32) (x1 : Vec F S1024x256 .f32) (xs0 : Vec F S1024x256 .f32) : Vec F S1024x256 .f32 :=
  VO4_2.read (Elt F) (VO4_2.writes (Elt F) VO4_2.junk (kernelRun4_B c i arg2 harg2 arg3 harg3 arg4 harg4 arg5 harg5 hc0 hc1 x0 x1 xs0).1)

/-- Case B's pieces for the carried scratch cover it. -/
theorem scover4_B_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : ¬cond4_1 i)
    (x0 : Vec F S1024x1024 .f32) (x1 : Vec F S1024x256 .f32) (xs0 : Vec F S1024x256 .f32) (y : S1024x256.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S1024x256.size (by sl_kernel_rfl) y

/-- What case B leaves in the carried scratch: its pieces read back over junk. -/
def sout4_B_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : ¬cond4_1 i)
    (x0 : Vec F S1024x1024 .f32) (x1 : Vec F S1024x256 .f32) (xs0 : Vec F S1024x256 .f32) : Vec F S1024x256 .f32 :=
  VS4_0.read (Elt F) (VS4_0.writes (Elt F) VS4_0.junk (kernelRun4_B c i arg2 harg2 arg3 harg3 arg4 harg4 arg5 harg5 hc0 hc1 x0 x1 xs0).2.1)

/-- In the last-block case the pieces stored into the output tile its block, so they cover it. -/
theorem cover4_C_2 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : cond4_1 i)
    (x0 : Vec F S1024x1024 .f32) (x1 : Vec F S1024x256 .f32) (xs0 : Vec F S1024x256 .f32) (y : S1024x256.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S1024x256.size (by sl_kernel_rfl) y

/-- What case C leaves in the output's staging buffer: its pieces read back over junk. -/
def out4_C_2 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : cond4_1 i)
    (x0 : Vec F S1024x1024 .f32) (x1 : Vec F S1024x256 .f32) (xs0 : Vec F S1024x256 .f32) : Vec F S1024x256 .f32 :=
  VO4_2.read (Elt F) (VO4_2.writes (Elt F) VO4_2.junk (kernelRun4_C c i arg2 harg2 arg3 harg3 arg4 harg4 arg5 harg5 hc0 hc1 x0 x1 xs0).1)

/-- Case C's pieces for the carried scratch cover it. -/
theorem scover4_C_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : cond4_1 i)
    (x0 : Vec F S1024x1024 .f32) (x1 : Vec F S1024x256 .f32) (xs0 : Vec F S1024x256 .f32) (y : S1024x256.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S1024x256.size (by sl_kernel_rfl) y

/-- What case C leaves in the carried scratch: its pieces read back over junk. -/
def sout4_C_0 (c : Dev nD) (i : grid4.Coords) (arg2 : Memref sig .tc .vmem S1024x1024 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x256 .f32) (harg5 : arg5.IsWhole) (hc0 : ¬cond4_0 i) (hc1 : cond4_1 i)
    (x0 : Vec F S1024x1024 .f32) (x1 : Vec F S1024x256 .f32) (xs0 : Vec F S1024x256 .f32) : Vec F S1024x256 .f32 :=
  VS4_0.read (Elt F) (VS4_0.writes (Elt F) VS4_0.junk (kernelRun4_C c i arg2 harg2 arg3 harg3 arg4 harg4 arg5 harg5 hc0 hc1 x0 x1 xs0).2.1)

section
-- the TensorCore's buffer contents when the region is entered
variable (V : (c : Dev nD) → (b : Ref sig .tc) → Buf (Elt F) ((c : Thread nD τ).loc b))

/-! ## What the output and the scratch hold after each point -/

/-- The accumulation: what the output's staging buffer and the carried scratch hold after the body at position `n`
    (the output first, then the scratch): the case the closed forms select at `n`, run at the point's memrefs and input
    blocks, over what the scratch held after position `n - 1`. -/
def outsAt4 (c : Dev nD) : (n : ℕ) → n < cfg4.N → Vec F S1024x256 .f32 × Vec F S1024x256 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 4 = 0 then
      if h1 : (n + 1) % 4 = 3 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 4 = 3 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at a point of case A. -/
theorem outsAt4_A (c : Dev nD) (t : Fin cfg4.N) (h0 : t.val % 4 = 0) (h1 : ¬t.val % 4 = 3) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 4 = 0) (h1 : ¬t.val % 4 = 3) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 4 = 0) (h1 : t.val % 4 = 3) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's own (every scoped buffer at anything);
    afterwards the carried scratch at what the point before left in it, beside the unopened rest of the scoped buffers and
    the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2) ∗ rest4 (F := F) c) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt4`'s first component; the invariant `PhiS4`; nothing
    owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

theorem owed4 (c : Dev nD) (t) : (dat4 V c).owed t = 0 := rfl
theorem share4 (c : Dev nD) (w) : (dat4 V c).q w = fullShare := rfl

/-- The invariant at a point's start (the proof data at `t.castSucc`), restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

/-- The inputs' buffers are handed back at their blocks. -/
theorem leaves4_0 (c : Dev nD) (t : Fin cfg4.N) :
    (dat4 V c).leavesExact 0 t = owns (c : Thread nD τ) (ms4_0 t) fullShare (iblk4 V c 0 t) := by
  rw [show (dat4 V c).leavesExact 0 t = owns (c : Thread nD τ) (ms4_0 t) fullShare ((dat4 V c).after 0 t) from by
    unfold Dat.leavesExact; rw [liveAt4_0 t], after4_0]
theorem leaves4_1 (c : Dev nD) (t : Fin cfg4.N) :
    (dat4 V c).leavesExact 1 t = owns (c : Thread nD τ) (ms4_1 t) fullShare (iblk4 V c 1 t) := by
  rw [show (dat4 V c).leavesExact 1 t = owns (c : Thread nD τ) (ms4_1 t) fullShare ((dat4 V c).after 1 t) from by
    unfold Dat.leavesExact; rw [liveAt4_1 t], after4_1]

set_option maxHeartbeats 4800000 in
/-- The body at any point: the inputs' memrefs hold their blocks; the closed forms say which case the point is in; the
    invariant hands the body the carried scratch at what the point before left (at anything at the first point) and takes it
    back at this point's contents; the rest of the scoped buffers, the generator register and the core's debts pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [leaves4_0, leaves4_1]
  have hN : t.val < 16 := lt_of_lt_of_eq t.isLt (show cfg4.N = 16 from N_4)
  by_cases h0 : t.val % 4 = 0
  · by_cases h1 : t.val % 4 = 3
    · exfalso; omega
    · rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_A_0 c _ _ _ _ _ _ _ _ _ _ _ _ _)
            iexact HR
          iexact Hg
        isplitl [Ho]; · iexact Ho
        isplitl [H0]; · iexact H0
        isplitl [H1]; · iexact H1
        iexists _; iexact H2
  · by_cases h1 : t.val % 4 = 3
    · rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_C c (grid4.coords t) _ _ _ _ _ _ _ _ (fun h => h0 ((hcond4_0 t).mp h)) ((hcond4_1 t).mpr h1) (iblk4 V c 0 t) (iblk4 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_C_0 c _ _ _ _ _ _ _ _ _ _ _ _ _ _)
            iexact HR
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _)
    · rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, HR⟩, Hg⟩, Ho, ⟨%d0, H0⟩, ⟨%d1, H1⟩, ⟨%d2, H2⟩⟩
        iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover4_B_0 c _ _ _ _ _ _ _ _ _ _ _ _ _ _)
            iexact HR
          iexact Hg
        isplitl [Ho]; · iexact Ho
        isplitl [H0]; · iexact H0
        isplitl [H1]; · iexact H1
        iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the launch's own back: the carried scratch's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HR⟩, Hg⟩
  isplitl [HS0 HR]
  · isplitl [HS0]
    · iexists _; iexact HS0
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 16 := N_4; omega)

end

end Cert.KernelIdeal.Hand

end
-- ==== Proof.KI.Frame.lean ====
/-
  The run of the program with the five pipelines' proof data in place: every unscoped buffer ends at the last
  boundary's contents; no host stretch and no region writes an argument array, so each ends as launched.
-/
import proofs.«106620_j12240656794038_1_alg».proof.Proof.KI.Run
import proofs.«106620_j12240656794038_1_alg».proof.Proof.KI.Reg0
import proofs.«106620_j12240656794038_1_alg».proof.Proof.KI.Reg1
import proofs.«106620_j12240656794038_1_alg».proof.Proof.KI.Reg2
import proofs.«106620_j12240656794038_1_alg».proof.Proof.KI.Reg3
import proofs.«106620_j12240656794038_1_alg».proof.Proof.KI.Reg4

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at the end of @main. -/
abbrev Bend (c : Dev nD) : Valuation τ sig (Elt F) := B9 m dat0 dat1 dat2 dat3 dat4 c

/-- THE RUN with the proof data in place. -/
theorem run : θ_run defs (onTc (τ := τ) (main (F := F))) ⟨m, fun _ => 0, ρ⟩ (fun r => ∀ c : Dev nD,
      ∀ b ∈ Pipeline.ucRefs τ sig, r.2.mem (((c : Thread nD τ)).1, b) = Bend m c b) :=
  run_all m ρ dat0 dat1 dat2 dat3 dat4
    A_eq0 (fun _ _ _ => rfl) (fun _ _ _ => rfl) (fun _ _ _ => rfl) (fun V c => by rw [Phi0]) (fun V c => by rw [Phi0]) body_obligation0
    A_eq1 (fun _ _ _ => rfl) (fun _ _ _ => rfl) (fun _ _ _ => rfl) (fun V c => by rw [Phi1]) (fun V c => by rw [Phi1]) body_obligation1
    A_eq2 (fun _ _ _ => rfl) (fun _ _ _ => rfl) (fun _ _ _ => rfl) (fun V c => by rw [Phi2]) (fun V c => by rw [Phi2]) body_obligation2
    A_eq3 (fun V c w => share3 V c w) (fun V c t => owed3 V c t) (fun _ _ _ => rfl) hin3 hout3 body_obligation3
    A_eq4 (fun V c w => share4 V c w) (fun V c t => owed4 V c t) (fun _ _ _ => rfl) hin4 hout4 body_obligation4

/-- A buffer no host stretch writes and no region has as an output window's array ends as launched. -/
theorem Bend_of_kept (c : Dev nD) (b : Ref sig .tc)
    (h0 : b ∉ hostOps0_W) (h1 : b ∉ hostOps1_W) (h3 : b ∉ hostOps3_W) (h5 : b ∉ hostOps5_W)
    (k0 : ∀ w : Fin cfg0.W, (cfg0.win w).isOut = true → Pipeline.arrRef spec0 w ≠ b)
    (k1 : ∀ w : Fin cfg1.W, (cfg1.win w).isOut = true → Pipeline.arrRef spec1 w ≠ b)
    (k2 : ∀ w : Fin cfg2.W, (cfg2.win w).isOut = true → Pipeline.arrRef spec2 w ≠ b)
    (k3 : ∀ w : Fin cfg3.W, (cfg3.win w).isOut = true → Pipeline.arrRef spec3 w ≠ b)
    (k4 : ∀ w : Fin cfg4.W, (cfg4.win w).isOut = true → Pipeline.arrRef spec4 w ≠ b) :
    Bend m c (Proc.devRef .tc b) = m ((c : Thread nD τ).loc b) :=
  calc Bend m c (Proc.devRef .tc b)
    _ = B8 m dat0 dat1 dat2 dat3 dat4 c (Proc.devRef .tc b) := StableHlo.after_of_writes_sub hostOps5 _ hostOps5_writes h5
    _ = B7 m dat0 dat1 dat2 dat3 c (Proc.devRef .tc b) := B8_keep m dat0 dat1 dat2 dat3 dat4 A_eq4 c b k4
    _ = B6 m dat0 dat1 dat2 c (Proc.devRef .tc b) := B7_keep m dat0 dat1 dat2 dat3 A_eq3 c b k3
    _ = B5 m dat0 dat1 dat2 c (Proc.devRef .tc b) := StableHlo.after_of_writes_sub hostOps3 _ hostOps3_writes h3
    _ = B4 m dat0 dat1 c (Proc.devRef .tc b) := B5_keep m dat0 dat1 dat2 A_eq2 c b k2
    _ = B3 m dat0 c (Proc.devRef .tc b) := B4_keep m dat0 dat1 A_eq1 c b k1
    _ = B2 m dat0 c (Proc.devRef .tc b) := StableHlo.after_of_writes_sub hostOps1 _ hostOps1_writes h1
    _ = B1 m c (Proc.devRef .tc b) := B2_keep m dat0 A_eq0 c b k0
    _ = B0 m c (Proc.devRef .tc b) := StableHlo.after_of_writes_sub hostOps0 _ hostOps0_writes h0
    _ = m ((c : Thread nD τ).loc b) := rfl

theorem Bend_main_arg0 (c : Dev nD) : Bend m c (Proc.devRef .tc main_arg0) = m ((c : Thread nD τ).loc main_arg0) :=
  Bend_of_kept m c main_arg0 (by decide) (by decide) (by decide) (by decide) (by decide) (by decide) (by decide) (by decide) (by decide)
theorem Bend_main_arg1 (c : Dev nD) : Bend m c (Proc.devRef .tc main_arg1) = m ((c : Thread nD τ).loc main_arg1) :=
  Bend_of_kept m c main_arg1 (by decide) (by decide) (by decide) (by decide) (by decide) (by decide) (by decide) (by decide) (by decide)
theorem Bend_main_arg2 (c : Dev nD) : Bend m c (Proc.devRef .tc main_arg2) = m ((c : Thread nD τ).loc main_arg2) :=
  Bend_of_kept m c main_arg2 (by decide) (by decide) (by decide) (by decide) (by decide) (by decide) (by decide) (by decide) (by decide)
theorem Bend_main_arg3 (c : Dev nD) : Bend m c (Proc.devRef .tc main_arg3) = m ((c : Thread nD τ).loc main_arg3) :=
  Bend_of_kept m c main_arg3 (by decide) (by decide) (by decide) (by decide) (by decide) (by decide) (by decide) (by decide) (by decide)
theorem Bend_main_arg4 (c : Dev nD) : Bend m c (Proc.devRef .tc main_arg4) = m ((c : Thread nD τ).loc main_arg4) :=
  Bend_of_kept m c main_arg4 (by decide) (by decide) (by decide) (by decide) (by decide) (by decide) (by decide) (by decide) (by decide)
theorem Bend_main_arg5 (c : Dev nD) : Bend m c (Proc.devRef .tc main_arg5) = m ((c : Thread nD τ).loc main_arg5) :=
  Bend_of_kept m c main_arg5 (by decide) (by decide) (by decide) (by decide) (by decide) (by decide) (by decide) (by decide) (by decide)
theorem Bend_main_arg6 (c : Dev nD) : Bend m c (Proc.devRef .tc main_arg6) = m ((c : Thread nD τ).loc main_arg6) :=
  Bend_of_kept m c main_arg6 (by decide) (by decide) (by decide) (by decide) (by decide) (by decide) (by decide) (by decide) (by decide)
theorem Bend_main_arg7 (c : Dev nD) : Bend m c (Proc.devRef .tc main_arg7) = m ((c : Thread nD τ).loc main_arg7) :=
  Bend_of_kept m c main_arg7 (by decide) (by decide) (by decide) (by decide) (by decide) (by decide) (by decide) (by decide) (by decide)
theorem Bend_main_arg8 (c : Dev nD) : Bend m c (Proc.devRef .tc main_arg8) = m ((c : Thread nD τ).loc main_arg8) :=
  Bend_of_kept m c main_arg8 (by decide) (by decide) (by decide) (by decide) (by decide) (by decide) (by decide) (by decide) (by decide)
theorem Bend_main_arg9 (c : Dev nD) : Bend m c (Proc.devRef .tc main_arg9) = m ((c : Thread nD τ).loc main_arg9) :=
  Bend_of_kept m c main_arg9 (by decide) (by decide) (by decide) (by decide) (by decide) (by decide) (by decide) (by decide) (by decide)
theorem Bend_main_arg10 (c : Dev nD) : Bend m c (Proc.devRef .tc main_arg10) = m ((c : Thread nD τ).loc main_arg10) :=
  Bend_of_kept m c main_arg10 (by decide) (by decide) (by decide) (by decide) (by decide) (by decide) (by decide) (by decide) (by decide)
theorem Bend_main_arg11 (c : Dev nD) : Bend m c (Proc.devRef .tc main_arg11) = m ((c : Thread nD τ).loc main_arg11) :=
  Bend_of_kept m c main_arg11 (by decide) (by decide) (by decide) (by decide) (by decide) (by decide) (by decide) (by decide) (by decide)
theorem Bend_main_arg12 (c : Dev nD) : Bend m c (Proc.devRef .tc main_arg12) = m ((c : Thread nD τ).loc main_arg12) :=
  Bend_of_kept m c main_arg12 (by decide) (by decide) (by decide) (by decide) (by decide) (by decide) (by decide) (by decide) (by decide)
theorem Bend_main_arg13 (c : Dev nD) : Bend m c (Proc.devRef .tc main_arg13) = m ((c : Thread nD τ).loc main_arg13) :=
  Bend_of_kept m c main_arg13 (by decide) (by decide) (by decide) (by decide) (by decide) (by decide) (by decide) (by decide) (by decide)

/-- THE FRAME: every weakly fair execution terminates, nothing faulting, the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_arg0 (by decide))).trans (Bend_main_arg0 m c),
     (h c _ (mem_uc main_arg1 (by decide))).trans (Bend_main_arg1 m c),
     (h c _ (mem_uc main_arg2 (by decide))).trans (Bend_main_arg2 m c),
     (h c _ (mem_uc main_arg3 (by decide))).trans (Bend_main_arg3 m c),
     (h c _ (mem_uc main_arg4 (by decide))).trans (Bend_main_arg4 m c),
     (h c _ (mem_uc main_arg5 (by decide))).trans (Bend_main_arg5 m c),
     (h c _ (mem_uc main_arg6 (by decide))).trans (Bend_main_arg6 m c),
     (h c _ (mem_uc main_arg7 (by decide))).trans (Bend_main_arg7 m c),
     (h c _ (mem_uc main_arg8 (by decide))).trans (Bend_main_arg8 m c),
     (h c _ (mem_uc main_arg9 (by decide))).trans (Bend_main_arg9 m c),
     (h c _ (mem_uc main_arg10 (by decide))).trans (Bend_main_arg10 m c),
     (h c _ (mem_uc main_arg11 (by decide))).trans (Bend_main_arg11 m c),
     (h c _ (mem_uc main_arg12 (by decide))).trans (Bend_main_arg12 m c),
     (h c _ (mem_uc main_arg13 (by decide))).trans (Bend_main_arg13 m c)⟩) (run m ρ)

end Cert.KernelIdeal.Hand

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Spec.lean ====
/-
  The network both programs compute, as whole-array functions on the extended reals: matrix products, the
  rectifier, the row-wise Euclidean normalisation x / max(‖x‖, ε) with the one shared literal ε, and the
  product with a transposed right factor. Every later module states what a stage holds with these terms.
-/
import proofs.«106620_j12240656794038_1_alg».proof.Proof.LibDense

open scoped BigOperators

noncomputable section

namespace Cert.Spec

open Idealize.ShloMosaic Idealize.ShloMosaic.ValueIdx Cert.Dense

/-- The normalisation's floor, the f32 word both programs print for 1e-12. -/
def eps : EReal := Ideal.ofBits .f32 0x2B8CBCCC#32

/-- max(x, 0) entrywise. -/
def relu {M N : ℕ} (X : Mat M N) : Mat M N := fun i => max (X i) 0

/-- The sum of the squares of row p. -/
def rowSq {M N : ℕ} (X : Mat M N) (p : Fin M) : EReal := ∑ k : Fin N, X (ix2 p k) * X (ix2 p k)

/-- Each row divided by max(its Euclidean norm, ε). -/
def l2n {M N : ℕ} (X : Mat M N) : Mat M N :=
  fun i => Ideal.div (X i) (max (Ideal.sqrt (rowSq X (c0 i))) eps)

/-- 0 − x entrywise. -/
def neg {M N : ℕ} (X : Mat M N) : Mat M N := fun i => 0 - X i

/-- A · Bᵀ: entry (p, q) is Σₖ A(p,k) · B(q,k). -/
def abT {M K N : ℕ} (A : Mat M K) (B : Mat N K) : Mat M N :=
  fun i => ∑ k : Fin K, A (ix2 (c0 i) k) * B (ix2 (c1 i) k)

/-- First layer: relu(X · W1). -/
def h1 (X : Mat 40960 256) (W1 : Mat 256 256) : Mat 40960 256 := relu (mm X W1)

/-- The encoder's mean head. -/
def mu (agg : Mat 4096 256) (W2 : Mat 256 128) : Mat 4096 128 := mm agg W2

/-- The negated log-variance head. -/
def nlv (agg : Mat 4096 256) (W3 : Mat 256 128) : Mat 4096 128 := neg (mm agg W3)

/-- The decoder's two normalised, rectified layers. -/
def dec (agg : Mat 4096 256) (W2 : Mat 256 128) (Wd1 : Mat 128 256) (Wd2 : Mat 256 256) : Mat 4096 256 :=
  relu (l2n (mm (relu (l2n (mm (l2n (mu agg W2)) Wd1))) Wd2))

/-- A normalised embedding head over the decoder's output. -/
def emb (agg : Mat 4096 256) (W2 : Mat 256 128) (Wd1 : Mat 128 256) (Wd2 : Mat 256 256) (Wm : Mat 256 256) : Mat 4096 256 :=
  l2n (mm (dec agg W2 Wd1 Wd2) Wm)

/-- The reconstructed adjacency e1 · e2ᵀ. -/
def recon (e1 e2 : Mat 4096 256) : Mat 4096 4096 := abT e1 e2

/-- An adjacency times the projected features. -/
def adjxw (A : Mat 4096 4096) (xw : Mat 4096 256) : Mat 4096 256 := mm A xw

end Cert.Spec

end
-- ==== Proof.KI.Val0.lean ====
/-
  What region 0 leaves in its output array, on the extended reals: relu (X · W1) of the two arrays it found, as one
  whole-array function. The body's payload is the rectified product of its two blocks; the block a grid point writes
  back is the restriction of the whole-array function to the block's rows, because a row of a matrix product depends
  only on the same row of the left factor; the blocks of the 20 points tile the rows.
-/
import proofs.«106620_j12240656794038_1_alg».proof.Proof.KI.Reg0
import proofs.«106620_j12240656794038_1_alg».proof.Proof.Spec
import Idealize.ShloMosaic.Lib.Pipeline.Value

set_option maxRecDepth 16384
set_option pp.maxSteps 5000
set_option pp.deepTerms false

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx Cert.Dense

variable (V : (c : Dev nD) → (b : Ref sig .tc) → Buf (Elt Ideal) ((c : Thread nD τ).loc b))

theorem hz0 : (![0, 0] : Fin 2 → Nat) = fun _ => 0 := funext fun a => by fin_cases a <;> rfl

/-- The body's payload is the rectified matrix product of its two loaded blocks. -/
theorem pay0_eq (x0 : Vec Ideal S2048x256 .f32) (x1 : Vec Ideal S256x256 .f32) :
    k0_pay1 (F := Ideal) x0 x1 = Cert.Spec.relu (mm (M := 2048) (K := 256) (N := 256) x0 x1) := by
  unfold k0_pay1
  funext i
  show max (matmul (F := Ideal) dot_S2048x256_S256x256_S2048x256_1_0_0_1_n_n none
      (shapeCast S2048x256 x0 shapeCasts_S2048x256_S2048x256) x1 (constant S2048x256 .f32 0x00000000#32) i)
      (Ideal.ofBits .f32 0x00000000#32) = max (mm (M := 2048) (K := 256) (N := 256) x0 x1 i) 0
  rw [shapeCast_self, Ideal.ofBits_zero_f32,
    matmul_zero_eq_mm dot_S2048x256_S256x256_S2048x256_1_0_0_1_n_n rfl rfl rfl rfl rfl rfl]

/-- A row block of relu (X · W): rows b·2048 … of the whole-array function are the function of those rows of X. -/
theorem h1_block (X : Mat 40960 256) (W : Mat 256 256) (x0 : Mat 2048 256) (x1 : Mat 256 256) (b : ℕ)
    (h0 : ∀ (p : Fin 2048) (p' : Fin 40960) (k : Fin 256), p'.val = b * 2048 + p.val → x0 (ix2 p k) = X (ix2 p' k))
    (h1 : x1 = W) (j : (⟨2, ![2048, 256]⟩ : Shape).Idx) (i : (⟨2, ![40960, 256]⟩ : Shape).Idx)
    (hi0 : (i 0).val = b * 2048 + (j 0).val) (hi1 : (i 1).val = (j 1).val) :
    Cert.Spec.relu (mm x0 x1) j = Cert.Spec.h1 X W i := by
  subst h1
  obtain ⟨p, q, rfl⟩ : ∃ (p : Fin 2048) (q : Fin 256), j = ix2 p q := ⟨j 0, j 1, eq_ix2 j⟩
  obtain ⟨p', q', rfl⟩ : ∃ (p' : Fin 40960) (q' : Fin 256), i = ix2 p' q' := ⟨i 0, i 1, eq_ix2 i⟩
  have hq : q' = q := Fin.ext hi1
  subst hq
  show max (mm x0 x1 (ix2 p q')) 0 = max (mm X x1 (ix2 p' q')) 0
  rw [mm_rows X x0 x1 p' p (fun k => h0 p p' k hi0) q']

/-- The printed index maps, decided over the grid: the input block and the output block are row block `t`, the weight's
    block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of relu (X · W1) of the arrays the region found. -/
theorem flushed0_eq (c : Dev nD) (t : Fin cfg0.N) :
    (dat0 V c).flushed 2 t = ((cfg0.win 2).blk t).view.read (Elt Ideal) (Cert.Spec.h1 (V c main_v10) (V c main_arg4)) := by
  show (cfg0.win 2).cut (grid0.coords t) ((dat0 V c).after 2 t) = _
  rw [after0_2]
  unfold out0_2
  rw [View.canon_unit_zero hz0]
  simp only [View.ld_unit_zero (S := S2048x256) hz0, View.ld_unit_zero (S := S256x256) hz0]
  rw [pay0_eq]
  obtain ⟨e0, e1, e2, e3, e4, e5⟩ := idx_facts0 t
  funext j
  refine h1_block (V c main_v10) (V c main_arg4) (iblk0 V c 0 t) (iblk0 V c 1 t) t.val ?_ ?_ j (((cfg0.win 2).blk t).view.emb j) ?_ ?_
  · intro p p' k hp
    show V c main_v10 (((cfg0.win 0).blk t).view.emb (ix2 p k)) = V c main_v10 (ix2 p' k)
    refine congrArg _ (funext fun a => Fin.ext ?_)
    match a with
    | ⟨0, _⟩ => show win0_0.index t (0 : Fin 2) * 2048 + 1 * p.val = p'.val; omega
    | ⟨1, _⟩ => show win0_0.index t (1 : Fin 2) * 256 + 1 * k.val = k.val; omega
  · funext y
    show V c main_arg4 (((cfg0.win 1).blk t).view.emb y) = V c main_arg4 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 256 + 1 * (y 1).val = (y 1).val; omega
  · show win0_2.index t (0 : Fin 2) * 2048 + 1 * (j 0).val = t.val * 2048 + (j 0).val; omega
  · show win0_2.index t (1 : Fin 2) * 256 + 1 * (j 1).val = (j 1).val; omega

/-- An index of the array is in point `t`'s block iff each coordinate is in the block's range on its axis. -/
theorem mem_blk0 (t : Fin cfg0.N) (i : S40960x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v11).slice (win0_2.rect t)).set ↔ _
  rw [View.set_slice_whole, Rect.mem_set_unit]
  exact Iff.rfl

/-- Row `r` is in the block of point `r / 2048`: the 20 blocks tile the array. -/
theorem cover0 (i : S40960x256.Idx) :
    ∃ t : Fin cfg0.N, (cfg0.win 2).flush t = true ∧ i ∈ ((cfg0.win 2).blk t).view.set := by
  have hi0 : (i 0).val < 40960 := (i 0).isLt
  have hi1 : (i 1).val < 256 := (i 1).isLt
  have hN : cfg0.N = 20 := N_0
  let t : Fin cfg0.N := ⟨(i 0).val / 2048, by rw [hN]; omega⟩
  obtain ⟨e0, e1, e2, e3, e4, e5⟩ := idx_facts0 t
  have ht : t.val = (i 0).val / 2048 := rfl
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 256 ≤ (i 1).val ∧ (i 1).val < win0_2.index t (1 : Fin 2) * 256 + 256; omega

/-- The array after the region: relu (X · W1) of the arrays the region found. -/
theorem final0 (c : Dev nD) : (dat0 (F := Ideal) V c).arrAt 2 cfg0.N = Cert.Spec.h1 (V c main_v10) (V c main_arg4) :=
  (dat0 V c).arrAt_eq_of_cover 2 (Cert.Spec.h1 (V c main_v10) (V c main_arg4)) (fun t _ => flushed0_eq V c t) cover0

end Cert.KernelIdeal.HandValue

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.KI.Pay1.lean ====
/- The body's arithmetic on one block of rows, at the exact values. The row normalisation as the vector unit
   spells it — the squares summed along each row, cast to a column, the square root, the floor ε, the column
   broadcast along the row, the quotient — is `Spec.l2n`; the maximum with a zero splat is the rectifier; a zero
   splat minus x is the negation; a change of float format is the identity; a matmul into a zero accumulator is
   the matrix product. So each store's payload is the network's stage on the block, with the same formulas at
   any number of rows (`muR`, `nlvR`, `decR`, `embR`), which at 4096 rows are `Spec`'s by definition. Each
   stage is row-wise: a row of the result is a function of the same row of the input (`RowEq`). -/
import proofs.«106620_j12240656794038_1_alg».proof.Proof.Gen.KernelIdeal.Skeleton
import proofs.«106620_j12240656794038_1_alg».proof.Proof.Spec
import proofs.«106620_j12240656794038_1_alg».proof.Proof.LibRowBlocks
import Idealize.ShloMosaic.Lib.Pipeline.Value

set_option maxRecDepth 16384

noncomputable section

open scoped BigOperators

namespace Cert.KernelIdeal.HandValue

open Cert.KernelIdeal Cert.KernelIdeal.Gen
open Idealize.ShloMosaic Idealize.ShloMosaic.ValueIdx
open Cert.Dense Cert.Spec Cert.RowBlocks

/-! ## The vector unit's spellings of the network's pointwise and row-wise stages, at any extents -/

/-- The row normalisation x / max(√(Σ x²), ε) as the vector unit computes it. -/
theorem vec_l2n {n c : ℕ} (X : FVec Ideal ⟨2, ![n, c]⟩ .f32)
    (hr : (⟨2, ![n, c]⟩ : Shape).Reduces [1] ⟨1, ![n]⟩) (hφ : FKind.Formats .f32)
    (hacc : (0x00000000#32 : BitVec 32) = 0x00000000#32)
    (hc : (⟨1, ![n]⟩ : Shape).ShapeCasts ⟨2, ![n, 1]⟩)
    (hb : (⟨2, ![n, 1]⟩ : Shape).Broadcasts ⟨2, ![n, c]⟩) :
    divf X (broadcastTo ⟨2, ![n, c]⟩ (maximumf (sqrt (shapeCast ⟨2, ![n, 1]⟩
        (multiReduction .add [1] ⟨1, ![n]⟩ (mulf X X) 0x00000000#32 hr hφ hacc) hc))
        (broadcast ⟨2, ![n, 1]⟩ (Scalar.ofBits (F := Ideal) .f32 0x2B8CBCCC#32))) hb) = l2n X := by
  funext i
  obtain ⟨p, q, rfl⟩ : ∃ (p : Fin n) (q : Fin c), i = ix2 p q := ⟨i 0, i 1, eq_ix2 i⟩
  show Ideal.div (X (ix2 p q)) (broadcastTo ⟨2, ![n, c]⟩ _ hb (ix2 p q)) = _
  rw [broadcastTo_col_apply]
  show Ideal.div (X (ix2 p q)) (max (Ideal.sqrt (shapeCast ⟨2, ![n, 1]⟩ _ hc (ix2 p (0 : Fin 1)))) (Ideal.ofBits .f32 0x2B8CBCCC#32)) = _
  rw [shapeCast_col_apply, rowSum_apply]
  rfl

/-- The maximum with a zero splat is the rectifier. -/
theorem vec_relu {n c : ℕ} (X : FVec Ideal ⟨2, ![n, c]⟩ .f32) :
    maximumf X (broadcast ⟨2, ![n, c]⟩ (Scalar.ofBits (F := Ideal) .f32 0x00000000#32)) = relu X := by
  funext i
  show max (X i) (Ideal.ofBits .f32 0x00000000#32) = max (X i) 0
  rw [Ideal.ofBits_zero_f32]

/-- A zero splat minus x is 0 − x. -/
theorem vec_neg {n c : ℕ} (X : FVec Ideal ⟨2, ![n, c]⟩ .f32) :
    subf (broadcast ⟨2, ![n, c]⟩ (Scalar.ofBits (F := Ideal) .f32 0x00000000#32)) X = neg X := by
  funext i
  show Ideal.ofBits .f32 0x00000000#32 - X i = 0 - X i
  rw [Ideal.ofBits_zero_f32]

/-- At the exact values a change of float format is the identity. -/
theorem vec_truncf {s : Shape} {φ : FTy} (ψ : FTy) (X : FVec Ideal s φ) (h : ψ.bits < φ.bits) :
    (truncf ψ X h : s.Idx → EReal) = X := rfl

/-! ## The network's stages at any number of rows -/

/-- The mean head on a block of rows. -/
def muR {M : ℕ} (X : Mat M 256) (W2 : Mat 256 128) : Mat M 128 := mm X W2
/-- The negated log-variance head on a block of rows. -/
def nlvR {M : ℕ} (X : Mat M 256) (W3 : Mat 256 128) : Mat M 128 := neg (mm X W3)
/-- The decoder's first normalised, rectified layer on a block of rows. -/
def dec1R {M : ℕ} (X : Mat M 256) (W2 : Mat 256 128) (Wd1 : Mat 128 256) : Mat M 256 :=
  relu (l2n (mm (l2n (muR X W2)) Wd1))
/-- The decoder on a block of rows. -/
def decR {M : ℕ} (X : Mat M 256) (W2 : Mat 256 128) (Wd1 : Mat 128 256) (Wd2 : Mat 256 256) : Mat M 256 :=
  relu (l2n (mm (dec1R X W2 Wd1) Wd2))
/-- A normalised embedding head on a block of rows. -/
def embR {M : ℕ} (X : Mat M 256) (W2 : Mat 256 128) (Wd1 : Mat 128 256) (Wd2 : Mat 256 256) (Wm : Mat 256 256) : Mat M 256 :=
  l2n (mm (decR X W2 Wd1 Wd2) Wm)

theorem mu_eq_muR (agg : Mat 4096 256) (W2 : Mat 256 128) : mu agg W2 = muR agg W2 := rfl
theorem nlv_eq_nlvR (agg : Mat 4096 256) (W3 : Mat 256 128) : nlv agg W3 = nlvR agg W3 := rfl
theorem emb_eq_embR (agg : Mat 4096 256) (W2 : Mat 256 128) (Wd1 : Mat 128 256) (Wd2 Wm : Mat 256 256) :
    emb agg W2 Wd1 Wd2 Wm = embR agg W2 Wd1 Wd2 Wm := rfl

/-! ## The payloads on a block -/

theorem pay1_eq (v0 : Vec Ideal S512x256 .f32) : (k1_pay1 (F := Ideal) v0 : S512x256.Idx → EReal) = v0 := by
  unfold k1_pay1
  simp only [shapeCast_self]
  rfl

theorem pay2_eq (v0 : Vec Ideal S512x256 .f32) (v3 : Vec Ideal S256x128 .f32) :
    (k1_pay2 (F := Ideal) v0 v3 : Mat 512 128) = muR v0 v3 := by
  unfold k1_pay2 muR
  rw [pay1_eq]
  exact matmul_zero_eq_mm _ rfl rfl rfl rfl rfl rfl none _ _

theorem pay3_eq (v0 : Vec Ideal S512x256 .f32) (v5 : Vec Ideal S256x128 .f32) :
    (k1_pay3 (F := Ideal) v0 v5 : Mat 512 128) = nlvR v0 v5 := by
  unfold k1_pay3 nlvR
  rw [pay1_eq]
  dsimp only
  rw [vec_neg]
  exact congrArg neg (matmul_zero_eq_mm _ rfl rfl rfl rfl rfl rfl none _ _)

theorem pay4_eq (v0 : Vec Ideal S512x256 .f32) (v3 : Vec Ideal S256x128 .f32) (v21 : Vec Ideal S128x256 .f32) :
    (k1_pay4 (F := Ideal) v0 v3 v21 : Mat 512 256) = dec1R v0 v3 v21 := by
  unfold k1_pay4 dec1R
  rw [pay2_eq]
  dsimp only
  rw [vec_l2n, vec_relu]
  refine congrArg relu ?_
  rw [vec_l2n]
  refine congrArg l2n ?_
  exact matmul_zero_eq_mm _ rfl rfl rfl rfl rfl rfl none _ _

theorem pay5_eq (v34 : FVec Ideal S512x256 .f32) (v35 : Vec Ideal S256x256 .f32) :
    (k1_pay5 (F := Ideal) v34 v35 : Mat 512 256) = relu (l2n (mm v34 v35)) := by
  unfold k1_pay5
  dsimp only
  rw [vec_relu]
  refine congrArg relu ?_
  rw [vec_l2n]
  refine congrArg l2n ?_
  exact matmul_zero_eq_mm _ rfl rfl rfl rfl rfl rfl none _ _

theorem pay6_eq (v34 : FVec Ideal S512x256 .f32) (v35 v49 : Vec Ideal S256x256 .f32) :
    (k1_pay6 (F := Ideal) v34 v35 v49 : Mat 512 256) = l2n (mm (relu (l2n (mm v34 v35))) v49) := by
  unfold k1_pay6
  rw [pay5_eq]
  dsimp only
  rw [vec_l2n]
  refine congrArg l2n ?_
  exact matmul_zero_eq_mm _ rfl rfl rfl rfl rfl rfl none _ _

theorem pay7_eq (v34 : FVec Ideal S512x256 .f32) (v35 v51 : Vec Ideal S256x256 .f32) :
    (k1_pay7 (F := Ideal) v34 v35 v51 : Mat 512 256) = l2n (mm (relu (l2n (mm v34 v35))) v51) := by
  unfold k1_pay7
  rw [pay5_eq]
  dsimp only
  rw [vec_l2n]
  refine congrArg l2n ?_
  exact matmul_zero_eq_mm _ rfl rfl rfl rfl rfl rfl none _ _

/-- The third output's payload is the embedding head of the block. -/
theorem pay9_eq (x0 : Vec Ideal S512x256 .f32) (x1 : Vec Ideal S256x128 .f32) (x3 : Vec Ideal S128x256 .f32)
    (x4 x5 : Vec Ideal S256x256 .f32) :
    (k1_pay6 (F := Ideal) (k1_pay4 x0 x1 x3) x4 x5 : Mat 512 256) = embR x0 x1 x3 x4 x5 := by
  rw [pay6_eq, pay4_eq]
  rfl

/-- The fourth output's likewise, with the other head's matrix. -/
theorem pay10_eq (x0 : Vec Ideal S512x256 .f32) (x1 : Vec Ideal S256x128 .f32) (x3 : Vec Ideal S128x256 .f32)
    (x4 x6 : Vec Ideal S256x256 .f32) :
    (k1_pay7 (F := Ideal) (k1_pay4 x0 x1 x3) x4 x6 : Mat 512 256) = embR x0 x1 x3 x4 x6 := by
  rw [pay7_eq, pay4_eq]
  rfl

/-! ## Row locality -/

/-- Row `p'` of `X'` is row `p` of `X`. -/
def RowEq {M M' N : ℕ} (X' : Mat M' N) (X : Mat M N) (p' : Fin M') (p : Fin M) : Prop :=
  ∀ k : Fin N, X' (ix2 p' k) = X (ix2 p k)

variable {M M' : ℕ} {p' : Fin M'} {p : Fin M}

theorem RowEq.mm {K N : ℕ} {A' : Mat M' K} {A : Mat M K} (h : RowEq A' A p' p) (B : Mat K N) :
    RowEq (mm A' B) (mm A B) p' p := fun q => mm_rows A A' B p p' h q

theorem RowEq.relu {N : ℕ} {A' : Mat M' N} {A : Mat M N} (h : RowEq A' A p' p) :
    RowEq (relu A') (relu A) p' p := fun q => by
  show max (A' (ix2 p' q)) 0 = max (A (ix2 p q)) 0
  rw [h q]

theorem RowEq.neg {N : ℕ} {A' : Mat M' N} {A : Mat M N} (h : RowEq A' A p' p) :
    RowEq (neg A') (neg A) p' p := fun q => by
  show 0 - A' (ix2 p' q) = 0 - A (ix2 p q)
  rw [h q]

theorem RowEq.l2n {N : ℕ} {A' : Mat M' N} {A : Mat M N} (h : RowEq A' A p' p) :
    RowEq (l2n A') (l2n A) p' p := fun q => by
  show Ideal.div (A' (ix2 p' q)) (max (Ideal.sqrt (∑ k : Fin N, A' (ix2 p' k) * A' (ix2 p' k))) eps)
    = Ideal.div (A (ix2 p q)) (max (Ideal.sqrt (∑ k : Fin N, A (ix2 p k) * A (ix2 p k))) eps)
  rw [h q, Finset.sum_congr rfl fun k _ => by rw [h k]]

theorem RowEq.muR {X' : Mat M' 256} {X : Mat M 256} (h : RowEq X' X p' p) (W2 : Mat 256 128) :
    RowEq (muR X' W2) (muR X W2) p' p := h.mm W2

theorem RowEq.nlvR {X' : Mat M' 256} {X : Mat M 256} (h : RowEq X' X p' p) (W3 : Mat 256 128) :
    RowEq (nlvR X' W3) (nlvR X W3) p' p := (h.mm W3).neg

theorem RowEq.embR {X' : Mat M' 256} {X : Mat M 256} (h : RowEq X' X p' p) (W2 : Mat 256 128) (Wd1 : Mat 128 256)
    (Wd2 Wm : Mat 256 256) : RowEq (embR X' W2 Wd1 Wd2 Wm) (embR X W2 Wd1 Wd2 Wm) p' p :=
  ((((((h.mm W2).l2n.mm Wd1).l2n.relu).mm Wd2).l2n.relu).mm Wm).l2n

end Cert.KernelIdeal.HandValue

end
-- ==== Proof.KI.Val1.lean ====
/- What region 1 leaves in its four output arrays, at the exact values: point t of the grid reads rows
   512·t … 512·t + 511 of the aggregated features and the six weight matrices whole, and writes the same rows of
   each output; every stage of the network is row-wise, so the block written is the block of the whole-array
   function; the eight blocks cover the 4096 rows. -/
import proofs.«106620_j12240656794038_1_alg».proof.Proof.KI.Reg1
import proofs.«106620_j12240656794038_1_alg».proof.Proof.KI.Pay1
import Idealize.ShloMosaic.Lib.Pipeline.Value
import Idealize.ShloMosaic.Lib.Tactic

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Dense

variable (V : (c : Dev nD) → (b : Ref sig .tc) → Buf (Elt Ideal) ((c : Thread nD τ).loc b))

theorem hz1 : (![0, 0] : Fin 2 → Nat) = fun _ => 0 := funext fun a => by fin_cases a <;> rfl

/-- The printed index maps, decided over the grid: the feature window and the four output windows are at row
    block t, column block 0; the six weight windows stay at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

theorem N1_eq : cfg1.N = 8 := N_1

/-! ## The input blocks as parts of their arrays -/

/-- The feature window's block at point t is rows 512·t … 512·t + 511 of its array. -/
theorem iblk1_0_apply (c : Dev nD) (t : Fin cfg1.N) (x : S512x256.Idx) (k : S4096x256.Idx)
    (hk0 : (k 0).val = 512 * t.val + (x 0).val) (hk1 : (k 1).val = (x 1).val) :
    (iblk1 V c 0 t : Vec Ideal S512x256 .f32) x = (V c main_v15 : S4096x256.Idx → Elt Ideal .f32) k := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
  unfold iblk1
  rw [View.read_apply]
  show V c main_v15 _ = V c main_v15 _
  congr 1
  funext a
  apply Fin.ext
  match a with
  | ⟨0, _⟩ => show win1_0.index t 0 * 512 + 1 * (x 0).val = (k 0).val; rw [e0_0, hk0]; omega
  | ⟨1, _⟩ => show win1_0.index t 1 * 256 + 1 * (x 1).val = (k 1).val; rw [e0_1, hk1]; omega

/-- Window 1's block at every point is its whole array. -/
theorem iblk1_1_eq (c : Dev nD) (t : Fin cfg1.N) :
    (iblk1 V c 1 t : Vec Ideal S256x128 .f32) = (V c main_arg5 : S256x128.Idx → Elt Ideal .f32) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
  funext x
  unfold iblk1
  rw [View.read_apply]
  show V c main_arg5 _ = V c main_arg5 x
  congr 1
  funext a
  apply Fin.ext
  match a with
  | ⟨0, _⟩ => show win1_1.index t 0 * 256 + 1 * (x 0).val = (x 0).val; rw [e1_0]; omega
  | ⟨1, _⟩ => show win1_1.index t 1 * 128 + 1 * (x 1).val = (x 1).val; rw [e1_1]; omega

/-- Window 2's block at every point is its whole array. -/
theorem iblk1_2_eq (c : Dev nD) (t : Fin cfg1.N) :
    (iblk1 V c 2 t : Vec Ideal S256x128 .f32) = (V c main_arg6 : S256x128.Idx → Elt Ideal .f32) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
  funext x
  unfold iblk1
  rw [View.read_apply]
  show V c main_arg6 _ = V c main_arg6 x
  congr 1
  funext a
  apply Fin.ext
  match a with
  | ⟨0, _⟩ => show win1_2.index t 0 * 256 + 1 * (x 0).val = (x 0).val; rw [e2_0]; omega
  | ⟨1, _⟩ => show win1_2.index t 1 * 128 + 1 * (x 1).val = (x 1).val; rw [e2_1]; omega

/-- Window 3's block at every point is its whole array. -/
theorem iblk1_3_eq (c : Dev nD) (t : Fin cfg1.N) :
    (iblk1 V c 3 t : Vec Ideal S128x256 .f32) = (V c main_arg7 : S128x256.Idx → Elt Ideal .f32) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
  funext x
  unfold iblk1
  rw [View.read_apply]
  show V c main_arg7 _ = V c main_arg7 x
  congr 1
  funext a
  apply Fin.ext
  match a with
  | ⟨0, _⟩ => show win1_3.index t 0 * 128 + 1 * (x 0).val = (x 0).val; rw [e3_0]; omega
  | ⟨1, _⟩ => show win1_3.index t 1 * 256 + 1 * (x 1).val = (x 1).val; rw [e3_1]; omega

/-- Window 4's block at every point is its whole array. -/
theorem iblk1_4_eq (c : Dev nD) (t : Fin cfg1.N) :
    (iblk1 V c 4 t : Vec Ideal S256x256 .f32) = (V c main_arg8 : S256x256.Idx → Elt Ideal .f32) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
  funext x
  unfold iblk1
  rw [View.read_apply]
  show V c main_arg8 _ = V c main_arg8 x
  congr 1
  funext a
  apply Fin.ext
  match a with
  | ⟨0, _⟩ => show win1_4.index t 0 * 256 + 1 * (x 0).val = (x 0).val; rw [e4_0]; omega
  | ⟨1, _⟩ => show win1_4.index t 1 * 256 + 1 * (x 1).val = (x 1).val; rw [e4_1]; omega

/-- Window 5's block at every point is its whole array. -/
theorem iblk1_5_eq (c : Dev nD) (t : Fin cfg1.N) :
    (iblk1 V c 5 t : Vec Ideal S256x256 .f32) = (V c main_arg9 : S256x256.Idx → Elt Ideal .f32) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
  funext x
  unfold iblk1
  rw [View.read_apply]
  show V c main_arg9 _ = V c main_arg9 x
  congr 1
  funext a
  apply Fin.ext
  match a with
  | ⟨0, _⟩ => show win1_5.index t 0 * 256 + 1 * (x 0).val = (x 0).val; rw [e5_0]; omega
  | ⟨1, _⟩ => show win1_5.index t 1 * 256 + 1 * (x 1).val = (x 1).val; rw [e5_1]; omega

/-- Window 6's block at every point is its whole array. -/
theorem iblk1_6_eq (c : Dev nD) (t : Fin cfg1.N) :
    (iblk1 V c 6 t : Vec Ideal S256x256 .f32) = (V c main_arg10 : S256x256.Idx → Elt Ideal .f32) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
  funext x
  unfold iblk1
  rw [View.read_apply]
  show V c main_arg10 _ = V c main_arg10 x
  congr 1
  funext a
  apply Fin.ext
  match a with
  | ⟨0, _⟩ => show win1_6.index t 0 * 256 + 1 * (x 0).val = (x 0).val; rw [e6_0]; omega
  | ⟨1, _⟩ => show win1_6.index t 1 * 256 + 1 * (x 1).val = (x 1).val; rw [e6_1]; omega

/-- So row p of the feature block at point t is row 512·t + p of the features. -/
theorem iblk1_0_rows (c : Dev nD) (t : Fin cfg1.N) (p : Fin 512) (r : Fin 4096) (hr : r.val = 512 * t.val + p.val) :
    RowEq (iblk1 V c 0 t : Vec Ideal S512x256 .f32) (V c main_v15 : S4096x256.Idx → Elt Ideal .f32) p r :=
  fun k => iblk1_0_apply V c t (ix2 p k) (ix2 r k) hr rfl

/-! ## Each payload at an entry of the block, against the whole-array function at the entry's place -/

theorem mu_block_apply (x0 : Vec Ideal S512x256 .f32) (x1 : Vec Ideal S256x128 .f32) (A : Mat 4096 256) (W2 : Mat 256 128)
    (h1 : (x1 : Mat 256 128) = W2) (p : Fin 512) (r : Fin 4096) (h : RowEq (x0 : Mat 512 256) A p r) (q : Fin 128) :
    (k1_pay2 (F := Ideal) x0 x1 : Mat 512 128) (ix2 p q) = Cert.Spec.mu A W2 (ix2 r q) := by
  rw [pay2_eq, h1, mu_eq_muR]
  exact h.muR W2 q

theorem nlv_block_apply (x0 : Vec Ideal S512x256 .f32) (x2 : Vec Ideal S256x128 .f32) (A : Mat 4096 256) (W3 : Mat 256 128)
    (h2 : (x2 : Mat 256 128) = W3) (p : Fin 512) (r : Fin 4096) (h : RowEq (x0 : Mat 512 256) A p r) (q : Fin 128) :
    (k1_pay3 (F := Ideal) x0 x2 : Mat 512 128) (ix2 p q) = Cert.Spec.nlv A W3 (ix2 r q) := by
  rw [pay3_eq, h2, nlv_eq_nlvR]
  exact h.nlvR W3 q

theorem emb9_block_apply (x0 : Vec Ideal S512x256 .f32) (x1 : Vec Ideal S256x128 .f32) (x3 : Vec Ideal S128x256 .f32)
    (x4 x5 : Vec Ideal S256x256 .f32) (A : Mat 4096 256) (W2 : Mat 256 128) (Wd1 : Mat 128 256) (Wd2 Wm : Mat 256 256)
    (h1 : (x1 : Mat 256 128) = W2) (h3 : (x3 : Mat 128 256) = Wd1) (h4 : (x4 : Mat 256 256) = Wd2) (h5 : (x5 : Mat 256 256) = Wm)
    (p : Fin 512) (r : Fin 4096) (h : RowEq (x0 : Mat 512 256) A p r) (q : Fin 256) :
    (k1_pay6 (F := Ideal) (k1_pay4 x0 x1 x3) x4 x5 : Mat 512 256) (ix2 p q) = Cert.Spec.emb A W2 Wd1 Wd2 Wm (ix2 r q) := by
  rw [pay9_eq, h1, h3, h4, h5, emb_eq_embR]
  exact h.embR W2 Wd1 Wd2 Wm q

theorem emb10_block_apply (x0 : Vec Ideal S512x256 .f32) (x1 : Vec Ideal S256x128 .f32) (x3 : Vec Ideal S128x256 .f32)
    (x4 x6 : Vec Ideal S256x256 .f32) (A : Mat 4096 256) (W2 : Mat 256 128) (Wd1 : Mat 128 256) (Wd2 Wm : Mat 256 256)
    (h1 : (x1 : Mat 256 128) = W2) (h3 : (x3 : Mat 128 256) = Wd1) (h4 : (x4 : Mat 256 256) = Wd2) (h6 : (x6 : Mat 256 256) = Wm)
    (p : Fin 512) (r : Fin 4096) (h : RowEq (x0 : Mat 512 256) A p r) (q : Fin 256) :
    (k1_pay7 (F := Ideal) (k1_pay4 x0 x1 x3) x4 x6 : Mat 512 256) (ix2 p q) = Cert.Spec.emb A W2 Wd1 Wd2 Wm (ix2 r q) := by
  rw [pay10_eq, h1, h3, h4, h6, emb_eq_embR]
  exact h.embR W2 Wd1 Wd2 Wm q

/-! ## What each point writes back, the cover, the arrays after the region -/

/-- Point t writes back, into window 7's array, block t of the whole-array function of the region's inputs. -/
theorem flushed1_7_eq (c : Dev nD) (t : Fin cfg1.N) :
    (dat1 (F := Ideal) V c).flushed 7 t = ((cfg1.win 7).blk t).view.read (Elt Ideal) (Cert.Spec.mu (V c main_v15) (V c main_arg5)) := by
  show (cfg1.win 7).cut (grid1.coords t) ((dat1 V c).after 7 t) = _
  rw [after1_7]
  unfold out1_7
  rw [View.canon_unit_zero hz1]
  simp only [View.ld_unit_zero (S := S512x256) hz1, View.ld_unit_zero (S := S256x128) hz1]
  funext j
  obtain ⟨p, q, rfl⟩ : ∃ (p : Fin 512) (q : Fin 128), j = ix2 p q := ⟨j 0, j 1, eq_ix2 j⟩
  have ht : t.val < 8 := Nat.lt_of_lt_of_eq t.isLt N1_eq
  have hp : 512 * t.val + p.val < 4096 := by have := p.isLt; omega
  have hemb : ((cfg1.win 7).blk t).view.emb (ix2 p q) = ix2 (⟨512 * t.val + p.val, hp⟩ : Fin 4096) q := by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
    funext a
    apply Fin.ext
    match a with
    | ⟨0, _⟩ => show win1_7.index t 0 * 512 + 1 * p.val = 512 * t.val + p.val; rw [e7_0]; omega
    | ⟨1, _⟩ => show win1_7.index t 1 * 128 + 1 * q.val = q.val; rw [e7_1]; omega
  show _ = (Cert.Spec.mu (V c main_v15) (V c main_arg5)) (((cfg1.win 7).blk t).view.emb (ix2 p q))
  rw [hemb]
  exact mu_block_apply (iblk1 V c 0 t) (iblk1 V c 1 t) _ _ (iblk1_1_eq V c t) p _ (iblk1_0_rows V c t p _ rfl) q

/-- An index of window 7's array is in point t's block iff each coordinate is in the block's range. -/
theorem mem_blk1_7 (t : Fin cfg1.N) (i : S4096x128.Idx) :
    i ∈ ((cfg1.win 7).blk t).view.set ↔ ∀ a : Fin 2, win1_7.index t a * S512x128.size a ≤ (i a).val ∧ (i a).val < win1_7.index t a * S512x128.size a + S512x128.size a := by
  show i ∈ ((View.whole main_v16_0).slice (win1_7.rect t)).set ↔ _
  rw [View.set_slice_whole, Rect.mem_set_unit]
  exact Iff.rfl

/-- Row r of window 7's array is written by point r / 512. -/
theorem covered1_7 (i : S4096x128.Idx) :
    ∃ t : Fin cfg1.N, (cfg1.win 7).flush t = true ∧ i ∈ ((cfg1.win 7).blk t).view.set := by
  have hi0 : (i 0).val < 4096 := (i 0).isLt
  have hi1 : (i 1).val < 128 := (i 1).isLt
  have hN : (i 0).val / 512 < cfg1.N := by rw [N1_eq]; omega
  refine ⟨⟨(i 0).val / 512, hN⟩, flush1_7 _, ?_⟩
  rw [mem_blk1_7]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 ⟨(i 0).val / 512, hN⟩
  intro a
  match a with
  | ⟨0, _⟩ =>
    show win1_7.index ⟨(i 0).val / 512, hN⟩ 0 * 512 ≤ (i 0).val ∧ (i 0).val < win1_7.index ⟨(i 0).val / 512, hN⟩ 0 * 512 + 512
    rw [e7_0]
    show (i 0).val / 512 * 512 ≤ (i 0).val ∧ (i 0).val < (i 0).val / 512 * 512 + 512
    omega
  | ⟨1, _⟩ =>
    show win1_7.index ⟨(i 0).val / 512, hN⟩ 1 * 128 ≤ (i 1).val ∧ (i 1).val < win1_7.index ⟨(i 0).val / 512, hN⟩ 1 * 128 + 128
    rw [e7_1]
    omega

/-- Window 7's array after the region. -/
theorem final1_7 (c : Dev nD) : (dat1 (F := Ideal) V c).arrAt 7 cfg1.N = Cert.Spec.mu (V c main_v15) (V c main_arg5) :=
  (dat1 V c).arrAt_eq_of_cover 7 _ (fun t _ => flushed1_7_eq V c t) (covered1_7)

/-- Point t writes back, into window 8's array, block t of the whole-array function of the region's inputs. -/
theorem flushed1_8_eq (c : Dev nD) (t : Fin cfg1.N) :
    (dat1 (F := Ideal) V c).flushed 8 t = ((cfg1.win 8).blk t).view.read (Elt Ideal) (Cert.Spec.nlv (V c main_v15) (V c main_arg6)) := by
  show (cfg1.win 8).cut (grid1.coords t) ((dat1 V c).after 8 t) = _
  rw [after1_8]
  unfold out1_8
  rw [View.canon_unit_zero hz1]
  simp only [View.ld_unit_zero (S := S512x256) hz1, View.ld_unit_zero (S := S256x128) hz1]
  funext j
  obtain ⟨p, q, rfl⟩ : ∃ (p : Fin 512) (q : Fin 128), j = ix2 p q := ⟨j 0, j 1, eq_ix2 j⟩
  have ht : t.val < 8 := Nat.lt_of_lt_of_eq t.isLt N1_eq
  have hp : 512 * t.val + p.val < 4096 := by have := p.isLt; omega
  have hemb : ((cfg1.win 8).blk t).view.emb (ix2 p q) = ix2 (⟨512 * t.val + p.val, hp⟩ : Fin 4096) q := by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
    funext a
    apply Fin.ext
    match a with
    | ⟨0, _⟩ => show win1_8.index t 0 * 512 + 1 * p.val = 512 * t.val + p.val; rw [e8_0]; omega
    | ⟨1, _⟩ => show win1_8.index t 1 * 128 + 1 * q.val = q.val; rw [e8_1]; omega
  show _ = (Cert.Spec.nlv (V c main_v15) (V c main_arg6)) (((cfg1.win 8).blk t).view.emb (ix2 p q))
  rw [hemb]
  exact nlv_block_apply (iblk1 V c 0 t) (iblk1 V c 2 t) _ _ (iblk1_2_eq V c t) p _ (iblk1_0_rows V c t p _ rfl) q

/-- An index of window 8's array is in point t's block iff each coordinate is in the block's range. -/
theorem mem_blk1_8 (t : Fin cfg1.N) (i : S4096x128.Idx) :
    i ∈ ((cfg1.win 8).blk t).view.set ↔ ∀ a : Fin 2, win1_8.index t a * S512x128.size a ≤ (i a).val ∧ (i a).val < win1_8.index t a * S512x128.size a + S512x128.size a := by
  show i ∈ ((View.whole main_v16_1).slice (win1_8.rect t)).set ↔ _
  rw [View.set_slice_whole, Rect.mem_set_unit]
  exact Iff.rfl

/-- Row r of window 8's array is written by point r / 512. -/
theorem covered1_8 (i : S4096x128.Idx) :
    ∃ t : Fin cfg1.N, (cfg1.win 8).flush t = true ∧ i ∈ ((cfg1.win 8).blk t).view.set := by
  have hi0 : (i 0).val < 4096 := (i 0).isLt
  have hi1 : (i 1).val < 128 := (i 1).isLt
  have hN : (i 0).val / 512 < cfg1.N := by rw [N1_eq]; omega
  refine ⟨⟨(i 0).val / 512, hN⟩, flush1_8 _, ?_⟩
  rw [mem_blk1_8]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 ⟨(i 0).val / 512, hN⟩
  intro a
  match a with
  | ⟨0, _⟩ =>
    show win1_8.index ⟨(i 0).val / 512, hN⟩ 0 * 512 ≤ (i 0).val ∧ (i 0).val < win1_8.index ⟨(i 0).val / 512, hN⟩ 0 * 512 + 512
    rw [e8_0]
    show (i 0).val / 512 * 512 ≤ (i 0).val ∧ (i 0).val < (i 0).val / 512 * 512 + 512
    omega
  | ⟨1, _⟩ =>
    show win1_8.index ⟨(i 0).val / 512, hN⟩ 1 * 128 ≤ (i 1).val ∧ (i 1).val < win1_8.index ⟨(i 0).val / 512, hN⟩ 1 * 128 + 128
    rw [e8_1]
    omega

/-- Window 8's array after the region. -/
theorem final1_8 (c : Dev nD) : (dat1 (F := Ideal) V c).arrAt 8 cfg1.N = Cert.Spec.nlv (V c main_v15) (V c main_arg6) :=
  (dat1 V c).arrAt_eq_of_cover 8 _ (fun t _ => flushed1_8_eq V c t) (covered1_8)

/-- Point t writes back, into window 9's array, block t of the whole-array function of the region's inputs. -/
theorem flushed1_9_eq (c : Dev nD) (t : Fin cfg1.N) :
    (dat1 (F := Ideal) V c).flushed 9 t = ((cfg1.win 9).blk t).view.read (Elt Ideal) (Cert.Spec.emb (V c main_v15) (V c main_arg5) (V c main_arg7) (V c main_arg8) (V c main_arg9)) := by
  show (cfg1.win 9).cut (grid1.coords t) ((dat1 V c).after 9 t) = _
  rw [after1_9]
  unfold out1_9
  rw [View.canon_unit_zero hz1]
  simp only [View.ld_unit_zero (S := S512x256) hz1, View.ld_unit_zero (S := S256x128) hz1, View.ld_unit_zero (S := S128x256) hz1, View.ld_unit_zero (S := S256x256) hz1]
  funext j
  obtain ⟨p, q, rfl⟩ : ∃ (p : Fin 512) (q : Fin 256), j = ix2 p q := ⟨j 0, j 1, eq_ix2 j⟩
  have ht : t.val < 8 := Nat.lt_of_lt_of_eq t.isLt N1_eq
  have hp : 512 * t.val + p.val < 4096 := by have := p.isLt; omega
  have hemb : ((cfg1.win 9).blk t).view.emb (ix2 p q) = ix2 (⟨512 * t.val + p.val, hp⟩ : Fin 4096) q := by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
    funext a
    apply Fin.ext
    match a with
    | ⟨0, _⟩ => show win1_9.index t 0 * 512 + 1 * p.val = 512 * t.val + p.val; rw [e9_0]; omega
    | ⟨1, _⟩ => show win1_9.index t 1 * 256 + 1 * q.val = q.val; rw [e9_1]; omega
  show _ = (Cert.Spec.emb (V c main_v15) (V c main_arg5) (V c main_arg7) (V c main_arg8) (V c main_arg9)) (((cfg1.win 9).blk t).view.emb (ix2 p q))
  rw [hemb]
  exact emb9_block_apply (iblk1 V c 0 t) (iblk1 V c 1 t) (iblk1 V c 3 t) (iblk1 V c 4 t) (iblk1 V c 5 t) _ _ _ _ _ (iblk1_1_eq V c t) (iblk1_3_eq V c t) (iblk1_4_eq V c t) (iblk1_5_eq V c t) p _ (iblk1_0_rows V c t p _ rfl) q

/-- An index of window 9's array is in point t's block iff each coordinate is in the block's range. -/
theorem mem_blk1_9 (t : Fin cfg1.N) (i : S4096x256.Idx) :
    i ∈ ((cfg1.win 9).blk t).view.set ↔ ∀ a : Fin 2, win1_9.index t a * S512x256.size a ≤ (i a).val ∧ (i a).val < win1_9.index t a * S512x256.size a + S512x256.size a := by
  show i ∈ ((View.whole main_v16_2).slice (win1_9.rect t)).set ↔ _
  rw [View.set_slice_whole, Rect.mem_set_unit]
  exact Iff.rfl

/-- Row r of window 9's array is written by point r / 512. -/
theorem covered1_9 (i : S4096x256.Idx) :
    ∃ t : Fin cfg1.N, (cfg1.win 9).flush t = true ∧ i ∈ ((cfg1.win 9).blk t).view.set := by
  have hi0 : (i 0).val < 4096 := (i 0).isLt
  have hi1 : (i 1).val < 256 := (i 1).isLt
  have hN : (i 0).val / 512 < cfg1.N := by rw [N1_eq]; omega
  refine ⟨⟨(i 0).val / 512, hN⟩, flush1_9 _, ?_⟩
  rw [mem_blk1_9]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 ⟨(i 0).val / 512, hN⟩
  intro a
  match a with
  | ⟨0, _⟩ =>
    show win1_9.index ⟨(i 0).val / 512, hN⟩ 0 * 512 ≤ (i 0).val ∧ (i 0).val < win1_9.index ⟨(i 0).val / 512, hN⟩ 0 * 512 + 512
    rw [e9_0]
    show (i 0).val / 512 * 512 ≤ (i 0).val ∧ (i 0).val < (i 0).val / 512 * 512 + 512
    omega
  | ⟨1, _⟩ =>
    show win1_9.index ⟨(i 0).val / 512, hN⟩ 1 * 256 ≤ (i 1).val ∧ (i 1).val < win1_9.index ⟨(i 0).val / 512, hN⟩ 1 * 256 + 256
    rw [e9_1]
    omega

/-- Window 9's array after the region. -/
theorem final1_9 (c : Dev nD) : (dat1 (F := Ideal) V c).arrAt 9 cfg1.N = Cert.Spec.emb (V c main_v15) (V c main_arg5) (V c main_arg7) (V c main_arg8) (V c main_arg9) :=
  (dat1 V c).arrAt_eq_of_cover 9 _ (fun t _ => flushed1_9_eq V c t) (covered1_9)

/-- Point t writes back, into window 10's array, block t of the whole-array function of the region's inputs. -/
theorem flushed1_10_eq (c : Dev nD) (t : Fin cfg1.N) :
    (dat1 (F := Ideal) V c).flushed 10 t = ((cfg1.win 10).blk t).view.read (Elt Ideal) (Cert.Spec.emb (V c main_v15) (V c main_arg5) (V c main_arg7) (V c main_arg8) (V c main_arg10)) := by
  show (cfg1.win 10).cut (grid1.coords t) ((dat1 V c).after 10 t) = _
  rw [after1_10]
  unfold out1_10
  rw [View.canon_unit_zero hz1]
  simp only [View.ld_unit_zero (S := S512x256) hz1, View.ld_unit_zero (S := S256x128) hz1, View.ld_unit_zero (S := S128x256) hz1, View.ld_unit_zero (S := S256x256) hz1]
  funext j
  obtain ⟨p, q, rfl⟩ : ∃ (p : Fin 512) (q : Fin 256), j = ix2 p q := ⟨j 0, j 1, eq_ix2 j⟩
  have ht : t.val < 8 := Nat.lt_of_lt_of_eq t.isLt N1_eq
  have hp : 512 * t.val + p.val < 4096 := by have := p.isLt; omega
  have hemb : ((cfg1.win 10).blk t).view.emb (ix2 p q) = ix2 (⟨512 * t.val + p.val, hp⟩ : Fin 4096) q := by
    obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 t
    funext a
    apply Fin.ext
    match a with
    | ⟨0, _⟩ => show win1_10.index t 0 * 512 + 1 * p.val = 512 * t.val + p.val; rw [e10_0]; omega
    | ⟨1, _⟩ => show win1_10.index t 1 * 256 + 1 * q.val = q.val; rw [e10_1]; omega
  show _ = (Cert.Spec.emb (V c main_v15) (V c main_arg5) (V c main_arg7) (V c main_arg8) (V c main_arg10)) (((cfg1.win 10).blk t).view.emb (ix2 p q))
  rw [hemb]
  exact emb10_block_apply (iblk1 V c 0 t) (iblk1 V c 1 t) (iblk1 V c 3 t) (iblk1 V c 4 t) (iblk1 V c 6 t) _ _ _ _ _ (iblk1_1_eq V c t) (iblk1_3_eq V c t) (iblk1_4_eq V c t) (iblk1_6_eq V c t) p _ (iblk1_0_rows V c t p _ rfl) q

/-- An index of window 10's array is in point t's block iff each coordinate is in the block's range. -/
theorem mem_blk1_10 (t : Fin cfg1.N) (i : S4096x256.Idx) :
    i ∈ ((cfg1.win 10).blk t).view.set ↔ ∀ a : Fin 2, win1_10.index t a * S512x256.size a ≤ (i a).val ∧ (i a).val < win1_10.index t a * S512x256.size a + S512x256.size a := by
  show i ∈ ((View.whole main_v16_3).slice (win1_10.rect t)).set ↔ _
  rw [View.set_slice_whole, Rect.mem_set_unit]
  exact Iff.rfl

/-- Row r of window 10's array is written by point r / 512. -/
theorem covered1_10 (i : S4096x256.Idx) :
    ∃ t : Fin cfg1.N, (cfg1.win 10).flush t = true ∧ i ∈ ((cfg1.win 10).blk t).view.set := by
  have hi0 : (i 0).val < 4096 := (i 0).isLt
  have hi1 : (i 1).val < 256 := (i 1).isLt
  have hN : (i 0).val / 512 < cfg1.N := by rw [N1_eq]; omega
  refine ⟨⟨(i 0).val / 512, hN⟩, flush1_10 _, ?_⟩
  rw [mem_blk1_10]
  obtain ⟨e0_0, e0_1, e1_0, e1_1, e2_0, e2_1, e3_0, e3_1, e4_0, e4_1, e5_0, e5_1, e6_0, e6_1, e7_0, e7_1, e8_0, e8_1, e9_0, e9_1, e10_0, e10_1⟩ := idx_facts1 ⟨(i 0).val / 512, hN⟩
  intro a
  match a with
  | ⟨0, _⟩ =>
    show win1_10.index ⟨(i 0).val / 512, hN⟩ 0 * 512 ≤ (i 0).val ∧ (i 0).val < win1_10.index ⟨(i 0).val / 512, hN⟩ 0 * 512 + 512
    rw [e10_0]
    show (i 0).val / 512 * 512 ≤ (i 0).val ∧ (i 0).val < (i 0).val / 512 * 512 + 512
    omega
  | ⟨1, _⟩ =>
    show win1_10.index ⟨(i 0).val / 512, hN⟩ 1 * 256 ≤ (i 1).val ∧ (i 1).val < win1_10.index ⟨(i 0).val / 512, hN⟩ 1 * 256 + 256
    rw [e10_1]
    omega

/-- Window 10's array after the region. -/
theorem final1_10 (c : Dev nD) : (dat1 (F := Ideal) V c).arrAt 10 cfg1.N = Cert.Spec.emb (V c main_v15) (V c main_arg5) (V c main_arg7) (V c main_arg8) (V c main_arg10) :=
  (dat1 V c).arrAt_eq_of_cover 10 _ (fun t _ => flushed1_10_eq V c t) (covered1_10)

end Cert.KernelIdeal.HandValue

end
-- ==== Proof.KI.Val2.lean ====
/-
  What region 2 leaves in its output array, on the extended reals: e1 · e2ᵀ of the two arrays it found, as one
  whole-array function. The body's payload contracts the second axes of its two blocks; the tile a grid point
  writes back is the restriction of the whole-array function to the tile's rows and columns, because entry (r, s)
  of e1 · e2ᵀ depends only on row r of e1 and row s of e2; the tiles of the 4 × 4 points tile the array.
-/
import proofs.«106620_j12240656794038_1_alg».proof.Proof.KI.Reg2
import proofs.«106620_j12240656794038_1_alg».proof.Proof.Spec
import proofs.«106620_j12240656794038_1_alg».proof.Proof.LibRowBlocks
import Idealize.ShloMosaic.Lib.Pipeline.Value

set_option maxRecDepth 16384
set_option pp.maxSteps 5000
set_option pp.deepTerms false

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx Cert.Dense

variable (V : (c : Dev nD) → (b : Ref sig .tc) → Buf (Elt Ideal) ((c : Thread nD τ).loc b))

theorem hz2 : (![0, 0] : Fin 2 → Nat) = fun _ => 0 := funext fun a => by fin_cases a <;> rfl

/-- The body's payload is the product of its first block with the transpose of its second. -/
theorem pay_reg2_eq (x0 : Vec Ideal S1024x256 .f32) (x1 : Vec Ideal S1024x256 .f32) :
    k2_pay1 (F := Ideal) x0 x1 = Cert.Spec.abT (M := 1024) (K := 256) (N := 1024) x0 x1 := by
  unfold k2_pay1
  funext i
  obtain ⟨q, d, rfl⟩ : ∃ (q : Fin 1024) (d : Fin 1024), i = ix2 q d := ⟨i 0, i 1, eq_ix2 i⟩
  show matmul (F := Ideal) dot_S1024x256_S1024x256_S1024x1024_1_1_0_0_n_n none
      (shapeCast S1024x256 x0 shapeCasts_S1024x256_S1024x256) (shapeCast S1024x256 x1 shapeCasts_S1024x256_S1024x256)
      (constant S1024x1024 .f32 0x00000000#32) (ix2 q d) = ∑ k : Fin 256, x0 (ix2 q k) * x1 (ix2 d k)
  rw [shapeCast_self, shapeCast_self]
  exact Cert.RowBlocks.matmul_abT_apply dot_S1024x256_S1024x256_S1024x1024_1_1_0_0_n_n rfl rfl rfl rfl rfl rfl none x0 x1 q d

/-- A tile of e1 · e2ᵀ: rows a·1024 … and columns b·1024 … of the whole-array function are the function of those
    rows of e1 and of e2. -/
theorem recon_block (E1 E2 : Mat 4096 256) (x0 x1 : Mat 1024 256) (a b : ℕ)
    (h0 : ∀ (p : Fin 1024) (p' : Fin 4096) (k : Fin 256), p'.val = a * 1024 + p.val → x0 (ix2 p k) = E1 (ix2 p' k))
    (h1 : ∀ (p : Fin 1024) (p' : Fin 4096) (k : Fin 256), p'.val = b * 1024 + p.val → x1 (ix2 p k) = E2 (ix2 p' k))
    (j : (⟨2, ![1024, 1024]⟩ : Shape).Idx) (i : (⟨2, ![4096, 4096]⟩ : Shape).Idx)
    (hi0 : (i 0).val = a * 1024 + (j 0).val) (hi1 : (i 1).val = b * 1024 + (j 1).val) :
    Cert.Spec.abT x0 x1 j = Cert.Spec.recon E1 E2 i := by
  obtain ⟨p, q, rfl⟩ : ∃ (p : Fin 1024) (q : Fin 1024), j = ix2 p q := ⟨j 0, j 1, eq_ix2 j⟩
  obtain ⟨p', q', rfl⟩ : ∃ (p' : Fin 4096) (q' : Fin 4096), i = ix2 p' q' := ⟨i 0, i 1, eq_ix2 i⟩
  show ∑ k : Fin 256, x0 (ix2 p k) * x1 (ix2 q k) = ∑ k : Fin 256, E1 (ix2 p' k) * E2 (ix2 q' k)
  exact Finset.sum_congr rfl fun k _ => by rw [h0 p p' k hi0, h1 q q' k hi1]

/-- The printed index maps, decided over the grid: point `t` is tile (t / 4, t % 4); the first input's block is row
    block t / 4 of e1, the second's is row block t % 4 of e2. -/
theorem idx_facts2 : ∀ t : Fin cfg2.N, win2_0.index t (0 : Fin 2) = t.val / 4 ∧ win2_0.index t (1 : Fin 2) = 0
    ∧ win2_1.index t (0 : Fin 2) = t.val % 4 ∧ win2_1.index t (1 : Fin 2) = 0
    ∧ win2_2.index t (0 : Fin 2) = t.val / 4 ∧ win2_2.index t (1 : Fin 2) = t.val % 4 :=
  (by decide +kernel : ∀ t : Fin grid2.N, _)

/-- What point `t` writes back is tile `t` of e1 · e2ᵀ of the arrays the region found. -/
theorem flushed2_eq (c : Dev nD) (t : Fin cfg2.N) :
    (dat2 V c).flushed 2 t = ((cfg2.win 2).blk t).view.read (Elt Ideal) (Cert.Spec.recon (V c main_v16_2) (V c main_v16_3)) := by
  show (cfg2.win 2).cut (grid2.coords t) ((dat2 V c).after 2 t) = _
  rw [after2_2]
  unfold out2_2
  rw [View.canon_unit_zero hz2]
  simp only [View.ld_unit_zero (S := S1024x256) hz2]
  rw [pay_reg2_eq]
  obtain ⟨e0, e1, e2, e3, e4, e5⟩ := idx_facts2 t
  funext j
  refine recon_block (V c main_v16_2) (V c main_v16_3) (iblk2 V c 0 t) (iblk2 V c 1 t) (t.val / 4) (t.val % 4) ?_ ?_ j (((cfg2.win 2).blk t).view.emb j) ?_ ?_
  · intro p p' k hp
    show V c main_v16_2 (((cfg2.win 0).blk t).view.emb (ix2 p k)) = V c main_v16_2 (ix2 p' k)
    refine congrArg _ (funext fun a => Fin.ext ?_)
    match a with
    | ⟨0, _⟩ => show win2_0.index t (0 : Fin 2) * 1024 + 1 * p.val = p'.val; omega
    | ⟨1, _⟩ => show win2_0.index t (1 : Fin 2) * 256 + 1 * k.val = k.val; omega
  · intro p p' k hp
    show V c main_v16_3 (((cfg2.win 1).blk t).view.emb (ix2 p k)) = V c main_v16_3 (ix2 p' k)
    refine congrArg _ (funext fun a => Fin.ext ?_)
    match a with
    | ⟨0, _⟩ => show win2_1.index t (0 : Fin 2) * 1024 + 1 * p.val = p'.val; omega
    | ⟨1, _⟩ => show win2_1.index t (1 : Fin 2) * 256 + 1 * k.val = k.val; omega
  · show win2_2.index t (0 : Fin 2) * 1024 + 1 * (j 0).val = t.val / 4 * 1024 + (j 0).val; omega
  · show win2_2.index t (1 : Fin 2) * 1024 + 1 * (j 1).val = t.val % 4 * 1024 + (j 1).val; omega

/-- An index of the array is in point `t`'s tile iff each coordinate is in the tile's range on its axis. -/
theorem mem_blk2 (t : Fin cfg2.N) (i : S4096x4096.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v17).slice (win2_2.rect t)).set ↔ _
  rw [View.set_slice_whole, Rect.mem_set_unit]
  exact Iff.rfl

/-- Entry (r, s) is in the tile of point 4 · (r / 1024) + s / 1024: the 16 tiles tile the array. -/
theorem cover2 (i : S4096x4096.Idx) :
    ∃ t : Fin cfg2.N, (cfg2.win 2).flush t = true ∧ i ∈ ((cfg2.win 2).blk t).view.set := by
  have hi0 : (i 0).val < 4096 := (i 0).isLt
  have hi1 : (i 1).val < 4096 := (i 1).isLt
  have hN : cfg2.N = 16 := N_2
  let t : Fin cfg2.N := ⟨4 * ((i 0).val / 1024) + (i 1).val / 1024, by rw [hN]; omega⟩
  obtain ⟨e0, e1, e2, e3, e4, e5⟩ := idx_facts2 t
  have ht : t.val = 4 * ((i 0).val / 1024) + (i 1).val / 1024 := rfl
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The array after the region: e1 · e2ᵀ of the arrays the region found. -/
theorem final2 (c : Dev nD) : (dat2 (F := Ideal) V c).arrAt 2 cfg2.N = Cert.Spec.recon (V c main_v16_2) (V c main_v16_3) :=
  (dat2 V c).arrAt_eq_of_cover 2 (Cert.Spec.recon (V c main_v16_2) (V c main_v16_3)) (fun t _ => flushed2_eq V c t) cover2

end Cert.KernelIdeal.HandValue

end
-- ==== Proof.LibFoldSum.lean ====
/-
  Two facts about sums on a commutative monoid, used to read an output that is accumulated over consecutive grid points.

  A fold that starts at its first point from zero plus that point's share, and at each later point adds the point's share to
  what the point before left, holds after point j zero plus the sum of the shares of points 0 … j. And a sum over the A·B rows
  of an array is the sum over its A blocks of B consecutive rows of each block's sum. Both use only that addition is
  commutative and associative, so they hold on the extended reals with no finiteness.
-/
import Idealize.ShloMosaic.Lib.Pipeline.Value
import Idealize.ShloMosaic.Lib.ValueIdx

noncomputable section

namespace Cert.FoldSum

open Idealize.ShloMosaic Idealize.ShloMosaic.ValueIdx

/-- The fold over the points 0 … j, read at entry d, is zero plus the sum of the points' shares at d. -/
theorem accAt_sum {M : Type*} [AddCommMonoid M] {N c : ℕ}
    (a : (n : ℕ) → n < N → ((⟨1, ![c]⟩ : Shape).Idx → M))
    (g : (n : ℕ) → n < N → ((⟨1, ![c]⟩ : Shape).Idx → M) → ((⟨1, ![c]⟩ : Shape).Idx → M))
    (P : (n : ℕ) → n < N → Fin c → M)
    (ha : ∀ n h d, a n h (ix1 d) = 0 + P n h d)
    (hg : ∀ n h acc d, g n h acc (ix1 d) = acc (ix1 d) + P n h d)
    (j : ℕ) (h : 0 + j < N) (d : Fin c) :
    Pipeline.accAt a g 0 j h (ix1 d) = 0 + ∑ n : Fin (j + 1), P n.val (by have := n.isLt; omega) d := by
  have hP : ∀ (n n' : ℕ) (hn : n < N) (hn' : n' < N), n = n' → P n hn d = P n' hn' d := by
    intro n n' hn hn' e; subst e; rfl
  induction j with
  | zero =>
    rw [Pipeline.accAt_zero, ha, Fin.sum_univ_one]
    exact congrArg (0 + ·) (hP _ _ _ _ rfl)
  | succ j ih =>
    rw [Pipeline.accAt_succ, hg, ih (by omega), add_assoc]
    conv_rhs => rw [Fin.sum_univ_castSucc]
    refine congrArg (0 + ·) (congrArg₂ (· + ·) (Finset.sum_congr rfl fun n _ => hP _ _ _ _ rfl) (hP _ _ _ _ ?_))
    simp

/-- A sum over C = A·B rows is the sum over the A blocks of B consecutive rows of each block's sum. -/
theorem sum_blocks {M : Type*} [AddCommMonoid M] {A B C : ℕ} (hC : C = A * B) (f : Fin C → M) :
    ∑ i : Fin C, f i = ∑ n : Fin A, ∑ r : Fin B, f ⟨B * n.val + r.val, by
      subst hC
      have h1 := n.isLt
      have h2 := r.isLt
      calc B * n.val + r.val < B * n.val + B := by omega
        _ = B * (n.val + 1) := by ring
        _ ≤ B * A := Nat.mul_le_mul_left _ h1
        _ = A * B := Nat.mul_comm _ _⟩ := by
  subst hC
  rw [← Equiv.sum_comp finProdFinEquiv f, Fintype.sum_prod_type]
  refine Finset.sum_congr rfl fun n _ => Finset.sum_congr rfl fun r _ => congrArg f (Fin.ext ?_)
  simp only [finProdFinEquiv_apply_val]
  omega

end Cert.FoldSum

end
-- ==== Proof.KI.Val3.lean ====
/-
  What region 3 leaves in its output array, on the extended reals: the product of the adjacency it found with the
  projected features it found, as one whole-array function. The body keeps a running sum in a scratch buffer across
  the four contraction blocks of a row block: zero plus the first block's product at the first, plus each later
  block's product after; at the last contraction block the scratch is copied to the output tile, which is then the
  whole row of the product, a sum over 4 · 1024 terms read as four block sums of 1024. Addition on the extended reals
  is commutative and associative, so no finiteness is needed.
-/
import proofs.«106620_j12240656794038_1_alg».proof.Proof.KI.Reg3
import proofs.«106620_j12240656794038_1_alg».proof.Proof.Spec
import proofs.«106620_j12240656794038_1_alg».proof.Proof.LibFoldSum
import Idealize.ShloMosaic.Lib.Pipeline.Value
import Idealize.ShloMosaic.Lib.Tactic

set_option maxRecDepth 16384
set_option pp.maxSteps 5000
set_option pp.deepTerms false

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx Cert.Dense
open scoped BigOperators

theorem hz3 : (![0, 0] : Fin 2 → Nat) = fun _ => 0 := funext fun a => by fin_cases a <;> rfl

section Cases
variable {F : FTy → Type} [FloatOps F]

/-- A middle contraction block: the scratch holding `xs` is left at the payload of the two input blocks and `xs`. -/
theorem sout3_B_eq (c : Dev nD) (i : grid3.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S1024x256 .f32) (h5 : a5.IsWhole) (hc0 : ¬cond3_0 i) (hc1 : ¬cond3_1 i)
    (x0 : Vec F S1024x1024 .f32) (x1 xs : Vec F S1024x256 .f32) :
    sout3_B_0 c i a2 h2 a3 h3 a4 h4 a5 h5 hc0 hc1 x0 x1 xs = k3_pay2 x0 x1 xs := by
  unfold sout3_B_0
  rw [View.read_writes_eq_canon _ _ _ (scover3_B_0 c i a2 h2 a3 h3 a4 h4 a5 h5 hc0 hc1 x0 x1 xs)]
  unfold kernelRun3_B
  dsimp only
  rw [View.canon_unit_zero hz3]
  simp only [View.readAt_eq_ld, h2.read_unread, h3.read_unread, h5.read_unread, View.ld_unit_zero (S := S1024x256) hz3, View.ld_unit_zero (S := S1024x1024) hz3]

/-- The last contraction block: the same in the scratch, -/
theorem sout3_C_eq (c : Dev nD) (i : grid3.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S1024x256 .f32) (h5 : a5.IsWhole) (hc0 : ¬cond3_0 i) (hc1 : cond3_1 i)
    (x0 : Vec F S1024x1024 .f32) (x1 xs : Vec F S1024x256 .f32) :
    sout3_C_0 c i a2 h2 a3 h3 a4 h4 a5 h5 hc0 hc1 x0 x1 xs = k3_pay2 x0 x1 xs := by
  unfold sout3_C_0
  rw [View.read_writes_eq_canon _ _ _ (scover3_C_0 c i a2 h2 a3 h3 a4 h4 a5 h5 hc0 hc1 x0 x1 xs)]
  unfold kernelRun3_C
  dsimp only
  sl_unfold_words
  rw [View.canon_unit_zero hz3]
  simp only [View.readAt_eq_ld, h2.read_unread, h3.read_unread, h5.read_unread, View.ld_unit_zero (S := S1024x256) hz3, View.ld_unit_zero (S := S1024x1024) hz3]

/-- and the output tile is left at what the scratch then holds. -/
theorem out3_C_eq (c : Dev nD) (i : grid3.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S1024x256 .f32) (h5 : a5.IsWhole) (hc0 : ¬cond3_0 i) (hc1 : cond3_1 i)
    (x0 : Vec F S1024x1024 .f32) (x1 xs : Vec F S1024x256 .f32) :
    out3_C_2 c i a2 h2 a3 h3 a4 h4 a5 h5 hc0 hc1 x0 x1 xs = k3_pay2 x0 x1 xs := by
  unfold out3_C_2
  rw [View.read_writes_eq_canon _ _ _ (cover3_C_2 c i a2 h2 a3 h3 a4 h4 a5 h5 hc0 hc1 x0 x1 xs)]
  unfold kernelRun3_C
  dsimp only
  sl_unfold_words
  rw [View.canon_unit_zero hz3, View.readCov_unit_zero (S := S1024x256) _ hz3]
  simp only [View.readAt_eq_ld, h2.read_unread, h3.read_unread, h5.read_unread, View.ld_unit_zero (S := S1024x256) hz3, View.ld_unit_zero (S := S1024x1024) hz3]

/-- The first contraction block: the scratch is zeroed, read back, and left at the payload over the zero block. -/
theorem sout3_A_eq (c : Dev nD) (i : grid3.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S1024x256 .f32) (h5 : a5.IsWhole) (hc0 : cond3_0 i) (hc1 : ¬cond3_1 i)
    (x0 : Vec F S1024x1024 .f32) (x1 : Vec F S1024x256 .f32) :
    sout3_A_0 c i a2 h2 a3 h3 a4 h4 a5 h5 hc0 hc1 x0 x1 = k3_pay2 x0 x1 (k3_pay1 (F := F)) := by
  unfold sout3_A_0
  rw [View.read_writes_eq_canon _ _ _ (scover3_A_0 c i a2 h2 a3 h3 a4 h4 a5 h5 hc0 hc1 x0 x1)]
  unfold kernelRun3_A
  dsimp only
  sl_unfold_words
  rw [View.canon_cons_unit_zero (S := S1024x256) hz3, View.readCov_unit_zero (S := S1024x256) _ hz3]
  simp only [View.readAt_eq_ld, h2.read_unread, h3.read_unread, h5.read_unread, View.ld_unit_zero (S := S1024x256) hz3, View.ld_unit_zero (S := S1024x1024) hz3]

end Cases

section Value
variable (V : (c : Dev nD) → (b : Ref sig .tc) → Buf (Elt Ideal) ((c : Thread nD τ).loc b))

/-- The block the first store writes is zero. -/
theorem pay3_1_eq : (k3_pay1 (F := Ideal) : Vec Ideal S1024x256 .f32) = fun _ => (0 : EReal) := by
  unfold k3_pay1
  funext i
  show shapeCast S1024x256 (broadcast S1024x256 (Scalar.ofBits (F := Ideal) .f32 0x00000000#32)) shapeCasts_S1024x256_S1024x256 i = 0
  rw [shapeCast_self]
  show Ideal.ofBits .f32 0x00000000#32 = 0
  exact Ideal.ofBits_zero_f32

/-- The accumulating store's payload: what the scratch held plus the product of the two input blocks. -/
theorem pay3_2_eq (x0 : Vec Ideal S1024x1024 .f32) (x1 xs : Vec Ideal S1024x256 .f32) :
    k3_pay2 (F := Ideal) x0 x1 xs = fun i => xs i + mm (M := 1024) (K := 1024) (N := 256) x0 x1 i := by
  unfold k3_pay2
  funext i
  show shapeCast S1024x256 (addf xs (matmul (F := Ideal) dot_S1024x1024_S1024x256_S1024x256_1_0_0_1_n_n none
      (truncf .bf16 x0 bitsLt_bf16_f32) (truncf .bf16 (shapeCast S1024x256 x1 shapeCasts_S1024x256_S1024x256) bitsLt_bf16_f32)
      (constant S1024x256 .f32 0x00000000#32))) shapeCasts_S1024x256_S1024x256 i = _
  rw [shapeCast_self, shapeCast_self]
  exact congrArg (xs i + ·) (congrFun (matmul_zero_eq_mm dot_S1024x1024_S1024x256_S1024x256_1_0_0_1_n_n rfl rfl rfl rfl rfl rfl none
    (truncf .bf16 x0 bitsLt_bf16_f32) (truncf .bf16 x1 bitsLt_bf16_f32)) i)

/-- The printed index maps, decided over the grid: point `t` is row block t / 4 and contraction block t % 4. -/
theorem idx_facts3 : ∀ t : Fin cfg3.N, win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = t.val / 4 ∧ win3_2.index t (1 : Fin 2) = 0 :=
  (by decide +kernel : ∀ t : Fin grid3.N, _)

/-- An entry of the first input's block at point `t` is the adjacency's entry at the block's offsets. -/
theorem iblk3_0_apply (c : Dev nD) (t : Fin cfg3.N) (p j : Fin 1024) (r s : Fin 4096)
    (hr : r.val = t.val / 4 * 1024 + p.val) (hs : s.val = t.val % 4 * 1024 + j.val) :
    iblk3 V c 0 t (ix2 p j) = (V c main_arg2 : Mat 4096 4096) (ix2 r s) := by
  obtain ⟨e0, e1, e2, e3, e4, e5⟩ := idx_facts3 t
  show V c main_arg2 (((cfg3.win 0).blk t).view.emb (ix2 p j)) = V c main_arg2 (ix2 r s)
  refine congrArg _ (funext fun a => Fin.ext ?_)
  match a with
  | ⟨0, _⟩ => show win3_0.index t (0 : Fin 2) * 1024 + 1 * p.val = r.val; omega
  | ⟨1, _⟩ => show win3_0.index t (1 : Fin 2) * 1024 + 1 * j.val = s.val; omega

/-- An entry of the second input's block at point `t` is the features' entry at the block's row offset. -/
theorem iblk3_1_apply (c : Dev nD) (t : Fin cfg3.N) (j : Fin 1024) (q : Fin 256) (s : Fin 4096)
    (hs : s.val = t.val % 4 * 1024 + j.val) :
    iblk3 V c 1 t (ix2 j q) = (V c main_v25 : Mat 4096 256) (ix2 s q) := by
  obtain ⟨e0, e1, e2, e3, e4, e5⟩ := idx_facts3 t
  show V c main_v25 (((cfg3.win 1).blk t).view.emb (ix2 j q)) = V c main_v25 (ix2 s q)
  refine congrArg _ (funext fun a => Fin.ext ?_)
  match a with
  | ⟨0, _⟩ => show win3_1.index t (0 : Fin 2) * 1024 + 1 * j.val = s.val; omega
  | ⟨1, _⟩ => show win3_1.index t (1 : Fin 2) * 256 + 1 * q.val = q.val; omega

/-- Point (i, k) of the grid: row block i, contraction block k. -/
abbrev pt3 (i k : Fin 4) : Fin cfg3.N := ⟨4 * i.val + k.val, by rw [show cfg3.N = 16 from N_3]; omega⟩

theorem outsAt3_congr (c : Dev nD) {n n' : ℕ} (e : n = n') (h : n < cfg3.N) (h' : n' < cfg3.N) :
    outsAt3 V c n h = outsAt3 V c n' h' := by subst e; rfl

/-- THE RUNNING SUM: after point (i, k) the scratch holds zero plus the products of the contraction blocks 0 … k of row
    block i — by induction on k through the three cases' values. -/
theorem acc3 (c : Dev nD) (i : Fin 4) (k : ℕ) (hk : k < 4) (p : Fin 1024) (q : Fin 256) :
    (outsAt3 V c (4 * i.val + k) (by rw [show cfg3.N = 16 from N_3]; omega)).2 (ix2 p q)
      = 0 + ∑ k' : Fin (k + 1), mm (M := 1024) (K := 1024) (N := 256) (iblk3 V c 0 (pt3 i ⟨k'.val, by omega⟩))
          (iblk3 V c 1 (pt3 i ⟨k'.val, by omega⟩)) (ix2 p q) := by
  have hN : cfg3.N = 16 := N_3
  induction k with
  | zero =>
    have hlt : 4 * i.val + 0 < cfg3.N := by omega
    have h0 : (⟨4 * i.val + 0, hlt⟩ : Fin cfg3.N).val % 4 = 0 := by show (4 * i.val + 0) % 4 = 0; omega
    have h1 : ¬(⟨4 * i.val + 0, hlt⟩ : Fin cfg3.N).val % 4 = 3 := by show ¬(4 * i.val + 0) % 4 = 3; omega
    refine (congrFun (congrArg Prod.snd (outsAt3_A V c ⟨4 * i.val + 0, hlt⟩ h0 h1)) (ix2 p q)).trans ?_
    dsimp only
    rw [sout3_A_eq, pay3_2_eq, pay3_1_eq, Fin.sum_univ_one]
    rfl
  | succ k ih =>
    have hlt : 4 * i.val + (k + 1) < cfg3.N := by omega
    have h0 : ¬(⟨4 * i.val + (k + 1), hlt⟩ : Fin cfg3.N).val % 4 = 0 := by show ¬(4 * i.val + (k + 1)) % 4 = 0; omega
    have hprev : (outsAt3 V c ((⟨4 * i.val + (k + 1), hlt⟩ : Fin cfg3.N).val - 1) (Nat.lt_of_le_of_lt (Nat.sub_le _ _) (⟨4 * i.val + (k + 1), hlt⟩ : Fin cfg3.N).isLt)).2 (ix2 p q)
        = 0 + ∑ k' : Fin (k + 1), mm (M := 1024) (K := 1024) (N := 256) (iblk3 V c 0 (pt3 i ⟨k'.val, by omega⟩))
          (iblk3 V c 1 (pt3 i ⟨k'.val, by omega⟩)) (ix2 p q) :=
      (congrFun (congrArg Prod.snd (outsAt3_congr V c (by show 4 * i.val + (k + 1) - 1 = 4 * i.val + k; omega) _ (by omega))) (ix2 p q)).trans (ih (by omega))
    by_cases h1 : (⟨4 * i.val + (k + 1), hlt⟩ : Fin cfg3.N).val % 4 = 3
    · refine (congrFun (congrArg Prod.snd (outsAt3_C V c ⟨4 * i.val + (k + 1), hlt⟩ h0 h1)) (ix2 p q)).trans ?_
      dsimp only
      rw [sout3_C_eq, pay3_2_eq]
      dsimp only
      rw [hprev, add_assoc]
      conv_rhs => rw [Fin.sum_univ_castSucc]
      rfl
    · refine (congrFun (congrArg Prod.snd (outsAt3_B V c ⟨4 * i.val + (k + 1), hlt⟩ h0 h1)) (ix2 p q)).trans ?_
      dsimp only
      rw [sout3_B_eq, pay3_2_eq]
      dsimp only
      rw [hprev, add_assoc]
      conv_rhs => rw [Fin.sum_univ_castSucc]
      rfl

/-- At the last contraction block the output tile is left at what the scratch holds. -/
theorem outsAt3_fst (c : Dev nD) (t : Fin cfg3.N) (h3 : t.val % 4 = 3) :
    (outsAt3 V c t.val t.isLt).1 = (outsAt3 V c t.val t.isLt).2 := by
  have h0 : ¬t.val % 4 = 0 := by omega
  rw [outsAt3_C V c t h0 h3]
  dsimp only
  rw [out3_C_eq, sout3_C_eq]

/-- A row of the product, its 4096 terms read as four block sums of 1024. -/
theorem adjxw_blocks3 (A : Mat 4096 4096) (X : Mat 4096 256) (r : Fin 4096) (q : Fin 256) :
    ∑ k' : Fin 4, ∑ j : Fin 1024, A (ix2 r ⟨1024 * k'.val + j.val, by have := k'.isLt; have := j.isLt; omega⟩)
        * X (ix2 ⟨1024 * k'.val + j.val, by have := k'.isLt; have := j.isLt; omega⟩ q)
      = Cert.Spec.adjxw A X (ix2 r q) :=
  (Cert.FoldSum.sum_blocks (A := 4) (B := 1024) (C := 4096) rfl (fun s => A (ix2 r s) * X (ix2 s q))).symm

/-- What a point of the last contraction block writes back is its tile of the product of the arrays the region found. -/
theorem flushed3_eq (c : Dev nD) (t : Fin cfg3.N) (hf : (cfg3.win 2).flush t = true) :
    (dat3 V c).flushed 2 t = ((cfg3.win 2).blk t).view.read (Elt Ideal) (Cert.Spec.adjxw (V c main_arg2) (V c main_v25)) := by
  have hN : cfg3.N = 16 := N_3
  have h3 : t.val % 4 = 3 := (flush3_2 t).mp hf
  have htN : t.val < 16 := lt_of_lt_of_eq t.isLt hN
  obtain ⟨e0, e1, e2, e3, e4, e5⟩ := idx_facts3 t
  show (cfg3.win 2).cut (grid3.coords t) ((dat3 V c).after 2 t) = _
  rw [after3_2, outsAt3_fst V c t h3]
  funext j
  obtain ⟨p, q, rfl⟩ : ∃ (p : Fin 1024) (q : Fin 256), j = ix2 p q := ⟨j 0, j 1, eq_ix2 j⟩
  let r : Fin 4096 := ⟨t.val / 4 * 1024 + p.val, by have := p.isLt; omega⟩
  have hemb : ((cfg3.win 2).blk t).view.emb (ix2 p q) = ix2 r q := funext fun a => Fin.ext (by
    match a with
    | ⟨0, _⟩ => show win3_2.index t (0 : Fin 2) * 1024 + 1 * p.val = t.val / 4 * 1024 + p.val; omega
    | ⟨1, _⟩ => show win3_2.index t (1 : Fin 2) * 256 + 1 * q.val = q.val; omega)
  show (outsAt3 V c t.val t.isLt).2 (ix2 p q) = Cert.Spec.adjxw (V c main_arg2) (V c main_v25) (((cfg3.win 2).blk t).view.emb (ix2 p q))
  rw [hemb]
  refine (congrFun (congrArg Prod.snd (outsAt3_congr V c (show t.val = 4 * (⟨t.val / 4, by omega⟩ : Fin 4).val + 3 from by show t.val = 4 * (t.val / 4) + 3; omega) t.isLt (by omega))) (ix2 p q)).trans ?_
  rw [acc3 V c ⟨t.val / 4, by omega⟩ 3 (by omega) p q, zero_add]
  refine Eq.trans ?_ (adjxw_blocks3 (V c main_arg2) (V c main_v25) r q)
  refine Finset.sum_congr rfl fun k' _ => ?_
  refine (mm_apply (M := 1024) (K := 1024) (N := 256) _ _ p q).trans ?_
  refine Finset.sum_congr rfl fun j _ => ?_
  rw [iblk3_0_apply V c _ p j r ⟨1024 * k'.val + j.val, by have := k'.isLt; have := j.isLt; omega⟩
      (by show t.val / 4 * 1024 + p.val = (4 * (t.val / 4) + k'.val) / 4 * 1024 + p.val; have := k'.isLt; omega)
      (by show 1024 * k'.val + j.val = (4 * (t.val / 4) + k'.val) % 4 * 1024 + j.val; have := k'.isLt; omega),
    iblk3_1_apply V c _ j q ⟨1024 * k'.val + j.val, by have := k'.isLt; have := j.isLt; omega⟩
      (by show 1024 * k'.val + j.val = (4 * (t.val / 4) + k'.val) % 4 * 1024 + j.val; have := k'.isLt; omega)]

/-- An index of the array is in point `t`'s tile iff each coordinate is in the tile's range on its axis. -/
theorem mem_blk3 (t : Fin cfg3.N) (i : S4096x256.Idx) :
    i ∈ ((cfg3.win 2).blk t).view.set ↔ ∀ a : Fin 2, win3_2.index t a * S1024x256.size a ≤ (i a).val ∧ (i a).val < win3_2.index t a * S1024x256.size a + S1024x256.size a := by
  show i ∈ ((View.whole main_v26).slice (win3_2.rect t)).set ↔ _
  rw [View.set_slice_whole, Rect.mem_set_unit]
  exact Iff.rfl

/-- Row r is in the tile of the last point of its row block, 4 · (r / 1024) + 3: the four written-back tiles tile the array. -/
theorem cover3 (i : S4096x256.Idx) :
    ∃ t : Fin cfg3.N, (cfg3.win 2).flush t = true ∧ i ∈ ((cfg3.win 2).blk t).view.set := by
  have hi0 : (i 0).val < 4096 := (i 0).isLt
  have hi1 : (i 1).val < 256 := (i 1).isLt
  have hN : cfg3.N = 16 := N_3
  let t : Fin cfg3.N := ⟨4 * ((i 0).val / 1024) + 3, by rw [hN]; omega⟩
  obtain ⟨e0, e1, e2, e3, e4, e5⟩ := idx_facts3 t
  have ht : t.val = 4 * ((i 0).val / 1024) + 3 := rfl
  refine ⟨t, (flush3_2 t).mpr (by omega), ?_⟩
  rw [mem_blk3]
  intro a
  match a with
  | ⟨0, _⟩ => show win3_2.index t (0 : Fin 2) * 1024 ≤ (i 0).val ∧ (i 0).val < win3_2.index t (0 : Fin 2) * 1024 + 1024; omega
  | ⟨1, _⟩ => show win3_2.index t (1 : Fin 2) * 256 ≤ (i 1).val ∧ (i 1).val < win3_2.index t (1 : Fin 2) * 256 + 256; omega

/-- The array after the region: the adjacency the region found times the projected features it found. -/
theorem final3 (c : Dev nD) : (dat3 (F := Ideal) V c).arrAt 2 cfg3.N = Cert.Spec.adjxw (V c main_arg2) (V c main_v25) :=
  (dat3 V c).arrAt_eq_of_cover 2 (Cert.Spec.adjxw (V c main_arg2) (V c main_v25)) (flushed3_eq V c) cover3

end Value

end Cert.KernelIdeal.HandValue

end
-- ==== Proof.KI.Val4.lean ====
/-
  What region 4 leaves in its output array, on the extended reals: the product of the adjacency it found with the
  projected features it found, as one whole-array function. The body keeps a running sum in a scratch buffer across
  the four contraction blocks of a row block: zero plus the first block's product at the first, plus each later
  block's product after; at the last contraction block the scratch is copied to the output tile, which is then the
  whole row of the product, a sum over 4 · 1024 terms read as four block sums of 1024. Addition on the extended reals
  is commutative and associative, so no finiteness is needed.
-/
import proofs.«106620_j12240656794038_1_alg».proof.Proof.KI.Reg4
import proofs.«106620_j12240656794038_1_alg».proof.Proof.Spec
import proofs.«106620_j12240656794038_1_alg».proof.Proof.LibFoldSum
import Idealize.ShloMosaic.Lib.Pipeline.Value
import Idealize.ShloMosaic.Lib.Tactic

set_option maxRecDepth 16384
set_option pp.maxSteps 5000
set_option pp.deepTerms false

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem
open Idealize.ShloMosaic.Pipeline (Dat)
open Idealize.ShloMosaic.ValueIdx Cert.Dense
open scoped BigOperators

theorem hz4 : (![0, 0] : Fin 2 → Nat) = fun _ => 0 := funext fun a => by fin_cases a <;> rfl

section Cases
variable {F : FTy → Type} [FloatOps F]

/-- A middle contraction block: the scratch holding `xs` is left at the payload of the two input blocks and `xs`. -/
theorem sout4_B_eq (c : Dev nD) (i : grid4.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S1024x256 .f32) (h5 : a5.IsWhole) (hc0 : ¬cond4_0 i) (hc1 : ¬cond4_1 i)
    (x0 : Vec F S1024x1024 .f32) (x1 xs : Vec F S1024x256 .f32) :
    sout4_B_0 c i a2 h2 a3 h3 a4 h4 a5 h5 hc0 hc1 x0 x1 xs = k4_pay2 x0 x1 xs := by
  unfold sout4_B_0
  rw [View.read_writes_eq_canon _ _ _ (scover4_B_0 c i a2 h2 a3 h3 a4 h4 a5 h5 hc0 hc1 x0 x1 xs)]
  unfold kernelRun4_B
  dsimp only
  rw [View.canon_unit_zero hz4]
  simp only [View.readAt_eq_ld, h2.read_unread, h3.read_unread, h5.read_unread, View.ld_unit_zero (S := S1024x256) hz4, View.ld_unit_zero (S := S1024x1024) hz4]

/-- The last contraction block: the same in the scratch, -/
theorem sout4_C_eq (c : Dev nD) (i : grid4.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S1024x256 .f32) (h5 : a5.IsWhole) (hc0 : ¬cond4_0 i) (hc1 : cond4_1 i)
    (x0 : Vec F S1024x1024 .f32) (x1 xs : Vec F S1024x256 .f32) :
    sout4_C_0 c i a2 h2 a3 h3 a4 h4 a5 h5 hc0 hc1 x0 x1 xs = k4_pay2 x0 x1 xs := by
  unfold sout4_C_0
  rw [View.read_writes_eq_canon _ _ _ (scover4_C_0 c i a2 h2 a3 h3 a4 h4 a5 h5 hc0 hc1 x0 x1 xs)]
  unfold kernelRun4_C
  dsimp only
  sl_unfold_words
  rw [View.canon_unit_zero hz4]
  simp only [View.readAt_eq_ld, h2.read_unread, h3.read_unread, h5.read_unread, View.ld_unit_zero (S := S1024x256) hz4, View.ld_unit_zero (S := S1024x1024) hz4]

/-- and the output tile is left at what the scratch then holds. -/
theorem out4_C_eq (c : Dev nD) (i : grid4.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S1024x256 .f32) (h5 : a5.IsWhole) (hc0 : ¬cond4_0 i) (hc1 : cond4_1 i)
    (x0 : Vec F S1024x1024 .f32) (x1 xs : Vec F S1024x256 .f32) :
    out4_C_2 c i a2 h2 a3 h3 a4 h4 a5 h5 hc0 hc1 x0 x1 xs = k4_pay2 x0 x1 xs := by
  unfold out4_C_2
  rw [View.read_writes_eq_canon _ _ _ (cover4_C_2 c i a2 h2 a3 h3 a4 h4 a5 h5 hc0 hc1 x0 x1 xs)]
  unfold kernelRun4_C
  dsimp only
  sl_unfold_words
  rw [View.canon_unit_zero hz4, View.readCov_unit_zero (S := S1024x256) _ hz4]
  simp only [View.readAt_eq_ld, h2.read_unread, h3.read_unread, h5.read_unread, View.ld_unit_zero (S := S1024x256) hz4, View.ld_unit_zero (S := S1024x1024) hz4]

/-- The first contraction block: the scratch is zeroed, read back, and left at the payload over the zero block. -/
theorem sout4_A_eq (c : Dev nD) (i : grid4.Coords) (a2 : Memref sig .tc .vmem S1024x1024 .f32) (h2 : a2.IsWhole) (a3 : Memref sig .tc .vmem S1024x256 .f32) (h3 : a3.IsWhole) (a4 : Memref sig .tc .vmem S1024x256 .f32) (h4 : a4.IsWhole) (a5 : Memref sig .tc .vmem S1024x256 .f32) (h5 : a5.IsWhole) (hc0 : cond4_0 i) (hc1 : ¬cond4_1 i)
    (x0 : Vec F S1024x1024 .f32) (x1 : Vec F S1024x256 .f32) :
    sout4_A_0 c i a2 h2 a3 h3 a4 h4 a5 h5 hc0 hc1 x0 x1 = k4_pay2 x0 x1 (k4_pay1 (F := F)) := by
  unfold sout4_A_0
  rw [View.read_writes_eq_canon _ _ _ (scover4_A_0 c i a2 h2 a3 h3 a4 h4 a5 h5 hc0 hc1 x0 x1)]
  unfold kernelRun4_A
  dsimp only
  sl_unfold_words
  rw [View.canon_cons_unit_zero (S := S1024x256) hz4, View.readCov_unit_zero (S := S1024x256) _ hz4]
  simp only [View.readAt_eq_ld, h2.read_unread, h3.read_unread, h5.read_unread, View.ld_unit_zero (S := S1024x256) hz4, View.ld_unit_zero (S := S1024x1024) hz4]

end Cases

section Value
variable (V : (c : Dev nD) → (b : Ref sig .tc) → Buf (Elt Ideal) ((c : Thread nD τ).loc b))

/-- The block the first store writes is zero. -/
theorem pay4_1_eq : (k4_pay1 (F := Ideal) : Vec Ideal S1024x256 .f32) = fun _ => (0 : EReal) := by
  unfold k4_pay1
  funext i
  show shapeCast S1024x256 (broadcast S1024x256 (Scalar.ofBits (F := Ideal) .f32 0x00000000#32)) shapeCasts_S1024x256_S1024x256 i = 0
  rw [shapeCast_self]
  show Ideal.ofBits .f32 0x00000000#32 = 0
  exact Ideal.ofBits_zero_f32

/-- The accumulating store's payload: what the scratch held plus the product of the two input blocks. -/
theorem pay4_2_eq (x0 : Vec Ideal S1024x1024 .f32) (x1 xs : Vec Ideal S1024x256 .f32) :
    k4_pay2 (F := Ideal) x0 x1 xs = fun i => xs i + mm (M := 1024) (K := 1024) (N := 256) x0 x1 i := by
  unfold k4_pay2
  funext i
  show shapeCast S1024x256 (addf xs (matmul (F := Ideal) dot_S1024x1024_S1024x256_S1024x256_1_0_0_1_n_n none
      (truncf .bf16 (shapeCast S1024x1024 x0 shapeCasts_S1024x1024_S1024x1024) bitsLt_bf16_f32) (truncf .bf16 (shapeCast S1024x256 x1 shapeCasts_S1024x256_S1024x256) bitsLt_bf16_f32)
      (constant S1024x256 .f32 0x00000000#32))) shapeCasts_S1024x256_S1024x256 i = _
  rw [shapeCast_self, shapeCast_self, shapeCast_self]
  exact congrArg (xs i + ·) (congrFun (matmul_zero_eq_mm dot_S1024x1024_S1024x256_S1024x256_1_0_0_1_n_n rfl rfl rfl rfl rfl rfl none
    (truncf .bf16 x0 bitsLt_bf16_f32) (truncf .bf16 x1 bitsLt_bf16_f32)) i)

/-- The printed index maps, decided over the grid: point `t` is row block t / 4 and contraction block t % 4. -/
theorem idx_facts4 : ∀ t : Fin cfg4.N, win4_0.index t (0 : Fin 2) = t.val / 4 ∧ win4_0.index t (1 : Fin 2) = t.val % 4
    ∧ win4_1.index t (0 : Fin 2) = t.val % 4 ∧ win4_1.index t (1 : Fin 2) = 0
    ∧ win4_2.index t (0 : Fin 2) = t.val / 4 ∧ win4_2.index t (1 : Fin 2) = 0 :=
  (by decide +kernel : ∀ t : Fin grid4.N, _)

/-- An entry of the first input's block at point `t` is the adjacency's entry at the block's offsets. -/
theorem iblk4_0_apply (c : Dev nD) (t : Fin cfg4.N) (p j : Fin 1024) (r s : Fin 4096)
    (hr : r.val = t.val / 4 * 1024 + p.val) (hs : s.val = t.val % 4 * 1024 + j.val) :
    iblk4 V c 0 t (ix2 p j) = (V c main_v17 : Mat 4096 4096) (ix2 r s) := by
  obtain ⟨e0, e1, e2, e3, e4, e5⟩ := idx_facts4 t
  show V c main_v17 (((cfg4.win 0).blk t).view.emb (ix2 p j)) = V c main_v17 (ix2 r s)
  refine congrArg _ (funext fun a => Fin.ext ?_)
  match a with
  | ⟨0, _⟩ => show win4_0.index t (0 : Fin 2) * 1024 + 1 * p.val = r.val; omega
  | ⟨1, _⟩ => show win4_0.index t (1 : Fin 2) * 1024 + 1 * j.val = s.val; omega

/-- An entry of the second input's block at point `t` is the features' entry at the block's row offset. -/
theorem iblk4_1_apply (c : Dev nD) (t : Fin cfg4.N) (j : Fin 1024) (q : Fin 256) (s : Fin 4096)
    (hs : s.val = t.val % 4 * 1024 + j.val) :
    iblk4 V c 1 t (ix2 j q) = (V c main_v25 : Mat 4096 256) (ix2 s q) := by
  obtain ⟨e0, e1, e2, e3, e4, e5⟩ := idx_facts4 t
  show V c main_v25 (((cfg4.win 1).blk t).view.emb (ix2 j q)) = V c main_v25 (ix2 s q)
  refine congrArg _ (funext fun a => Fin.ext ?_)
  match a with
  | ⟨0, _⟩ => show win4_1.index t (0 : Fin 2) * 1024 + 1 * j.val = s.val; omega
  | ⟨1, _⟩ => show win4_1.index t (1 : Fin 2) * 256 + 1 * q.val = q.val; omega

/-- Point (i, k) of the grid: row block i, contraction block k. -/
abbrev pt4 (i k : Fin 4) : Fin cfg4.N := ⟨4 * i.val + k.val, by rw [show cfg4.N = 16 from N_4]; omega⟩

theorem outsAt4_congr (c : Dev nD) {n n' : ℕ} (e : n = n') (h : n < cfg4.N) (h' : n' < cfg4.N) :
    outsAt4 V c n h = outsAt4 V c n' h' := by subst e; rfl

/-- THE RUNNING SUM: after point (i, k) the scratch holds zero plus the products of the contraction blocks 0 … k of row
    block i — by induction on k through the three cases' values. -/
theorem acc4 (c : Dev nD) (i : Fin 4) (k : ℕ) (hk : k < 4) (p : Fin 1024) (q : Fin 256) :
    (outsAt4 V c (4 * i.val + k) (by rw [show cfg4.N = 16 from N_4]; omega)).2 (ix2 p q)
      = 0 + ∑ k' : Fin (k + 1), mm (M := 1024) (K := 1024) (N := 256) (iblk4 V c 0 (pt4 i ⟨k'.val, by omega⟩))
          (iblk4 V c 1 (pt4 i ⟨k'.val, by omega⟩)) (ix2 p q) := by
  have hN : cfg4.N = 16 := N_4
  induction k with
  | zero =>
    have hlt : 4 * i.val + 0 < cfg4.N := by omega
    have h0 : (⟨4 * i.val + 0, hlt⟩ : Fin cfg4.N).val % 4 = 0 := by show (4 * i.val + 0) % 4 = 0; omega
    have h1 : ¬(⟨4 * i.val + 0, hlt⟩ : Fin cfg4.N).val % 4 = 3 := by show ¬(4 * i.val + 0) % 4 = 3; omega
    refine (congrFun (congrArg Prod.snd (outsAt4_A V c ⟨4 * i.val + 0, hlt⟩ h0 h1)) (ix2 p q)).trans ?_
    dsimp only
    rw [sout4_A_eq, pay4_2_eq, pay4_1_eq, Fin.sum_univ_one]
    rfl
  | succ k ih =>
    have hlt : 4 * i.val + (k + 1) < cfg4.N := by omega
    have h0 : ¬(⟨4 * i.val + (k + 1), hlt⟩ : Fin cfg4.N).val % 4 = 0 := by show ¬(4 * i.val + (k + 1)) % 4 = 0; omega
    have hprev : (outsAt4 V c ((⟨4 * i.val + (k + 1), hlt⟩ : Fin cfg4.N).val - 1) (Nat.lt_of_le_of_lt (Nat.sub_le _ _) (⟨4 * i.val + (k + 1), hlt⟩ : Fin cfg4.N).isLt)).2 (ix2 p q)
        = 0 + ∑ k' : Fin (k + 1), mm (M := 1024) (K := 1024) (N := 256) (iblk4 V c 0 (pt4 i ⟨k'.val, by omega⟩))
          (iblk4 V c 1 (pt4 i ⟨k'.val, by omega⟩)) (ix2 p q) :=
      (congrFun (congrArg Prod.snd (outsAt4_congr V c (by show 4 * i.val + (k + 1) - 1 = 4 * i.val + k; omega) _ (by omega))) (ix2 p q)).trans (ih (by omega))
    by_cases h1 : (⟨4 * i.val + (k + 1), hlt⟩ : Fin cfg4.N).val % 4 = 3
    · refine (congrFun (congrArg Prod.snd (outsAt4_C V c ⟨4 * i.val + (k + 1), hlt⟩ h0 h1)) (ix2 p q)).trans ?_
      dsimp only
      rw [sout4_C_eq, pay4_2_eq]
      dsimp only
      rw [hprev, add_assoc]
      conv_rhs => rw [Fin.sum_univ_castSucc]
      rfl
    · refine (congrFun (congrArg Prod.snd (outsAt4_B V c ⟨4 * i.val + (k + 1), hlt⟩ h0 h1)) (ix2 p q)).trans ?_
      dsimp only
      rw [sout4_B_eq, pay4_2_eq]
      dsimp only
      rw [hprev, add_assoc]
      conv_rhs => rw [Fin.sum_univ_castSucc]
      rfl

/-- At the last contraction block the output tile is left at what the scratch holds. -/
theorem outsAt4_fst (c : Dev nD) (t : Fin cfg4.N) (h3 : t.val % 4 = 3) :
    (outsAt4 V c t.val t.isLt).1 = (outsAt4 V c t.val t.isLt).2 := by
  have h0 : ¬t.val % 4 = 0 := by omega
  rw [outsAt4_C V c t h0 h3]
  dsimp only
  rw [out4_C_eq, sout4_C_eq]

/-- A row of the product, its 4096 terms read as four block sums of 1024. -/
theorem adjxw_blocks4 (A : Mat 4096 4096) (X : Mat 4096 256) (r : Fin 4096) (q : Fin 256) :
    ∑ k' : Fin 4, ∑ j : Fin 1024, A (ix2 r ⟨1024 * k'.val + j.val, by have := k'.isLt; have := j.isLt; omega⟩)
        * X (ix2 ⟨1024 * k'.val + j.val, by have := k'.isLt; have := j.isLt; omega⟩ q)
      = Cert.Spec.adjxw A X (ix2 r q) :=
  (Cert.FoldSum.sum_blocks (A := 4) (B := 1024) (C := 4096) rfl (fun s => A (ix2 r s) * X (ix2 s q))).symm

/-- What a point of the last contraction block writes back is its tile of the product of the arrays the region found. -/
theorem flushed4_eq (c : Dev nD) (t : Fin cfg4.N) (hf : (cfg4.win 2).flush t = true) :
    (dat4 V c).flushed 2 t = ((cfg4.win 2).blk t).view.read (Elt Ideal) (Cert.Spec.adjxw (V c main_v17) (V c main_v25)) := by
  have hN : cfg4.N = 16 := N_4
  have h3 : t.val % 4 = 3 := (flush4_2 t).mp hf
  have htN : t.val < 16 := lt_of_lt_of_eq t.isLt hN
  obtain ⟨e0, e1, e2, e3, e4, e5⟩ := idx_facts4 t
  show (cfg4.win 2).cut (grid4.coords t) ((dat4 V c).after 2 t) = _
  rw [after4_2, outsAt4_fst V c t h3]
  funext j
  obtain ⟨p, q, rfl⟩ : ∃ (p : Fin 1024) (q : Fin 256), j = ix2 p q := ⟨j 0, j 1, eq_ix2 j⟩
  let r : Fin 4096 := ⟨t.val / 4 * 1024 + p.val, by have := p.isLt; omega⟩
  have hemb : ((cfg4.win 2).blk t).view.emb (ix2 p q) = ix2 r q := funext fun a => Fin.ext (by
    match a with
    | ⟨0, _⟩ => show win4_2.index t (0 : Fin 2) * 1024 + 1 * p.val = t.val / 4 * 1024 + p.val; omega
    | ⟨1, _⟩ => show win4_2.index t (1 : Fin 2) * 256 + 1 * q.val = q.val; omega)
  show (outsAt4 V c t.val t.isLt).2 (ix2 p q) = Cert.Spec.adjxw (V c main_v17) (V c main_v25) (((cfg4.win 2).blk t).view.emb (ix2 p q))
  rw [hemb]
  refine (congrFun (congrArg Prod.snd (outsAt4_congr V c (show t.val = 4 * (⟨t.val / 4, by omega⟩ : Fin 4).val + 3 from by show t.val = 4 * (t.val / 4) + 3; omega) t.isLt (by omega))) (ix2 p q)).trans ?_
  rw [acc4 V c ⟨t.val / 4, by omega⟩ 3 (by omega) p q, zero_add]
  refine Eq.trans ?_ (adjxw_blocks4 (V c main_v17) (V c main_v25) r q)
  refine Finset.sum_congr rfl fun k' _ => ?_
  refine (mm_apply (M := 1024) (K := 1024) (N := 256) _ _ p q).trans ?_
  refine Finset.sum_congr rfl fun j _ => ?_
  rw [iblk4_0_apply V c _ p j r ⟨1024 * k'.val + j.val, by have := k'.isLt; have := j.isLt; omega⟩
      (by show t.val / 4 * 1024 + p.val = (4 * (t.val / 4) + k'.val) / 4 * 1024 + p.val; have := k'.isLt; omega)
      (by show 1024 * k'.val + j.val = (4 * (t.val / 4) + k'.val) % 4 * 1024 + j.val; have := k'.isLt; omega),
    iblk4_1_apply V c _ j q ⟨1024 * k'.val + j.val, by have := k'.isLt; have := j.isLt; omega⟩
      (by show 1024 * k'.val + j.val = (4 * (t.val / 4) + k'.val) % 4 * 1024 + j.val; have := k'.isLt; omega)]

/-- An index of the array is in point `t`'s tile iff each coordinate is in the tile's range on its axis. -/
theorem mem_blk4 (t : Fin cfg4.N) (i : S4096x256.Idx) :
    i ∈ ((cfg4.win 2).blk t).view.set ↔ ∀ a : Fin 2, win4_2.index t a * S1024x256.size a ≤ (i a).val ∧ (i a).val < win4_2.index t a * S1024x256.size a + S1024x256.size a := by
  show i ∈ ((View.whole main_v27).slice (win4_2.rect t)).set ↔ _
  rw [View.set_slice_whole, Rect.mem_set_unit]
  exact Iff.rfl

/-- Row r is in the tile of the last point of its row block, 4 · (r / 1024) + 3: the four written-back tiles tile the array. -/
theorem cover4 (i : S4096x256.Idx) :
    ∃ t : Fin cfg4.N, (cfg4.win 2).flush t = true ∧ i ∈ ((cfg4.win 2).blk t).view.set := by
  have hi0 : (i 0).val < 4096 := (i 0).isLt
  have hi1 : (i 1).val < 256 := (i 1).isLt
  have hN : cfg4.N = 16 := N_4
  let t : Fin cfg4.N := ⟨4 * ((i 0).val / 1024) + 3, by rw [hN]; omega⟩
  obtain ⟨e0, e1, e2, e3, e4, e5⟩ := idx_facts4 t
  have ht : t.val = 4 * ((i 0).val / 1024) + 3 := rfl
  refine ⟨t, (flush4_2 t).mpr (by omega), ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 256 ≤ (i 1).val ∧ (i 1).val < win4_2.index t (1 : Fin 2) * 256 + 256; omega

/-- The array after the region: the adjacency the region found times the projected features it found. -/
theorem final4 (c : Dev nD) : (dat4 (F := Ideal) V c).arrAt 2 cfg4.N = Cert.Spec.adjxw (V c main_v17) (V c main_v25) :=
  (dat4 V c).arrAt_eq_of_cover 2 (Cert.Spec.adjxw (V c main_v17) (V c main_v25)) (flushed4_eq V c) cover4

end Value

end Cert.KernelIdeal.HandValue

end
-- ==== Proof.Spec2.lean ====
/-
  The mean over ten consecutive rows: row p of the result is (0 + the sum of rows 10 p … 10 p + 9) / 10 — what both
  programs apply to the first layer's 40960 rows to get the 4096 aggregated rows.
-/
import proofs.«106620_j12240656794038_1_alg».proof.Proof.Spec

open scoped BigOperators

noncomputable section

namespace Cert.Spec

open Idealize.ShloMosaic Idealize.ShloMosaic.ValueIdx Cert.Dense

/-- Row p of the result: the mean, written 0 + Σ then a division by the real 10, of rows 10 p … 10 p + 9. -/
def agg10 (X : Mat 40960 256) : Mat 4096 256 :=
  fun i => Ideal.div (0 + ∑ s : Fin 10, X (ix2 (⟨(c0 i).val * 10 + s.val, by have := (c0 i).isLt; have := s.isLt; omega⟩ : Fin 40960) (c1 i)))
    ((10 : ℝ) : EReal)

theorem agg10_apply (X : Mat 40960 256) (p : Fin 4096) (l : Fin 256) :
    agg10 X (ix2 p l) = Ideal.div (0 + ∑ s : Fin 10, X (ix2 (⟨p.val * 10 + s.val, by have := p.isLt; have := s.isLt; omega⟩ : Fin 40960) l)) ((10 : ℝ) : EReal) := rfl

end Cert.Spec

end
-- ==== Proof.LibHostLayout.lean ====
/-
  The host's layout operations, row sums and transposed contractions, read at an index.

  A reference written with `keepdims` reductions moves between a vector `[n]`, a column `[n, 1]` and an array `[n, c]`
  by `broadcast_in_dim`: a vector broadcast to a column reads the vector at the row; a column broadcast along the rows
  reads the column at the row; a vector broadcast to one row and that row to every row reads the vector at the column;
  a scalar broadcast everywhere reads the scalar.  On the extended reals the host's sum of an `[n, c]` array along its
  second axis reads, at row `q`, the initial value plus the sum of the row; and the host's contraction of the second
  axes of both rank-2 operands (no batch axis) reads, at `(q, d)`, the sum over `p` of `l (q, p) · r (d, p)`.  All of it
  at any extents.
-/
import Idealize.ShloMosaic.PureOps.Ideal.Laws
import Idealize.ShloMosaic.Lib.ValueIdx
import Idealize.ShloMosaic.Lib.ValueLayout
import Idealize.ShloMosaic.Lib.Pipeline.Value
import proofs.«106620_j12240656794038_1_alg».proof.Proof.LibRowBlocks

noncomputable section

open scoped BigOperators

namespace Cert.HostLayout

open Idealize.ShloMosaic Idealize.ShloMosaic.ValueIdx

section Layout

variable {α : Type}

/-- A vector `[n]` broadcast to a column `[n, 1]` reads, at `(q, u)`, the vector at `q`. -/
theorem bcast_vec_col {n : ℕ} (x : (⟨1, ![n]⟩ : Shape).Idx → α)
    (h : (⟨1, ![n]⟩ : Shape).BroadcastsInDim ⟨2, ![n, 1]⟩ ![0]) (q : Fin n) (u : Fin 1) :
    broadcastInDim ⟨2, ![n, 1]⟩ ![0] h x (ix2 q u) = x (ix1 q) :=
  broadcastInDim_apply ![0] h x (ix2 q u) (ix1 q) fun a => by
    match a with
    | ⟨0, _⟩ =>
      show q.val = if n = 1 then 0 else q.val
      split
      · have := q.isLt; omega
      · rfl

/-- A scalar broadcast to `[a, b]` reads the scalar everywhere. -/
theorem bcast_scalar_mat {a b : ℕ} (x : (⟨0, ![]⟩ : Shape).Idx → α)
    (h : (⟨0, ![]⟩ : Shape).BroadcastsInDim ⟨2, ![a, b]⟩ ![]) (p : Fin a) (q : Fin b) :
    broadcastInDim ⟨2, ![a, b]⟩ ![] h x (ix2 p q) = x ix0 :=
  broadcastInDim_apply ![] h x (ix2 p q) ix0 fun a => a.elim0

/-- A column `[n, 1]` broadcast to `[n, c]` reads, at `(q, d)`, the column at row `q`. -/
theorem bcast_col_mat {n c : ℕ} (x : (⟨2, ![n, 1]⟩ : Shape).Idx → α)
    (h : (⟨2, ![n, 1]⟩ : Shape).BroadcastsInDim ⟨2, ![n, c]⟩ ![0, 1]) (q : Fin n) (d : Fin c) :
    broadcastInDim ⟨2, ![n, c]⟩ ![0, 1] h x (ix2 q d) = x (ix2 q (0 : Fin 1)) :=
  broadcastInDim_apply ![0, 1] h x (ix2 q d) (ix2 q (0 : Fin 1)) fun a => by
    match a with
    | ⟨0, _⟩ =>
      show q.val = if n = 1 then 0 else q.val
      split
      · have := q.isLt; omega
      · rfl
    | ⟨1, _⟩ => rfl

/-- A vector `[N]` broadcast to one row and that row to every row of `[M, N]` reads, at `(p, q)`, the vector at `q`. -/
theorem bcast_vec_mat {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]

end Layout

/-- The host's sum of an `[n, c]` array along its second axis reads, at row `q`, the initial value plus the sum of the
    row's entries. -/
theorem hostRowSum {n c : ℕ} (x : FVec Ideal ⟨2, ![n, c]⟩ .f32) (init : FVec Ideal ⟨0, ![]⟩ .f32)
    (h' : (⟨2, ![n, c]⟩ : Shape).ReducesTo [1] ⟨1, ![n]⟩) (h : (⟨2, ![n, c]⟩ : Shape).Reduces [1] ⟨1, ![n]⟩)
    (hu : 0 < (⟨0, ![]⟩ : Shape).numel) (q : Fin n) :
    Host.reduceAdd x init h' hu (ix1 q) = init (Shape.Idx.first hu) + ∑ k : Fin c, x (ix2 q k) := by
  refine (Ideal.hostReduceAdd_single h' h x (init (Shape.Idx.first hu)) (ix1 q)).trans ?_
  refine congrArg (init (Shape.Idx.first hu) + ·) (Finset.sum_congr rfl fun k _ => congrArg x (funext fun ax => Fin.ext ?_))
  match ax with
  | ⟨0, _⟩ => rfl
  | ⟨1, _⟩ => rfl

/-- The host's `l · rᵀ` (the second axes contracted, no batch axis) reads, at `(q, d)`, the sum over `p` of
    `l (q, p) · r (d, p)`. -/
theorem hostDot_abT {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    Host.dotGeneral (F := Ideal) D prec l r (ix2 q d) = ∑ p : Fin K, l (ix2 q p) * r (ix2 d p) :=
  (Ideal.dotGeneral_apply D prec .single l r (ix2 q d)).trans (Cert.RowBlocks.abT_sum D h1 h2 h3 h4 h5 h6 l r q d)

end Cert.HostLayout

end
-- ==== Proof.RefLayer1.lean ====
/-
  Dividing before or after a finite linear combination, on the extended reals.

  On the extended reals the product does not distribute over the sum in general (an infinite factor of either sign
  breaks it), but it does on the real numbers inside them.  For real-valued families `x` and `w` and a nonzero real
  divisor `d`:  `∑ k, (x k / d) · w k = (∑ k, x k · w k) / d`  — the mean of the neighbours taken before the product
  with the weights equals the mean taken after it.  Also: sums, products, quotients by a nonzero real and maxima of
  real numbers are real, and the f32 word `0x41200000` denotes ten.
-/
import Idealize.ShloMosaic.PureOps.Ideal

open scoped BigOperators

noncomputable section

namespace Cert.RefLayer1

open Idealize.ShloMosaic

/-- An extended real that is a real number: neither infinity. -/
def IsReal (x : EReal) : Prop := x ≠ ⊥ ∧ x ≠ ⊤

theorem isReal_coe (r : ℝ) : IsReal (r : EReal) := ⟨EReal.coe_ne_bot r, EReal.coe_ne_top r⟩

theorem IsReal.exists_coe {x : EReal} (h : IsReal x) : ∃ r : ℝ, x = (r : EReal) :=
  ⟨x.toReal, (EReal.coe_toReal h.2 h.1).symm⟩

theorem isReal_iff {x : EReal} : IsReal x ↔ ∃ r : ℝ, x = (r : EReal) :=
  ⟨IsReal.exists_coe, fun ⟨r, h⟩ => h ▸ isReal_coe r⟩

theorem isReal_zero : IsReal 0 := isReal_coe 0

theorem IsReal.add {x y : EReal} (hx : IsReal x) (hy : IsReal y) : IsReal (x + y) := by
  obtain ⟨a, rfl⟩ := hx.exists_coe
  obtain ⟨b, rfl⟩ := hy.exists_coe
  rw [← EReal.coe_add]
  exact isReal_coe _

theorem IsReal.mul {x y : EReal} (hx : IsReal x) (hy : IsReal y) : IsReal (x * y) := by
  obtain ⟨a, rfl⟩ := hx.exists_coe
  obtain ⟨b, rfl⟩ := hy.exists_coe
  rw [← EReal.coe_mul]
  exact isReal_coe _

theorem IsReal.max {x y : EReal} (hx : IsReal x) (hy : IsReal y) : IsReal (max x y) := by
  rcases max_choice x y with h | h <;> rw [h] <;> assumption

/-- The quotient of a real number by a nonzero real number is real. -/
theorem IsReal.div {x : EReal} (hx : IsReal x) {y : ℝ} (hy : y ≠ 0) : IsReal (Ideal.div x (y : EReal)) := by
  rw [Ideal.div_coe hy]
  exact hx.mul (isReal_coe _)

/-- The embedding of the reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is real. -/
theorem isReal_sum {ι : Type*} (s : Finset ι) (f : ι → EReal) (h : ∀ i ∈ s, IsReal (f i)) : IsReal (∑ i ∈ s, f i) := by
  classical
  have hf : ∀ i ∈ s, f i = ((f i).toReal : EReal) := fun i hi => (EReal.coe_toReal (h i hi).2 (h i hi).1).symm
  rw [Finset.sum_congr rfl hf, ← coe_sum]
  exact isReal_coe _

/-- The host's sum from the initial value zero: `0 + ∑ s, a s` is real when every `a s` is. -/
theorem isReal_zero_add_sum {ι : Type*} [Fintype ι] (a : ι → EReal) (h : ∀ s, IsReal (a s)) : IsReal (0 + ∑ s, a s) :=
  isReal_zero.add (isReal_sum _ _ fun s _ => h s)

/-- A matrix product's entry, a finite sum of products of real numbers, is real. -/
theorem isReal_sum_mul {ι : Type*} [Fintype ι] (x w : ι → EReal) (hx : ∀ k, IsReal (x k)) (hw : ∀ k, IsReal (w k)) :
    IsReal (∑ k, x k * w k) :=
  isReal_sum _ _ fun k _ => (hx k).mul (hw k)

/-- THE LAW.  For real-valued `x`, `w` and a nonzero real `d`: dividing each term by `d` before the product with the
    weights equals dividing the whole combination by `d` after it. -/
theorem sum_div_mul {ι : Type*} [Fintype ι] (x w : ι → EReal) (hx : ∀ k, IsReal (x k)) (hw : ∀ k, IsReal (w k))
    {y : ℝ} (hy : y ≠ 0) :
    ∑ k, Ideal.div (x k) (y : EReal) * w k = Ideal.div (∑ k, x k * w k) (y : EReal) := by
  choose a ha using fun k => (hx k).exists_coe
  choose b hb using fun k => (hw k).exists_coe
  simp only [Ideal.div_coe hy, ha, hb]
  simp only [← EReal.coe_mul, ← coe_sum]
  refine congrArg _ ?_
  rw [Finset.sum_mul]
  exact Finset.sum_congr rfl fun k _ => by ring

/-- The same under the rectifier. -/
theorem max_sum_div_mul {ι : Type*} [Fintype ι] (x w : ι → EReal) (hx : ∀ k, IsReal (x k)) (hw : ∀ k, IsReal (w k))
    {y : ℝ} (hy : y ≠ 0) :
    max (∑ k, Ideal.div (x k) (y : EReal) * w k) 0 = max (Ideal.div (∑ k, x k * w k) (y : EReal)) 0 :=
  congrArg (max · 0) (sum_div_mul x w hx hw hy)

/-- The law with the host's sums spelled out: `x k = 0 + ∑ s, a s k`. -/
theorem sum_div_zero_add_sum_mul {σ ι : Type*} [Fintype σ] [Fintype ι] (a : σ → ι → EReal) (w : ι → EReal)
    (ha : ∀ s k, IsReal (a s k)) (hw : ∀ k, IsReal (w k)) {y : ℝ} (hy : y ≠ 0) :
    ∑ k, Ideal.div (0 + ∑ s, a s k) (y : EReal) * w k = Ideal.div (∑ k, (0 + ∑ s, a s k) * w k) (y : EReal) :=
  sum_div_mul (fun k => 0 + ∑ s, a s k) w (fun k => isReal_zero_add_sum _ fun s => ha s k) hw hy

/-- The f32 word `0x41200000` denotes ten. -/
theorem ofBits_ten : Ideal.ofBits .f32 0x41200000#32 = ((10 : ℝ) : EReal) := by
  simp [Ideal.ofBits, Ideal.ieee, -EReal.coe_mul]
  norm_num

theorem ten_ne_zero : (10 : ℝ) ≠ 0 := by norm_num

end Cert.RefLayer1

end
-- ==== Proof.KI.Host1.lean ====
/- The first stretch of host operations after the first layer's kernel, read as values: the 40960 rows viewed as
   4096 groups of ten, each group summed from zero along its own axis, the sums divided by the word for ten. At an
   entry (p, l) that is (0 + the sum of rows 10 p … 10 p + 9 at column l) / 10. -/
import proofs.«106620_j12240656794038_1_alg».proof.Proof.Gen.KernelIdeal.Launch
import proofs.«106620_j12240656794038_1_alg».proof.Proof.Spec2
import proofs.«106620_j12240656794038_1_alg».proof.Proof.LibRowBlocks
import proofs.«106620_j12240656794038_1_alg».proof.Proof.LibHostLayout
import proofs.«106620_j12240656794038_1_alg».proof.Proof.RefLayer1
import Idealize.ShloMosaic.Lib.StableHlo.Run
import Idealize.ShloMosaic.Lib.ValueLayout
import Idealize.ShloMosaic.Lib.Pipeline.Value

set_option maxRecDepth 16384

noncomputable section

open scoped BigOperators

namespace Cert.KernelIdeal.HandValue

open Cert.KernelIdeal Cert.KernelIdeal.Gen
open Idealize.ShloMosaic Idealize.ShloMosaic.TcCoe Idealize.SL.Sem Idealize.ShloMosaic.ValueIdx
open Idealize.ShloMosaic.StableHlo

/-- The host's sum of an `[a, b, c]` array along its middle axis reads, at `(p, l)`, the initial value plus the sum
    over the middle coordinate. -/
theorem hostMidSum {a b c : ℕ} (y : FVec Ideal ⟨3, ![a, b, c]⟩ .f32) (init : FVec Ideal ⟨0, ![]⟩ .f32)
    (h' : (⟨3, ![a, b, c]⟩ : Shape).ReducesTo [1] ⟨2, ![a, c]⟩) (h : (⟨3, ![a, b, c]⟩ : Shape).Reduces [1] ⟨2, ![a, c]⟩)
    (hu : 0 < (⟨0, ![]⟩ : Shape).numel) (p : Fin a) (l : Fin c) :
    Host.reduceAdd y init h' hu (ix2 p l) = init (Shape.Idx.first hu) + ∑ s : Fin b, y (ix3 p s l) := by
  refine (Ideal.hostReduceAdd_single h' h y (init (Shape.Idx.first hu)) (ix2 p l)).trans ?_
  refine congrArg (init (Shape.Idx.first hu) + ·) (Finset.sum_congr rfl fun k _ => congrArg y (funext fun ax => Fin.ext ?_))
  match ax with
  | ⟨0, _⟩ => rfl
  | ⟨1, _⟩ => rfl
  | ⟨2, _⟩ => rfl

/-- The stretch's composed term: the cast to groups of ten, the sum along the group axis from zero, the quotient by
    the broadcast word for ten. -/
def aggK (X : (⟨S40960x256, .f32⟩ : BufTy).Contents (Elt Ideal)) : (⟨S4096x256, .f32⟩ : BufTy).Contents (Elt Ideal) :=
  Host.divf (F := Ideal)
    (Host.reduceAdd (F := Ideal) (shapeCast S4096x10x256 X shapeCasts_S40960x256_S4096x10x256) (constant (F := Ideal) S_ .f32 0x00000000#32)
      reducesTo_S4096x10x256_S4096x256_d1 h_S_)
    (broadcastInDim S4096x256 ![] bcast_S_S4096x256 (constant (F := Ideal) S_ .f32 0x41200000#32))

/-- It is the mean over ten consecutive rows. -/
theorem aggK_eq (X : (⟨S40960x256, .f32⟩ : BufTy).Contents (Elt Ideal)) : aggK X = Cert.Spec.agg10 X := by
  funext i
  obtain ⟨p, l, rfl⟩ : ∃ (p : Fin 4096) (l : Fin 256), i = ix2 p l := ⟨i 0, i 1, eq_ix2 i⟩
  rw [Cert.Spec.agg10_apply]
  show Ideal.div (Host.reduceAdd (F := Ideal) (shapeCast S4096x10x256 X shapeCasts_S40960x256_S4096x10x256)
      (constant (F := Ideal) S_ .f32 0x00000000#32) reducesTo_S4096x10x256_S4096x256_d1 h_S_ (ix2 p l))
    (broadcastInDim S4096x256 ![] bcast_S_S4096x256 (constant (F := Ideal) S_ .f32 0x41200000#32) (ix2 p l)) = _
  rw [Cert.HostLayout.bcast_scalar_mat, hostMidSum _ _ _ (by decide)]
  show Ideal.div (Ideal.ofBits .f32 0x00000000#32 + ∑ s : Fin 10, shapeCast S4096x10x256 X shapeCasts_S40960x256_S4096x10x256 (ix3 p s l))
    (Ideal.ofBits .f32 0x41200000#32) = _
  rw [Ideal.ofBits_zero_f32, Cert.RefLayer1.ofBits_ten]
  refine congrArg (fun t => Ideal.div (0 + t) _) (Finset.sum_congr rfl fun s _ => ?_)
  exact Cert.RowBlocks.shapeCast_split_apply X shapeCasts_S40960x256_S4096x10x256 p s l _ rfl

variable (W : Valuation τ sig (Elt Ideal))

/-- The aggregated features after the stretch are the mean over ten consecutive rows of the first layer's array as
    the stretch finds it. -/
theorem host1_agg :
    StableHlo.after (hostOps1 (F := Ideal)) W (Proc.devRef .tc main_v15) = Cert.Spec.agg10 (W (Proc.devRef .tc main_v11)) := by
  after_results
  show aggK (W (Proc.devRef .tc main_v11)) = _
  exact aggK_eq _

end Cert.KernelIdeal.HandValue

end
-- ==== Proof.RefRead.lean ====
import proofs.«106620_j12240656794038_1_alg».proof.Proof.Gen.ReferenceIdeal.Run
import proofs.«106620_j12240656794038_1_alg».proof.Proof.Gen.ReferenceIdeal.Read

/-! The reference program's run and its read-at-an-index lemmas (generated modules), gathered
under one import. -/
-- ==== Proof.RefStages.lean ====
/-
  The host's stages of the network, as whole arrays on the extended reals.

  Each lemma reads one group of host operations — a rectifier written as the maximum with a broadcast scalar zero; a
  negation; the row-wise Euclidean normalisation written with a `keepdims` sum of squares, a square root, a maximum with
  a broadcast floor and a column broadcast; a product with a transposed right factor — as the corresponding whole-array
  function of the network's specification, at any extents.
-/
import proofs.«106620_j12240656794038_1_alg».proof.Proof.Spec
import proofs.«106620_j12240656794038_1_alg».proof.Proof.LibHostLayout

noncomputable section

open scoped BigOperators

namespace Cert.RefStages

open Idealize.ShloMosaic Idealize.ShloMosaic.ValueIdx Cert.Dense Cert.HostLayout

/-- The maximum with a scalar zero broadcast everywhere is the rectifier. -/
theorem host_relu {a b : ℕ} (X : FVec Ideal ⟨2, ![a, b]⟩ .f32)
    (h0 : (⟨0, ![]⟩ : Shape).BroadcastsInDim ⟨2, ![a, b]⟩ ![]) :
    maximumf X (broadcastInDim ⟨2, ![a, b]⟩ ![] h0 (constant (F := Ideal) ⟨0, ![]⟩ .f32 0x00000000#32)) = Cert.Spec.relu X := by
  funext i
  obtain ⟨p, q, rfl⟩ : ∃ (p : Fin a) (q : Fin b), i = ix2 p q := ⟨i 0, i 1, eq_ix2 i⟩
  show max (X (ix2 p q)) (broadcastInDim ⟨2, ![a, b]⟩ ![] h0 (constant (F := Ideal) ⟨0, ![]⟩ .f32 0x00000000#32) (ix2 p q)) = _
  rw [bcast_scalar_mat]
  show max (X (ix2 p q)) (Ideal.ofBits .f32 0x00000000#32) = _
  rw [Ideal.ofBits_zero_f32]
  rfl

/-- Every entry divided by one scalar. -/
def divBy {a b : ℕ} (X : Mat a b) (d : EReal) : Mat a b := fun i => Ideal.div (X i) d

theorem divBy_apply {a b : ℕ} (X : Mat a b) (d : EReal) (i : (⟨2, ![a, b]⟩ : Shape).Idx) : divBy X d i = Ideal.div (X i) d := rfl

/-- The host's quotient by a scalar broadcast everywhere divides every entry by what the scalar's word denotes. -/
theorem host_divBy {a b : ℕ} (X : FVec Ideal ⟨2, ![a, b]⟩ .f32) (w : BitVec 32)
    (h0 : (⟨0, ![]⟩ : Shape).BroadcastsInDim ⟨2, ![a, b]⟩ ![]) :
    Host.divf X (broadcastInDim ⟨2, ![a, b]⟩ ![] h0 (constant (F := Ideal) ⟨0, ![]⟩ .f32 w)) = divBy X (Ideal.ofBits .f32 w) := by
  funext i
  obtain ⟨p, q, rfl⟩ : ∃ (p : Fin a) (q : Fin b), i = ix2 p q := ⟨i 0, i 1, eq_ix2 i⟩
  show Ideal.div (X (ix2 p q)) (broadcastInDim ⟨2, ![a, b]⟩ ![] h0 (constant (F := Ideal) ⟨0, ![]⟩ .f32 w) (ix2 p q)) = _
  rw [bcast_scalar_mat]
  rfl

/-- The host's negation is `0 − x`. -/
theorem host_neg {a b : ℕ} (X : FVec Ideal ⟨2, ![a, b]⟩ .f32) : Host.negf X = Cert.Spec.neg X := by
  funext i
  show -X i = 0 - X i
  rw [zero_sub]

/-- The host's row-wise Euclidean normalisation: the array divided by the column broadcast of
    `max (sqrt (0 + ∑ₖ x(q,k)²), ε)`. -/
theorem host_l2n {n c : ℕ} (X : FVec Ideal ⟨2, ![n, c]⟩ .f32)
    (hred' : (⟨2, ![n, c]⟩ : Shape).ReducesTo [1] ⟨1, ![n]⟩) (hred : (⟨2, ![n, c]⟩ : Shape).Reduces [1] ⟨1, ![n]⟩)
    (hu : 0 < (⟨0, ![]⟩ : Shape).numel)
    (hcol : (⟨1, ![n]⟩ : Shape).BroadcastsInDim ⟨2, ![n, 1]⟩ ![0])
    (heps : (⟨0, ![]⟩ : Shape).BroadcastsInDim ⟨2, ![n, 1]⟩ ![])
    (hmat : (⟨2, ![n, 1]⟩ : Shape).BroadcastsInDim ⟨2, ![n, c]⟩ ![0, 1]) :
    Host.divf X (broadcastInDim ⟨2, ![n, c]⟩ ![0, 1] hmat
        (maximumf (Host.sqrt (broadcastInDim ⟨2, ![n, 1]⟩ ![0] hcol
            (Host.reduceAdd (mulf X X) (constant (F := Ideal) ⟨0, ![]⟩ .f32 0x00000000#32) hred' hu)))
          (broadcastInDim ⟨2, ![n, 1]⟩ ![] heps (constant (F := Ideal) ⟨0, ![]⟩ .f32 0x2B8CBCCC#32))))
      = Cert.Spec.l2n X := by
  funext i
  obtain ⟨p, q, rfl⟩ : ∃ (p : Fin n) (q : Fin c), i = ix2 p q := ⟨i 0, i 1, eq_ix2 i⟩
  show Ideal.div (X (ix2 p q)) (broadcastInDim (s := ⟨2, ![n, 1]⟩) ⟨2, ![n, c]⟩ ![0, 1] hmat _ (ix2 p q)) = _
  rw [bcast_col_mat]
  show Ideal.div (X (ix2 p q))
      (max (Ideal.sqrt (broadcastInDim (s := ⟨1, ![n]⟩) ⟨2, ![n, 1]⟩ ![0] hcol _ (ix2 p (0 : Fin 1))))
        (broadcastInDim ⟨2, ![n, 1]⟩ ![] heps (constant (F := Ideal) ⟨0, ![]⟩ .f32 0x2B8CBCCC#32) (ix2 p (0 : Fin 1)))) = _
  rw [bcast_vec_col, bcast_scalar_mat, hostRowSum _ _ hred' hred hu p]
  show Ideal.div (X (ix2 p q))
      (max (Ideal.sqrt (Ideal.ofBits .f32 0x00000000#32 + ∑ k : Fin c, X (ix2 p k) * X (ix2 p k))) (Ideal.ofBits .f32 0x2B8CBCCC#32)) = _
  rw [Ideal.ofBits_zero_f32, zero_add]
  rfl

/-- The host's product with the transpose of the right factor is `A · Bᵀ`. -/
theorem host_abT {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ .f32) (r : FVec Ideal ⟨2, ![N, K]⟩ .f32)
    (ht : (⟨2, ![N, K]⟩ : Shape).Transposes [1, 0] ⟨2, ![K, N]⟩) :
    Host.dotGeneral (F := Ideal) D prec l (transpose ⟨2, ![K, N]⟩ [1, 0] r ht) = Cert.Spec.abT l r := by
  rw [hostDot_eq_mm D h1 h2 h3 h4 h5 h6]
  funext i
  obtain ⟨p, q, rfl⟩ : ∃ (p : Fin M) (q : Fin N), i = ix2 p q := ⟨i 0, i 1, eq_ix2 i⟩
  rw [mm_apply]
  show _ = ∑ k : Fin K, l (ix2 p k) * r (ix2 q k)
  exact Finset.sum_congr rfl fun k _ => by rw [transpose_ix2_apply]

end Cert.RefStages

end
-- ==== Proof.RefValue.lean ====
/-
  The reference program's results as the network's specification.

  The reference computes, on the host: the first layer and the mean over the sampled neighbours (`aggR`), the two
  encoder heads, the decoder with its row-wise normalisations and rectifiers, the two normalised embeddings and their
  product with a transposed right factor, the projected features of the seed nodes (`xwR`), and the discriminator's
  tail over the given and the reconstructed adjacency (`tailR`).  Each result is read here, as a whole array, as the
  specification's function of `aggR` and `xwR`; the gathers and the first layer stay inside those two terms.
-/
import proofs.«106620_j12240656794038_1_alg».proof.Proof.RefRead
import proofs.«106620_j12240656794038_1_alg».proof.Proof.RefStages

noncomputable section

open scoped BigOperators

namespace Cert.ReferenceIdeal.RefValue

open Cert.ReferenceIdeal Cert.ReferenceIdeal.Gen Idealize.ShloMosaic Idealize.ShloMosaic.ValueIdx Idealize.SL.Sem
  Idealize.ShloMosaic.StableHlo Cert.Dense Cert.RefStages

/-- An integer array of the program, at the ideal values. -/
abbrev TI (S : Shape) : Type := (⟨S, .i32⟩ : BufTy).Contents (Elt Ideal)
/-- A float array of the program, at the ideal values. -/
abbrev TF (S : Shape) : Type := (⟨S, .f32⟩ : BufTy).Contents (Elt Ideal)

/-- The sampled second-hop neighbours' feature rows: the table gathered at the wrapped indices. -/
def gathR (x1 : TI S45056x10) (x3 : TF S100000x256) : TF S45056x10x256 := Read.val_main_v6 (F := Ideal) x1 x3

/-- The sum of each node's ten gathered rows. -/
def nsumR (x1 : TI S45056x10) (x3 : TF S100000x256) : Mat 45056 256 := Read.val_main_v7 (F := Ideal) x1 x3

/-- The first layer before the slice: the rectified tenth of the neighbour sums' product with the first weights. -/
def h1R (x1 : TI S45056x10) (x3 : TF S100000x256) (x4 : TF S256x256) : Mat 45056 256 := Read.val_main_v11 (F := Ideal) x1 x3 x4

/-- The mean over the ten first-hop neighbours of the first layer's rows, as the reference spells it. -/
def aggR (x1 : TI S45056x10) (x3 : TF S100000x256) (x4 : TF S256x256) : Mat 4096 256 := Read.val_main_v16 (F := Ideal) x1 x3 x4

/-- The seed nodes' feature rows: the table gathered at the wrapped indices. -/
def featR (x0 : TI S4096) (x3 : TF S100000x256) : Mat 4096 256 := Read.val_main_v74 (F := Ideal) x0 x3

/-- The seed nodes' projected features. -/
def xwR (x0 : TI S4096) (x3 : TF S100000x256) (x11 : TF S256x256) : Mat 4096 256 := Read.val_main_v75 (F := Ideal) x0 x3 x11

/-- One half of the discriminator's tail: an aggregated array plus the bias row, times the last weights. -/
def headR (X : Mat 4096 256) (x12 : TF S256) (x13 : TF S256x1) : TF S4096x1 :=
  Host.dotGeneral (F := Ideal) (φ₁ := .f32) (φ₂ := .f32) dot_S4096x256_S256x1_S4096x1_1_0_0_1_n_n none
    (addf (F := Ideal) (φ := .f32) X (broadcastInDim S4096x256 ![0, 1] bcast_S1x256_S4096x256_0_1 (broadcastInDim S1x256 ![1] bcast_S256_S1x256_1 x12))) x13

/-- The discriminator's tail: both aggregated arrays plus the bias row, times the last weights, one above the other. -/
def tailR (orig gen : Mat 4096 256) (x12 : TF S256) (x13 : TF S256x1) : TF S8192x1 :=
  concatenate S8192x1 0 [⟨S4096x1, headR orig x12 x13⟩, ⟨S4096x1, headR gen x12 x13⟩] concatenates_S4096x1_S4096x1_S8192x1_d0

/-- A column of one scalar. -/
def colR (w : BitVec 32) : TF S4096x1 := broadcastInDim S4096x1 ![] bcast_S_S4096x1 (constant (F := Ideal) S_ .f32 w)

/-- The labels: ones above zeros. -/
def labR : TF S8192x1 :=
  concatenate S8192x1 0 [⟨S4096x1, colR 0x3F800000#32⟩, ⟨S4096x1, colR 0x00000000#32⟩] concatenates_S4096x1_S4096x1_S8192x1_d0

section

variable (x0 : TI S4096) (x1 : TI S45056x10) (x2 : TF S4096x4096) (x3 : TF S100000x256) (x4 : TF S256x256)
  (x5 x6 : TF S256x128) (x7 : TF S128x256) (x8 x9 x10 x11 : TF S256x256) (x12 : TF S256) (x13 : TF S256x1)

/-- The mean head. -/
theorem ref_mu : Read.val_main_v17 (F := Ideal) x1 x3 x4 x5 = Cert.Spec.mu (aggR x1 x3 x4) x5 :=
  hostDot_eq_mm dot_S4096x256_S256x128_S4096x128_1_0_0_1_n_n rfl rfl rfl rfl rfl rfl none (aggR x1 x3 x4) x5

/-- The negated log-variance head. -/
theorem ref_nlv : Read.val_main_v27 (F := Ideal) x1 x3 x4 x6 = Cert.Spec.nlv (aggR x1 x3 x4) x6 := by
  show Host.negf (Host.dotGeneral (F := Ideal) dot_S4096x256_S256x128_S4096x128_1_0_0_1_n_n none (aggR x1 x3 x4) x6) = _
  rw [hostDot_eq_mm dot_S4096x256_S256x128_S4096x128_1_0_0_1_n_n rfl rfl rfl rfl rfl rfl none (aggR x1 x3 x4) x6]
  exact host_neg _

end

end Cert.ReferenceIdeal.RefValue

end
-- ==== Proof.KI.Host3.lean ====
/- The third stretch of host operations of the kernel program, read as values: the seed nodes' projected features.
   The stretch wraps the negative node indices, lays them out as a column, gathers the table's rows and multiplies
   by the projection weights: operation for operation the specification's term. -/
import proofs.«106620_j12240656794038_1_alg».proof.Proof.Gen.KernelIdeal.Launch
import proofs.«106620_j12240656794038_1_alg».proof.Proof.RefValue
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.SL.Sem
open Idealize.ShloMosaic.StableHlo

variable (W : Valuation τ sig (Elt Ideal))

/-- The projected seed features after the stretch are the specification's, of the node indices, the feature table
    and the projection weights as the stretch finds them. -/
theorem host3_xw :
    StableHlo.after (hostOps3 (F := Ideal)) W (Proc.devRef .tc main_v25)
      = Cert.ReferenceIdeal.RefValue.xwR (W (Proc.devRef .tc main_arg0)) (W (Proc.devRef .tc main_arg3))
          (W (Proc.devRef .tc main_arg11)) := by
  after_results
  rfl

end Cert.KernelIdeal.HandValue

end
-- ==== Proof.KI.Host5.lean ====
/- The last stretch of host operations of the kernel program, read as values: the discriminator's tail over the two
   aggregated arrays and the labels. The program casts the bias vector [256] to one row [1, 256] where the
   specification's term broadcasts it along a new leading axis; both are the vector laid out as one row. The
   rest of the two terms is the same operations on the same operands. -/
import proofs.«106620_j12240656794038_1_alg».proof.Proof.Gen.KernelIdeal.Launch
import proofs.«106620_j12240656794038_1_alg».proof.Proof.RefValue
import Idealize.ShloMosaic.Lib.StableHlo.Run
import Idealize.ShloMosaic.Lib.ValueLayout
import Idealize.ShloMosaic.Lib.Pipeline.Value

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.ValueIdx
open Idealize.ShloMosaic.StableHlo

/-- A vector cast to one row is the vector broadcast along a new leading axis. -/
theorem shapeCast_row_eq_bcast {α : Type} {N : ℕ} (b : (⟨1, ![N]⟩ : Shape).Idx → α)
    (h : (⟨1, ![N]⟩ : Shape).ShapeCasts ⟨2, ![1, N]⟩) (h1 : (⟨1, ![N]⟩ : Shape).BroadcastsInDim ⟨2, ![1, N]⟩ ![1]) :
    shapeCast ⟨2, ![1, N]⟩ b h = broadcastInDim ⟨2, ![1, N]⟩ ![1] h1 b := by
  funext i
  obtain ⟨u, q, rfl⟩ : ∃ (u : Fin 1) (q : Fin N), i = ix2 u q := ⟨i 0, i 1, eq_ix2 i⟩
  rw [shapeCast_a_1a_apply b h u q]
  refine (broadcastInDim_apply ![1] h1 b (ix2 u q) (ix1 q) fun a => ?_).symm
  match a with
  | ⟨0, _⟩ =>
    show q.val = if N = 1 then 0 else q.val
    split
    · have := q.isLt; omega
    · rfl

/-- The tail as the program spells it, over the bias already laid out as one row. -/
def tailK (orig gen : (⟨S4096x256, .f32⟩ : BufTy).Contents (Elt Ideal)) (row : (⟨S1x256, .f32⟩ : BufTy).Contents (Elt Ideal))
    (w : (⟨S256x1, .f32⟩ : BufTy).Contents (Elt Ideal)) : (⟨S8192x1, .f32⟩ : BufTy).Contents (Elt Ideal) :=
  concatenate S8192x1 0
    [⟨S4096x1, Host.dotGeneral (F := Ideal) (φ₁ := .f32) (φ₂ := .f32) dot_S4096x256_S256x1_S4096x1_1_0_0_1_n_n none
        (addf (F := Ideal) (φ := .f32) orig (broadcastInDim S4096x256 ![0, 1] bcast_S1x256_S4096x256_0_1 row)) w⟩,
     ⟨S4096x1, Host.dotGeneral (F := Ideal) (φ₁ := .f32) (φ₂ := .f32) dot_S4096x256_S256x1_S4096x1_1_0_0_1_n_n none
        (addf (F := Ideal) (φ := .f32) gen (broadcastInDim S4096x256 ![0, 1] bcast_S1x256_S4096x256_0_1 row)) w⟩]
    concatenates_S4096x1_S4096x1_S8192x1_d0

variable (W : Valuation τ sig (Elt Ideal))

/-- The discriminator's tail after the stretch is the specification's, of the two aggregated arrays, the bias and
    the last weights as the stretch finds them. -/
theorem host5_tail :
    StableHlo.after (hostOps5 (F := Ideal)) W (Proc.devRef .tc main_v35)
      = Cert.ReferenceIdeal.RefValue.tailR (W (Proc.devRef .tc main_v26)) (W (Proc.devRef .tc main_v27))
          (W (Proc.devRef .tc main_arg12)) (W (Proc.devRef .tc main_arg13)) := by
  after_results
  show tailK (W (Proc.devRef .tc main_v26)) (W (Proc.devRef .tc main_v27))
      (shapeCast S1x256 (W (Proc.devRef .tc main_arg12)) shapeCasts_S256_S1x256) (W (Proc.devRef .tc main_arg13)) = _
  rw [shapeCast_row_eq_bcast (W (Proc.devRef .tc main_arg12)) _ Cert.ReferenceIdeal.Gen.bcast_S256_S1x256_1]
  rfl

/-- The labels after the stretch are the specification's: ones above zeros. -/
theorem host5_labels :
    StableHlo.after (hostOps5 (F := Ideal)) W (Proc.devRef .tc main_v38) = Cert.ReferenceIdeal.RefValue.labR := by
  after_results
  rfl

end Cert.KernelIdeal.HandValue

end
-- ==== Proof.KI.Vals.lean ====
/-
  What the program's buffers hold at the segment boundaries, on the extended reals: each region's output array is the
  specification's function of the arrays the region found (the five value lemmas), each host stretch applies its
  operations, and a buffer that no host stretch writes and no region has as an output window keeps its contents; so
  every result at the end is a term of the launch memory's argument arrays.
-/
import proofs.«106620_j12240656794038_1_alg».proof.Proof.KI.Frame
import proofs.«106620_j12240656794038_1_alg».proof.Proof.KI.Val0
import proofs.«106620_j12240656794038_1_alg».proof.Proof.KI.Val1
import proofs.«106620_j12240656794038_1_alg».proof.Proof.KI.Val2
import proofs.«106620_j12240656794038_1_alg».proof.Proof.KI.Val3
import proofs.«106620_j12240656794038_1_alg».proof.Proof.KI.Val4
import proofs.«106620_j12240656794038_1_alg».proof.Proof.Spec2
import proofs.«106620_j12240656794038_1_alg».proof.Proof.KI.Host1
import proofs.«106620_j12240656794038_1_alg».proof.Proof.KI.Host3
import proofs.«106620_j12240656794038_1_alg».proof.Proof.KI.Host5

noncomputable section

namespace Cert.KernelIdeal.HandValue

open Cert.KernelIdeal Cert.KernelIdeal.Gen Cert.KernelIdeal.Hand
open Idealize.ShloMosaic Idealize.ShloMosaic.TcCoe Idealize.SL.Sem

variable (m : (ℓ : Loc nD τ sig) → Buf (Elt Ideal) ℓ)

/-- No host stretch writes the buffer and no region has it as an output window's array. -/
structure Kept (b : Ref sig .tc) : Prop where
  h0 : b ∉ hostOps0_W
  h1 : b ∉ hostOps1_W
  h3 : b ∉ hostOps3_W
  h5 : b ∉ hostOps5_W
  k0 : ∀ w : Fin cfg0.W, (cfg0.win w).isOut = true → Pipeline.arrRef spec0 w ≠ b
  k1 : ∀ w : Fin cfg1.W, (cfg1.win w).isOut = true → Pipeline.arrRef spec1 w ≠ b
  k2 : ∀ w : Fin cfg2.W, (cfg2.win w).isOut = true → Pipeline.arrRef spec2 w ≠ b
  k3 : ∀ w : Fin cfg3.W, (cfg3.win w).isOut = true → Pipeline.arrRef spec3 w ≠ b
  k4 : ∀ w : Fin cfg4.W, (cfg4.win w).isOut = true → Pipeline.arrRef spec4 w ≠ b

theorem kept_arg0 : Kept main_arg0 := ⟨by decide, by decide, by decide, by decide, by decide, by decide, by decide, by decide, by decide⟩
theorem kept_arg2 : Kept main_arg2 := ⟨by decide, by decide, by decide, by decide, by decide, by decide, by decide, by decide, by decide⟩
theorem kept_arg3 : Kept main_arg3 := ⟨by decide, by decide, by decide, by decide, by decide, by decide, by decide, by decide, by decide⟩
theorem kept_arg4 : Kept main_arg4 := ⟨by decide, by decide, by decide, by decide, by decide, by decide, by decide, by decide, by decide⟩
theorem kept_arg5 : Kept main_arg5 := ⟨by decide, by decide, by decide, by decide, by decide, by decide, by decide, by decide, by decide⟩
theorem kept_arg6 : Kept main_arg6 := ⟨by decide, by decide, by decide, by decide, by decide, by decide, by decide, by decide, by decide⟩
theorem kept_arg7 : Kept main_arg7 := ⟨by decide, by decide, by decide, by decide, by decide, by decide, by decide, by decide, by decide⟩
theorem kept_arg8 : Kept main_arg8 := ⟨by decide, by decide, by decide, by decide, by decide, by decide, by decide, by decide, by decide⟩
theorem kept_arg9 : Kept main_arg9 := ⟨by decide, by decide, by decide, by decide, by decide, by decide, by decide, by decide, by decide⟩
theorem kept_arg10 : Kept main_arg10 := ⟨by decide, by decide, by decide, by decide, by decide, by decide, by decide, by decide, by decide⟩
theorem kept_arg11 : Kept main_arg11 := ⟨by decide, by decide, by decide, by decide, by decide, by decide, by decide, by decide, by decide⟩
theorem kept_arg12 : Kept main_arg12 := ⟨by decide, by decide, by decide, by decide, by decide, by decide, by decide, by decide, by decide⟩
theorem kept_arg13 : Kept main_arg13 := ⟨by decide, by decide, by decide, by decide, by decide, by decide, by decide, by decide, by decide⟩

section Walk
variable {b : Ref sig .tc} (hk : Kept b) (c : Dev nD)
include hk

theorem B1_kept : B1 m c (Proc.devRef .tc b) = m ((c : Thread nD τ).loc b) :=
  StableHlo.after_of_writes_sub hostOps0 _ hostOps0_writes hk.h0
theorem B2_kept : B2 m dat0 c (Proc.devRef .tc b) = m ((c : Thread nD τ).loc b) :=
  (B2_keep m dat0 A_eq0 c b hk.k0).trans (B1_kept m hk c)
theorem B3_kept : B3 m dat0 c (Proc.devRef .tc b) = m ((c : Thread nD τ).loc b) :=
  (StableHlo.after_of_writes_sub hostOps1 _ hostOps1_writes hk.h1).trans (B2_kept m hk c)
theorem B4_kept : B4 m dat0 dat1 c (Proc.devRef .tc b) = m ((c : Thread nD τ).loc b) :=
  (B4_keep m dat0 dat1 A_eq1 c b hk.k1).trans (B3_kept m hk c)
theorem B5_kept : B5 m dat0 dat1 dat2 c (Proc.devRef .tc b) = m ((c : Thread nD τ).loc b) :=
  (B5_keep m dat0 dat1 dat2 A_eq2 c b hk.k2).trans (B4_kept m hk c)
theorem B6_kept : B6 m dat0 dat1 dat2 c (Proc.devRef .tc b) = m ((c : Thread nD τ).loc b) :=
  (StableHlo.after_of_writes_sub hostOps3 _ hostOps3_writes hk.h3).trans (B5_kept m hk c)
theorem B7_kept : B7 m dat0 dat1 dat2 dat3 c (Proc.devRef .tc b) = m ((c : Thread nD τ).loc b) :=
  (B7_keep m dat0 dat1 dat2 dat3 A_eq3 c b hk.k3).trans (B6_kept m hk c)
theorem B8_kept : B8 m dat0 dat1 dat2 dat3 dat4 c (Proc.devRef .tc b) = m ((c : Thread nD τ).loc b) :=
  (B8_keep m dat0 dat1 dat2 dat3 dat4 A_eq4 c b hk.k4).trans (B7_kept m hk c)

end Walk

/-! ## The stages -/

/-- The neighbour means the first region reads: the first host stretch's result. -/
abbrev X10 (c : Dev nD) : Cert.Dense.Mat 40960 256 := B1 m c (Proc.devRef .tc main_v10)
/-- The first layer. -/
def h1K (c : Dev nD) : Cert.Dense.Mat 40960 256 := Cert.Spec.h1 (X10 m c) (m ((c : Thread nD τ).loc main_arg4))
/-- Region 0 leaves the first layer in its output array. -/
theorem v_h1 (c : Dev nD) : B2 m dat0 c (Proc.devRef .tc main_v11) = h1K m c := by
  refine (B2_arr m dat0 c (2 : Fin cfg0.W)).trans ?_
  rw [final0 (T1 m) c]
  exact congrArg (Cert.Spec.h1 (X10 m c)) (B1_kept m kept_arg4 c)

/-- The aggregated rows: the mean over each node's ten first-layer rows. -/
def aggV (c : Dev nD) : Cert.Dense.Mat 4096 256 := Cert.Spec.agg10 (h1K m c)
/-- The second host stretch leaves the aggregated rows in region 1's first array. -/
theorem v_agg (c : Dev nD) : B3 m dat0 c (Proc.devRef .tc main_v15) = aggV m c := by
  refine (host1_agg (B2 m dat0 c)).trans ?_
  exact congrArg Cert.Spec.agg10 (v_h1 m c)

/-- Region 1's four output arrays. -/
theorem v_mu (c : Dev nD) : B4 m dat0 dat1 c (Proc.devRef .tc main_v16_0) = Cert.Spec.mu (aggV m c) (m ((c : Thread nD τ).loc main_arg5)) := by
  refine (B4_arr m dat0 dat1 c (7 : Fin cfg1.W)).trans ?_
  rw [final1_7 (T3 m dat0) c]
  exact congrArg₂ Cert.Spec.mu (v_agg m c) (B3_kept m kept_arg5 c)
theorem v_nlv (c : Dev nD) : B4 m dat0 dat1 c (Proc.devRef .tc main_v16_1) = Cert.Spec.nlv (aggV m c) (m ((c : Thread nD τ).loc main_arg6)) := by
  refine (B4_arr m dat0 dat1 c (8 : Fin cfg1.W)).trans ?_
  rw [final1_8 (T3 m dat0) c]
  exact congrArg₂ Cert.Spec.nlv (v_agg m c) (B3_kept m kept_arg6 c)
/-- The two normalised embeddings. -/
def e1K (c : Dev nD) : Cert.Dense.Mat 4096 256 := Cert.Spec.emb (aggV m c) (m ((c : Thread nD τ).loc main_arg5)) (m ((c : Thread nD τ).loc main_arg7)) (m ((c : Thread nD τ).loc main_arg8)) (m ((c : Thread nD τ).loc main_arg9))
def e2K (c : Dev nD) : Cert.Dense.Mat 4096 256 := Cert.Spec.emb (aggV m c) (m ((c : Thread nD τ).loc main_arg5)) (m ((c : Thread nD τ).loc main_arg7)) (m ((c : Thread nD τ).loc main_arg8)) (m ((c : Thread nD τ).loc main_arg10))
theorem v_e1 (c : Dev nD) : B4 m dat0 dat1 c (Proc.devRef .tc main_v16_2) = e1K m c := by
  refine (B4_arr m dat0 dat1 c (9 : Fin cfg1.W)).trans ?_
  rw [final1_9 (T3 m dat0) c]
  unfold e1K
  rw [show T3 m dat0 c main_v15 = aggV m c from v_agg m c, show T3 m dat0 c main_arg5 = _ from B3_kept m kept_arg5 c,
    show T3 m dat0 c main_arg7 = _ from B3_kept m kept_arg7 c, show T3 m dat0 c main_arg8 = _ from B3_kept m kept_arg8 c,
    show T3 m dat0 c main_arg9 = _ from B3_kept m kept_arg9 c]
theorem v_e2 (c : Dev nD) : B4 m dat0 dat1 c (Proc.devRef .tc main_v16_3) = e2K m c := by
  refine (B4_arr m dat0 dat1 c (10 : Fin cfg1.W)).trans ?_
  rw [final1_10 (T3 m dat0) c]
  unfold e2K
  rw [show T3 m dat0 c main_v15 = aggV m c from v_agg m c, show T3 m dat0 c main_arg5 = _ from B3_kept m kept_arg5 c,
    show T3 m dat0 c main_arg7 = _ from B3_kept m kept_arg7 c, show T3 m dat0 c main_arg8 = _ from B3_kept m kept_arg8 c,
    show T3 m dat0 c main_arg10 = _ from B3_kept m kept_arg10 c]

/-- The reconstructed adjacency. -/
def recK (c : Dev nD) : Cert.Dense.Mat 4096 4096 := Cert.Spec.recon (e1K m c) (e2K m c)
theorem v_rec (c : Dev nD) : B5 m dat0 dat1 dat2 c (Proc.devRef .tc main_v17) = recK m c := by
  refine (B5_arr m dat0 dat1 dat2 c (2 : Fin cfg2.W)).trans ?_
  rw [final2 (T4 m dat0 dat1) c]
  exact congrArg₂ Cert.Spec.recon (v_e1 m c) (v_e2 m c)

/-- The seed nodes' projected features. -/
def xwK (c : Dev nD) : Cert.Dense.Mat 4096 256 := Cert.ReferenceIdeal.RefValue.xwR (m ((c : Thread nD τ).loc main_arg0)) (m ((c : Thread nD τ).loc main_arg3)) (m ((c : Thread nD τ).loc main_arg11))
theorem v_xw (c : Dev nD) : B6 m dat0 dat1 dat2 c (Proc.devRef .tc main_v25) = xwK m c := by
  refine (host3_xw (B5 m dat0 dat1 dat2 c)).trans ?_
  unfold xwK
  rw [B5_kept m kept_arg0 c, B5_kept m kept_arg3 c, B5_kept m kept_arg11 c]

/-- The two aggregations over the given and the reconstructed adjacency. -/
theorem v_o3 (c : Dev nD) : B7 m dat0 dat1 dat2 dat3 c (Proc.devRef .tc main_v26) = Cert.Spec.adjxw (m ((c : Thread nD τ).loc main_arg2)) (xwK m c) := by
  refine (B7_arr m dat0 dat1 dat2 dat3 c (2 : Fin cfg3.W)).trans ?_
  rw [final3 (T6 m dat0 dat1 dat2) c]
  exact congrArg₂ Cert.Spec.adjxw (B6_kept m kept_arg2 c) (v_xw m c)
theorem v_o4 (c : Dev nD) : B8 m dat0 dat1 dat2 dat3 dat4 c (Proc.devRef .tc main_v27) = Cert.Spec.adjxw (recK m c) (xwK m c) := by
  refine (B8_arr m dat0 dat1 dat2 dat3 dat4 c (2 : Fin cfg4.W)).trans ?_
  rw [final4 (T7 m dat0 dat1 dat2 dat3) c]
  refine congrArg₂ Cert.Spec.adjxw ?_ ?_
  · refine (B7_keep m dat0 dat1 dat2 dat3 A_eq3 c main_v17 (by decide)).trans ?_
    refine (StableHlo.after_of_writes_sub hostOps3 _ hostOps3_writes (by decide)).trans ?_
    exact v_rec m c
  · refine (B7_keep m dat0 dat1 dat2 dat3 A_eq3 c main_v25 (by decide)).trans ?_
    exact v_xw m c

/-! ## The five results at the end -/

theorem res_mu (c : Dev nD) : Bend m c (Proc.devRef .tc main_v16_0) = Cert.Spec.mu (aggV m c) (m ((c : Thread nD τ).loc main_arg5)) := by
  refine (StableHlo.after_of_writes_sub hostOps5 _ hostOps5_writes (by decide)).trans ?_
  refine (B8_keep m dat0 dat1 dat2 dat3 dat4 A_eq4 c main_v16_0 (by decide)).trans ?_
  refine (B7_keep m dat0 dat1 dat2 dat3 A_eq3 c main_v16_0 (by decide)).trans ?_
  refine (StableHlo.after_of_writes_sub hostOps3 _ hostOps3_writes (by decide)).trans ?_
  refine (B5_keep m dat0 dat1 dat2 A_eq2 c main_v16_0 (by decide)).trans ?_
  exact v_mu m c
theorem res_nlv (c : Dev nD) : Bend m c (Proc.devRef .tc main_v16_1) = Cert.Spec.nlv (aggV m c) (m ((c : Thread nD τ).loc main_arg6)) := by
  refine (StableHlo.after_of_writes_sub hostOps5 _ hostOps5_writes (by decide)).trans ?_
  refine (B8_keep m dat0 dat1 dat2 dat3 dat4 A_eq4 c main_v16_1 (by decide)).trans ?_
  refine (B7_keep m dat0 dat1 dat2 dat3 A_eq3 c main_v16_1 (by decide)).trans ?_
  refine (StableHlo.after_of_writes_sub hostOps3 _ hostOps3_writes (by decide)).trans ?_
  refine (B5_keep m dat0 dat1 dat2 A_eq2 c main_v16_1 (by decide)).trans ?_
  exact v_nlv m c
theorem res_rec (c : Dev nD) : Bend m c (Proc.devRef .tc main_v17) = recK m c := by
  refine (StableHlo.after_of_writes_sub hostOps5 _ hostOps5_writes (by decide)).trans ?_
  refine (B8_keep m dat0 dat1 dat2 dat3 dat4 A_eq4 c main_v17 (by decide)).trans ?_
  refine (B7_keep m dat0 dat1 dat2 dat3 A_eq3 c main_v17 (by decide)).trans ?_
  refine (StableHlo.after_of_writes_sub hostOps3 _ hostOps3_writes (by decide)).trans ?_
  exact v_rec m c
theorem res_pred (c : Dev nD) : Bend m c (Proc.devRef .tc main_v35)
    = Cert.ReferenceIdeal.RefValue.tailR (Cert.Spec.adjxw (m ((c : Thread nD τ).loc main_arg2)) (xwK m c)) (Cert.Spec.adjxw (recK m c) (xwK m c)) (m ((c : Thread nD τ).loc main_arg12)) (m ((c : Thread nD τ).loc main_arg13)) := by
  refine (host5_tail (B8 m dat0 dat1 dat2 dat3 dat4 c)).trans ?_
  rw [show B8 m dat0 dat1 dat2 dat3 dat4 c (Proc.devRef .tc main_v26) = _ from (B8_keep m dat0 dat1 dat2 dat3 dat4 A_eq4 c main_v26 (by decide)).trans (v_o3 m c),
    v_o4 m c, B8_kept m kept_arg12 c, B8_kept m kept_arg13 c]
theorem res_lab (c : Dev nD) : Bend m c (Proc.devRef .tc main_v38) = Cert.ReferenceIdeal.RefValue.labR :=
  host5_labels (B8 m dat0 dat1 dat2 dat3 dat4 c)

end Cert.KernelIdeal.HandValue

end
-- ==== Proof.LibGather3.lean ====
/-
  The host's gather of whole rows of a rank-2 array at a rank-3 table of start indices, read at an index.

  What `x[idx]` of a two-dimensional array `x : [N, C]` at a two-dimensional integer array `idx : [R, S]` lowers to:
  a gather with offset axis 2, the operand's axis 0 collapsed and indexed, slice sizes `[1, C]`, over the indices as
  `[R, S, 1]` with the index vector on axis 2. Result element `(n, s, q)` is `x` at row `idx (n, s, 0)` — read as a signed
  integer and clamped into `[0, N − 1]`, as the gather clamps every start index — and column `q`. The dimension
  numbers enter through equations on the record's fields, so one lemma serves every record of this form, whatever its
  extents, element type and index width.
-/
import Idealize.ShloMosaic.Lib.ValueIdx

noncomputable section

namespace Cert.Gather3

open Idealize.ShloMosaic Idealize.ShloMosaic.ValueIdx

variable {α : Type}

/-- An entry of a one-element list is its element. -/
theorem getElem_of_eq_singleton {β : Type} (l : List β) (b : β) (h : l = [b]) (i : Nat) (hi : i < l.length) : l[i]'hi = b := by
  subst h
  match i, hi with
  | 0, _ => rfl

/-- The gather of rows read at `(n, s, q)`: the operand at the row the start index `idx (n, s, 0)` names, read signed
    and clamped into `[0, N − 1]`, and at column `q`. -/
theorem gather_rows_apply {N C R S w : Nat} (hN : 0 < N)
    (D : GatherDims ⟨2, ![N, C]⟩ ⟨3, ![R, S, 1]⟩ ⟨3, ![R, S, C]⟩)
    (h1 : D.offsetDims = [2]) (h2 : D.collapsedSliceDims = [0]) (h3 : D.operandBatchingDims = [])
    (h4 : D.startIndicesBatchingDims = []) (h5 : D.startIndexMap = [0]) (h6 : D.indexVectorDim = 2)
    (h7 : D.sliceSizes = ![1, C])
    (x : (⟨2, ![N, C]⟩ : Shape).Idx → α) (idx : IVec ⟨3, ![R, S, 1]⟩ w) (n : Fin R) (s : Fin S) (q : Fin C) :
    Host.gather D x idx (ix3 n s q)
      = x (ix2 ⟨min (idx (ix3 n s (0 : Fin 1))).toInt.toNat (N - 1), by omega⟩ q) := by
  obtain ⟨od, cd, ob, sb, sm, iv, ss, wf⟩ := D
  dsimp only at h1 h2 h3 h4 h5 h6 h7
  subst h1 h2 h3 h4 h5 h6 h7
  generalize hD : (⟨[2], [0], [], [], [0], 2, ![1, C], wf⟩ : GatherDims ⟨2, ![N, C]⟩ ⟨3, ![R, S, 1]⟩ ⟨3, ![R, S, C]⟩) = D
  have hcd : D.collapsedSliceDims = [0] := by subst hD; rfl
  have hob : D.operandBatchingDims = [] := by subst hD; rfl
  have hsm : D.startIndexMap = [0] := by subst hD; rfl
  unfold Host.gather
  congr 1
  funext a
  refine Fin.ext ?_
  match a with
  | ⟨0, _⟩ =>
    show D.start (ix3 n s q) idx 0 + D.batchCoord (ix3 n s q) 0 + D.offCoord (ix3 n s q) 0 = _
    rw [GatherDims.batchCoord_eq_zero _ _ _ (by rw [hob]; exact List.not_mem_nil),
      GatherDims.offCoord_eq_zero _ _ _ (fun h => ((GatherDims.mem_sKept _ _).mp h).1 (by rw [hcd]; exact List.mem_singleton.mpr rfl))]
    simp only [Nat.add_zero]
    subst hD
    unfold GatherDims.start
    rw [dif_pos (List.mem_singleton.mpr rfl)]
    have hsi : (⟨[2], [0], [], [], [0], 2, ![1, C], wf⟩ : GatherDims ⟨2, ![N, C]⟩ ⟨3, ![R, S, 1]⟩ ⟨3, ![R, S, C]⟩).siIdx (ix3 n s q)
        ⟨List.idxOf (0 : Fin 2) [0], List.idxOf_lt_length_iff.2 (List.mem_singleton.mpr rfl)⟩ = ix3 n s (0 : Fin 1) := by
      funext b; refine Fin.ext ?_
      match b with
      | ⟨0, _⟩ => rfl
      | ⟨1, _⟩ => rfl
      | ⟨2, _⟩ => rfl
    rw [hsi]
    rfl
  | ⟨1, _⟩ =>
    show D.start (ix3 n s q) idx 1 + D.batchCoord (ix3 n s q) 1 + D.offCoord (ix3 n s q) 1 = q.val
    rw [GatherDims.batchCoord_eq_zero _ _ _ (by rw [hob]; exact List.not_mem_nil)]
    have hod : D.offsetDims = [2] := by subst hD; rfl
    have h10 : (1 : Fin (⟨2, ![N, C]⟩ : Shape).rank) ∉ ([0] : List (Fin (⟨2, ![N, C]⟩ : Shape).rank)) :=
      fun h => Nat.one_ne_zero (congrArg Fin.val (List.mem_singleton.mp h))
    have hmem : (1 : Fin (⟨2, ![N, C]⟩ : Shape).rank) ∈ D.sKept :=
      (GatherDims.mem_sKept _ _).mpr ⟨by rw [hcd]; exact h10, by rw [hob]; exact List.not_mem_nil⟩
    unfold GatherDims.start
    rw [dif_neg (by rw [hsm]; exact h10)]
    unfold GatherDims.offCoord
    rw [dif_pos hmem, getElem_of_eq_singleton D.offsetDims 2 hod]
    show 0 + 0 + q.val = q.val
    omega

end Cert.Gather3

end
-- ==== Proof.Wrap.lean ====
/-
  The index wrap both programs apply before a gather: a negative index counts from the end of the table.
-/
import Idealize.ShloMosaic.PureOps

namespace Cert.Wrap

open Idealize.ShloMosaic

/-- `v + 100000` where `v` is negative (signed), `v` itself otherwise: the select of the signed comparison with zero,
    the sum with the table's height and the index, on one 32-bit word. -/
def wrap (v : BitVec 32) : BitVec 32 :=
  Scalar.select (IntOp.cmpi .slt v 0#32) (IntOp.addi v 100000#32) v

end Cert.Wrap
-- ==== Proof.RefAgg.lean ====
/-
  The reference's first layer and neighbour mean, read at an index, and in the other order.

  The reference sums each node's ten gathered rows, multiplies by the first weights, divides by ten and rectifies; then
  takes the first 40960 rows in blocks of ten consecutive rows, sums each block from zero and divides by ten.  Read at an
  index these are finite sums.  Where the neighbour sums and the weights are real numbers, dividing the neighbour sums by
  ten BEFORE the product with the weights gives the same first layer.
-/
import proofs.«106620_j12240656794038_1_alg».proof.Proof.RefValue
import proofs.«106620_j12240656794038_1_alg».proof.Proof.RefLayer1

noncomputable section

open scoped BigOperators

namespace Cert.ReferenceIdeal.RefValue

open Cert.ReferenceIdeal Cert.ReferenceIdeal.Gen Idealize.ShloMosaic Idealize.ShloMosaic.ValueIdx Idealize.SL.Sem
  Idealize.ShloMosaic.StableHlo Cert.Dense Cert.RefStages Cert.RefLayer1

section

variable (x0 : TI S4096) (x1 : TI S45056x10) (x3 : TF S100000x256) (x4 : TF S256x256)

/-- A gathered entry is an entry of the table. -/
theorem gathR_mem (j : S45056x10x256.Idx) : ∃ i, gathR x1 x3 j = x3 i := ⟨_, rfl⟩

/-- A gathered seed row's entry is an entry of the table. -/
theorem featR_mem (j : S4096x256.Idx) : ∃ i, featR x0 x3 j = x3 i := ⟨_, rfl⟩

/-- The neighbour sum at `(n, f)`: zero plus the ten gathered entries. -/
theorem nsumR_apply (n : Fin 45056) (f : Fin 256) :
    nsumR x1 x3 (ix2 n f) = 0 + ∑ s : Fin 10, gathR x1 x3 (ix3 n s f) := by
  show Read.val_main_v7 (F := Ideal) x1 x3 (ix2 n f) = _
  rw [Read.val_main_v7_apply]
  refine congrArg₂ (· + ·) Ideal.ofBits_zero_f32 (Finset.sum_congr rfl fun s _ => ?_)
  exact congrArg (Read.val_main_v6 (F := Ideal) x1 x3) (funext fun a => Fin.ext (by
    match a with
    | ⟨0, _⟩ => rfl
    | ⟨1, _⟩ => rfl
    | ⟨2, _⟩ => rfl))

/-- With a real table the neighbour sums are real. -/
theorem nsumR_isReal (h3 : ∀ i, IsReal (x3 i)) (i : (⟨2, ![45056, 256]⟩ : Shape).Idx) : IsReal (nsumR x1 x3 i) := by
  obtain ⟨n, f, rfl⟩ : ∃ (n : Fin 45056) (f : Fin 256), i = ix2 n f := ⟨i 0, i 1, eq_ix2 i⟩
  rw [nsumR_apply]
  exact isReal_zero_add_sum _ fun s => h3 _

/-- The first layer as a whole array: the rectified tenth of the neighbour sums' product with the weights. -/
theorem h1R_eq : h1R x1 x3 x4 = Cert.Spec.relu (divBy (mm (nsumR x1 x3) x4) ((10 : ℝ) : EReal)) := by
  show maximumf (Host.divf (Host.dotGeneral (F := Ideal) dot_S45056x256_S256x256_S45056x256_1_0_0_1_n_n none (nsumR x1 x3) x4)
        (broadcastInDim S45056x256 ![] bcast_S_S45056x256 (constant S_ .f32 0x41200000#32)))
      (broadcastInDim S45056x256 ![] bcast_S_S45056x256 (constant S_ .f32 0x00000000#32)) = _
  rw [hostDot_eq_mm dot_S45056x256_S256x256_S45056x256_1_0_0_1_n_n rfl rfl rfl rfl rfl rfl none (nsumR x1 x3) x4,
    host_divBy, host_relu, ofBits_ten]

/-- The first layer at `(n, l)`. -/
theorem h1R_apply (n : Fin 45056) (l : Fin 256) :
    h1R x1 x3 x4 (ix2 n l)
      = max (Ideal.div (∑ f : Fin 256, nsumR x1 x3 (ix2 n f) * x4 (ix2 f l)) ((10 : ℝ) : EReal)) 0 := by
  rw [h1R_eq]
  rfl

/-- The first layer at `(n, l)` in the other order: the neighbour sums divided by ten before the product with the
    weights, where row `n` of the sums and column `l` of the weights are real. -/
theorem h1R_apply_div_first (n : Fin 45056) (l : Fin 256)
    (hN : ∀ f : Fin 256, IsReal (nsumR x1 x3 (ix2 n f))) (hW : ∀ f : Fin 256, IsReal (x4 (ix2 f l))) :
    h1R x1 x3 x4 (ix2 n l)
      = max (∑ f : Fin 256, Ideal.div (nsumR x1 x3 (ix2 n f)) ((10 : ℝ) : EReal) * x4 (ix2 f l)) 0 := by
  rw [h1R_apply]
  exact (max_sum_div_mul (fun f => nsumR x1 x3 (ix2 n f)) (fun f => x4 (ix2 f l)) hN hW ten_ne_zero).symm

/-- The first layer as a whole array in the other order, with a real table and real weights. -/
theorem h1R_eq_div_first (h3 : ∀ i, IsReal (x3 i)) (h4 : ∀ i, IsReal (x4 i)) :
    h1R x1 x3 x4 = Cert.Spec.relu (mm (divBy (nsumR x1 x3) ((10 : ℝ) : EReal)) x4) := by
  funext i
  obtain ⟨n, l, rfl⟩ : ∃ (n : Fin 45056) (l : Fin 256), i = ix2 n l := ⟨i 0, i 1, eq_ix2 i⟩
  rw [h1R_apply_div_first x1 x3 x4 n l (fun f => nsumR_isReal x1 x3 h3 _) (fun f => h4 _)]
  rfl

/-- The neighbour mean at `(p, l)`: zero plus the first layer's rows `10 p … 10 p + 9` at column `l`, over ten. -/
theorem aggR_apply (p : Fin 4096) (l : Fin 256) :
    aggR x1 x3 x4 (ix2 p l)
      = Ideal.div (0 + ∑ s : Fin 10, h1R x1 x3 x4 (ix2 (⟨p.val * 10 + s.val, by omega⟩ : Fin 45056) l)) ((10 : ℝ) : EReal) := by
  show Ideal.div (Read.val_main_v14 (F := Ideal) x1 x3 x4 (ix2 p l)) (Read.val_main_v15 (F := Ideal) (ix2 p l)) = _
  rw [Read.val_main_v14_apply, Read.val_main_v15_apply]
  show Ideal.div (Ideal.ofBits .f32 0x00000000#32
      + ∑ k : Fin 10, Read.val_main_v13 (F := Ideal) x1 x3 x4 (Read.idx_main_v14 (ix2 p l) k)) (Ideal.ofBits .f32 0x41200000#32) = _
  rw [Ideal.ofBits_zero_f32, ofBits_ten]
  refine congrArg (fun t => Ideal.div (0 + t) _) (Finset.sum_congr rfl fun s _ => ?_)
  rw [Read.val_main_v13_apply, Read.val_main_v12_apply]
  have hl := l.isLt
  exact congrArg (Read.val_main_v11 (F := Ideal) x1 x3 x4) (funext fun a => Fin.ext (by
    match a with
    | ⟨0, _⟩ =>
      show ((p.val * 10 + s.val) * 256 + l.val) / 256 = p.val * 10 + s.val
      omega
    | ⟨1, _⟩ =>
      show ((p.val * 10 + s.val) * 256 + l.val) % 256 = l.val
      omega))

end

end Cert.ReferenceIdeal.RefValue

end
-- ==== Proof.RefGather.lean ====
/-
  The reference's gathered neighbour rows read at an index, and the bridge from its neighbour mean to the mean over
  ten consecutive rows of the first layer taken with the division before the product.
-/
import proofs.«106620_j12240656794038_1_alg».proof.Proof.RefAgg
import proofs.«106620_j12240656794038_1_alg».proof.Proof.LibGather3
import proofs.«106620_j12240656794038_1_alg».proof.Proof.Wrap
import proofs.«106620_j12240656794038_1_alg».proof.Proof.Spec2

noncomputable section

open scoped BigOperators

namespace Cert.ReferenceIdeal.RefValue

open Cert.ReferenceIdeal Cert.ReferenceIdeal.Gen Idealize.ShloMosaic Idealize.ShloMosaic.ValueIdx Idealize.SL.Sem
  Idealize.ShloMosaic.StableHlo Cert.Dense Cert.RefStages Cert.RefLayer1

section

variable (x1 : TI S45056x10) (x3 : TF S100000x256) (x4 : TF S256x256)

/-- The start index the gather reads at `(n, s)`: the wrapped neighbour index. -/
theorem widxR_apply (n : Fin 45056) (s : Fin 10) :
    Read.val_main_v5 (F := Ideal) x1 (ix3 n s (0 : Fin 1)) = Cert.Wrap.wrap (x1 (ix2 n s)) := by
  rw [Read.val_main_v5_apply]
  have hj : Read.idx_main_v5 (ix3 n s (0 : Fin 1)) = ix2 n s := funext fun a => Fin.ext (by
    match a with
    | ⟨0, _⟩ => rfl
    | ⟨1, _⟩ => rfl)
  rw [hj]
  show Scalar.select (IntOp.cmpi .slt (x1 (ix2 n s)) (Read.val_main_v0 (F := Ideal) (ix2 n s)))
      (IntOp.addi (x1 (ix2 n s)) (Read.val_main_v2 (F := Ideal) (ix2 n s))) (x1 (ix2 n s)) = _
  rw [Read.val_main_v0_apply, Read.val_main_v2_apply]
  rfl

/-- The gathered entry at `(n, s, f)`: the table at the wrapped index, read signed and clamped, and column `f`. -/
theorem gathR_apply (n : Fin 45056) (s : Fin 10) (f : Fin 256) :
    gathR x1 x3 (ix3 n s f)
      = x3 (ix2 (⟨min (Cert.Wrap.wrap (x1 (ix2 n s))).toInt.toNat 99999, by omega⟩ : Fin 100000) f) := by
  show Host.gather gather_S100000x256_S45056x10x1_S45056x10x256_2_0_n_n_0_2_1256 x3 (Read.val_main_v5 (F := Ideal) x1) (ix3 n s f) = _
  rw [Cert.Gather3.gather_rows_apply (by decide) gather_S100000x256_S45056x10x1_S45056x10x256_2_0_n_n_0_2_1256
    rfl rfl rfl rfl rfl rfl rfl x3 (Read.val_main_v5 (F := Ideal) x1) n s f]
  refine congrArg x3 (congrArg (fun r => ix2 r f) (Fin.ext ?_))
  show min (Read.val_main_v5 (F := Ideal) x1 (ix3 n s (0 : Fin 1))).toInt.toNat (100000 - 1) = _
  rw [widxR_apply]

/-- THE BRIDGE.  With a real table and real first weights, the reference's neighbour mean is the mean over ten
    consecutive rows of the rectified product of `X10` with the weights, for any `X10` whose rows are the first
    40960 neighbour sums divided by ten. -/
theorem aggR_eq (X10 : Mat 40960 256)
    (hX : ∀ (n : Fin 40960) (f : Fin 256),
      X10 (ix2 n f) = Ideal.div (nsumR x1 x3 (ix2 (⟨n.val, by have := n.isLt; omega⟩ : Fin 45056) f)) ((10 : ℝ) : EReal))
    (h3 : ∀ i, IsReal (x3 i)) (h4 : ∀ i, IsReal (x4 i)) :
    aggR x1 x3 x4 = Cert.Spec.agg10 (Cert.Spec.h1 X10 x4) := by
  funext i
  obtain ⟨p, l, rfl⟩ : ∃ (p : Fin 4096) (l : Fin 256), i = ix2 p l := ⟨i 0, i 1, eq_ix2 i⟩
  rw [aggR_apply, Cert.Spec.agg10_apply]
  refine congrArg (fun t => Ideal.div (0 + t) _) (Finset.sum_congr rfl fun s _ => ?_)
  rw [h1R_apply_div_first x1 x3 x4 _ l (fun f => nsumR_isReal x1 x3 h3 _) (fun f => h4 _)]
  show _ = max (∑ f : Fin 256, X10 (ix2 (⟨p.val * 10 + s.val, by have := p.isLt; have := s.isLt; omega⟩ : Fin 40960) f) * x4 (ix2 f l)) 0
  refine congrArg (max · 0) (Finset.sum_congr rfl fun f _ => ?_)
  rw [hX]

end

end Cert.ReferenceIdeal.RefValue

end
-- ==== Proof.KI.Host0.lean ====
/-
  What the first stretch of host operations leaves in the array the first region reads, on the extended reals, read at
  an index. The stretch takes the first 40960 rows of the neighbour table, wraps a negative entry v to v + 100000,
  gathers the feature rows the entries name (each start index read signed and clamped into [0, 99999]), sums the ten
  gathered rows of a node from zero, and divides by the word of ten: entry (n, f) is (0 + Σ_s feat(row(n, s), f)) / 10.
-/
import proofs.«106620_j12240656794038_1_alg».proof.Proof.Gen.KernelIdeal.Launch
import proofs.«106620_j12240656794038_1_alg».proof.Proof.LibGather3
import proofs.«106620_j12240656794038_1_alg».proof.Proof.Wrap
import proofs.«106620_j12240656794038_1_alg».proof.Proof.RefGather
import Idealize.ShloMosaic.Lib.IdealHost
import Idealize.ShloMosaic.Lib.Pipeline.Value
import Idealize.ShloMosaic.Lib.StableHlo.Run

set_option maxRecDepth 16384

noncomputable section

open scoped BigOperators

namespace Cert.KernelIdeal.HandValue

open Cert.KernelIdeal Cert.KernelIdeal.Gen
open Idealize.ShloMosaic Idealize.ShloMosaic.TcCoe Idealize.SL.Sem
open Idealize.ShloMosaic.ValueIdx

/-- The stretch's operations composed, as one function of the neighbour table and the feature table. -/
def host0_fn (nb : IVec S45056x10 32) (feat : FVec Ideal S100000x256 .f32) : FVec Ideal S40960x256 .f32 :=
  Host.divf
    (Host.reduceAdd
      (Host.gather gather_S100000x256_S40960x10x1_S40960x10x256_2_0_n_n_0_2_1256 feat
        (broadcastInDim S40960x10x1 ![0, 1] bcast_S40960x10_S40960x10x1_0_1
          (select
            (cmpi .slt (extractStridedSlice S40960x10 ![0, 0] nb slices_S45056x10_S40960x10_0_0)
              (broadcastInDim S40960x10 ![] bcast_S_S40960x10 (constantI S_ 32 0#32)))
            (addi (extractStridedSlice S40960x10 ![0, 0] nb slices_S45056x10_S40960x10_0_0)
              (broadcastInDim S40960x10 ![] bcast_S_S40960x10 (constantI S_ 32 100000#32)))
            (extractStridedSlice S40960x10 ![0, 0] nb slices_S45056x10_S40960x10_0_0))))
      (constant (F := Ideal) S_ .f32 0x00000000#32) reducesTo_S40960x10x256_S40960x256_d1 h_S_)
    (broadcastInDim S40960x256 ![] bcast_S_S40960x256 (constant (F := Ideal) S_ .f32 0x41200000#32))

/-- After the stretch the array holds that function of the two argument arrays. -/
theorem host0_v10_eq (W : Valuation τ sig (Elt Ideal)) :
    StableHlo.after (hostOps0 (F := Ideal)) W (Proc.devRef .tc main_v10)
      = host0_fn (W (Proc.devRef .tc main_arg1)) (W (Proc.devRef .tc main_arg3)) := by
  after_results
  rfl

theorem host0_reduces_d1 : S40960x10x256.Reduces [1] S40960x256 := by decide

/-- The wrapped entry (n, s) of the sliced table is the wrap of the table's entry (n, s). -/
theorem host0_idx_apply (nb : IVec S45056x10 32) (n : Fin 40960) (s : Fin 10) :
    broadcastInDim S40960x10x1 ![0, 1] bcast_S40960x10_S40960x10x1_0_1
        (select
          (cmpi .slt (extractStridedSlice S40960x10 ![0, 0] nb slices_S45056x10_S40960x10_0_0)
            (broadcastInDim S40960x10 ![] bcast_S_S40960x10 (constantI S_ 32 0#32)))
          (addi (extractStridedSlice S40960x10 ![0, 0] nb slices_S45056x10_S40960x10_0_0)
            (broadcastInDim S40960x10 ![] bcast_S_S40960x10 (constantI S_ 32 100000#32)))
          (extractStridedSlice S40960x10 ![0, 0] nb slices_S45056x10_S40960x10_0_0)) (ix3 n s (0 : Fin 1))
      = Cert.Wrap.wrap (nb (ix2 ⟨n.val, by omega⟩ s)) := by
  rw [broadcastInDim_apply ![0, 1] bcast_S40960x10_S40960x10x1_0_1 _ (ix3 n s (0 : Fin 1)) (ix2 n s) (fun a => by
    match a with
    | ⟨0, _⟩ => rfl
    | ⟨1, _⟩ => rfl)]
  have hs : extractStridedSlice S40960x10 ![0, 0] nb slices_S45056x10_S40960x10_0_0 (ix2 n s) = nb (ix2 ⟨n.val, by omega⟩ s) :=
    extractStridedSlice_apply ![0, 0] nb slices_S45056x10_S40960x10_0_0 (ix2 n s) (ix2 ⟨n.val, by omega⟩ s) (fun a => by
      match a with
      | ⟨0, _⟩ => show n.val = 0 + n.val; omega
      | ⟨1, _⟩ => show s.val = 0 + s.val; omega)
  show Scalar.select (IntOp.cmpi .slt (extractStridedSlice S40960x10 ![0, 0] nb slices_S45056x10_S40960x10_0_0 (ix2 n s))
      (broadcastInDim S40960x10 ![] bcast_S_S40960x10 (constantI S_ 32 0#32) (ix2 n s)))
    (IntOp.addi (extractStridedSlice S40960x10 ![0, 0] nb slices_S45056x10_S40960x10_0_0 (ix2 n s))
      (broadcastInDim S40960x10 ![] bcast_S_S40960x10 (constantI S_ 32 100000#32) (ix2 n s)))
    (extractStridedSlice S40960x10 ![0, 0] nb slices_S45056x10_S40960x10_0_0 (ix2 n s)) = _
  rw [hs, broadcastInDim_scalar_apply, broadcastInDim_scalar_apply]
  rfl

/-- The composed function at (n, f): the ten gathered feature entries summed from zero, over the word of ten. -/
theorem host0_fn_apply (nb : IVec S45056x10 32) (feat : FVec Ideal S100000x256 .f32) (n : Fin 40960) (f : Fin 256) :
    host0_fn nb feat (ix2 n f)
      = Ideal.div (0 + ∑ s : Fin 10, feat (ix2 ⟨min (Cert.Wrap.wrap (nb (ix2 ⟨n.val, by omega⟩ s))).toInt.toNat 99999, by omega⟩ f)) (Ideal.ofBits .f32 0x41200000#32) := by
  unfold host0_fn
  rw [hostDivf_apply, broadcastInDim_scalar_apply, constant_apply, hostReduceAdd_apply,
    Ideal.hostReduceAdd_single reducesTo_S40960x10x256_S40960x256_d1 host0_reduces_d1, constant_apply, Ideal.ofBits_zero_f32]
  refine congrArg (fun z : EReal => Ideal.div (0 + z) (Ideal.ofBits .f32 0x41200000#32)) ?_
  show ∑ s : Fin 10, Host.gather gather_S100000x256_S40960x10x1_S40960x10x256_2_0_n_n_0_2_1256 feat _ (host0_reduces_d1.lift (ix2 n f) s)
    = ∑ s : Fin 10, feat (ix2 ⟨min (Cert.Wrap.wrap (nb (ix2 ⟨n.val, by omega⟩ s))).toInt.toNat 99999, by omega⟩ f)
  refine Finset.sum_congr rfl fun (s : Fin 10) _ => ?_
  have hl : host0_reduces_d1.lift (ix2 n f) s = ix3 n s f := by
    funext a; refine Fin.ext ?_
    match a with
    | ⟨0, _⟩ => rfl
    | ⟨1, _⟩ => rfl
    | ⟨2, _⟩ => rfl
  rw [hl, Cert.Gather3.gather_rows_apply (by decide) gather_S100000x256_S40960x10x1_S40960x10x256_2_0_n_n_0_2_1256
    rfl rfl rfl rfl rfl rfl rfl feat _ n s f]
  refine congrArg feat (congrArg (fun r : Fin 100000 => ix2 r f) (Fin.ext ?_))
  dsimp only
  rw [host0_idx_apply]

/-- After the stretch, entry (n, f) of the array the first region reads, from the neighbour table `nb` and the feature
    table `feat` the stretch found. -/
theorem host0_v10_apply (W : Valuation τ sig (Elt Ideal)) (nb : IVec S45056x10 32) (feat : FVec Ideal S100000x256 .f32)
    (hnb : W (Proc.devRef .tc main_arg1) = nb) (hfeat : W (Proc.devRef .tc main_arg3) = feat) (n : Fin 40960) (f : Fin 256) :
    (StableHlo.after (hostOps0 (F := Ideal)) W (Proc.devRef .tc main_v10) : FVec Ideal S40960x256 .f32) (ix2 n f)
      = Ideal.div (0 + ∑ s : Fin 10, feat (ix2 ⟨min (Cert.Wrap.wrap (nb (ix2 ⟨n.val, by omega⟩ s))).toInt.toNat 99999, by omega⟩ f)) (Ideal.ofBits .f32 0x41200000#32) := by
  subst hnb hfeat
  rw [host0_v10_eq]
  exact host0_fn_apply _ _ n f

/-- After the stretch, entry (n, f) of the array the first region reads is the reference's neighbour sum of node n,
    over ten: both programs wrap, gather, sum from zero and divide alike, the reference over all 45056 rows of the table
    and this stretch over the first 40960. -/
theorem host0_X10 (W : Valuation τ sig (Elt Ideal)) (n : Fin 40960) (f : Fin 256) :
    StableHlo.after (hostOps0 (F := Ideal)) W (Proc.devRef .tc main_v10) (ix2 n f)
      = Ideal.div (Cert.ReferenceIdeal.RefValue.nsumR (W (Proc.devRef .tc main_arg1)) (W (Proc.devRef .tc main_arg3))
          (ix2 (⟨n.val, by have := n.isLt; omega⟩ : Fin 45056) f)) ((10 : ℝ) : EReal) := by
  rw [host0_v10_eq, host0_fn_apply, Cert.ReferenceIdeal.RefValue.nsumR_apply, Cert.RefLayer1.ofBits_ten]
  refine congrArg (fun z : EReal => Ideal.div (0 + z) ((10 : ℝ) : EReal)) (Finset.sum_congr rfl fun s _ => ?_)
  exact (Cert.ReferenceIdeal.RefValue.gathR_apply _ _ _ s f).symm

end Cert.KernelIdeal.HandValue

end
-- ==== Proof.Finite.lean ====
/-
  From the printed precondition to "every entry is a real number". The precondition is the conjunction, over the float
  arguments, of "every entry x has |x| < +∞" — each a reduction by `and` of the comparisons, from the constant 1 — and
  the claim assumes it is 1. On the extended reals |x| < +∞ says that x is neither +∞ nor −∞. The conjunction is
  opened as far as the feature table and the first layer's weights.
-/
import proofs.«106620_j12240656794038_1_alg».proof.Pre_finite_inputs
import Idealize.ShloMosaic.Lib.ReduceAll
import Idealize.ShloMosaic.Lib.ValueIdx
import Idealize.ShloMosaic.PureOps.Ideal.Laws
import proofs.«106620_j12240656794038_1_alg».proof.Proof.RefLayer1

noncomputable section

namespace Cert.Finite

open Idealize.ShloMosaic Cert.Pre_finite_inputs Cert.RefLayer1

variable [Facts]

/-- The scalar shape has one index. -/
instance : Subsingleton S_.Idx := ⟨fun a b => funext fun d => d.elim0⟩

/-- On one value: |x| < +∞ says that x is neither infinity. -/
theorem real_of_abs_lt (x : Ideal .f32)
    (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  refine ⟨fun hb => ?_, ne_of_lt hlt.1⟩
  rw [hb] at hlt
  simp at hlt

/-- One argument's conjunct: the reduction by `and` of the comparisons |x| < +∞ being 1 makes every entry a real. -/
theorem real_of_all {s : Shape} {axes : List (Fin s.rank)} (a : FVec Ideal s .f32) (hb : S_.BroadcastsInDim s (![] : Fin 0 → Fin s.rank))
    (hr : s.ReducesTo axes S_) (hu : 0 < S_.numel)
    (h : Host.reduce IntOp.andi
        (cmpf .olt (Host.absf a) (broadcastInDim s ![] hb (constant (F := Ideal) S_ .f32 0x7F800000#32)))
        (constantI S_ 1 1#1) hr hu ValueIdx.ix0 = 1#1) (i : s.Idx) :
    IsReal (a i) := by
  have e := Host.reduce_andi_all _ _ hr hu ValueIdx.ix0 h i
  exact real_of_abs_lt (a i) e

/-- Under the precondition every entry of the feature table and of the first layer's weights is a real. -/
theorem real_a3_a4 (a0 : IVec S4096 32) (a1 : IVec S45056x10 32) (a2 : FVec Ideal S4096x4096 .f32)
    (a3 : FVec Ideal S100000x256 .f32) (a4 : FVec Ideal S256x256 .f32) (a5 : FVec Ideal S256x128 .f32)
    (a6 : FVec Ideal S256x128 .f32) (a7 : FVec Ideal S128x256 .f32) (a8 : FVec Ideal S256x256 .f32)
    (a9 : FVec Ideal S256x256 .f32) (a10 : FVec Ideal S256x256 .f32) (a11 : FVec Ideal S256x256 .f32)
    (a12 : FVec Ideal S256 .f32) (a13 : FVec Ideal S256x1 .f32)
    (h : fn (F := Ideal) a0 a1 a2 a3 a4 a5 a6 a7 a8 a9 a10 a11 a12 a13 = fun _ => 1#1) :
    (∀ i, IsReal (a3 i)) ∧ (∀ i, IsReal (a4 i)) := by
  have h0 := congrFun h ValueIdx.ix0
  dsimp only [fn, fn_part1, fn_part2, fn_part3] at h0
  -- the conjunction's spine, outermost first: ten conjuncts after the one of the first layer's weights
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, h4⟩ := IntOp.andi_eq_one.1 h0
  obtain ⟨-, h3⟩ := IntOp.andi_eq_one.1 h0
  exact ⟨fun i => real_of_all a3 _ _ _ h3 i, fun i => real_of_all a4 _ _ _ h4 i⟩

end Cert.Finite

end
-- ==== Proof.RefRec.lean ====
/-
  The reference's decoder and reconstructed adjacency as the network's specification.

  Stage by stage: a host dot product is the matrix product, a `keepdims` normalisation is the row-wise Euclidean
  normalisation, the maximum with a broadcast zero is the rectifier, and the product with the transposed second
  embedding is `e₁ · e₂ᵀ`.
-/
import proofs.«106620_j12240656794038_1_alg».proof.Proof.RefValue

noncomputable section

open scoped BigOperators

namespace Cert.ReferenceIdeal.RefValue

open Cert.ReferenceIdeal Cert.ReferenceIdeal.Gen Idealize.ShloMosaic Idealize.ShloMosaic.ValueIdx Idealize.SL.Sem
  Idealize.ShloMosaic.StableHlo Cert.Dense Cert.RefStages

section

variable (x1 : TI S45056x10) (x3 : TF S100000x256) (x4 : TF S256x256)
  (x5 : TF S256x128) (x7 : TF S128x256) (x8 x9 x10 : TF S256x256)

theorem s26 : Read.val_main_v26 (F := Ideal) x1 x3 x4 x5 = Cert.Spec.l2n (Read.val_main_v17 (F := Ideal) x1 x3 x4 x5) :=
  host_l2n (Read.val_main_v17 (F := Ideal) x1 x3 x4 x5) reducesTo_S4096x128_S4096_d1 (by decide) h_S_
    bcast_S4096_S4096x1_0 bcast_S_S4096x1 bcast_S4096x1_S4096x128_0_1

theorem s28 : Read.val_main_v28 (F := Ideal) x1 x3 x4 x5 x7 = mm (Read.val_main_v26 (F := Ideal) x1 x3 x4 x5) x7 :=
  hostDot_eq_mm dot_S4096x128_S128x256_S4096x256_1_0_0_1_n_n rfl rfl rfl rfl rfl rfl none _ x7

theorem s36 : Read.val_main_v36 (F := Ideal) x1 x3 x4 x5 x7 = Cert.Spec.l2n (Read.val_main_v28 (F := Ideal) x1 x3 x4 x5 x7) :=
  host_l2n (Read.val_main_v28 (F := Ideal) x1 x3 x4 x5 x7) reducesTo_S4096x256_S4096_d1 (by decide) h_S_
    bcast_S4096_S4096x1_0 bcast_S_S4096x1 bcast_S4096x1_S4096x256_0_1

theorem s37 : Read.val_main_v37 (F := Ideal) x1 x3 x4 x5 x7 = Cert.Spec.relu (Read.val_main_v36 (F := Ideal) x1 x3 x4 x5 x7) :=
  host_relu (Read.val_main_v36 (F := Ideal) x1 x3 x4 x5 x7) bcast_S_S4096x256

theorem s38 : Read.val_main_v38 (F := Ideal) x1 x3 x4 x5 x7 x8 = mm (Read.val_main_v37 (F := Ideal) x1 x3 x4 x5 x7) x8 :=
  hostDot_eq_mm dot_S4096x256_S256x256_S4096x256_1_0_0_1_n_n rfl rfl rfl rfl rfl rfl none _ x8

theorem s46 : Read.val_main_v46 (F := Ideal) x1 x3 x4 x5 x7 x8 = Cert.Spec.l2n (Read.val_main_v38 (F := Ideal) x1 x3 x4 x5 x7 x8) :=
  host_l2n (Read.val_main_v38 (F := Ideal) x1 x3 x4 x5 x7 x8) reducesTo_S4096x256_S4096_d1 (by decide) h_S_
    bcast_S4096_S4096x1_0 bcast_S_S4096x1 bcast_S4096x1_S4096x256_0_1

theorem s47 : Read.val_main_v47 (F := Ideal) x1 x3 x4 x5 x7 x8 = Cert.Spec.relu (Read.val_main_v46 (F := Ideal) x1 x3 x4 x5 x7 x8) :=
  host_relu (Read.val_main_v46 (F := Ideal) x1 x3 x4 x5 x7 x8) bcast_S_S4096x256

/-- The decoder's output. -/
theorem ref_dec : Read.val_main_v47 (F := Ideal) x1 x3 x4 x5 x7 x8 = Cert.Spec.dec (aggR x1 x3 x4) x5 x7 x8 := by
  rw [s47, s46, s38, s37, s36, s28, s26, ref_mu]
  rfl

theorem s48 : Read.val_main_v48 (F := Ideal) x1 x3 x4 x5 x7 x8 x9 = mm (Read.val_main_v47 (F := Ideal) x1 x3 x4 x5 x7 x8) x9 :=
  hostDot_eq_mm dot_S4096x256_S256x256_S4096x256_1_0_0_1_n_n rfl rfl rfl rfl rfl rfl none _ x9

theorem s49 : Read.val_main_v49 (F := Ideal) x1 x3 x4 x5 x7 x8 x10 = mm (Read.val_main_v47 (F := Ideal) x1 x3 x4 x5 x7 x8) x10 :=
  hostDot_eq_mm dot_S4096x256_S256x256_S4096x256_1_0_0_1_n_n rfl rfl rfl rfl rfl rfl none _ x10

theorem s57 : Read.val_main_v57 (F := Ideal) x1 x3 x4 x5 x7 x8 x9 = Cert.Spec.l2n (Read.val_main_v48 (F := Ideal) x1 x3 x4 x5 x7 x8 x9) :=
  host_l2n (Read.val_main_v48 (F := Ideal) x1 x3 x4 x5 x7 x8 x9) reducesTo_S4096x256_S4096_d1 (by decide) h_S_
    bcast_S4096_S4096x1_0 bcast_S_S4096x1 bcast_S4096x1_S4096x256_0_1

theorem s65 : Read.val_main_v65 (F := Ideal) x1 x3 x4 x5 x7 x8 x10 = Cert.Spec.l2n (Read.val_main_v49 (F := Ideal) x1 x3 x4 x5 x7 x8 x10) :=
  host_l2n (Read.val_main_v49 (F := Ideal) x1 x3 x4 x5 x7 x8 x10) reducesTo_S4096x256_S4096_d1 (by decide) h_S_
    bcast_S4096_S4096x1_0 bcast_S_S4096x1 bcast_S4096x1_S4096x256_0_1

/-- The first embedding. -/
theorem ref_emb1 : Read.val_main_v57 (F := Ideal) x1 x3 x4 x5 x7 x8 x9 = Cert.Spec.emb (aggR x1 x3 x4) x5 x7 x8 x9 := by
  rw [s57, s48, ref_dec]
  rfl

/-- The second embedding. -/
theorem ref_emb2 : Read.val_main_v65 (F := Ideal) x1 x3 x4 x5 x7 x8 x10 = Cert.Spec.emb (aggR x1 x3 x4) x5 x7 x8 x10 := by
  rw [s65, s49, ref_dec]
  rfl

theorem s67 : Read.val_main_v67 (F := Ideal) x1 x3 x4 x5 x7 x8 x9 x10
    = Cert.Spec.abT (Read.val_main_v57 (F := Ideal) x1 x3 x4 x5 x7 x8 x9) (Read.val_main_v65 (F := Ideal) x1 x3 x4 x5 x7 x8 x10) :=
  host_abT dot_S4096x256_S256x4096_S4096x4096_1_0_0_1_n_n rfl rfl rfl rfl rfl rfl none
    (Read.val_main_v57 (F := Ideal) x1 x3 x4 x5 x7 x8 x9) (Read.val_main_v65 (F := Ideal) x1 x3 x4 x5 x7 x8 x10)
    transposes_S4096x256_S256x4096_1_0

/-- The reconstructed adjacency. -/
theorem ref_rec : Read.val_main_v67 (F := Ideal) x1 x3 x4 x5 x7 x8 x9 x10
    = Cert.Spec.recon (Cert.Spec.emb (aggR x1 x3 x4) x5 x7 x8 x9) (Cert.Spec.emb (aggR x1 x3 x4) x5 x7 x8 x10) := by
  rw [s67, ref_emb1, ref_emb2]
  rfl

end

end Cert.ReferenceIdeal.RefValue

end
-- ==== Proof.RefTail.lean ====
/-
  The reference's discriminator tail and labels.

  The two aggregations are matrix products with the projected features; the bias, the last product and the
  concatenation stay inside `tailR`; the labels are the literal ones above zeros.
-/
import proofs.«106620_j12240656794038_1_alg».proof.Proof.RefRec

noncomputable section

open scoped BigOperators

namespace Cert.ReferenceIdeal.RefValue

open Cert.ReferenceIdeal Cert.ReferenceIdeal.Gen Idealize.ShloMosaic Idealize.ShloMosaic.ValueIdx Idealize.SL.Sem
  Idealize.ShloMosaic.StableHlo Cert.Dense Cert.RefStages

section

variable (x0 : TI S4096) (x1 : TI S45056x10) (x2 : TF S4096x4096) (x3 : TF S100000x256) (x4 : TF S256x256)
  (x5 : TF S256x128) (x7 : TF S128x256) (x8 x9 x10 x11 : TF S256x256) (x12 : TF S256) (x13 : TF S256x1)

/-- The projected features are the gathered rows times the projection. -/
theorem xwR_eq : xwR x0 x3 x11 = mm (featR x0 x3) x11 :=
  hostDot_eq_mm dot_S4096x256_S256x256_S4096x256_1_0_0_1_n_n rfl rfl rfl rfl rfl rfl none (featR x0 x3) x11

theorem s76 : Read.val_main_v76 (F := Ideal) x0 x2 x3 x11 = Cert.Spec.adjxw x2 (xwR x0 x3 x11) :=
  hostDot_eq_mm dot_S4096x4096_S4096x256_S4096x256_1_0_0_1_n_n rfl rfl rfl rfl rfl rfl none x2 (xwR x0 x3 x11)

theorem s81 : Read.val_main_v81 (F := Ideal) x0 x1 x3 x4 x5 x7 x8 x9 x10 x11
    = Cert.Spec.adjxw (Read.val_main_v67 (F := Ideal) x1 x3 x4 x5 x7 x8 x9 x10) (xwR x0 x3 x11) :=
  hostDot_eq_mm dot_S4096x4096_S4096x256_S4096x256_1_0_0_1_n_n rfl rfl rfl rfl rfl rfl none
    (Read.val_main_v67 (F := Ideal) x1 x3 x4 x5 x7 x8 x9 x10) (xwR x0 x3 x11)

/-- The predictions. -/
theorem ref_pred : Read.val_main_v86 (F := Ideal) x0 x1 x2 x3 x4 x5 x7 x8 x9 x10 x11 x12 x13
    = tailR (Cert.Spec.adjxw x2 (xwR x0 x3 x11))
        (Cert.Spec.adjxw (Cert.Spec.recon (Cert.Spec.emb (aggR x1 x3 x4) x5 x7 x8 x9) (Cert.Spec.emb (aggR x1 x3 x4) x5 x7 x8 x10))
          (xwR x0 x3 x11)) x12 x13 := by
  rw [← ref_rec x1 x3 x4 x5 x7 x8 x9 x10, ← s76 x0 x2 x3 x11, ← s81 x0 x1 x3 x4 x5 x7 x8 x9 x10 x11]
  rfl

/-- The labels. -/
theorem ref_lab : Read.val_main_v89 (F := Ideal) = labR := rfl

end

end Cert.ReferenceIdeal.RefValue

end
-- ==== Proof.lean ====
/-
  The certificate's five claims.

  Frames. The printed program and its idealization are five kernel regions among four host stretches; each region's
  proof data reads its arrays off the buffer contents it finds and meets the body obligation (Proof/K, Proof/KI), and
  the run of all nine segments ends with every unscoped buffer at a fold of the launch memory through the segments:
  no stretch writes an argument array and no region has one as an output window, so the arguments end as launched.
  The reference is a host program; its frame is its run with the results dropped.

  Values, on the extended reals. Reading the fold at the results: the first region leaves relu(X · W1) for the
  neighbour means X, the second the encoder heads and the two normalised embeddings of the aggregated rows, the third
  e1 · e2ᵀ, the last two A · xw accumulated over four blocks of the contraction, and the host stretches between them
  are the reference's own operations. The one place the two programs differ is the first layer: the kernel's program
  divides the sum of a node's ten gathered rows by ten BEFORE the product with W1, the reference after it; with the
  feature table and W1 finite (the precondition) the two agree, x/10 · w summed being (Σ x · w)/10 on real numbers.
  Nothing else needs finiteness: the remaining steps are equal terms of equal arrays.
-/
import proofs.«106620_j12240656794038_1_alg».proof.Defs
import proofs.«106620_j12240656794038_1_alg».proof.Proof.Gen.Kernel
import proofs.«106620_j12240656794038_1_alg».proof.Proof.Gen.KernelIdeal
import proofs.«106620_j12240656794038_1_alg».proof.Proof.Gen.ReferenceIdeal
import proofs.«106620_j12240656794038_1_alg».proof.Proof.Gen.Pre_finite_inputs
import proofs.«106620_j12240656794038_1_alg».proof.Proof.Gen.ReferenceIdeal.Run
import proofs.«106620_j12240656794038_1_alg».proof.Proof.Gen.ReferenceIdeal.Read
import proofs.«106620_j12240656794038_1_alg».proof.Proof.K.Frame
import proofs.«106620_j12240656794038_1_alg».proof.Proof.KI.Frame
import proofs.«106620_j12240656794038_1_alg».proof.Proof.KI.Vals
import proofs.«106620_j12240656794038_1_alg».proof.Proof.KI.Host0
import proofs.«106620_j12240656794038_1_alg».proof.Proof.Finite
import proofs.«106620_j12240656794038_1_alg».proof.Proof.RefTail
import proofs.«106620_j12240656794038_1_alg».proof.Proof.RefGather
import Idealize.ShloMosaic.Adequacy
import Idealize.ShloMosaic.Init

noncomputable section

namespace Cert.Proof

open Idealize.ShloMosaic Idealize.ShloMosaic.TcCoe Idealize.SL.Sem
open Cert.KernelIdeal.Hand Cert.KernelIdeal.HandValue Cert.ReferenceIdeal.RefValue

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2.2.2) (Cert.ReferenceIdeal.Value.run (F := Ideal) m ρ)

/-- The ideal pass rewrote nothing. -/
theorem preserves : Cert.preserves_Kernel_KernelIdeal := trivial

section Bridge

variable (m : (ℓ : Loc Cert.KernelIdeal.nD Cert.KernelIdeal.τ Cert.KernelIdeal.sig) → Buf (Elt Ideal) ℓ)

/-- Under the precondition the aggregated rows of the two programs are one array. -/
theorem agg_bridge (hpre : Cert.Pre_KernelIdeal m) (c : Dev Cert.KernelIdeal.nD) :
    aggR (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = aggV m c := by
  obtain ⟨h3, h4⟩ := Cert.Finite.real_a3_a4 _ _ _ _ _ _ _ _ _ _ _ _ _ _ (hpre c)
  exact aggR_eq _ _ _ (X10 m c) (fun n f => host0_X10 (B0 m c) n f) h3 h4

end Bridge

/-- From memories agreeing on the arguments both programs end with equal results. -/
theorem algebraic : Cert.algebraic_KernelIdeal_ReferenceIdeal := by
  intro m ρ m' ρ' hpre hagree
  refine ⟨fun c => Cert.Spec.mu (aggV m c) (m ((c.tc : Thread Cert.KernelIdeal.nD Cert.KernelIdeal.τ).loc Cert.KernelIdeal.main_arg5)), fun c => Cert.Spec.nlv (aggV m c) (m ((c.tc : Thread Cert.KernelIdeal.nD Cert.KernelIdeal.τ).loc Cert.KernelIdeal.main_arg6)), fun c => recK m c,
    fun c => tailR (Cert.Spec.adjxw (m ((c.tc : Thread Cert.KernelIdeal.nD Cert.KernelIdeal.τ).loc Cert.KernelIdeal.main_arg2)) (xwK m c)) (Cert.Spec.adjxw (recK m c) (xwK m c)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => labR, ?_, ?_⟩
  · refine (θ_run Cert.KernelIdeal.defs _ _).mono (fun r h c => ?_) (Cert.KernelIdeal.Hand.run (F := Ideal) m ρ)
    exact ⟨(h c _ (mem_uc Cert.KernelIdeal.main_v16_0 (by decide))).trans (res_mu m c),
      (h c _ (mem_uc Cert.KernelIdeal.main_v16_1 (by decide))).trans (res_nlv m c),
      (h c _ (mem_uc Cert.KernelIdeal.main_v17 (by decide))).trans (res_rec m c),
      (h c _ (mem_uc Cert.KernelIdeal.main_v35 (by decide))).trans (res_pred m c),
      (h c _ (mem_uc Cert.KernelIdeal.main_v38 (by decide))).trans (res_lab m c),
      (h c _ (mem_uc Cert.KernelIdeal.main_arg0 (by decide))).trans (Bend_main_arg0 m c),
      (h c _ (mem_uc Cert.KernelIdeal.main_arg1 (by decide))).trans (Bend_main_arg1 m c),
      (h c _ (mem_uc Cert.KernelIdeal.main_arg2 (by decide))).trans (Bend_main_arg2 m c),
      (h c _ (mem_uc Cert.KernelIdeal.main_arg3 (by decide))).trans (Bend_main_arg3 m c),
      (h c _ (mem_uc Cert.KernelIdeal.main_arg4 (by decide))).trans (Bend_main_arg4 m c),
      (h c _ (mem_uc Cert.KernelIdeal.main_arg5 (by decide))).trans (Bend_main_arg5 m c),
      (h c _ (mem_uc Cert.KernelIdeal.main_arg6 (by decide))).trans (Bend_main_arg6 m c),
      (h c _ (mem_uc Cert.KernelIdeal.main_arg7 (by decide))).trans (Bend_main_arg7 m c),
      (h c _ (mem_uc Cert.KernelIdeal.main_arg8 (by decide))).trans (Bend_main_arg8 m c),
      (h c _ (mem_uc Cert.KernelIdeal.main_arg9 (by decide))).trans (Bend_main_arg9 m c),
      (h c _ (mem_uc Cert.KernelIdeal.main_arg10 (by decide))).trans (Bend_main_arg10 m c),
      (h c _ (mem_uc Cert.KernelIdeal.main_arg11 (by decide))).trans (Bend_main_arg11 m c),
      (h c _ (mem_uc Cert.KernelIdeal.main_arg12 (by decide))).trans (Bend_main_arg12 m c),
      (h c _ (mem_uc Cert.KernelIdeal.main_arg13 (by decide))).trans (Bend_main_arg13 m c)⟩
  · refine (θ_run Cert.ReferenceIdeal.defs _ _).mono (fun r h c => ?_) (Cert.ReferenceIdeal.Value.run (F := Ideal) m' ρ')
    obtain ⟨h17, h27, h67, h86, h89, hargs⟩ := h c
    obtain ⟨a0, a1, a2, a3, a4, a5, a6, a7, a8, a9, a10, a11, a12, a13⟩ := hagree c
    have hagg := agg_bridge m hpre c
    refine ⟨h17.trans ?_, h27.trans ?_, h67.trans ?_, h86.trans ?_, h89.trans ?_, hargs⟩
    · rw [Cert.ReferenceIdeal.Read.val_main_v17_eq, ref_mu, a1, a3, a4, a5, hagg]
    · rw [Cert.ReferenceIdeal.Read.val_main_v27_eq, ref_nlv, a1, a3, a4, a6, hagg]
    · rw [Cert.ReferenceIdeal.Read.val_main_v67_eq, ref_rec, a1, a3, a4, a5, a7, a8, a9, a10, hagg]; rfl
    · rw [Cert.ReferenceIdeal.Read.val_main_v86_eq, ref_pred, a0, a1, a2, a3, a4, a5, a7, a8, a9, a10, a11, a12, a13, hagg]; rfl
    · rw [Cert.ReferenceIdeal.Read.val_main_v89_eq, ref_lab]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
